-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x32x32 : Shape := ⟨4, ![64, 128, 32, 32]⟩
abbrev S128x128x3x3 : Shape := ⟨4, ![128, 128, 3, 3]⟩
abbrev S128 : Shape := ⟨1, ![128]⟩
abbrev S_ : Shape := ⟨0, ![]⟩

class Facts : Prop where
  bcast_S_S64x128x32x32 : S_.BroadcastsInDim S64x128x32x32 (![] : Fin 0 → Fin S64x128x32x32.rank)
  reducesTo_S64x128x32x32_S_d0_1_2_3 : S64x128x32x32.ReducesTo [0, 1, 2, 3] S_
  h_S_ : 0 < S_.numel
  bcast_S_S128x128x3x3 : S_.BroadcastsInDim S128x128x3x3 (![] : Fin 0 → Fin S128x128x3x3.rank)
  reducesTo_S128x128x3x3_S_d0_1_2_3 : S128x128x3x3.ReducesTo [0, 1, 2, 3] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S128 .f32) (main_arg8 : FVec F S128 .f32) (main_arg9 : FVec F S128 .f32) (main_arg10 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S128 .f32) (main_arg5 : FVec F S128 .f32) (main_arg6 : FVec F S128 .f32) (main_arg7 : FVec F S128 .f32) (main_arg8 : FVec F S128 .f32) (main_arg9 : FVec F S128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S64x128x32x32 .f32) (main_arg1 : FVec F S128x128x3x3 .f32) (main_arg2 : FVec F S128x128x3x3 .f32) (main_arg3 : FVec F S128 .f32) (main_arg4 : FVec F S128 .f32) (main_arg5 : FVec F S128 .f32) (main_arg6 : FVec F S128 .f32) (main_arg7 : FVec F S128 .f32) (main_arg8 : FVec F S128 .f32) (main_arg9 : FVec F S128 .f32) (main_arg10 : FVec F S128 .f32) : IVec S_ 1 :=
  let main_v0 : FVec F S64x128x32x32 .f32 := Host.absf main_arg0
  let main_cst : FVec F S_ .f32 := constant S_ .f32 0x7F800000#32
  let main_v1 : FVec F S64x128x32x32 .f32 := broadcastInDim S64x128x32x32 ![] bcast_S_S64x128x32x32 main_cst
  let main_v2 : IVec S64x128x32x32 1 := cmpf .olt main_v0 main_v1
  let main_c : IVec S_ 1 := constantI S_ 1 1#1
  let main_v3 : IVec S_ 1 := (fun x v => Host.reduce IntOp.andi x v reducesTo_S64x128x32x32_S_d0_1_2_3 h_S_) main_v2 main_c
  let main_v4 : FVec F S128x128x3x3 .f32 := Host.absf main_arg1
  let main_cst_0 : FVec F S_ .f32 := constant S_ .f32 0x7F800000#32
  let main_v5 : FVec F S128x128x3x3 .f32 := broadcastInDim S128x128x3x3 ![] bcast_S_S128x128x3x3 main_cst_0
  let main_v6 : IVec S128x128x3x3 1 := cmpf .olt main_v4 main_v5
  let main_c_1 : IVec S_ 1 := constantI S_ 1 1#1
  let main_v7 : IVec S_ 1 := (fun x v => Host.reduce IntOp.andi x v reducesTo_S128x128x3x3_S_d0_1_2_3 h_S_) main_v6 main_c_1
  let main_v8 : IVec S_ 1 := andi main_v3 main_v7
  let main_v9 : FVec F S128x128x3x3 .f32 := Host.absf main_arg2
  let main_cst_2 : FVec F S_ .f32 := constant S_ .f32 0x7F800000#32
  let main_v10 : FVec F S128x128x3x3 .f32 := broadcastInDim S128x128x3x3 ![] bcast_S_S128x128x3x3 main_cst_2
  let main_v11 : IVec S128x128x3x3 1 := cmpf .olt main_v9 main_v10
  let main_c_3 : IVec S_ 1 := constantI S_ 1 1#1
  let main_v12 : IVec S_ 1 := (fun x v => Host.reduce IntOp.andi x v reducesTo_S128x128x3x3_S_d0_1_2_3 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_v13 main_v16
-- ==== Kernel.lean ====
abbrev S64x128x32x32 : Shape := ⟨4, ![64, 128, 32, 32]⟩
abbrev S128x128x3x3 : Shape := ⟨4, ![128, 128, 3, 3]⟩
abbrev S128 : Shape := ⟨1, ![128]⟩
abbrev S64x32x32x128 : Shape := ⟨4, ![64, 32, 32, 128]⟩
abbrev S64x1024x128 : Shape := ⟨3, ![64, 1024, 128]⟩
abbrev S_ : Shape := ⟨0, ![]⟩
abbrev S8x128 : Shape := ⟨2, ![8, 128]⟩
abbrev S1 : Shape := ⟨1, ![1]⟩
abbrev S3x3x128x128 : Shape := ⟨4, ![3, 3, 128, 128]⟩
abbrev S1152x128 : Shape := ⟨2, ![1152, 128]⟩
abbrev S128x8 : Shape := ⟨2, ![128, 8]⟩
abbrev S128x128 : Shape := ⟨2, ![128, 128]⟩
abbrev S4x1024x128 : Shape := ⟨3, ![4, 1024, 128]⟩
abbrev S4096x1152 : Shape := ⟨2, ![4096, 1152]⟩
abbrev S4096x128 : Shape := ⟨2, ![4096, 128]⟩
abbrev S1x128 : Shape := ⟨2, ![1, 128]⟩
abbrev S128x1 : Shape := ⟨2, ![128, 1]⟩
abbrev S4x32x32x128 : Shape := ⟨4, ![4, 32, 32, 128]⟩
abbrev S4x1x32x128 : Shape := ⟨4, ![4, 1, 32, 128]⟩
abbrev S4x33x32x128 : Shape := ⟨4, ![4, 33, 32, 128]⟩
abbrev S4x34x32x128 : Shape := ⟨4, ![4, 34, 32, 128]⟩
abbrev S4x34x1x128 : Shape := ⟨4, ![4, 34, 1, 128]⟩
abbrev S4x34x33x128 : Shape := ⟨4, ![4, 34, 33, 128]⟩
abbrev S4x34x34x128 : Shape := ⟨4, ![4, 34, 34, 128]⟩
abbrev S128x4096 : Shape := ⟨2, ![128, 4096]⟩

abbrev nBuf : Space → Nat
  | .hbm => 65
  | .vmem => 11
  | .smem => 0
  | _ => 0

abbrev bufTy : (tb : Table) → Fin (tcTables nBuf tb) → BufTy
  | .hbm, ⟨0, _⟩ => ⟨S64x128x32x32, .f32⟩
  | .hbm, ⟨1, _⟩ => ⟨S128x128x3x3, .f32⟩
  | .hbm, ⟨2, _⟩ => ⟨S128x128x3x3, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S64x32x32x128, .f32⟩
  | .hbm, ⟨12, _⟩ => ⟨S64x1024x128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S_, .f32⟩
  | .hbm, ⟨28, _⟩ => ⟨S8x128, .f32⟩
  | .hbm, ⟨29, _⟩ => ⟨S_, .i32⟩
  | .hbm, ⟨30, _⟩ => ⟨S1, .i32⟩
  | .hbm, ⟨31, _⟩ => ⟨S8x128, .f32⟩
  | .hbm, ⟨32, _⟩ => ⟨S_, .i32⟩
  | .hbm, ⟨33, _⟩ => ⟨S1, .i32⟩
  | .hbm, ⟨34, _⟩ => ⟨S8x128, .f32⟩
  | .hbm, ⟨35, _⟩ => ⟨S_, .i32⟩
  | .hbm, ⟨36, _⟩ => ⟨S1, .i32⟩
  | .hbm, ⟨37, _⟩ => ⟨S8x128, .f32⟩
  | .hbm, ⟨38, _⟩ => ⟨S_, .i32⟩
  | .hbm, ⟨39, _⟩ => ⟨S1, .i32⟩
  | .hbm, ⟨40, _⟩ => ⟨S8x128, .f32⟩
  | .hbm, ⟨41, _⟩ => ⟨S3x3x128x128, .f32⟩
  | .hbm, ⟨42, _⟩ => ⟨S1152x128, .f32⟩
  | .hbm, ⟨43, _⟩ => ⟨S1152x128, .bf16⟩
  | .hbm, ⟨44, _⟩ => ⟨S3x3x128x128, .f32⟩
  | .hbm, ⟨45, _⟩ => ⟨S1152x128, .f32⟩
  | .hbm, ⟨46, _⟩ => ⟨S1152x128, .bf16⟩
  | .hbm, ⟨47, _⟩ => ⟨S128x8, .f32⟩
  | .hbm, ⟨48, _⟩ => ⟨S128x128, .i32⟩
  | .hbm, ⟨49, _⟩ => ⟨S128x128, .i32⟩
  | .hbm, ⟨50, _⟩ => ⟨S_, .i32⟩
  | .hbm, ⟨51, _⟩ => ⟨S128x128, .i32⟩
  | .hbm, ⟨52, _⟩ => ⟨S128x128, .i32⟩
  | .hbm, ⟨53, _⟩ => ⟨S128x128, .i1⟩
  | .hbm, ⟨54, _⟩ => ⟨S128x128, .bf16⟩
  | .hbm, ⟨55, _⟩ => ⟨S128x128, .i32⟩
  | .hbm, ⟨56, _⟩ => ⟨S128x128, .i32⟩
  | .hbm, ⟨57, _⟩ => ⟨S_, .i32⟩
  | .hbm, ⟨58, _⟩ => ⟨S128x128, .i32⟩
  | .hbm, ⟨59, _⟩ => ⟨S128x128, .i32⟩
  | .hbm, ⟨60, _⟩ => ⟨S128x128, .i1⟩
  | .hbm, ⟨61, _⟩ => ⟨S128x128, .f32⟩
  | .hbm, ⟨62, _⟩ => ⟨S64x1024x128, .f32⟩
  | .hbm, ⟨63, _⟩ => ⟨S64x32x32x128, .f32⟩
  | .hbm, ⟨64, _⟩ => ⟨S64x128x32x32, .f32⟩
  | .local _ .vmem, ⟨0, _⟩ => ⟨S4x1024x128, .f32⟩
  | .local _ .vmem, ⟨1, _⟩ => ⟨S4x1024x128, .f32⟩
  | .local _ .vmem, ⟨2, _⟩ => ⟨S1152x128, .bf16⟩
  | .local _ .vmem, ⟨3, _⟩ => ⟨S1152x128, .bf16⟩
  | .local _ .vmem, ⟨4, _⟩ => ⟨S8x128, .f32⟩
  | .local _ .vmem, ⟨5, _⟩ => ⟨S128x8, .f32⟩
  | .local _ .vmem, ⟨6, _⟩ => ⟨S128x128, .bf16⟩
  | .local _ .vmem, ⟨7, _⟩ => ⟨S128x128, .f32⟩
  | .local _ .vmem, ⟨8, _⟩ => ⟨S4x1024x128, .f32⟩
  | .local _ .vmem, ⟨9, _⟩ => ⟨S4x1024x128, .f32⟩
  | .local _ .vmem, ⟨10, _⟩ => ⟨S4096x1152, .bf16⟩
  | _, _ => ⟨S64x128x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_0 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_cst_1 : Ref sig .tc := ⟨.hbm, 27, rfl⟩
abbrev main_call0_v14 : Ref sig .tc := ⟨.hbm, 28, rfl⟩
abbrev main_call0_c : Ref sig .tc := ⟨.hbm, 29, rfl⟩
abbrev main_call0_v15 : Ref sig .tc := ⟨.hbm, 30, rfl⟩
abbrev main_call0_v16 : Ref sig .tc := ⟨.hbm, 31, rfl⟩
abbrev main_call0_c_2 : Ref sig .tc := ⟨.hbm, 32, rfl⟩
abbrev main_call0_v17 : Ref sig .tc := ⟨.hbm, 33, rfl⟩
abbrev main_call0_v18 : Ref sig .tc := ⟨.hbm, 34, rfl⟩
abbrev main_call0_c_3 : Ref sig .tc := ⟨.hbm, 35, rfl⟩
abbrev main_call0_v19 : Ref sig .tc := ⟨.hbm, 36, rfl⟩
abbrev main_call0_v20 : Ref sig .tc := ⟨.hbm, 37, rfl⟩
abbrev main_call0_c_4 : Ref sig .tc := ⟨.hbm, 38, rfl⟩
abbrev main_call0_v21 : Ref sig .tc := ⟨.hbm, 39, rfl⟩
abbrev main_call0_v22 : Ref sig .tc := ⟨.hbm, 40, rfl⟩
abbrev main_call0_v23 : Ref sig .tc := ⟨.hbm, 41, rfl⟩
abbrev main_call0_v24 : Ref sig .tc := ⟨.hbm, 42, rfl⟩
abbrev main_call0_v25 : Ref sig .tc := ⟨.hbm, 43, rfl⟩
abbrev main_call0_v26 : Ref sig .tc := ⟨.hbm, 44, rfl⟩
abbrev main_call0_v27 : Ref sig .tc := ⟨.hbm, 45, rfl⟩
abbrev main_call0_v28 : Ref sig .tc := ⟨.hbm, 46, rfl⟩
abbrev main_call0_v29 : Ref sig .tc := ⟨.hbm, 47, rfl⟩
abbrev main_call0_v30 : Ref sig .tc := ⟨.hbm, 48, rfl⟩
abbrev main_call0_v31 : Ref sig .tc := ⟨.hbm, 49, rfl⟩
abbrev main_call0_c_5 : Ref sig .tc := ⟨.hbm, 50, rfl⟩
abbrev main_call0_v32 : Ref sig .tc := ⟨.hbm, 51, rfl⟩
abbrev main_call0_v33 : Ref sig .tc := ⟨.hbm, 52, rfl⟩
abbrev main_call0_v34 : Ref sig .tc := ⟨.hbm, 53, rfl⟩
abbrev main_call0_v35 : Ref sig .tc := ⟨.hbm, 54, rfl⟩
abbrev main_call0_v36 : Ref sig .tc := ⟨.hbm, 55, rfl⟩
abbrev main_call0_v37 : Ref sig .tc := ⟨.hbm, 56, rfl⟩
abbrev main_call0_c_6 : Ref sig .tc := ⟨.hbm, 57, rfl⟩
abbrev main_call0_v38 : Ref sig .tc := ⟨.hbm, 58, rfl⟩
abbrev main_call0_v39 : Ref sig .tc := ⟨.hbm, 59, rfl⟩
abbrev main_call0_v40 : Ref sig .tc := ⟨.hbm, 60, rfl⟩
abbrev main_call0_v41 : Ref sig .tc := ⟨.hbm, 61, rfl⟩
abbrev main_call0_v42 : Ref sig .tc := ⟨.hbm, 62, rfl⟩
abbrev main_call0_v43 : Ref sig .tc := ⟨.hbm, 63, rfl⟩
abbrev main_v0 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1152x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1152x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S64x128x32x32_S64x32x32x128_0_2_3_1 : S64x128x32x32.Transposes [0, 2, 3, 1] S64x32x32x128
  shapeCasts_S64x32x32x128_S64x1024x128 : S64x32x32x128.ShapeCasts S64x1024x128
  bcast_S_S128 : S_.BroadcastsInDim S128 (![] : Fin 0 → Fin S128.rank)
  bcast_S_S8x128 : S_.BroadcastsInDim S8x128 (![] : Fin 0 → Fin S8x128.rank)
  bcast_S_S1 : S_.BroadcastsInDim S1 (![] : Fin 0 → Fin S1.rank)
  transposes_S128x128x3x3_S3x3x128x128_2_3_1_0 : S128x128x3x3.Transposes [2, 3, 1, 0] S3x3x128x128
  shapeCasts_S3x3x128x128_S1152x128 : S3x3x128x128.ShapeCasts S1152x128
  bitsLt_bf16_f32 : FTy.bits .bf16 < FTy.bits .f32
  transposes_S8x128_S128x8_1_0 : S8x128.Transposes [1, 0] S128x8
  bcast_S_S128x128 : S_.BroadcastsInDim S128x128 (![] : Fin 0 → Fin S128x128.rank)
  shapeCasts_S64x1024x128_S64x32x32x128 : S64x1024x128.ShapeCasts S64x32x32x128
  transposes_S64x32x32x128_S64x128x32x32_0_3_1_2 : S64x32x32x128.Transposes [0, 3, 1, 2] S64x128x32x32
  inb_S4x1024x128_S4x1024x128_0_0_0 : ∀ a, (![0, 0, 0] : Fin 3 → Nat) a + S4x1024x128.size a ≤ S4x1024x128.size a
  h_S4x1024x128 : 0 < S4x1024x128.numel
  shapeCasts_S4x1024x128_S4x1024x128 : S4x1024x128.ShapeCasts S4x1024x128
  shapeCasts_S4x1024x128_S4096x128 : S4x1024x128.ShapeCasts S4096x128
  inb_S8x128_S1x128_0_0 : ∀ a, (![0, 0] : Fin 2 → Nat) a + S1x128.size a ≤ S8x128.size a
  h_S1x128 : 0 < S1x128.numel
  shapeCasts_S1x128_S1x128 : S1x128.ShapeCasts S1x128
  inb_S8x128_S1x128_1_0 : ∀ a, (![1, 0] : Fin 2 → Nat) a + S1x128.size a ≤ S8x128.size a
  inb_S128x8_S128x1_0_2 : ∀ a, (![0, 2] : Fin 2 → Nat) a + S128x1.size a ≤ S128x8.size a
  h_S128x1 : 0 < S128x1.numel
  shapeCasts_S128x1_S128x1 : S128x1.ShapeCasts S128x1
  inb_S128x8_S128x1_0_3 : ∀ a, (![0, 3] : Fin 2 → Nat) a + S128x1.size a ≤ S128x8.size a
  broadcasts_S1x128_S4096x128 : S1x128.Broadcasts S4096x128
  shapeCasts_S4096x128_S4x32x32x128 : S4096x128.ShapeCasts S4x32x32x128
  concatenates_S4x1x32x128_S4x32x32x128_S4x33x32x128_d1 : Shape.Concatenates [S4x1x32x128, S4x32x32x128] S4x33x32x128 1
  concatenates_S4x33x32x128_S4x1x32x128_S4x34x32x128_d1 : Shape.Concatenates [S4x33x32x128, S4x1x32x128] S4x34x32x128 1
  concatenates_S4x34x1x128_S4x34x32x128_S4x34x33x128_d2 : Shape.Concatenates [S4x34x1x128, S4x34x32x128] S4x34x33x128 2
  concatenates_S4x34x33x128_S4x34x1x128_S4x34x34x128_d2 : Shape.Concatenates [S4x34x33x128, S4x34x1x128] S4x34x34x128 2
  slices_S4x34x34x128_o0_0_0_0_S4x32x32x128 : S4x34x34x128.Slices ![0, 0, 0, 0] S4x32x32x128
  shapeCasts_S4x32x32x128_S4096x128 : S4x32x32x128.ShapeCasts S4096x128
  inb_S4096x1152_S4096x128_0_0 : ∀ a, (![0, 0] : Fin 2 → Nat) a + S4096x128.size a ≤ S4096x1152.size a
  h_S4096x128 : 0 < S4096x128.numel
  shapeCasts_S4096x128_S4096x128 : S4096x128.ShapeCasts S4096x128
  packedbf16_S4096x1152_S4096x128_0_0 : (Rect.unit (s := S4096x1152) ![0, 0] S4096x128.size inb_S4096x1152_S4096x128_0_0).PackedRows (EltTy.packing .bf16)
  slices_S4x34x34x128_o0_0_1_0_S4x32x32x128 : S4x34x34x128.Slices ![0, 0, 1, 0] S4x32x32x128
  inb_S4096x1152_S4096x128_0_128 : ∀ a, (![0, 128] : Fin 2 → Nat) a + S4096x128.size a ≤ S4096x1152.size a
  packedbf16_S4096x1152_S4096x128_0_128 : (Rect.unit (s := S4096x1152) ![0, 128] S4096x128.size inb_S4096x1152_S4096x128_0_128).PackedRows (EltTy.packing .bf16)
  slices_S4x34x34x128_o0_0_2_0_S4x32x32x128 : S4x34x34x128.Slices ![0, 0, 2, 0] S4x32x32x128
  inb_S4096x1152_S4096x128_0_256 : ∀ a, (![0, 256] : Fin 2 → Nat) a + S4096x128.size a ≤ S4096x1152.size a
  packedbf16_S4096x1152_S4096x128_0_256 : (Rect.unit (s := S4096x1152) ![0, 256] S4096x128.size inb_S4096x1152_S4096x128_0_256).PackedRows (EltTy.packing .bf16)
  slices_S4x34x34x128_o0_1_0_0_S4x32x32x128 : S4x34x34x128.Slices ![0, 1, 0, 0] S4x32x32x128
  inb_S4096x1152_S4096x128_0_384 : ∀ a, (![0, 384] : Fin 2 → Nat) a + S4096x128.size a ≤ S4096x1152.size a
  packedbf16_S4096x1152_S4096x128_0_384 : (Rect.unit (s := S4096x1152) ![0, 384] S4096x128.size inb_S4096x1152_S4096x128_0_384).PackedRows (EltTy.packing .bf16)
  slices_S4x34x34x128_o0_1_1_0_S4x32x32x128 : S4x34x34x128.Slices ![0, 1, 1, 0] S4x32x32x128
  inb_S4096x1152_S4096x128_0_512 : ∀ a, (![0, 512] : Fin 2 → Nat) a + S4096x128.size a ≤ S4096x1152.size a
  packedbf16_S4096x1152_S4096x128_0_512 : (Rect.unit (s := S4096x1152) ![0, 512] S4096x128.size inb_S4096x1152_S4096x128_0_512).PackedRows (EltTy.packing .bf16)
  slices_S4x34x34x128_o0_1_2_0_S4x32x32x128 : S4x34x34x128.Slices ![0, 1, 2, 0] S4x32x32x128
  inb_S4096x1152_S4096x128_0_640 : ∀ a, (![0, 640] : Fin 2 → Nat) a + S4096x128.size a ≤ S4096x1152.size a
  packedbf16_S4096x1152_S4096x128_0_640 : (Rect.unit (s := S4096x1152) ![0, 640] S4096x128.size inb_S4096x1152_S4096x128_0_640).PackedRows (EltTy.packing .bf16)
  slices_S4x34x34x128_o0_2_0_0_S4x32x32x128 : S4x34x34x128.Slices ![0, 2, 0, 0] S4x32x32x128
  inb_S4096x1152_S4096x128_0_768 : ∀ a, (![0, 768] : Fin 2 → Nat) a + S4096x128.size a ≤ S4096x1152.size a
  packedbf16_S4096x1152_S4096x128_0_768 : (Rect.unit (s := S4096x1152) ![0, 768] S4096x128.size inb_S4096x1152_S4096x128_0_768).PackedRows (EltTy.packing .bf16)
  slices_S4x34x34x128_o0_2_1_0_S4x32x32x128 : S4x34x34x128.Slices ![0, 2, 1, 0] S4x32x32x128
  inb_S4096x1152_S4096x128_0_896 : ∀ a, (![0, 896] : Fin 2 → Nat) a + S4096x128.size a ≤ S4096x1152.size a
  packedbf16_S4096x1152_S4096x128_0_896 : (Rect.unit (s := S4096x1152) ![0, 896] S4096x128.size inb_S4096x1152_S4096x128_0_896).PackedRows (EltTy.packing .bf16)
  slices_S4x34x34x128_o0_2_2_0_S4x32x32x128 : S4x34x34x128.Slices ![0, 2, 2, 0] S4x32x32x128
  inb_S4096x1152_S4096x128_0_1024 : ∀ a, (![0, 1024] : Fin 2 → Nat) a + S4096x128.size a ≤ S4096x1152.size a
  packedbf16_S4096x1152_S4096x128_0_1024 : (Rect.unit (s := S4096x1152) ![0, 1024] S4096x128.size inb_S4096x1152_S4096x128_0_1024).PackedRows (EltTy.packing .bf16)
  inb_S1152x128_S1152x128_0_0 : ∀ a, (![0, 0] : Fin 2 → Nat) a + S1152x128.size a ≤ S1152x128.size a
  h_S1152x128 : 0 < S1152x128.numel
  shapeCasts_S1152x128_S1152x128 : S1152x128.ShapeCasts S1152x128
  inb_S4096x1152_S4096x1152_0_0 : ∀ a, (![0, 0] : Fin 2 → Nat) a + S4096x1152.size a ≤ S4096x1152.size a
  h_S4096x1152 : 0 < S4096x1152.numel
  broadcasts_S128x1_S128x4096 : S128x1.Broadcasts S128x4096
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S4096x128_S4x1024x128 : S4096x128.ShapeCasts S4x1024x128
  scatter_S8x128_S1_S128_0_0_0_0_wf : ScatterDims.WF S8x128 S1 S128 [0] [0] [0] 0
  dot_S1152x128_S4096x1152_S128x4096_0_1_1_0_n_n_wf : DotDims.WF S1152x128 S4096x1152 S128x4096 [0] [1] [1] [0] [] []
  dot_S128x4096_S128x128_S4096x128_0_0_1_1_n_n_wf : DotDims.WF S128x4096 S128x128 S4096x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x128.size a ≤ S64x1024x128.size a
  hwx0_0 : ∀ i : grid0.Coords, EltTy.bits .f32 = 32 ∨ (Rect.block (s := S64x1024x128) S4x1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1152x128.size a ≤ S1152x128.size a
  hwx0_1 : ∀ i : grid0.Coords, EltTy.bits .bf16 = 32 ∨ (Rect.block (s := S1152x128) S1152x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1152x128.size a ≤ S1152x128.size a
  hwx0_2 : ∀ i : grid0.Coords, EltTy.bits .bf16 = 32 ∨ (Rect.block (s := S1152x128) S1152x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x8.size a ≤ S128x8.size a
  hwx0_4 : ∀ i : grid0.Coords, EltTy.bits .f32 = 32 ∨ (Rect.block (s := S128x8) S128x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4x1024x128.size a ≤ S64x1024x128.size a
  hwx0_7 : ∀ i : grid0.Coords, EltTy.bits .f32 = 32 ∨ (Rect.block (s := S64x1024x128) S4x1024x128.size (cc0_transform_7 i) (hinb0_7 i)).WholeWords (EltTy.packing .f32)

variable [Facts₀]

def scatter_S8x128_S1_S128_0_0_0_0 : ScatterDims S8x128 S1 S128 where
  updateWindowDims := [0]
  insertedWindowDims := [0]
  scatterDimsToOperandDims := [0]
  indexVectorDim := 0
  wf := scatter_S8x128_S1_S128_0_0_0_0_wf
def dot_S1152x128_S4096x1152_S128x4096_0_1_1_0_n_n : DotDims S1152x128 S4096x1152 S128x4096 where
  lhsContracting := [0]
  rhsContracting := [1]
  lhsNonContracting := [1]
  rhsNonContracting := [0]
  lhsBatch := []
  rhsBatch := []
  wf := dot_S1152x128_S4096x1152_S128x4096_0_1_1_0_n_n_wf
def dot_S128x4096_S128x128_S4096x128_0_0_1_1_n_n : DotDims S128x4096 S128x128 S4096x128 where
  lhsContracting := [0]
  rhsContracting := [0]
  lhsNonContracting := [1]
  rhsNonContracting := [1]
  lhsBatch := []
  rhsBatch := []
  wf := dot_S128x4096_S128x128_S4096x128_0_0_1_1_n_n_wf

abbrev win0_0 : Pipeline.Window sig grid0 :=
  Pipeline.Window.ofSpec (Memref.whole main_call0_v1) S4x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v25) S1152x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v28) S1152x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v22) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v29) S128x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v35) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v41) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v42) S4x1024x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x128x32x32 : Shape := ⟨4, ![64, 128, 32, 32]⟩
abbrev S128x128x3x3 : Shape := ⟨4, ![128, 128, 3, 3]⟩
abbrev S128 : Shape := ⟨1, ![128]⟩
abbrev S64x32x32x128 : Shape := ⟨4, ![64, 32, 32, 128]⟩
abbrev S_ : Shape := ⟨0, ![]⟩
abbrev S64x1024x128 : Shape := ⟨3, ![64, 1024, 128]⟩
abbrev S4x128 : Shape := ⟨2, ![4, 128]⟩
abbrev S1 : Shape := ⟨1, ![1]⟩
abbrev S3x3x128x128 : Shape := ⟨4, ![3, 3, 128, 128]⟩
abbrev S9x128x128 : Shape := ⟨3, ![9, 128, 128]⟩
abbrev S1x1024x128 : Shape := ⟨3, ![1, 1024, 128]⟩
abbrev S1160x128 : Shape := ⟨2, ![1160, 128]⟩
abbrev S1x128 : Shape := ⟨2, ![1, 128]⟩
abbrev S1024x128 : Shape := ⟨2, ![1024, 128]⟩
abbrev S32x128 : Shape := ⟨2, ![32, 128]⟩
abbrev S1088x128 : Shape := ⟨2, ![1088, 128]⟩
abbrev S1x128x128 : Shape := ⟨3, ![1, 128, 128]⟩
abbrev S128x128 : Shape := ⟨2, ![128, 128]⟩
abbrev S1x32x128 : Shape := ⟨3, ![1, 32, 128]⟩

abbrev nBuf : Space → Nat
  | .hbm => 59
  | .vmem => 9
  | .smem => 0
  | _ => 0

abbrev bufTy : (tb : Table) → Fin (tcTables nBuf tb) → BufTy
  | .hbm, ⟨0, _⟩ => ⟨S64x128x32x32, .f32⟩
  | .hbm, ⟨1, _⟩ => ⟨S128x128x3x3, .f32⟩
  | .hbm, ⟨2, _⟩ => ⟨S128x128x3x3, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S64x32x32x128, .f32⟩
  | .hbm, ⟨12, _⟩ => ⟨S_, .i32⟩
  | .hbm, ⟨13, _⟩ => ⟨S_, .f32⟩
  | .hbm, ⟨14, _⟩ => ⟨S64x32x32x128, .f32⟩
  | .hbm, ⟨15, _⟩ => ⟨S64x1024x128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S_, .f32⟩
  | .hbm, ⟨31, _⟩ => ⟨S4x128, .f32⟩
  | .hbm, ⟨32, _⟩ => ⟨S_, .i32⟩
  | .hbm, ⟨33, _⟩ => ⟨S1, .i32⟩
  | .hbm, ⟨34, _⟩ => ⟨S4x128, .f32⟩
  | .hbm, ⟨35, _⟩ => ⟨S_, .i32⟩
  | .hbm, ⟨36, _⟩ => ⟨S1, .i32⟩
  | .hbm, ⟨37, _⟩ => ⟨S4x128, .f32⟩
  | .hbm, ⟨38, _⟩ => ⟨S_, .i32⟩
  | .hbm, ⟨39, _⟩ => ⟨S1, .i32⟩
  | .hbm, ⟨40, _⟩ => ⟨S4x128, .f32⟩
  | .hbm, ⟨41, _⟩ => ⟨S_, .i32⟩
  | .hbm, ⟨42, _⟩ => ⟨S1, .i32⟩
  | .hbm, ⟨43, _⟩ => ⟨S4x128, .f32⟩
  | .hbm, ⟨44, _⟩ => ⟨S3x3x128x128, .f32⟩
  | .hbm, ⟨45, _⟩ => ⟨S9x128x128, .f32⟩
  | .hbm, ⟨46, _⟩ => ⟨S_, .i32⟩
  | .hbm, ⟨47, _⟩ => ⟨S_, .f32⟩
  | .hbm, ⟨48, _⟩ => ⟨S9x128x128, .f32⟩
  | .hbm, ⟨49, _⟩ => ⟨S9x128x128, .bf16⟩
  | .hbm, ⟨50, _⟩ => ⟨S3x3x128x128, .f32⟩
  | .hbm, ⟨51, _⟩ => ⟨S9x128x128, .f32⟩
  | .hbm, ⟨52, _⟩ => ⟨S_, .i32⟩
  | .hbm, ⟨53, _⟩ => ⟨S_, .f32⟩
  | .hbm, ⟨54, _⟩ => ⟨S9x128x128, .f32⟩
  | .hbm, ⟨55, _⟩ => ⟨S9x128x128, .bf16⟩
  | .hbm, ⟨56, _⟩ => ⟨S64x1024x128, .f32⟩
  | .hbm, ⟨57, _⟩ => ⟨S64x32x32x128, .f32⟩
  | .hbm, ⟨58, _⟩ => ⟨S64x128x32x32, .f32⟩
  | .local _ .vmem, ⟨0, _⟩ => ⟨S1x1024x128, .f32⟩
  | .local _ .vmem, ⟨1, _⟩ => ⟨S1x1024x128, .f32⟩
  | .local _ .vmem, ⟨2, _⟩ => ⟨S9x128x128, .bf16⟩
  | .local _ .vmem, ⟨3, _⟩ => ⟨S9x128x128, .bf16⟩
  | .local _ .vmem, ⟨4, _⟩ => ⟨S4x128, .f32⟩
  | .local _ .vmem, ⟨5, _⟩ => ⟨S1x1024x128, .f32⟩
  | .local _ .vmem, ⟨6, _⟩ => ⟨S1x1024x128, .f32⟩
  | .local _ .vmem, ⟨7, _⟩ => ⟨S1160x128, .f32⟩
  | .local _ .vmem, ⟨8, _⟩ => ⟨S1160x128, .f32⟩
  | _, _ => ⟨S64x128x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_c : Ref sig .tc := ⟨.hbm, 12, rfl⟩
abbrev main_call0_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_cst : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_cst_0 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst_1 : Ref sig .tc := ⟨.hbm, 30, rfl⟩
abbrev main_call0_v15 : Ref sig .tc := ⟨.hbm, 31, rfl⟩
abbrev main_call0_c_2 : Ref sig .tc := ⟨.hbm, 32, rfl⟩
abbrev main_call0_v16 : Ref sig .tc := ⟨.hbm, 33, rfl⟩
abbrev main_call0_v17 : Ref sig .tc := ⟨.hbm, 34, rfl⟩
abbrev main_call0_c_3 : Ref sig .tc := ⟨.hbm, 35, rfl⟩
abbrev main_call0_v18 : Ref sig .tc := ⟨.hbm, 36, rfl⟩
abbrev main_call0_v19 : Ref sig .tc := ⟨.hbm, 37, rfl⟩
abbrev main_call0_c_4 : Ref sig .tc := ⟨.hbm, 38, rfl⟩
abbrev main_call0_v20 : Ref sig .tc := ⟨.hbm, 39, rfl⟩
abbrev main_call0_v21 : Ref sig .tc := ⟨.hbm, 40, rfl⟩
abbrev main_call0_c_5 : Ref sig .tc := ⟨.hbm, 41, rfl⟩
abbrev main_call0_v22 : Ref sig .tc := ⟨.hbm, 42, rfl⟩
abbrev main_call0_v23 : Ref sig .tc := ⟨.hbm, 43, rfl⟩
abbrev main_call0_v24 : Ref sig .tc := ⟨.hbm, 44, rfl⟩
abbrev main_call0_v25 : Ref sig .tc := ⟨.hbm, 45, rfl⟩
abbrev main_call0_c_6 : Ref sig .tc := ⟨.hbm, 46, rfl⟩
abbrev main_call0_call1_v0 : Ref sig .tc := ⟨.hbm, 47, rfl⟩
abbrev main_call0_v26 : Ref sig .tc := ⟨.hbm, 48, rfl⟩
abbrev main_call0_v27 : Ref sig .tc := ⟨.hbm, 49, rfl⟩
abbrev main_call0_v28 : Ref sig .tc := ⟨.hbm, 50, rfl⟩
abbrev main_call0_v29 : Ref sig .tc := ⟨.hbm, 51, rfl⟩
abbrev main_call0_c_7 : Ref sig .tc := ⟨.hbm, 52, rfl⟩
abbrev main_call0_call2_v0 : Ref sig .tc := ⟨.hbm, 53, rfl⟩
abbrev main_call0_v30 : Ref sig .tc := ⟨.hbm, 54, rfl⟩
abbrev main_call0_v31 : Ref sig .tc := ⟨.hbm, 55, rfl⟩
abbrev main_call0_v32 : Ref sig .tc := ⟨.hbm, 56, rfl⟩
abbrev main_call0_v33 : Ref sig .tc := ⟨.hbm, 57, rfl⟩
abbrev main_v0 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S9x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S64x128x32x32_S64x32x32x128_0_2_3_1 : S64x128x32x32.Transposes [0, 2, 3, 1] S64x32x32x128
  pads_S64x32x32x128_S64x32x32x128_000_000_000_000 : S64x32x32x128.Pads (![0, 0, 0, 0] : Fin 4 → Nat) ![0, 0, 0, 0] ![0, 0, 0, 0] S64x32x32x128
  h_S_ : 0 < S_.numel
  shapeCasts_S64x32x32x128_S64x1024x128 : S64x32x32x128.ShapeCasts S64x1024x128
  bcast_S_S128 : S_.BroadcastsInDim S128 (![] : Fin 0 → Fin S128.rank)
  bcast_S_S4x128 : S_.BroadcastsInDim S4x128 (![] : Fin 0 → Fin S4x128.rank)
  bcast_S_S1 : S_.BroadcastsInDim S1 (![] : Fin 0 → Fin S1.rank)
  transposes_S128x128x3x3_S3x3x128x128_2_3_1_0 : S128x128x3x3.Transposes [2, 3, 1, 0] S3x3x128x128
  shapeCasts_S3x3x128x128_S9x128x128 : S3x3x128x128.ShapeCasts S9x128x128
  pads_S9x128x128_S9x128x128_000_000_000 : S9x128x128.Pads (![0, 0, 0] : Fin 3 → Nat) ![0, 0, 0] ![0, 0, 0] S9x128x128
  bitsLt_bf16_f32 : FTy.bits .bf16 < FTy.bits .f32
  shapeCasts_S64x1024x128_S64x32x32x128 : S64x1024x128.ShapeCasts S64x32x32x128
  transposes_S64x32x32x128_S64x128x32x32_0_3_1_2 : S64x32x32x128.Transposes [0, 3, 1, 2] S64x128x32x32
  inb_S4x128_S1x128_0_0 : ∀ a, (![0, 0] : Fin 2 → Nat) a + S1x128.size a ≤ S4x128.size a
  h_S1x128 : 0 < S1x128.numel
  shapeCasts_S1x128_S1x128 : S1x128.ShapeCasts S1x128
  inb_S4x128_S1x128_1_0 : ∀ a, (![1, 0] : Fin 2 → Nat) a + S1x128.size a ≤ S4x128.size a
  inb_S4x128_S1x128_2_0 : ∀ a, (![2, 0] : Fin 2 → Nat) a + S1x128.size a ≤ S4x128.size a
  inb_S4x128_S1x128_3_0 : ∀ a, (![3, 0] : Fin 2 → Nat) a + S1x128.size a ≤ S4x128.size a
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1160x128_S1160x128_0_0 : ∀ a, (![0, 0] : Fin 2 → Nat) a + S1160x128.size a ≤ S1160x128.size a
  h_S1160x128 : 0 < S1160x128.numel
  shapeCasts_S1160x128_S1160x128 : S1160x128.ShapeCasts S1160x128
  broadcasts_S1x128_S1024x128 : S1x128.Broadcasts S1024x128
  slices_S1024x128_o0_0_S32x128 : S1024x128.Slices ![0, 0] S32x128
  inb_S1160x128_S32x128_35_0 : ∀ a, (![35, 0] : Fin 2 → Nat) a + S32x128.size a ≤ S1160x128.size a
  h_S32x128 : 0 < S32x128.numel
  shapeCasts_S32x128_S32x128 : S32x128.ShapeCasts S32x128
  slices_S1024x128_o32_0_S32x128 : S1024x128.Slices ![32, 0] S32x128
  inb_S1160x128_S32x128_69_0 : ∀ a, (![69, 0] : Fin 2 → Nat) a + S32x128.size a ≤ S1160x128.size a
  slices_S1024x128_o64_0_S32x128 : S1024x128.Slices ![64, 0] S32x128
  inb_S1160x128_S32x128_103_0 : ∀ a, (![103, 0] : Fin 2 → Nat) a + S32x128.size a ≤ S1160x128.size a
  slices_S1024x128_o96_0_S32x128 : S1024x128.Slices ![96, 0] S32x128
  inb_S1160x128_S32x128_137_0 : ∀ a, (![137, 0] : Fin 2 → Nat) a + S32x128.size a ≤ S1160x128.size a
  slices_S1024x128_o128_0_S32x128 : S1024x128.Slices ![128, 0] S32x128
  inb_S1160x128_S32x128_171_0 : ∀ a, (![171, 0] : Fin 2 → Nat) a + S32x128.size a ≤ S1160x128.size a
  slices_S1024x128_o160_0_S32x128 : S1024x128.Slices ![160, 0] S32x128
  inb_S1160x128_S32x128_205_0 : ∀ a, (![205, 0] : Fin 2 → Nat) a + S32x128.size a ≤ S1160x128.size a
  slices_S1024x128_o192_0_S32x128 : S1024x128.Slices ![192, 0] S32x128
  inb_S1160x128_S32x128_239_0 : ∀ a, (![239, 0] : Fin 2 → Nat) a + S32x128.size a ≤ S1160x128.size a
  slices_S1024x128_o224_0_S32x128 : S1024x128.Slices ![224, 0] S32x128
  inb_S1160x128_S32x128_273_0 : ∀ a, (![273, 0] : Fin 2 → Nat) a + S32x128.size a ≤ S1160x128.size a
  slices_S1024x128_o256_0_S32x128 : S1024x128.Slices ![256, 0] S32x128
  inb_S1160x128_S32x128_307_0 : ∀ a, (![307, 0] : Fin 2 → Nat) a + S32x128.size a ≤ S1160x128.size a
  slices_S1024x128_o288_0_S32x128 : S1024x128.Slices ![288, 0] S32x128
  inb_S1160x128_S32x128_341_0 : ∀ a, (![341, 0] : Fin 2 → Nat) a + S32x128.size a ≤ S1160x128.size a
  slices_S1024x128_o320_0_S32x128 : S1024x128.Slices ![320, 0] S32x128
  inb_S1160x128_S32x128_375_0 : ∀ a, (![375, 0] : Fin 2 → Nat) a + S32x128.size a ≤ S1160x128.size a
  slices_S1024x128_o352_0_S32x128 : S1024x128.Slices ![352, 0] S32x128
  inb_S1160x128_S32x128_409_0 : ∀ a, (![409, 0] : Fin 2 → Nat) a + S32x128.size a ≤ S1160x128.size a
  slices_S1024x128_o384_0_S32x128 : S1024x128.Slices ![384, 0] S32x128
  inb_S1160x128_S32x128_443_0 : ∀ a, (![443, 0] : Fin 2 → Nat) a + S32x128.size a ≤ S1160x128.size a
  slices_S1024x128_o416_0_S32x128 : S1024x128.Slices ![416, 0] S32x128
  inb_S1160x128_S32x128_477_0 : ∀ a, (![477, 0] : Fin 2 → Nat) a + S32x128.size a ≤ S1160x128.size a
  slices_S1024x128_o448_0_S32x128 : S1024x128.Slices ![448, 0] S32x128
  inb_S1160x128_S32x128_511_0 : ∀ a, (![511, 0] : Fin 2 → Nat) a + S32x128.size a ≤ S1160x128.size a
  slices_S1024x128_o480_0_S32x128 : S1024x128.Slices ![480, 0] S32x128
  inb_S1160x128_S32x128_545_0 : ∀ a, (![545, 0] : Fin 2 → Nat) a + S32x128.size a ≤ S1160x128.size a
  slices_S1024x128_o512_0_S32x128 : S1024x128.Slices ![512, 0] S32x128
  inb_S1160x128_S32x128_579_0 : ∀ a, (![579, 0] : Fin 2 → Nat) a + S32x128.size a ≤ S1160x128.size a
  slices_S1024x128_o544_0_S32x128 : S1024x128.Slices ![544, 0] S32x128
  inb_S1160x128_S32x128_613_0 : ∀ a, (![613, 0] : Fin 2 → Nat) a + S32x128.size a ≤ S1160x128.size a
  slices_S1024x128_o576_0_S32x128 : S1024x128.Slices ![576, 0] S32x128
  inb_S1160x128_S32x128_647_0 : ∀ a, (![647, 0] : Fin 2 → Nat) a + S32x128.size a ≤ S1160x128.size a
  slices_S1024x128_o608_0_S32x128 : S1024x128.Slices ![608, 0] S32x128
  inb_S1160x128_S32x128_681_0 : ∀ a, (![681, 0] : Fin 2 → Nat) a + S32x128.size a ≤ S1160x128.size a
  slices_S1024x128_o640_0_S32x128 : S1024x128.Slices ![640, 0] S32x128
  inb_S1160x128_S32x128_715_0 : ∀ a, (![715, 0] : Fin 2 → Nat) a + S32x128.size a ≤ S1160x128.size a
  slices_S1024x128_o672_0_S32x128 : S1024x128.Slices ![672, 0] S32x128
  inb_S1160x128_S32x128_749_0 : ∀ a, (![749, 0] : Fin 2 → Nat) a + S32x128.size a ≤ S1160x128.size a
  slices_S1024x128_o704_0_S32x128 : S1024x128.Slices ![704, 0] S32x128
  inb_S1160x128_S32x128_783_0 : ∀ a, (![783, 0] : Fin 2 → Nat) a + S32x128.size a ≤ S1160x128.size a
  slices_S1024x128_o736_0_S32x128 : S1024x128.Slices ![736, 0] S32x128
  inb_S1160x128_S32x128_817_0 : ∀ a, (![817, 0] : Fin 2 → Nat) a + S32x128.size a ≤ S1160x128.size a
  slices_S1024x128_o768_0_S32x128 : S1024x128.Slices ![768, 0] S32x128
  inb_S1160x128_S32x128_851_0 : ∀ a, (![851, 0] : Fin 2 → Nat) a + S32x128.size a ≤ S1160x128.size a
  slices_S1024x128_o800_0_S32x128 : S1024x128.Slices ![800, 0] S32x128
  inb_S1160x128_S32x128_885_0 : ∀ a, (![885, 0] : Fin 2 → Nat) a + S32x128.size a ≤ S1160x128.size a
  slices_S1024x128_o832_0_S32x128 : S1024x128.Slices ![832, 0] S32x128
  inb_S1160x128_S32x128_919_0 : ∀ a, (![919, 0] : Fin 2 → Nat) a + S32x128.size a ≤ S1160x128.size a
  slices_S1024x128_o864_0_S32x128 : S1024x128.Slices ![864, 0] S32x128
  inb_S1160x128_S32x128_953_0 : ∀ a, (![953, 0] : Fin 2 → Nat) a + S32x128.size a ≤ S1160x128.size a
  slices_S1024x128_o896_0_S32x128 : S1024x128.Slices ![896, 0] S32x128
  inb_S1160x128_S32x128_987_0 : ∀ a, (![987, 0] : Fin 2 → Nat) a + S32x128.size a ≤ S1160x128.size a
  slices_S1024x128_o928_0_S32x128 : S1024x128.Slices ![928, 0] S32x128
  inb_S1160x128_S32x128_1021_0 : ∀ a, (![1021, 0] : Fin 2 → Nat) a + S32x128.size a ≤ S1160x128.size a
  slices_S1024x128_o960_0_S32x128 : S1024x128.Slices ![960, 0] S32x128
  inb_S1160x128_S32x128_1055_0 : ∀ a, (![1055, 0] : Fin 2 → Nat) a + S32x128.size a ≤ S1160x128.size a
  slices_S1024x128_o992_0_S32x128 : S1024x128.Slices ![992, 0] S32x128
  inb_S1160x128_S32x128_1089_0 : ∀ a, (![1089, 0] : Fin 2 → Nat) a + S32x128.size a ≤ S1160x128.size a
  inb_S1160x128_S1088x128_0_0 : ∀ a, (![0, 0] : Fin 2 → Nat) a + S1088x128.size a ≤ S1160x128.size a
  h_S1088x128 : 0 < S1088x128.numel
  inb_S9x128x128_S1x128x128_0_0_0 : ∀ a, (![0, 0, 0] : Fin 3 → Nat) a + S1x128x128.size a ≤ S9x128x128.size a
  h_S1x128x128 : 0 < S1x128x128.numel
  shapeCasts_S1x128x128_S128x128 : S1x128x128.ShapeCasts S128x128
  inb_S1160x128_S1088x128_1_0 : ∀ a, (![1, 0] : Fin 2 → Nat) a + S1088x128.size a ≤ S1160x128.size a
  inb_S9x128x128_S1x128x128_1_0_0 : ∀ a, (![1, 0, 0] : Fin 3 → Nat) a + S1x128x128.size a ≤ S9x128x128.size a
  inb_S1160x128_S1088x128_2_0 : ∀ a, (![2, 0] : Fin 2 → Nat) a + S1088x128.size a ≤ S1160x128.size a
  inb_S9x128x128_S1x128x128_2_0_0 : ∀ a, (![2, 0, 0] : Fin 3 → Nat) a + S1x128x128.size a ≤ S9x128x128.size a
  inb_S1160x128_S1088x128_34_0 : ∀ a, (![34, 0] : Fin 2 → Nat) a + S1088x128.size a ≤ S1160x128.size a
  inb_S9x128x128_S1x128x128_3_0_0 : ∀ a, (![3, 0, 0] : Fin 3 → Nat) a + S1x128x128.size a ≤ S9x128x128.size a
  inb_S1160x128_S1088x128_35_0 : ∀ a, (![35, 0] : Fin 2 → Nat) a + S1088x128.size a ≤ S1160x128.size a
  inb_S9x128x128_S1x128x128_4_0_0 : ∀ a, (![4, 0, 0] : Fin 3 → Nat) a + S1x128x128.size a ≤ S9x128x128.size a
  inb_S1160x128_S1088x128_36_0 : ∀ a, (![36, 0] : Fin 2 → Nat) a + S1088x128.size a ≤ S1160x128.size a
  inb_S9x128x128_S1x128x128_5_0_0 : ∀ a, (![5, 0, 0] : Fin 3 → Nat) a + S1x128x128.size a ≤ S9x128x128.size a
  inb_S1160x128_S1088x128_68_0 : ∀ a, (![68, 0] : Fin 2 → Nat) a + S1088x128.size a ≤ S1160x128.size a
  inb_S9x128x128_S1x128x128_6_0_0 : ∀ a, (![6, 0, 0] : Fin 3 → Nat) a + S1x128x128.size a ≤ S9x128x128.size a
  inb_S1160x128_S1088x128_69_0 : ∀ a, (![69, 0] : Fin 2 → Nat) a + S1088x128.size a ≤ S1160x128.size a
  inb_S9x128x128_S1x128x128_7_0_0 : ∀ a, (![7, 0, 0] : Fin 3 → Nat) a + S1x128x128.size a ≤ S9x128x128.size a
  inb_S1160x128_S1088x128_70_0 : ∀ a, (![70, 0] : Fin 2 → Nat) a + S1088x128.size a ≤ S1160x128.size a
  inb_S9x128x128_S1x128x128_8_0_0 : ∀ a, (![8, 0, 0] : Fin 3 → Nat) a + S1x128x128.size a ≤ S9x128x128.size a
  broadcasts_S1x128_S1088x128 : S1x128.Broadcasts S1088x128
  slices_S1088x128_o0_0_S32x128 : S1088x128.Slices ![0, 0] S32x128
  slices_S1088x128_o34_0_S32x128 : S1088x128.Slices ![34, 0] S32x128
  slices_S1088x128_o68_0_S32x128 : S1088x128.Slices ![68, 0] S32x128
  slices_S1088x128_o102_0_S32x128 : S1088x128.Slices ![102, 0] S32x128
  slices_S1088x128_o136_0_S32x128 : S1088x128.Slices ![136, 0] S32x128
  slices_S1088x128_o170_0_S32x128 : S1088x128.Slices ![170, 0] S32x128
  slices_S1088x128_o204_0_S32x128 : S1088x128.Slices ![204, 0] S32x128
  slices_S1088x128_o238_0_S32x128 : S1088x128.Slices ![238, 0] S32x128
  slices_S1088x128_o272_0_S32x128 : S1088x128.Slices ![272, 0] S32x128
  slices_S1088x128_o306_0_S32x128 : S1088x128.Slices ![306, 0] S32x128
  slices_S1088x128_o340_0_S32x128 : S1088x128.Slices ![340, 0] S32x128
  slices_S1088x128_o374_0_S32x128 : S1088x128.Slices ![374, 0] S32x128
  slices_S1088x128_o408_0_S32x128 : S1088x128.Slices ![408, 0] S32x128
  slices_S1088x128_o442_0_S32x128 : S1088x128.Slices ![442, 0] S32x128
  slices_S1088x128_o476_0_S32x128 : S1088x128.Slices ![476, 0] S32x128
  slices_S1088x128_o510_0_S32x128 : S1088x128.Slices ![510, 0] S32x128
  slices_S1088x128_o544_0_S32x128 : S1088x128.Slices ![544, 0] S32x128
  slices_S1088x128_o578_0_S32x128 : S1088x128.Slices ![578, 0] S32x128
  slices_S1088x128_o612_0_S32x128 : S1088x128.Slices ![612, 0] S32x128
  slices_S1088x128_o646_0_S32x128 : S1088x128.Slices ![646, 0] S32x128
  slices_S1088x128_o680_0_S32x128 : S1088x128.Slices ![680, 0] S32x128
  slices_S1088x128_o714_0_S32x128 : S1088x128.Slices ![714, 0] S32x128
  slices_S1088x128_o748_0_S32x128 : S1088x128.Slices ![748, 0] S32x128
  slices_S1088x128_o782_0_S32x128 : S1088x128.Slices ![782, 0] S32x128
  slices_S1088x128_o816_0_S32x128 : S1088x128.Slices ![816, 0] S32x128
  slices_S1088x128_o850_0_S32x128 : S1088x128.Slices ![850, 0] S32x128
  slices_S1088x128_o884_0_S32x128 : S1088x128.Slices ![884, 0] S32x128
  slices_S1088x128_o918_0_S32x128 : S1088x128.Slices ![918, 0] S32x128
  slices_S1088x128_o952_0_S32x128 : S1088x128.Slices ![952, 0] S32x128
  slices_S1088x128_o986_0_S32x128 : S1088x128.Slices ![986, 0] S32x128
  slices_S1088x128_o1020_0_S32x128 : S1088x128.Slices ![1020, 0] S32x128
  slices_S1088x128_o1054_0_S32x128 : S1088x128.Slices ![1054, 0] S32x128
  inb_S1x1024x128_S1x32x128_0_0_0 : ∀ a, (![0, 0, 0] : Fin 3 → Nat) a + S1x32x128.size a ≤ S1x1024x128.size a
  h_S1x32x128 : 0 < S1x32x128.numel
  shapeCasts_S1x32x128_S32x128 : S1x32x128.ShapeCasts S32x128
  shapeCasts_S32x128_S1x32x128 : S32x128.ShapeCasts S1x32x128
  inb_S1x1024x128_S1x32x128_0_32_0 : ∀ a, (![0, 32, 0] : Fin 3 → Nat) a + S1x32x128.size a ≤ S1x1024x128.size a
  inb_S1x1024x128_S1x32x128_0_64_0 : ∀ a, (![0, 64, 0] : Fin 3 → Nat) a + S1x32x128.size a ≤ S1x1024x128.size a
  inb_S1x1024x128_S1x32x128_0_96_0 : ∀ a, (![0, 96, 0] : Fin 3 → Nat) a + S1x32x128.size a ≤ S1x1024x128.size a
  inb_S1x1024x128_S1x32x128_0_128_0 : ∀ a, (![0, 128, 0] : Fin 3 → Nat) a + S1x32x128.size a ≤ S1x1024x128.size a
  inb_S1x1024x128_S1x32x128_0_160_0 : ∀ a, (![0, 160, 0] : Fin 3 → Nat) a + S1x32x128.size a ≤ S1x1024x128.size a
  inb_S1x1024x128_S1x32x128_0_192_0 : ∀ a, (![0, 192, 0] : Fin 3 → Nat) a + S1x32x128.size a ≤ S1x1024x128.size a
  inb_S1x1024x128_S1x32x128_0_224_0 : ∀ a, (![0, 224, 0] : Fin 3 → Nat) a + S1x32x128.size a ≤ S1x1024x128.size a
  inb_S1x1024x128_S1x32x128_0_256_0 : ∀ a, (![0, 256, 0] : Fin 3 → Nat) a + S1x32x128.size a ≤ S1x1024x128.size a
  inb_S1x1024x128_S1x32x128_0_288_0 : ∀ a, (![0, 288, 0] : Fin 3 → Nat) a + S1x32x128.size a ≤ S1x1024x128.size a
  inb_S1x1024x128_S1x32x128_0_320_0 : ∀ a, (![0, 320, 0] : Fin 3 → Nat) a + S1x32x128.size a ≤ S1x1024x128.size a
  inb_S1x1024x128_S1x32x128_0_352_0 : ∀ a, (![0, 352, 0] : Fin 3 → Nat) a + S1x32x128.size a ≤ S1x1024x128.size a
  inb_S1x1024x128_S1x32x128_0_384_0 : ∀ a, (![0, 384, 0] : Fin 3 → Nat) a + S1x32x128.size a ≤ S1x1024x128.size a
  inb_S1x1024x128_S1x32x128_0_416_0 : ∀ a, (![0, 416, 0] : Fin 3 → Nat) a + S1x32x128.size a ≤ S1x1024x128.size a
  inb_S1x1024x128_S1x32x128_0_448_0 : ∀ a, (![0, 448, 0] : Fin 3 → Nat) a + S1x32x128.size a ≤ S1x1024x128.size a
  inb_S1x1024x128_S1x32x128_0_480_0 : ∀ a, (![0, 480, 0] : Fin 3 → Nat) a + S1x32x128.size a ≤ S1x1024x128.size a
  inb_S1x1024x128_S1x32x128_0_512_0 : ∀ a, (![0, 512, 0] : Fin 3 → Nat) a + S1x32x128.size a ≤ S1x1024x128.size a
  inb_S1x1024x128_S1x32x128_0_544_0 : ∀ a, (![0, 544, 0] : Fin 3 → Nat) a + S1x32x128.size a ≤ S1x1024x128.size a
  inb_S1x1024x128_S1x32x128_0_576_0 : ∀ a, (![0, 576, 0] : Fin 3 → Nat) a + S1x32x128.size a ≤ S1x1024x128.size a
  inb_S1x1024x128_S1x32x128_0_608_0 : ∀ a, (![0, 608, 0] : Fin 3 → Nat) a + S1x32x128.size a ≤ S1x1024x128.size a
  inb_S1x1024x128_S1x32x128_0_640_0 : ∀ a, (![0, 640, 0] : Fin 3 → Nat) a + S1x32x128.size a ≤ S1x1024x128.size a
  inb_S1x1024x128_S1x32x128_0_672_0 : ∀ a, (![0, 672, 0] : Fin 3 → Nat) a + S1x32x128.size a ≤ S1x1024x128.size a
  inb_S1x1024x128_S1x32x128_0_704_0 : ∀ a, (![0, 704, 0] : Fin 3 → Nat) a + S1x32x128.size a ≤ S1x1024x128.size a
  inb_S1x1024x128_S1x32x128_0_736_0 : ∀ a, (![0, 736, 0] : Fin 3 → Nat) a + S1x32x128.size a ≤ S1x1024x128.size a
  inb_S1x1024x128_S1x32x128_0_768_0 : ∀ a, (![0, 768, 0] : Fin 3 → Nat) a + S1x32x128.size a ≤ S1x1024x128.size a
  inb_S1x1024x128_S1x32x128_0_800_0 : ∀ a, (![0, 800, 0] : Fin 3 → Nat) a + S1x32x128.size a ≤ S1x1024x128.size a
  inb_S1x1024x128_S1x32x128_0_832_0 : ∀ a, (![0, 832, 0] : Fin 3 → Nat) a + S1x32x128.size a ≤ S1x1024x128.size a
  inb_S1x1024x128_S1x32x128_0_864_0 : ∀ a, (![0, 864, 0] : Fin 3 → Nat) a + S1x32x128.size a ≤ S1x1024x128.size a
  inb_S1x1024x128_S1x32x128_0_896_0 : ∀ a, (![0, 896, 0] : Fin 3 → Nat) a + S1x32x128.size a ≤ S1x1024x128.size a
  inb_S1x1024x128_S1x32x128_0_928_0 : ∀ a, (![0, 928, 0] : Fin 3 → Nat) a + S1x32x128.size a ≤ S1x1024x128.size a
  inb_S1x1024x128_S1x32x128_0_960_0 : ∀ a, (![0, 960, 0] : Fin 3 → Nat) a + S1x32x128.size a ≤ S1x1024x128.size a
  inb_S1x1024x128_S1x32x128_0_992_0 : ∀ a, (![0, 992, 0] : Fin 3 → Nat) a + S1x32x128.size a ≤ S1x1024x128.size a
  scatter_S4x128_S1_S128_0_0_0_0_wf : ScatterDims.WF S4x128 S1 S128 [0] [0] [0] 0
  dot_S1088x128_S128x128_S1088x128_1_0_0_1_n_n_wf : DotDims.WF S1088x128 S128x128 S1088x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S64x1024x128.size a
  hwx0_0 : ∀ i : grid0.Coords, EltTy.bits .f32 = 32 ∨ (Rect.block (s := S64x1024x128) S1x1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x128x128.size a ≤ S9x128x128.size a
  hwx0_1 : ∀ i : grid0.Coords, EltTy.bits .bf16 = 32 ∨ (Rect.block (s := S9x128x128) S9x128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S9x128x128.size a ≤ S9x128x128.size a
  hwx0_2 : ∀ i : grid0.Coords, EltTy.bits .bf16 = 32 ∨ (Rect.block (s := S9x128x128) S9x128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x128.size a ≤ S4x128.size a
  hwx0_3 : ∀ i : grid0.Coords, EltTy.bits .f32 = 32 ∨ (Rect.block (s := S4x128) S4x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x128.size a ≤ S64x1024x128.size a
  hwx0_4 : ∀ i : grid0.Coords, EltTy.bits .f32 = 32 ∨ (Rect.block (s := S64x1024x128) S1x1024x128.size (cc0_transform_4 i) (hinb0_4 i)).WholeWords (EltTy.packing .f32)

variable [Facts₀]

def scatter_S4x128_S1_S128_0_0_0_0 : ScatterDims S4x128 S1 S128 where
  updateWindowDims := [0]
  insertedWindowDims := [0]
  scatterDimsToOperandDims := [0]
  indexVectorDim := 0
  wf := scatter_S4x128_S1_S128_0_0_0_0_wf
def dot_S1088x128_S128x128_S1088x128_1_0_0_1_n_n : DotDims S1088x128 S128x128 S1088x128 where
  lhsContracting := [1]
  rhsContracting := [0]
  lhsNonContracting := [0]
  rhsNonContracting := [1]
  lhsBatch := []
  rhsBatch := []
  wf := dot_S1088x128_S128x128_S1088x128_1_0_0_1_n_n_wf

abbrev win0_0 : Pipeline.Window sig grid0 :=
  Pipeline.Window.ofSpec (Memref.whole main_call0_v2) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v27) S9x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v31) S9x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v23) S4x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v32) S1x1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.KerCols.lean ====
/-
  The im2col matrix of a zero-ringed block, and how the kernel's scratch comes to hold it.

  A block is four images; its pixels are numbered m = 1024 b + 32 h + w (image b, row h, column w). The padded
  block P has shape [4, 34, 34, 128]. Tap (dy, dx) of the 3 x 3 window is the slice of P at offsets (0, dy, dx, 0)
  flattened to [4096, 128]: at (m, ci) it is P (b, h + dy, w + dx, ci). The nine taps, written side by side into
  columns 128 t .. 128 t + 127 with t = 3 dy + dx, make the [4096, 1152] matrix `cols P`: at (m, k) it is
  P (b, h + k / 128 / 3, w + k / 128 % 3, k % 128).
-/
import proofs.«108192_g2000002599257424_pallasbulk_288_18_alg».proof.KernelIdeal
import Idealize.ShloMosaic.Lib.Pipeline.Value
import Idealize.ShloMosaic.Lib.ValueIdx

set_option maxRecDepth 16384

noncomputable section

namespace Cert.KernelIdeal.KerValue

open Cert.KernelIdeal Idealize.ShloMosaic Idealize.ShloMosaic.ValueIdx

variable {α : Type}

/-- Tap (dy, dx) at pixel row `x 0` and channel `x 1`: the padded block at the shifted position. -/
theorem tap_apply (dy dx : Nat) (hdy : dy ≤ 2) (hdx : dx ≤ 2) (P : S4x34x34x128.Idx → α)
    (h1 : S4x34x34x128.Slices ![0, dy, dx, 0] S4x32x32x128) (h2 : S4x32x32x128.ShapeCasts S4096x128)
    (x : S4096x128.Idx) :
    shapeCast S4096x128 (extractStridedSlice S4x32x32x128 ![0, dy, dx, 0] P h1) h2 x
      = P (ix4 (⟨(x 0).val / 1024, by have := idx2_lt0 x; omega⟩ : Fin 4)
              (⟨(x 0).val % 1024 / 32 + dy, by omega⟩ : Fin 34)
              (⟨(x 0).val % 32 + dx, by omega⟩ : Fin 34) (x 1)) := by
  have hx := idx2_lt0 x
  rw [shapeCast_apply _ h2 x (ix4 (⟨(x 0).val / 1024, by omega⟩ : Fin 4) (⟨(x 0).val % 1024 / 32, by omega⟩ : Fin 32)
        (⟨(x 0).val % 32, by omega⟩ : Fin 32) (x 1))
        (by rw [Shape.rowMajor_val_four, Shape.rowMajor_val_two]
            show (((x 0).val / 1024 * 32 + (x 0).val % 1024 / 32) * 32 + (x 0).val % 32) * 128 + (x 1).val
              = (x 0).val * 128 + (x 1).val
            omega)]
  exact extractStridedSlice_apply _ P h1 _ _ (fun a => by
    match a with
    | ⟨0, _⟩ => exact (Nat.zero_add _).symm
    | ⟨1, _⟩ => exact Nat.add_comm _ _
    | ⟨2, _⟩ => exact Nat.add_comm _ _
    | ⟨3, _⟩ => exact (Nat.zero_add _).symm)

/-- The im2col matrix of a padded block. -/
def cols (P : S4x34x34x128.Idx → α) : S4096x1152.Idx → α := fun y =>
  P (ix4 (⟨(y 0).val / 1024, by have := idx2_lt0 y; omega⟩ : Fin 4)
      (⟨(y 0).val % 1024 / 32 + (y 1).val / 128 / 3, by have := idx2_lt1 y; omega⟩ : Fin 34)
      (⟨(y 0).val % 32 + (y 1).val / 128 % 3, by omega⟩ : Fin 34)
      (⟨(y 1).val % 128, by omega⟩ : Fin 128))

/-- Tap (dy, dx), as the column block starting at column k0 = 128 (3 dy + dx), is that block of `cols P`. -/
theorem tap_eq_cols (dy dx : Nat) (hdy : dy ≤ 2) (hdx : dx ≤ 2) (P : S4x34x34x128.Idx → α)
    (h1 : S4x34x34x128.Slices ![0, dy, dx, 0] S4x32x32x128) (h2 : S4x32x32x128.ShapeCasts S4096x128)
    (k0 : Nat) (hk : k0 = 128 * (3 * dy + dx)) (inb : ∀ a, (![0, k0] : Fin 2 → Nat) a + S4096x128.size a ≤ S4096x1152.size a)
    (x : (Rect.unit (s := S4096x1152) ![0, k0] S4096x128.size inb).shape.Idx) :
    shapeCast S4096x128 (extractStridedSlice S4x32x32x128 ![0, dy, dx, 0] P h1) h2 x
      = cols P ((Rect.unit (s := S4096x1152) ![0, k0] S4096x128.size inb).emb x) := by
  have hx0 : (x 0).val < 4096 := (x 0).isLt
  have hx1 : (x 1).val < 128 := (x 1).isLt
  have e0 : ((Rect.unit (s := S4096x1152) ![0, k0] S4096x128.size inb).emb x 0).val = 0 + 1 * (x 0).val := rfl
  have e1 : ((Rect.unit (s := S4096x1152) ![0, k0] S4096x128.size inb).emb x 1).val = k0 + 1 * (x 1).val := rfl
  rw [tap_apply dy dx hdy hdx P h1 h2 x]
  unfold cols
  refine congrArg P (funext fun a => Fin.ext ?_)
  match a with
  | ⟨0, _⟩ => show (x 0).val / 1024 = ((Rect.unit (s := S4096x1152) ![0, k0] S4096x128.size inb).emb x 0).val / 1024; rw [e0]; omega
  | ⟨1, _⟩ =>
    show (x 0).val % 1024 / 32 + dy = ((Rect.unit (s := S4096x1152) ![0, k0] S4096x128.size inb).emb x 0).val % 1024 / 32
      + ((Rect.unit (s := S4096x1152) ![0, k0] S4096x128.size inb).emb x 1).val / 128 / 3
    rw [e0, e1]; omega
  | ⟨2, _⟩ =>
    show (x 0).val % 32 + dx = ((Rect.unit (s := S4096x1152) ![0, k0] S4096x128.size inb).emb x 0).val % 32
      + ((Rect.unit (s := S4096x1152) ![0, k0] S4096x128.size inb).emb x 1).val / 128 % 3
    rw [e0, e1]; omega
  | ⟨3, _⟩ =>
    show (x 1).val = ((Rect.unit (s := S4096x1152) ![0, k0] S4096x128.size inb).emb x 1).val % 128
    rw [e1]; omega

end Cert.KernelIdeal.KerValue

end
-- ==== Proof.KerScratch.lean ====
/-
  The scratch after the nine tap stores holds the im2col matrix.

  The kernel writes tap t = 3 dy + dx of the padded block P into columns 128 t .. 128 t + 127 of the
  [4096, 1152] scratch, for the nine taps, and then loads the whole scratch. The nine column blocks tile the
  scratch and each holds the matching block of `cols P`, so the load reads `cols P`.
-/
import proofs.«108192_g2000002599257424_pallasbulk_288_18_alg».proof.Proof.KerCols
import Idealize.ShloMosaic.Lib.Pipeline.Value

set_option maxRecDepth 16384

noncomputable section

namespace Cert.KernelIdeal.KerValue

open Cert.KernelIdeal Idealize.ShloMosaic Idealize.ShloMosaic.ValueIdx

/-- An index whose column lies in k0 .. k0 + 127 is in the column block at k0. -/
theorem mem_colblock (k0 : Nat) (inb : ∀ a, (![0, k0] : Fin 2 → Nat) a + S4096x128.size a ≤ S4096x1152.size a)
    (y : S4096x1152.Idx) (h : k0 ≤ (y 1).val ∧ (y 1).val < k0 + 128) :
    y ∈ (Rect.unit (s := S4096x1152) ![0, k0] S4096x128.size inb).set := by
  rw [Rect.mem_set_unit]
  intro a
  match a with
  | ⟨0, _⟩ => exact ⟨Nat.zero_le _, by show (y 0).val < 0 + 4096; have := idx2_lt0 y; omega⟩
  | ⟨1, _⟩ => exact ⟨h.1, h.2⟩

theorem hz2 : (![0, 0] : Fin 2 → Nat) = fun _ => 0 := funext fun a => by fin_cases a <;> rfl

/-- Where the later writes already cover an index, the earlier writes behind them do not matter. -/
theorem canon_append_of_cover {Val : EltTy → Type} [∀ e, Nonempty (Val e)] {s : Shape} {e : EltTy}
    (L₁ L₂ : List (View.Piece Val s e)) (y : s.Idx) (h : ∃ p ∈ L₁, y ∈ p.1.set) :
    View.canon (L₁ ++ L₂) y = View.canon L₁ y := by
  induction L₁ with
  | nil => obtain ⟨p, hp, _⟩ := h; cases hp
  | cons p L ih =>
    by_cases hy : y ∈ p.1.set
    · obtain ⟨r, w⟩ := p
      obtain ⟨x, rfl⟩ := r.exists_idx_of_mem hy
      rw [List.cons_append, show r.idx x = r.emb x from rfl, View.canon_cons_emb, View.canon_cons_emb]
    · rw [List.cons_append, View.canon_cons_of_not_mem _ _ hy, View.canon_cons_of_not_mem _ _ hy]
      refine ih ?_
      obtain ⟨p', hm, hy'⟩ := h
      rcases List.mem_cons.mp hm with rfl | hm
      · exact absurd hy' hy
      · exact ⟨p', hm, hy'⟩

variable {F : FTy → Type} [FloatOps F]

/-- The whole scratch, loaded after the nine tap stores, is `cols P`. -/
theorem readCov_taps {sig : RefSig} {κ : Kind} {sp : Space} (v : View sig κ sp S4096x1152 .bf16)
    (P : FVec F S4x34x34x128 .bf16) (s00 : S4x34x34x128.Slices ![0, 0, 0, 0] S4x32x32x128) (s01 : S4x34x34x128.Slices ![0, 0, 1, 0] S4x32x32x128) (s02 : S4x34x34x128.Slices ![0, 0, 2, 0] S4x32x32x128) (s10 : S4x34x34x128.Slices ![0, 1, 0, 0] S4x32x32x128) (s11 : S4x34x34x128.Slices ![0, 1, 1, 0] S4x32x32x128) (s12 : S4x34x34x128.Slices ![0, 1, 2, 0] S4x32x32x128) (s20 : S4x34x34x128.Slices ![0, 2, 0, 0] S4x32x32x128) (s21 : S4x34x34x128.Slices ![0, 2, 1, 0] S4x32x32x128) (s22 : S4x34x34x128.Slices ![0, 2, 2, 0] S4x32x32x128)
    (hc : S4x32x32x128.ShapeCasts S4096x128) (i0 : ∀ a, (![0, 0] : Fin 2 → Nat) a + S4096x128.size a ≤ S4096x1152.size a) (i1 : ∀ a, (![0, 128] : Fin 2 → Nat) a + S4096x128.size a ≤ S4096x1152.size a) (i2 : ∀ a, (![0, 256] : Fin 2 → Nat) a + S4096x128.size a ≤ S4096x1152.size a) (i3 : ∀ a, (![0, 384] : Fin 2 → Nat) a + S4096x128.size a ≤ S4096x1152.size a) (i4 : ∀ a, (![0, 512] : Fin 2 → Nat) a + S4096x128.size a ≤ S4096x1152.size a) (i5 : ∀ a, (![0, 640] : Fin 2 → Nat) a + S4096x128.size a ≤ S4096x1152.size a) (i6 : ∀ a, (![0, 768] : Fin 2 → Nat) a + S4096x128.size a ≤ S4096x1152.size a) (i7 : ∀ a, (![0, 896] : Fin 2 → Nat) a + S4096x128.size a ≤ S4096x1152.size a) (i8 : ∀ a, (![0, 1024] : Fin 2 → Nat) a + S4096x128.size a ≤ S4096x1152.size a)
    (iw : ∀ a, (![0, 0] : Fin 2 → Nat) a + S4096x1152.size a ≤ S4096x1152.size a)
    (L' : List (View.Piece (Elt F) S4096x1152 .bf16)) :
    v.readCov ((⟨Rect.unit (s := S4096x1152) ![0, 1024] S4096x128.size i8, shapeCast S4096x128 (extractStridedSlice S4x32x32x128 ![0, 2, 2, 0] P s22) hc⟩ : View.Piece (Elt F) S4096x1152 .bf16) ::
      (⟨Rect.unit (s := S4096x1152) ![0, 896] S4096x128.size i7, shapeCast S4096x128 (extractStridedSlice S4x32x32x128 ![0, 2, 1, 0] P s21) hc⟩ : View.Piece (Elt F) S4096x1152 .bf16) ::
      (⟨Rect.unit (s := S4096x1152) ![0, 768] S4096x128.size i6, shapeCast S4096x128 (extractStridedSlice S4x32x32x128 ![0, 2, 0, 0] P s20) hc⟩ : View.Piece (Elt F) S4096x1152 .bf16) ::
      (⟨Rect.unit (s := S4096x1152) ![0, 640] S4096x128.size i5, shapeCast S4096x128 (extractStridedSlice S4x32x32x128 ![0, 1, 2, 0] P s12) hc⟩ : View.Piece (Elt F) S4096x1152 .bf16) ::
      (⟨Rect.unit (s := S4096x1152) ![0, 512] S4096x128.size i4, shapeCast S4096x128 (extractStridedSlice S4x32x32x128 ![0, 1, 1, 0] P s11) hc⟩ : View.Piece (Elt F) S4096x1152 .bf16) ::
      (⟨Rect.unit (s := S4096x1152) ![0, 384] S4096x128.size i3, shapeCast S4096x128 (extractStridedSlice S4x32x32x128 ![0, 1, 0, 0] P s10) hc⟩ : View.Piece (Elt F) S4096x1152 .bf16) ::
      (⟨Rect.unit (s := S4096x1152) ![0, 256] S4096x128.size i2, shapeCast S4096x128 (extractStridedSlice S4x32x32x128 ![0, 0, 2, 0] P s02) hc⟩ : View.Piece (Elt F) S4096x1152 .bf16) ::
      (⟨Rect.unit (s := S4096x1152) ![0, 128] S4096x128.size i1, shapeCast S4096x128 (extractStridedSlice S4x32x32x128 ![0, 0, 1, 0] P s01) hc⟩ : View.Piece (Elt F) S4096x1152 .bf16) ::
      (⟨Rect.unit (s := S4096x1152) ![0, 0] S4096x128.size i0, shapeCast S4096x128 (extractStridedSlice S4x32x32x128 ![0, 0, 0, 0] P s00) hc⟩ : View.Piece (Elt F) S4096x1152 .bf16) :: L')
      (Rect.unit (s := S4096x1152) ![0, 0] S4096x1152.size iw).toLoadRect = cols P := by
  have hcover : ∀ y : S4096x1152.Idx, ∃ p ∈ [(⟨Rect.unit (s := S4096x1152) ![0, 1024] S4096x128.size i8, shapeCast S4096x128 (extractStridedSlice S4x32x32x128 ![0, 2, 2, 0] P s22) hc⟩ : View.Piece (Elt F) S4096x1152 .bf16),
      (⟨Rect.unit (s := S4096x1152) ![0, 896] S4096x128.size i7, shapeCast S4096x128 (extractStridedSlice S4x32x32x128 ![0, 2, 1, 0] P s21) hc⟩ : View.Piece (Elt F) S4096x1152 .bf16),
      (⟨Rect.unit (s := S4096x1152) ![0, 768] S4096x128.size i6, shapeCast S4096x128 (extractStridedSlice S4x32x32x128 ![0, 2, 0, 0] P s20) hc⟩ : View.Piece (Elt F) S4096x1152 .bf16),
      (⟨Rect.unit (s := S4096x1152) ![0, 640] S4096x128.size i5, shapeCast S4096x128 (extractStridedSlice S4x32x32x128 ![0, 1, 2, 0] P s12) hc⟩ : View.Piece (Elt F) S4096x1152 .bf16),
      (⟨Rect.unit (s := S4096x1152) ![0, 512] S4096x128.size i4, shapeCast S4096x128 (extractStridedSlice S4x32x32x128 ![0, 1, 1, 0] P s11) hc⟩ : View.Piece (Elt F) S4096x1152 .bf16),
      (⟨Rect.unit (s := S4096x1152) ![0, 384] S4096x128.size i3, shapeCast S4096x128 (extractStridedSlice S4x32x32x128 ![0, 1, 0, 0] P s10) hc⟩ : View.Piece (Elt F) S4096x1152 .bf16),
      (⟨Rect.unit (s := S4096x1152) ![0, 256] S4096x128.size i2, shapeCast S4096x128 (extractStridedSlice S4x32x32x128 ![0, 0, 2, 0] P s02) hc⟩ : View.Piece (Elt F) S4096x1152 .bf16),
      (⟨Rect.unit (s := S4096x1152) ![0, 128] S4096x128.size i1, shapeCast S4096x128 (extractStridedSlice S4x32x32x128 ![0, 0, 1, 0] P s01) hc⟩ : View.Piece (Elt F) S4096x1152 .bf16),
      (⟨Rect.unit (s := S4096x1152) ![0, 0] S4096x128.size i0, shapeCast S4096x128 (extractStridedSlice S4x32x32x128 ![0, 0, 0, 0] P s00) hc⟩ : View.Piece (Elt F) S4096x1152 .bf16)], y ∈ p.1.set := by
    intro y
    have h1 := idx2_lt1 y
    by_cases c8 : 1024 ≤ (y 1).val
    · exact ⟨_, List.Mem.head _, mem_colblock 1024 i8 y ⟨c8, by omega⟩⟩
    by_cases c7 : 896 ≤ (y 1).val
    · exact ⟨_, List.Mem.tail _ (List.Mem.head _), mem_colblock 896 i7 y ⟨c7, by omega⟩⟩
    by_cases c6 : 768 ≤ (y 1).val
    · exact ⟨_, List.Mem.tail _ (List.Mem.tail _ (List.Mem.head _)), mem_colblock 768 i6 y ⟨c6, by omega⟩⟩
    by_cases c5 : 640 ≤ (y 1).val
    · exact ⟨_, List.Mem.tail _ (List.Mem.tail _ (List.Mem.tail _ (List.Mem.head _))), mem_colblock 640 i5 y ⟨c5, by omega⟩⟩
    by_cases c4 : 512 ≤ (y 1).val
    · exact ⟨_, List.Mem.tail _ (List.Mem.tail _ (List.Mem.tail _ (List.Mem.tail _ (List.Mem.head _)))), mem_colblock 512 i4 y ⟨c4, by omega⟩⟩
    by_cases c3 : 384 ≤ (y 1).val
    · exact ⟨_, List.Mem.tail _ (List.Mem.tail _ (List.Mem.tail _ (List.Mem.tail _ (List.Mem.tail _ (List.Mem.head _))))), mem_colblock 384 i3 y ⟨c3, by omega⟩⟩
    by_cases c2 : 256 ≤ (y 1).val
    · exact ⟨_, List.Mem.tail _ (List.Mem.tail _ (List.Mem.tail _ (List.Mem.tail _ (List.Mem.tail _ (List.Mem.tail _ (List.Mem.head _)))))), mem_colblock 256 i2 y ⟨c2, by omega⟩⟩
    by_cases c1 : 128 ≤ (y 1).val
    · exact ⟨_, List.Mem.tail _ (List.Mem.tail _ (List.Mem.tail _ (List.Mem.tail _ (List.Mem.tail _ (List.Mem.tail _ (List.Mem.tail _ (List.Mem.head _))))))), mem_colblock 128 i1 y ⟨c1, by omega⟩⟩
    exact ⟨_, List.Mem.tail _ (List.Mem.tail _ (List.Mem.tail _ (List.Mem.tail _ (List.Mem.tail _ (List.Mem.tail _ (List.Mem.tail _ (List.Mem.tail _ (List.Mem.head _)))))))), mem_colblock 0 i0 y ⟨Nat.zero_le _, by omega⟩⟩

  show v.readCov ([(⟨Rect.unit (s := S4096x1152) ![0, 1024] S4096x128.size i8, shapeCast S4096x128 (extractStridedSlice S4x32x32x128 ![0, 2, 2, 0] P s22) hc⟩ : View.Piece (Elt F) S4096x1152 .bf16),
      (⟨Rect.unit (s := S4096x1152) ![0, 896] S4096x128.size i7, shapeCast S4096x128 (extractStridedSlice S4x32x32x128 ![0, 2, 1, 0] P s21) hc⟩ : View.Piece (Elt F) S4096x1152 .bf16),
      (⟨Rect.unit (s := S4096x1152) ![0, 768] S4096x128.size i6, shapeCast S4096x128 (extractStridedSlice S4x32x32x128 ![0, 2, 0, 0] P s20) hc⟩ : View.Piece (Elt F) S4096x1152 .bf16),
      (⟨Rect.unit (s := S4096x1152) ![0, 640] S4096x128.size i5, shapeCast S4096x128 (extractStridedSlice S4x32x32x128 ![0, 1, 2, 0] P s12) hc⟩ : View.Piece (Elt F) S4096x1152 .bf16),
      (⟨Rect.unit (s := S4096x1152) ![0, 512] S4096x128.size i4, shapeCast S4096x128 (extractStridedSlice S4x32x32x128 ![0, 1, 1, 0] P s11) hc⟩ : View.Piece (Elt F) S4096x1152 .bf16),
      (⟨Rect.unit (s := S4096x1152) ![0, 384] S4096x128.size i3, shapeCast S4096x128 (extractStridedSlice S4x32x32x128 ![0, 1, 0, 0] P s10) hc⟩ : View.Piece (Elt F) S4096x1152 .bf16),
      (⟨Rect.unit (s := S4096x1152) ![0, 256] S4096x128.size i2, shapeCast S4096x128 (extractStridedSlice S4x32x32x128 ![0, 0, 2, 0] P s02) hc⟩ : View.Piece (Elt F) S4096x1152 .bf16),
      (⟨Rect.unit (s := S4096x1152) ![0, 128] S4096x128.size i1, shapeCast S4096x128 (extractStridedSlice S4x32x32x128 ![0, 0, 1, 0] P s01) hc⟩ : View.Piece (Elt F) S4096x1152 .bf16),
      (⟨Rect.unit (s := S4096x1152) ![0, 0] S4096x128.size i0, shapeCast S4096x128 (extractStridedSlice S4x32x32x128 ![0, 0, 0, 0] P s00) hc⟩ : View.Piece (Elt F) S4096x1152 .bf16)] ++ L') _ = _
  rw [View.readCov_eq_canon_ld _ _ _ (fun y => by
    obtain ⟨p, hp, hy⟩ := hcover y
    exact ⟨p, List.mem_append_left _ hp, hy⟩), View.ld_unit_zero hz2]
  funext y
  rw [canon_append_of_cover _ _ y (hcover y)]
  refine View.canon_apply_of_pieces (cols P) _ ?_ y (hcover y)
  intro p hp
  simp only [List.mem_cons, List.mem_nil_iff, or_false] at hp
  rcases hp with rfl | rfl | rfl | rfl | rfl | rfl | rfl | rfl | rfl
  · intro x; exact tap_eq_cols 2 2 (by omega) (by omega) P s22 hc 1024 rfl i8 x
  · intro x; exact tap_eq_cols 2 1 (by omega) (by omega) P s21 hc 896 rfl i7 x
  · intro x; exact tap_eq_cols 2 0 (by omega) (by omega) P s20 hc 768 rfl i6 x
  · intro x; exact tap_eq_cols 1 2 (by omega) (by omega) P s12 hc 640 rfl i5 x
  · intro x; exact tap_eq_cols 1 1 (by omega) (by omega) P s11 hc 512 rfl i4 x
  · intro x; exact tap_eq_cols 1 0 (by omega) (by omega) P s10 hc 384 rfl i3 x
  · intro x; exact tap_eq_cols 0 2 (by omega) (by omega) P s02 hc 256 rfl i2 x
  · intro x; exact tap_eq_cols 0 1 (by omega) (by omega) P s01 hc 128 rfl i1 x
  · intro x; exact tap_eq_cols 0 0 (by omega) (by omega) P s00 hc 0 rfl i0 x

end Cert.KernelIdeal.KerValue

end
-- ==== Proof.KerPiece.lean ====
/-
  What one grid point leaves in the output block, as one term over the body's arithmetic.

  The body fills the scratch with the im2col matrix of the padded first activation, multiplies, normalises,
  transposes by an identity product, fills the scratch again with the im2col matrix of the padded second
  activation, multiplies and transposes again and adds the input block. Reading the run's one covering store
  back gives that composition, with each scratch load replaced by `cols` of the padded block it was filled from.
-/
import proofs.«108192_g2000002599257424_pallasbulk_288_18_alg».proof.Proof.Gen.KernelIdeal.Frame
import proofs.«108192_g2000002599257424_pallasbulk_288_18_alg».proof.Proof.KerScratch

set_option maxRecDepth 16384

noncomputable section

namespace Cert.KernelIdeal.KerValue

open Cert.KernelIdeal Cert.KernelIdeal.Gen Idealize.ShloMosaic Idealize.ShloMosaic.TcCoe Idealize.ShloMosaic.Tactic
open Idealize.SL Idealize.SL.Sem

variable {F : FTy → Type} [FloatOps F]

theorem hz3 : (![0, 0, 0] : Fin 3 → Nat) = fun _ => 0 := funext fun a => by fin_cases a <;> rfl

set_option maxHeartbeats 1600000 in
/-- The output block after the body, from the input blocks. -/
theorem out_eq (c : Dev nD) (i : grid0.Coords) (arg1 : Memref sig .tc .vmem S4x1024x128 .f32) (harg1 : arg1.IsWhole) (arg2 : Memref sig .tc .vmem S1152x128 .bf16) (harg2 : arg2.IsWhole) (arg3 : Memref sig .tc .vmem S1152x128 .bf16) (harg3 : arg3.IsWhole) (arg4 : Memref sig .tc .vmem S8x128 .f32) (harg4 : arg4.IsWhole) (arg5 : Memref sig .tc .vmem S128x8 .f32) (harg5 : arg5.IsWhole) (arg6 : Memref sig .tc .vmem S128x128 .bf16) (harg6 : arg6.IsWhole) (arg7 : Memref sig .tc .vmem S128x128 .f32) (harg7 : arg7.IsWhole) (arg8 : Memref sig .tc .vmem S4x1024x128 .f32) (harg8 : arg8.IsWhole) (arg9 : Memref sig .tc .vmem S4096x1152 .bf16) (harg9 : arg9.IsWhole) (x0 : Vec F S4x1024x128 .f32) (x1 : Vec F S1152x128 .bf16) (x2 : Vec F S1152x128 .bf16) (x3 : Vec F S8x128 .f32) (x4 : Vec F S128x8 .f32) (x5 : Vec F S128x128 .bf16) (x6 : Vec F S128x128 .f32)
    (iA : ∀ a, (![0, 2] : Fin 2 → Nat) a + S128x1.size a ≤ S128x8.size a)
    (iB : ∀ a, (![0, 3] : Fin 2 → Nat) a + S128x1.size a ≤ S128x8.size a)
    (iR0 : ∀ a, (![0, 0] : Fin 2 → Nat) a + S1x128.size a ≤ S8x128.size a)
    (iR1 : ∀ a, (![1, 0] : Fin 2 → Nat) a + S1x128.size a ≤ S8x128.size a) :
    out0_A_7 c i arg1 harg1 arg2 harg2 arg3 harg3 arg4 harg4 arg5 harg5 arg6 harg6 arg7 harg7 arg8 harg8 arg9 harg9 x0 x1 x2 x3 x4 x5 x6
      = k0_pay26 (k0_pay1 x0) x2
        (cols (k0_pay16 (k0_pay2 (View.ld x4 (Rect.unit (s := S128x8) ![0, 2] S128x1.size iA)))
          (k0_pay3 (View.ld x4 (Rect.unit (s := S128x8) ![0, 3] S128x1.size iB))) (k0_pay15 x1)
          (cols (k0_pay4 x0 (View.ld x3 (Rect.unit (s := S8x128) ![0, 0] S1x128.size iR0))
            (View.ld x3 (Rect.unit (s := S8x128) ![1, 0] S1x128.size iR1)))) x5)) x6 := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5 x6)]
  unfold kernelRun0_A
  dsimp only
  sl_unfold_words
  rw [View.canon_unit_zero hz3]
  simp only [View.readAt_eq_ld, harg1.read_unread, harg2.read_unread, harg3.read_unread, harg4.read_unread, harg5.read_unread, harg6.read_unread, harg7.read_unread,
    View.ld_unit_zero (S := S4x1024x128) hz3, View.ld_unit_zero (S := S1152x128) hz2, View.ld_unit_zero (S := S128x128) hz2]
  unfold k0_pay5 k0_pay6 k0_pay7 k0_pay8 k0_pay9 k0_pay10 k0_pay11 k0_pay12 k0_pay13 k0_pay14
    k0_pay17 k0_pay18 k0_pay19 k0_pay20 k0_pay21 k0_pay22 k0_pay23 k0_pay24 k0_pay25
  simp only [shapeCast_self]
  rw [readCov_taps, readCov_taps]

end Cert.KernelIdeal.KerValue

end
-- ==== Proof.KerPad.lean ====
/-
  The zero-ringed block read at an index.

  The kernel pads a [4, 32, 32, 128] block y to [4, 34, 34, 128] by four concatenations: a zero row before and
  after the 32 rows (axis 1), then a zero column before and after the 32 columns (axis 2). At (b, hp, wp, c) the
  result is y (b, hp - 1, wp - 1, c) when 1 ≤ hp ≤ 32 and 1 ≤ wp ≤ 32, and the zero on the ring.
-/
import proofs.«108192_g2000002599257424_pallasbulk_288_18_alg».proof.KernelIdeal
import Idealize.ShloMosaic.Lib.Pipeline.Value
import Idealize.ShloMosaic.Lib.ValueIdx

set_option maxRecDepth 16384

noncomputable section

namespace Cert.KernelIdeal.KerValue

open Cert.KernelIdeal Idealize.ShloMosaic Idealize.ShloMosaic.ValueIdx

variable {α : Type}

/-- The block with a ring of `z` around every image, as the kernel builds it. -/
def ringed (y : S4x32x32x128.Idx → α) (z : α)
    (c1 : Shape.Concatenates [S4x1x32x128, S4x32x32x128] S4x33x32x128 1)
    (c2 : Shape.Concatenates [S4x33x32x128, S4x1x32x128] S4x34x32x128 1)
    (c3 : Shape.Concatenates [S4x34x1x128, S4x34x32x128] S4x34x33x128 2)
    (c4 : Shape.Concatenates [S4x34x33x128, S4x34x1x128] S4x34x34x128 2) : S4x34x34x128.Idx → α :=
  concatenate S4x34x34x128 2 [⟨S4x34x33x128, concatenate S4x34x33x128 2 [⟨S4x34x1x128, broadcast S4x34x1x128 z⟩,
    ⟨S4x34x32x128, concatenate S4x34x32x128 1 [⟨S4x33x32x128, concatenate S4x33x32x128 1 [⟨S4x1x32x128, broadcast S4x1x32x128 z⟩,
      ⟨S4x32x32x128, y⟩] c1⟩, ⟨S4x1x32x128, broadcast S4x1x32x128 z⟩] c2⟩] c3⟩, ⟨S4x34x1x128, broadcast S4x34x1x128 z⟩] c4

theorem ringed_apply (y : S4x32x32x128.Idx → α) (z : α)
    (c1 : Shape.Concatenates [S4x1x32x128, S4x32x32x128] S4x33x32x128 1)
    (c2 : Shape.Concatenates [S4x33x32x128, S4x1x32x128] S4x34x32x128 1)
    (c3 : Shape.Concatenates [S4x34x1x128, S4x34x32x128] S4x34x33x128 2)
    (c4 : Shape.Concatenates [S4x34x33x128, S4x34x1x128] S4x34x34x128 2)
    (b : Fin 4) (hp wp : Fin 34) (c : Fin 128) :
    ringed y z c1 c2 c3 c4 (ix4 b hp wp c)
      = if h : (1 ≤ hp.val ∧ hp.val ≤ 32) ∧ (1 ≤ wp.val ∧ wp.val ≤ 32)
        then y (ix4 b ⟨hp.val - 1, by omega⟩ ⟨wp.val - 1, by omega⟩ c) else z := by
  have hhp := hp.isLt
  have hwp := wp.isLt
  unfold ringed
  by_cases hw33 : wp.val = 33
  · rw [dif_neg (by omega)]
    exact concatenate_pair_apply_right (t := S4x34x34x128) (s₁ := S4x34x33x128) (s₂ := S4x34x1x128) (2 : Fin 4) _ _ c4 _ rfl rfl (ix4 b hp (0 : Fin 1) c)
      (fun b' hne => by match b' with | ⟨0, _⟩ => rfl | ⟨1, _⟩ => rfl | ⟨2, _⟩ => exact absurd rfl hne | ⟨3, _⟩ => rfl)
      (by show 0 + 33 = wp.val; omega)
  rw [concatenate_pair_apply_left (t := S4x34x34x128) (s₁ := S4x34x33x128) (s₂ := S4x34x1x128) (2 : Fin 4) _ _ c4 _ rfl (ix4 b hp (⟨wp.val, by omega⟩ : Fin 33) c) (fun b' => by match b' with | ⟨0, _⟩ => rfl | ⟨1, _⟩ => rfl | ⟨2, _⟩ => rfl | ⟨3, _⟩ => rfl)]
  by_cases hw0 : wp.val = 0
  · rw [dif_neg (by omega)]
    exact concatenate_pair_apply_left (t := S4x34x33x128) (s₁ := S4x34x1x128) (s₂ := S4x34x32x128) (2 : Fin 4) _ _ c3 _ rfl (ix4 b hp (0 : Fin 1) c)
      (fun b' => by match b' with | ⟨0, _⟩ => rfl | ⟨1, _⟩ => rfl | ⟨2, _⟩ => exact hw0.symm | ⟨3, _⟩ => rfl)
  rw [concatenate_pair_apply_right (t := S4x34x33x128) (s₁ := S4x34x1x128) (s₂ := S4x34x32x128) (2 : Fin 4) _ _ c3 _ rfl rfl (ix4 b hp (⟨wp.val - 1, by omega⟩ : Fin 32) c)
    (fun b' hne => by match b' with | ⟨0, _⟩ => rfl | ⟨1, _⟩ => rfl | ⟨2, _⟩ => exact absurd rfl hne | ⟨3, _⟩ => rfl)
    (by show wp.val - 1 + 1 = wp.val; omega)]
  by_cases hh33 : hp.val = 33
  · rw [dif_neg (by omega)]
    exact concatenate_pair_apply_right (t := S4x34x32x128) (s₁ := S4x33x32x128) (s₂ := S4x1x32x128) (1 : Fin 4) _ _ c2 _ rfl rfl (ix4 b (0 : Fin 1) (⟨wp.val - 1, by omega⟩ : Fin 32) c)
      (fun b' hne => by match b' with | ⟨0, _⟩ => rfl | ⟨1, _⟩ => exact absurd rfl hne | ⟨2, _⟩ => rfl | ⟨3, _⟩ => rfl)
      (by show 0 + 33 = hp.val; omega)
  rw [concatenate_pair_apply_left (t := S4x34x32x128) (s₁ := S4x33x32x128) (s₂ := S4x1x32x128) (1 : Fin 4) _ _ c2 _ rfl (ix4 b (⟨hp.val, by omega⟩ : Fin 33) (⟨wp.val - 1, by omega⟩ : Fin 32) c) (fun b' => by match b' with | ⟨0, _⟩ => rfl | ⟨1, _⟩ => rfl | ⟨2, _⟩ => rfl | ⟨3, _⟩ => rfl)]
  by_cases hh0 : hp.val = 0
  · rw [dif_neg (by omega)]
    exact concatenate_pair_apply_left (t := S4x33x32x128) (s₁ := S4x1x32x128) (s₂ := S4x32x32x128) (1 : Fin 4) _ _ c1 _ rfl (ix4 b (0 : Fin 1) (⟨wp.val - 1, by omega⟩ : Fin 32) c)
      (fun b' => by match b' with | ⟨0, _⟩ => rfl | ⟨1, _⟩ => exact hh0.symm | ⟨2, _⟩ => rfl | ⟨3, _⟩ => rfl)
  rw [dif_pos (by omega)]
  exact concatenate_pair_apply_right (t := S4x33x32x128) (s₁ := S4x1x32x128) (s₂ := S4x32x32x128) (1 : Fin 4) _ _ c1 _ rfl rfl (ix4 b (⟨hp.val - 1, by omega⟩ : Fin 32) (⟨wp.val - 1, by omega⟩ : Fin 32) c)
    (fun b' hne => by match b' with | ⟨0, _⟩ => rfl | ⟨1, _⟩ => exact absurd rfl hne | ⟨2, _⟩ => rfl | ⟨3, _⟩ => rfl)
    (by show hp.val - 1 + 1 = hp.val; omega)

end Cert.KernelIdeal.KerValue

end
-- ==== Proof.KerDot.lean ====
/-
  The kernel's two matrix products read at an index, at the extended reals.

  The convolution product contracts the 1152 rows of the weight matrix against the 1152 columns of the im2col
  matrix into a [128, 4096] result with a zero accumulator: entry (co, m) is the sum over k of W (k, co) * C (m, k).
  The transposing product contracts the 128 rows of a [128, 4096] matrix against the 128 rows of a square matrix
  E: entry (m, c) is the sum over k of Y (k, m) * E (k, c); when E is the identity matrix this is Y (c, m),
  because every other term is a product with zero and zero times anything is zero on the extended reals.
-/
import proofs.«108192_g2000002599257424_pallasbulk_288_18_alg».proof.KernelIdeal
import Idealize.ShloMosaic.PureOps.Ideal.Laws
import Idealize.ShloMosaic.Lib.ValueIdx

set_option maxRecDepth 16384

noncomputable section

namespace Cert.KernelIdeal.KerValue

open Cert.KernelIdeal Idealize.ShloMosaic Idealize.ShloMosaic.ValueIdx
open scoped BigOperators

variable [Cert.KernelIdeal.Facts]

/-- The convolution product at (co, m). -/
theorem conv_matmul_apply (W : FVec Ideal S1152x128 .bf16) (C : FVec Ideal S4096x1152 .bf16) (co : Fin 128) (m : Fin 4096) :
    matmul (F := Ideal) dot_S1152x128_S4096x1152_S128x4096_0_1_1_0_n_n none W C (constant S128x4096 .f32 0x00000000#32) (ix2 co m)
      = ∑ k : Fin 1152, W (ix2 k co) * C (ix2 m k) := by
  simp only [matmul]
  rw [Ideal.matmul_constant_zero_apply]
  rw [← Equiv.sum_comp (contrEquiv1 dot_S1152x128_S4096x1152_S128x4096_0_1_1_0_n_n 1152 rfl rfl).symm]
  refine Finset.sum_congr rfl fun k _ => ?_
  congr 2
  · funext a
    match a with
    | ⟨0, _⟩ => exact Fin.ext ((DotDims.lhsIdx_val_of_single _ rfl _ _).trans (contrEquiv1_symm_val _ 1152 rfl rfl k))
    | ⟨1, _⟩ => rfl
  · funext a
    match a with
    | ⟨0, _⟩ => rfl
    | ⟨1, _⟩ => exact Fin.ext ((DotDims.rhsIdx_val_of_single _ rfl _ _).trans (contrEquiv1_symm_val _ 1152 rfl rfl k))

/-- The transposing product at (m, c). -/
theorem transp_matmul_apply {φ₁ φ₂ : FTy} (Y : FVec Ideal S128x4096 φ₁) (E : FVec Ideal S128x128 φ₂) (m : Fin 4096) (c : Fin 128) :
    matmul (F := Ideal) dot_S128x4096_S128x128_S4096x128_0_0_1_1_n_n none Y E (constant S4096x128 .f32 0x00000000#32) (ix2 m c)
      = ∑ k : Fin 128, Y (ix2 k m) * E (ix2 k c) := by
  simp only [matmul]
  rw [Ideal.matmul_constant_zero_apply]
  rw [← Equiv.sum_comp (contrEquiv1 dot_S128x4096_S128x128_S4096x128_0_0_1_1_n_n 128 rfl rfl).symm]
  refine Finset.sum_congr rfl fun k _ => ?_
  congr 2
  · funext a
    match a with
    | ⟨0, _⟩ => exact Fin.ext ((DotDims.lhsIdx_val_of_single _ rfl _ _).trans (contrEquiv1_symm_val _ 128 rfl rfl k))
    | ⟨1, _⟩ => rfl
  · funext a
    match a with
    | ⟨0, _⟩ => exact Fin.ext ((DotDims.rhsIdx_val_of_single _ rfl _ _).trans (contrEquiv1_symm_val _ 128 rfl rfl k))
    | ⟨1, _⟩ => rfl

/-- Against the identity matrix the transposing product is the transpose. -/
theorem transp_identity {φ₁ φ₂ : FTy} (Y : FVec Ideal S128x4096 φ₁) (E : FVec Ideal S128x128 φ₂)
    (hE : ∀ k c : Fin 128, E (ix2 k c) = if k = c then (1 : EReal) else 0) (m : Fin 4096) (c : Fin 128) :
    matmul (F := Ideal) dot_S128x4096_S128x128_S4096x128_0_0_1_1_n_n none Y E (constant S4096x128 .f32 0x00000000#32) (ix2 m c)
      = Y (ix2 c m) := by
  rw [transp_matmul_apply]
  rw [Finset.sum_eq_single c]
  · rw [hE, if_pos rfl]; exact mul_one _
  · intro k _ hk; rw [hE, if_neg hk]; exact mul_zero _
  · intro h; exact absurd (Finset.mem_univ c) h

end Cert.KernelIdeal.KerValue

end
-- ==== Proof.Spec.lean ====
/-
  The residual block both programs compute, stated once over the extended reals, index by index.

  An image is a function of (row h, column w, channel c). `pad` reads an image on the 34 x 34 grid that has a
  ring of zeros around it (the SAME-padding of a 3 x 3 convolution): position (hp, wp) of the grid is image
  position (hp - 1, wp - 1) when that lies inside the image, and zero on the ring. `conv` is the 3 x 3
  convolution as one triple sum over the tap (dy, dx) and the input channel; `bnrelu` is the folded batch
  normalisation (a scale and a shift per channel) followed by max(., 0); `block` is
  x + conv (bnrelu (conv (bnrelu x) w1)) w2. `G` is `block` applied image by image to arrays in the
  programs' layouts: x and the result are [image, channel, row, column], a weight is
  [output channel, input channel, dy, dx], and the scale and shift of each normalisation are computed from
  (gamma, beta, mean, variance) as scale = gamma / sqrt (variance + eps), shift = beta - mean * scale.
-/
import Idealize.ShloMosaic.PureOps.Ideal
import Idealize.ShloMosaic.Lib.ValueIdx

noncomputable section

namespace Cert.Spec

open Idealize.ShloMosaic Idealize.ShloMosaic.ValueIdx

/-- An image: row, column, channel. -/
abbrev Img := Fin 32 → Fin 32 → Fin 128 → EReal
/-- A 3 x 3 weight: tap row, tap column, input channel, output channel. -/
abbrev Wt := Fin 3 → Fin 3 → Fin 128 → Fin 128 → EReal

/-- The image read on the zero-ringed 34 x 34 grid. -/
def pad (y : Img) (hp wp : Nat) (ci : Fin 128) : EReal :=
  if h : (1 ≤ hp ∧ hp ≤ 32) ∧ (1 ≤ wp ∧ wp ≤ 32) then y ⟨hp - 1, by omega⟩ ⟨wp - 1, by omega⟩ ci else 0

/-- The 3 x 3 SAME convolution at an output position and channel. -/
def conv (y : Img) (wt : Wt) (h w : Fin 32) (co : Fin 128) : EReal :=
  ∑ dy : Fin 3, ∑ dx : Fin 3, ∑ ci : Fin 128, pad y (h.val + dy.val) (w.val + dx.val) ci * wt dy dx ci co

/-- Folded batch normalisation, then max with zero. -/
def bnrelu (s b : Fin 128 → EReal) (a : EReal) (c : Fin 128) : EReal := max (a * s c + b c) 0

/-- The residual block on one image. -/
def block (x : Img) (w1 w2 : Wt) (s1 b1 s2 b2 : Fin 128 → EReal) : Img := fun h w c =>
  x h w c + conv (fun h w c => bnrelu s2 b2 (conv (fun h w c => bnrelu s1 b1 (x h w c) c) w1 h w c) c) w2 h w c

/-- The batch normalisation's epsilon, as the programs spell it (the f32 nearest 1e-5; the same word on both sides). -/
def eps : EReal := Ideal.ofBits .f32 0x3727C5AC#32

/-- scale = gamma / sqrt (variance + eps). -/
def scale (g v : (⟨1, ![128]⟩ : Shape).Idx → EReal) (c : Fin 128) : EReal :=
  Ideal.div (g (ix1 c)) (Ideal.sqrt (v (ix1 c) + eps))

/-- shift = beta - mean * scale. -/
def shift (be mu : (⟨1, ![128]⟩ : Shape).Idx → EReal) (s : Fin 128 → EReal) (c : Fin 128) : EReal :=
  be (ix1 c) - mu (ix1 c) * s c

/-- The whole result array [image, channel, row, column] from the eleven argument arrays. -/
def G (x : (⟨4, ![64, 128, 32, 32]⟩ : Shape).Idx → EReal)
    (w1 w2 : (⟨4, ![128, 128, 3, 3]⟩ : Shape).Idx → EReal)
    (g1 be1 mu1 v1 g2 be2 mu2 v2 : (⟨1, ![128]⟩ : Shape).Idx → EReal) :
    (⟨4, ![64, 128, 32, 32]⟩ : Shape).Idx → EReal := fun i =>
  block (fun h w c => x (ix4 (i 0) c h w))
    (fun dy dx ci co => w1 (ix4 co ci dy dx)) (fun dy dx ci co => w2 (ix4 co ci dy dx))
    (scale g1 v1) (shift be1 mu1 (scale g1 v1)) (scale g2 v2) (shift be2 mu2 (scale g2 v2))
    (i 2) (i 3) (i 1)

end Cert.Spec

end
-- ==== Proof.SpecSum.lean ====
/-
  Two facts about the specification's sums and zero ring, free of any program.

  A sum over the 1152 = 9 * 128 im2col columns k is the triple sum over the tap (dy, dx) and the channel ci with
  k = 128 (3 dy + dx) + ci. The padded image read at (h + dy, w + dx) is the image at (h + dy - 1, w + dx - 1)
  inside and zero on the ring (`Spec.pad` unfolded for the two cases).
-/
import proofs.«108192_g2000002599257424_pallasbulk_288_18_alg».proof.Proof.Spec
import Mathlib.Algebra.BigOperators.Fin
import Mathlib.Logic.Equiv.Fin.Basic

noncomputable section

namespace Cert.Spec

open scoped BigOperators

/-- A sum over `Fin (a * b)` is the double sum with k = j + b * i. -/
theorem sum_fin_mul {M : Type*} [AddCommMonoid M] (a b : Nat) (f : Fin (a * b) → M) :
    ∑ k, f k = ∑ i : Fin a, ∑ j : Fin b, f (finProdFinEquiv (i, j)) := by
  rw [← Equiv.sum_comp finProdFinEquiv f, Fintype.sum_prod_type]

/-- The im2col columns split into tap and channel. -/
theorem sum_taps {M : Type*} [AddCommMonoid M] (f : Fin 1152 → M) :
    ∑ k, f k = ∑ dy : Fin 3, ∑ dx : Fin 3, ∑ ci : Fin 128,
      f ⟨128 * (3 * dy.val + dx.val) + ci.val, by have := dy.isLt; have := dx.isLt; have := ci.isLt; omega⟩ := by
  have h1 := sum_fin_mul 9 128 (fun k : Fin (9 * 128) => f k)
  have h2 : ∀ g : Fin 9 → M, ∑ t, g t = ∑ dy : Fin 3, ∑ dx : Fin 3, g (finProdFinEquiv (dy, dx)) :=
    fun g => sum_fin_mul 3 3 (fun t : Fin (3 * 3) => g t)
  refine h1.trans ((h2 _).trans ?_)
  refine Finset.sum_congr rfl fun dy _ => Finset.sum_congr rfl fun dx _ => Finset.sum_congr rfl fun ci _ => ?_
  refine congrArg f (Fin.ext ?_)
  show ci.val + 128 * (dx.val + 3 * dy.val) = 128 * (3 * dy.val + dx.val) + ci.val
  omega

theorem pad_inside (y : Img) (hp wp : Nat) (ci : Fin 128) (h : (1 ≤ hp ∧ hp ≤ 32) ∧ (1 ≤ wp ∧ wp ≤ 32)) :
    pad y hp wp ci = y ⟨hp - 1, by omega⟩ ⟨wp - 1, by omega⟩ ci := by
  unfold pad; rw [dif_pos h]

theorem pad_ring (y : Img) (hp wp : Nat) (ci : Fin 128) (h : ¬((1 ≤ hp ∧ hp ≤ 32) ∧ (1 ≤ wp ∧ wp ≤ 32))) :
    pad y hp wp ci = 0 := by
  unfold pad; rw [dif_neg h]

end Cert.Spec

end
-- ==== Proof.LibColumnLayout.lean ====
/-
  Two layout readings of a column, for arrays of any extents: a vector `[a]` reshaped to a column `[a, 1]` holds the
  vector's entry `i` at `(i, 0)`, and a column `[a, 1]` broadcast along a second axis to `[a, b]` holds at `(p, c)` the
  column's entry of row `p`. (The row forms `[a] → [1, a]` and `[1, b] → [a, b]` are in the library's layout file.)
-/
import Idealize.ShloMosaic.Lib.ValueIdx
import Idealize.ShloMosaic.Lib.ValueLayout
import Idealize.ShloMosaic.Lib.Pipeline.Value

namespace Cert.Gcn.Layout

open Idealize.ShloMosaic Idealize.ShloMosaic.ValueIdx

/-- A column `[a, 1]` broadcast along the rows' features to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to a column `[a, 1]` reads, at `(i, u)`, the operand at `i`, whatever the unit coordinate. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Gcn.Layout
-- ==== Proof.KerBody.lean ====
/-
  The body's arithmetic read at an index, at the extended reals, against the specification.

  For one block of four images, with s1, b1 the first normalisation's scale and shift (rows 0 and 1 of the
  [8, 128] table), s2, b2 the second's (columns 2 and 3 of the [128, 8] table), W1 and W2 the [1152, 128] weight
  matrices (row 128 (3 dy + dx) + ci, column co) and the two square matrices the identity:
  * the first padded activation at (b, hp, wp, c) is `Spec.pad` of bnrelu s1 b1 of image b;
  * a convolution product over the im2col matrix of a padded block that is `Spec.pad` of an image is
    `Spec.conv` of that image (the 1152 columns split into tap and channel, the factors commuted);
  * the second padded activation is `Spec.pad` of bnrelu s2 b2 of the first convolution;
  * the block stored is the input plus the second convolution: `Spec.block`.
-/
import proofs.«108192_g2000002599257424_pallasbulk_288_18_alg».proof.Proof.Gen.KernelIdeal.Skeleton
import proofs.«108192_g2000002599257424_pallasbulk_288_18_alg».proof.Proof.KerCols
import proofs.«108192_g2000002599257424_pallasbulk_288_18_alg».proof.Proof.KerPad
import proofs.«108192_g2000002599257424_pallasbulk_288_18_alg».proof.Proof.KerDot
import proofs.«108192_g2000002599257424_pallasbulk_288_18_alg».proof.Proof.SpecSum
import proofs.«108192_g2000002599257424_pallasbulk_288_18_alg».proof.Proof.LibColumnLayout
import Idealize.ShloMosaic.Lib.ValueLayout

set_option maxRecDepth 16384

noncomputable section

namespace Cert.KernelIdeal.KerValue

open Cert.KernelIdeal Cert.KernelIdeal.Gen Idealize.ShloMosaic Idealize.ShloMosaic.ValueIdx
open scoped BigOperators

/-- Pixel m = 1024 b + 32 h + w of a block. -/
abbrev pix (b : Fin 4) (h w : Fin 32) : Fin 4096 := ⟨1024 * b.val + 32 * h.val + w.val, by omega⟩
/-- Pixel p = 32 h + w of an image. -/
abbrev ipix (h w : Fin 32) : Fin 1024 := ⟨32 * h.val + w.val, by omega⟩

/-- Image b of a block, as a function of row, column, channel. -/
def imgOf (x0 : Vec Ideal S4x1024x128 .f32) (b : Fin 4) : Spec.Img := fun h w c => x0 (ix3 b (ipix h w) c)

/-- A [1152, 128] weight matrix as tap row, tap column, input channel, output channel. -/
def wtOf (X : Vec Ideal S1152x128 .bf16) : Spec.Wt := fun dy dx ci co =>
  X (ix2 ⟨128 * (3 * dy.val + dx.val) + ci.val, by have := dy.isLt; have := dx.isLt; have := ci.isLt; omega⟩ co)

theorem scalar_zero : (Scalar.ofBits (F := Ideal) .f32 0x00000000#32 : EReal) = 0 := Ideal.ofBits_zero_f32

theorem sitofp_zero : (Scalar.sitofp (F := Ideal) .bf16 (0#32) : EReal) = 0 := by
  rw [Ideal.scalar_sitofp_def]; simp

/-- The flattened block at pixel m and channel c. -/
theorem pay1_apply (x0 : Vec Ideal S4x1024x128 .f32) (b : Fin 4) (h w : Fin 32) (c : Fin 128) :
    k0_pay1 (F := Ideal) x0 (ix2 (pix b h w) c) = x0 (ix3 b (ipix h w) c) := by
  unfold k0_pay1
  refine (shapeCast_apply _ _ _ (ix3 b (ipix h w) c) ?_).trans (by rw [shapeCast_self])
  rw [Shape.rowMajor_val_three, Shape.rowMajor_val_two]
  show (b.val * 1024 + (32 * h.val + w.val)) * 128 + c.val = (1024 * b.val + 32 * h.val + w.val) * 128 + c.val
  omega

/-- The first padded activation. -/
theorem pay4_apply (x0 : Vec Ideal S4x1024x128 .f32) (r0 r1 : Vec Ideal S1x128 .f32) (b : Fin 4) (hp wp : Fin 34) (c : Fin 128) :
    k0_pay4 (F := Ideal) x0 r0 r1 (ix4 b hp wp c)
      = Spec.pad (fun h w c => Spec.bnrelu (fun c => r0 (ix2 (0 : Fin 1) c)) (fun c => r1 (ix2 (0 : Fin 1) c)) (imgOf x0 b h w c) c)
          hp.val wp.val c := by
  unfold k0_pay4
  refine (ringed_apply _ _ _ _ _ _ b hp wp c).trans ?_
  by_cases hin : (1 ≤ hp.val ∧ hp.val ≤ 32) ∧ (1 ≤ wp.val ∧ wp.val ≤ 32)
  · rw [dif_pos hin, Spec.pad_inside _ _ _ _ hin]
    refine (shapeCast_apply _ _ _ (ix2 (pix b ⟨hp.val - 1, by omega⟩ ⟨wp.val - 1, by omega⟩) c) ?_).trans ?_
    · rw [Shape.rowMajor_val_four, Shape.rowMajor_val_two]
      show (1024 * b.val + 32 * (hp.val - 1) + (wp.val - 1)) * 128 + c.val
        = ((b.val * 32 + (hp.val - 1)) * 32 + (wp.val - 1)) * 128 + c.val
      omega
    · simp only [truncf_apply, maximumf_apply, addf_apply, mulf_apply, broadcast_apply, pay1_apply,
        broadcastTo_1b_ab_apply, shapeCast_self, scalar_zero]
      rfl
  · rw [dif_neg hin, Spec.pad_ring _ _ _ _ hin]
    exact sitofp_zero

/-- A convolution product over the im2col matrix of a block whose image b is padded `y`. -/
theorem conv_of_pad (X : Vec Ideal S1152x128 .bf16) (P : FVec Ideal S4x34x34x128 .bf16) (b : Fin 4) (y : Spec.Img)
    (hP : ∀ (hp wp : Fin 34) (ci : Fin 128), P (ix4 b hp wp ci) = Spec.pad y hp.val wp.val ci)
    (h w : Fin 32) (co : Fin 128) :
    matmul (F := Ideal) (φ₁ := .bf16) (φ₂ := .bf16) dot_S1152x128_S4096x1152_S128x4096_0_1_1_0_n_n none (k0_pay15 (F := Ideal) X) (cols P)
        (constant S128x4096 .f32 0x00000000#32) (ix2 co (pix b h w))
      = Spec.conv y (wtOf X) h w co := by
  rw [conv_matmul_apply, Spec.sum_taps]
  unfold Spec.conv
  refine Finset.sum_congr rfl fun dy _ => Finset.sum_congr rfl fun dx _ => Finset.sum_congr rfl fun ci _ => ?_
  have hdy := dy.isLt
  have hdx := dx.isLt
  have hci := ci.isLt
  have hh := h.isLt
  have hw := w.isLt
  have hb := b.isLt
  rw [mul_comm]
  congr 1
  · refine (congrArg P (funext fun a => Fin.ext ?_)).trans (hP ⟨h.val + dy.val, by omega⟩ ⟨w.val + dx.val, by omega⟩ ci)
    match a with
    | ⟨0, _⟩ => show (1024 * b.val + 32 * h.val + w.val) / 1024 = b.val; omega
    | ⟨1, _⟩ =>
      show (1024 * b.val + 32 * h.val + w.val) % 1024 / 32 + (128 * (3 * dy.val + dx.val) + ci.val) / 128 / 3 = h.val + dy.val
      omega
    | ⟨2, _⟩ =>
      show (1024 * b.val + 32 * h.val + w.val) % 32 + (128 * (3 * dy.val + dx.val) + ci.val) / 128 % 3 = w.val + dx.val
      omega
    | ⟨3, _⟩ => show (128 * (3 * dy.val + dx.val) + ci.val) % 128 = ci.val; omega
  · unfold k0_pay15 wtOf
    rw [shapeCast_self]

/-- The second padded activation, from the first convolution product `A1` in channel-major form. -/
theorem pay16_apply (v8 v10 : FVec Ideal S128x1 .f32) (v74 : FVec Ideal S1152x128 .bf16) (v75 : Vec Ideal S4096x1152 .bf16)
    (v84 : Vec Ideal S128x128 .bf16) (hE : ∀ k c : Fin 128, v84 (ix2 k c) = if k = c then (1 : EReal) else 0)
    (b : Fin 4) (hp wp : Fin 34) (c : Fin 128) :
    k0_pay16 (F := Ideal) v8 v10 v74 v75 v84 (ix4 b hp wp c)
      = Spec.pad (fun h w c => Spec.bnrelu (fun c => v8 (ix2 c (0 : Fin 1))) (fun c => v10 (ix2 c (0 : Fin 1)))
          (matmul (F := Ideal) (φ₁ := .bf16) (φ₂ := .bf16) dot_S1152x128_S4096x1152_S128x4096_0_1_1_0_n_n none v74 v75
            (constant S128x4096 .f32 0x00000000#32) (ix2 c (pix b h w))) c) hp.val wp.val c := by
  unfold k0_pay16
  refine (ringed_apply _ _ _ _ _ _ b hp wp c).trans ?_
  by_cases hin : (1 ≤ hp.val ∧ hp.val ≤ 32) ∧ (1 ≤ wp.val ∧ wp.val ≤ 32)
  · rw [dif_pos hin, Spec.pad_inside _ _ _ _ hin]
    refine (shapeCast_apply _ _ _ (ix2 (pix b ⟨hp.val - 1, by omega⟩ ⟨wp.val - 1, by omega⟩) c) ?_).trans ?_
    · rw [Shape.rowMajor_val_four, Shape.rowMajor_val_two]
      show (1024 * b.val + 32 * (hp.val - 1) + (wp.val - 1)) * 128 + c.val
        = ((b.val * 32 + (hp.val - 1)) * 32 + (wp.val - 1)) * 128 + c.val
      omega
    · rw [truncf_apply]
      refine (transp_identity _ _ (fun k c => by rw [shapeCast_self]; exact hE k c) _ c).trans ?_
      simp only [truncf_apply, maximumf_apply, addf_apply, mulf_apply, broadcast_apply,
        Cert.Gcn.Layout.broadcastTo_a1_ab_apply, scalar_zero]
      rfl
  · rw [dif_neg hin, Spec.pad_ring _ _ _ _ hin]
    exact sitofp_zero

/-- The stored block: the input plus the second convolution product, transposed back to pixel-major. -/
theorem pay26_apply (v2 : FVec Ideal S4096x128 .f32) (v143 : Vec Ideal S1152x128 .bf16) (v145 : Vec Ideal S4096x1152 .bf16)
    (v147 : Vec Ideal S128x128 .f32) (hE : ∀ k c : Fin 128, v147 (ix2 k c) = if k = c then (1 : EReal) else 0)
    (b : Fin 4) (h w : Fin 32) (c : Fin 128) :
    k0_pay26 (F := Ideal) v2 v143 v145 v147 (ix3 b (ipix h w) c)
      = v2 (ix2 (pix b h w) c)
        + matmul (F := Ideal) (φ₁ := .bf16) (φ₂ := .bf16) dot_S1152x128_S4096x1152_S128x4096_0_1_1_0_n_n none (k0_pay15 (F := Ideal) v143) v145
            (constant S128x4096 .f32 0x00000000#32) (ix2 c (pix b h w)) := by
  unfold k0_pay26
  refine (shapeCast_apply _ _ _ (ix2 (pix b h w) c) ?_).trans ?_
  · rw [Shape.rowMajor_val_three, Shape.rowMajor_val_two]
    show (1024 * b.val + 32 * h.val + w.val) * 128 + c.val = (b.val * 1024 + (32 * h.val + w.val)) * 128 + c.val
    omega
  · rw [addf_apply]
    congr 1
    exact transp_identity _ _ (fun k c => by rw [shapeCast_self]; exact hE k c) _ c

end Cert.KernelIdeal.KerValue

end
-- ==== Proof.KerBlock.lean ====
/-
  The body's whole result at an index is the specification's block.

  With the scale and shift rows read from the two tables (row 0 and 1 of the [8, 128] one, column 2 and 3 of the
  [128, 8] one) and the two square matrices the identity, the term the run leaves in the output block, read at
  image b, pixel 32 h + w and channel c, is `Spec.block` of image b.
-/
import proofs.«108192_g2000002599257424_pallasbulk_288_18_alg».proof.Proof.KerBody

set_option maxRecDepth 16384

noncomputable section

namespace Cert.KernelIdeal.KerValue

open Cert.KernelIdeal Cert.KernelIdeal.Gen Idealize.ShloMosaic Idealize.ShloMosaic.ValueIdx
open scoped BigOperators

/-- A one-row load of the [8, 128] table at row `r`, read at (0, c). -/
theorem ld_row (x3 : Vec Ideal S8x128 .f32) (r : Nat) (hr : r < 8)
    (inb : ∀ a, (![r, 0] : Fin 2 → Nat) a + S1x128.size a ≤ S8x128.size a) (c : Fin 128) :
    View.ld x3 (Rect.unit (s := S8x128) ![r, 0] S1x128.size inb) (ix2 (0 : Fin 1) c) = x3 (ix2 ⟨r, hr⟩ c) := by
  refine congrArg x3 (funext fun a => Fin.ext ?_)
  match a with
  | ⟨0, _⟩ => show r + 1 * 0 = r; omega
  | ⟨1, _⟩ => show 0 + 1 * c.val = c.val; omega

/-- A one-column load of the [128, 8] table at column `k`, read at (c, 0). -/
theorem ld_col (x4 : Vec Ideal S128x8 .f32) (k : Nat) (hk : k < 8)
    (inb : ∀ a, (![0, k] : Fin 2 → Nat) a + S128x1.size a ≤ S128x8.size a) (c : Fin 128) :
    View.ld x4 (Rect.unit (s := S128x8) ![0, k] S128x1.size inb) (ix2 c (0 : Fin 1)) = x4 (ix2 c ⟨k, hk⟩) := by
  refine congrArg x4 (funext fun a => Fin.ext ?_)
  match a with
  | ⟨0, _⟩ => show 0 + 1 * c.val = c.val; omega
  | ⟨1, _⟩ => show k + 1 * 0 = k; omega

theorem block_value (x0 : Vec Ideal S4x1024x128 .f32) (x1 x2 : Vec Ideal S1152x128 .bf16) (x3 : Vec Ideal S8x128 .f32)
    (x4 : Vec Ideal S128x8 .f32) (x5 : Vec Ideal S128x128 .bf16) (x6 : Vec Ideal S128x128 .f32)
    (hE5 : ∀ k c : Fin 128, x5 (ix2 k c) = if k = c then (1 : EReal) else 0)
    (hE6 : ∀ k c : Fin 128, x6 (ix2 k c) = if k = c then (1 : EReal) else 0)
    (iA : ∀ a, (![0, 2] : Fin 2 → Nat) a + S128x1.size a ≤ S128x8.size a)
    (iB : ∀ a, (![0, 3] : Fin 2 → Nat) a + S128x1.size a ≤ S128x8.size a)
    (iR0 : ∀ a, (![0, 0] : Fin 2 → Nat) a + S1x128.size a ≤ S8x128.size a)
    (iR1 : ∀ a, (![1, 0] : Fin 2 → Nat) a + S1x128.size a ≤ S8x128.size a)
    (b : Fin 4) (h w : Fin 32) (ch : Fin 128) :
    k0_pay26 (F := Ideal) (k0_pay1 x0) x2
        (cols (k0_pay16 (F := Ideal) (k0_pay2 (View.ld x4 (Rect.unit (s := S128x8) ![0, 2] S128x1.size iA)))
          (k0_pay3 (View.ld x4 (Rect.unit (s := S128x8) ![0, 3] S128x1.size iB))) (k0_pay15 x1)
          (cols (k0_pay4 (F := Ideal) x0 (View.ld x3 (Rect.unit (s := S8x128) ![0, 0] S1x128.size iR0))
            (View.ld x3 (Rect.unit (s := S8x128) ![1, 0] S1x128.size iR1)))) x5)) x6 (ix3 b (ipix h w) ch)
      = Spec.block (imgOf x0 b) (wtOf x1) (wtOf x2) (fun c => x3 (ix2 (0 : Fin 8) c)) (fun c => x3 (ix2 (1 : Fin 8) c))
          (fun c => x4 (ix2 c (2 : Fin 8))) (fun c => x4 (ix2 c (3 : Fin 8))) h w ch := by
  rw [pay26_apply _ _ _ _ hE6, pay1_apply]
  unfold Spec.block
  congr 1
  refine conv_of_pad x2 _ b _ (fun hp wp ci => ?_) h w ch
  rw [pay16_apply _ _ _ _ _ hE5]
  congr 1
  funext h' w' c'
  rw [conv_of_pad x1 _ b _ (fun hp wp ci => pay4_apply x0 _ _ b hp wp ci) h' w' c']
  have e2 : (k0_pay2 (F := Ideal) (View.ld x4 (Rect.unit (s := S128x8) ![0, 2] S128x1.size iA))) (ix2 c' (0 : Fin 1))
      = x4 (ix2 c' (2 : Fin 8)) := by
    unfold k0_pay2; rw [shapeCast_self]; exact ld_col x4 2 (by omega) iA c'
  have e3 : (k0_pay3 (F := Ideal) (View.ld x4 (Rect.unit (s := S128x8) ![0, 3] S128x1.size iB))) (ix2 c' (0 : Fin 1))
      = x4 (ix2 c' (3 : Fin 8)) := by
    unfold k0_pay3; rw [shapeCast_self]; exact ld_col x4 3 (by omega) iB c'
  unfold Spec.bnrelu
  dsimp only
  rw [e2, e3]
  have eimg : (fun (h : Fin 32) (w : Fin 32) (c : Fin 128) =>
        max (imgOf x0 b h w c * View.ld x3 (Rect.unit (s := S8x128) ![0, 0] S1x128.size iR0) (ix2 (0 : Fin 1) c)
          + View.ld x3 (Rect.unit (s := S8x128) ![1, 0] S1x128.size iR1) (ix2 (0 : Fin 1) c)) 0)
      = (fun h w c => max (imgOf x0 b h w c * x3 (ix2 (0 : Fin 8) c) + x3 (ix2 (1 : Fin 8) c)) 0) := by
    funext h'' w'' c''
    rw [ld_row x3 0 (by omega) iR0 c'', ld_row x3 1 (by omega) iR1 c'']
    rfl
  rw [eimg]

end Cert.KernelIdeal.KerValue

end
-- ==== Proof.KerHost.lean ====
/-
  The arrays the region finds, read at an index in terms of the eleven arguments.

  Before the region the host transposes x to [image, row, column, channel] and flattens rows and columns (so
  (n, p, c) is x (n, c, p / 32, p % 32)); transposes each weight to [dy, dx, ci, co] and flattens the first three axes
  (so (128 (3 dy + dx) + ci, co) is w (co, ci, dy, dx)); folds each normalisation into scale = gamma / sqrt (var + eps)
  and shift = beta - mean * scale into a table (read in the module on the table), and builds two identity matrices by
  comparing a row counter with a column counter.
-/
import proofs.«108192_g2000002599257424_pallasbulk_288_18_alg».proof.Proof.Gen.KernelIdeal.Frame
import proofs.«108192_g2000002599257424_pallasbulk_288_18_alg».proof.Proof.Spec
import Idealize.ShloMosaic.Lib.Pipeline.Value
import Idealize.ShloMosaic.Lib.StableHlo.Run
import Idealize.ShloMosaic.Lib.Tactic

set_option maxRecDepth 16384

noncomputable section

namespace Cert.KernelIdeal.KerValue

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (c : Dev nD)

/-- The flattened channels-last x. -/
theorem V_x2d (n : Fin 64) (p : Fin 1024) (ch : Fin 128) :
    (V m c main_call0_v1 : S64x1024x128.Idx → EReal) (ix3 n p ch)
      = (m ((c : Thread nD τ).loc main_arg0) : S64x128x32x32.Idx → EReal)
          (ix4 n ch ⟨p.val / 32, by omega⟩ ⟨p.val % 32, by omega⟩) := by
  have e : (V m c main_call0_v1 : S64x1024x128.Idx → EReal)
      = shapeCast S64x1024x128 (transpose S64x32x32x128 [0, 2, 3, 1]
          (m ((c : Thread nD τ).loc main_arg0) : S64x128x32x32.Idx → EReal)
          Facts₀.transposes_S64x128x32x32_S64x32x32x128_0_2_3_1) Facts₀.shapeCasts_S64x32x32x128_S64x1024x128 := by
    show StableHlo.after hostOps0 (fun b => m (c, b)) (Proc.devRef .tc main_call0_v1) = _
    after_results
    rfl
  rw [e]
  refine (shapeCast_apply _ _ _ (ix4 n ⟨p.val / 32, by omega⟩ ⟨p.val % 32, by omega⟩ ch) ?_).trans ?_
  · rw [Shape.rowMajor_val_four, Shape.rowMajor_val_three]
    show ((n.val * 32 + p.val / 32) * 32 + p.val % 32) * 128 + ch.val = (n.val * 1024 + p.val) * 128 + ch.val
    omega
  · exact transpose_apply _ _ _ _ (ix4 n ch ⟨p.val / 32, by omega⟩ ⟨p.val % 32, by omega⟩) (fun b => by
      match b with
      | ⟨0, _⟩ => rfl
      | ⟨1, _⟩ => rfl
      | ⟨2, _⟩ => rfl
      | ⟨3, _⟩ => rfl)

/-- A flattened weight: row 128 (3 dy + dx) + ci, column co, is the weight at (co, ci, dy, dx). -/
theorem V_w1k (k : Fin 1152) (co : Fin 128) :
    (V m c main_call0_v25 : S1152x128.Idx → EReal) (ix2 k co)
      = (m ((c : Thread nD τ).loc main_arg1) : S128x128x3x3.Idx → EReal)
          (ix4 co ⟨k.val % 128, by omega⟩ ⟨k.val / 128 / 3, by omega⟩ ⟨k.val / 128 % 3, by omega⟩) := by
  have e : (V m c main_call0_v25 : S1152x128.Idx → EReal)
      = truncf (F := Ideal) .bf16 (shapeCast S1152x128 (transpose S3x3x128x128 [2, 3, 1, 0]
          (m ((c : Thread nD τ).loc main_arg1) : S128x128x3x3.Idx → EReal)
          Facts₀.transposes_S128x128x3x3_S3x3x128x128_2_3_1_0) Facts₀.shapeCasts_S3x3x128x128_S1152x128)
          Facts₀.bitsLt_bf16_f32 := by
    show StableHlo.after hostOps0 (fun b => m (c, b)) (Proc.devRef .tc main_call0_v25) = _
    after_results
    rfl
  rw [e, truncf_apply]
  refine (shapeCast_apply _ _ _ (ix4 (⟨k.val / 128 / 3, by omega⟩ : Fin 3) (⟨k.val / 128 % 3, by omega⟩ : Fin 3)
      (⟨k.val % 128, by omega⟩ : Fin 128) co) ?_).trans ?_
  · rw [Shape.rowMajor_val_four, Shape.rowMajor_val_two]
    show ((k.val / 128 / 3 * 3 + k.val / 128 % 3) * 128 + k.val % 128) * 128 + co.val = k.val * 128 + co.val
    omega
  · exact transpose_apply _ _ _ _ (ix4 co ⟨k.val % 128, by omega⟩ ⟨k.val / 128 / 3, by omega⟩ ⟨k.val / 128 % 3, by omega⟩) (fun b => by
      match b with
      | ⟨0, _⟩ => rfl
      | ⟨1, _⟩ => rfl
      | ⟨2, _⟩ => rfl
      | ⟨3, _⟩ => rfl)

theorem V_w2k (k : Fin 1152) (co : Fin 128) :
    (V m c main_call0_v28 : S1152x128.Idx → EReal) (ix2 k co)
      = (m ((c : Thread nD τ).loc main_arg2) : S128x128x3x3.Idx → EReal)
          (ix4 co ⟨k.val % 128, by omega⟩ ⟨k.val / 128 / 3, by omega⟩ ⟨k.val / 128 % 3, by omega⟩) := by
  have e : (V m c main_call0_v28 : S1152x128.Idx → EReal)
      = truncf (F := Ideal) .bf16 (shapeCast S1152x128 (transpose S3x3x128x128 [2, 3, 1, 0]
          (m ((c : Thread nD τ).loc main_arg2) : S128x128x3x3.Idx → EReal)
          Facts₀.transposes_S128x128x3x3_S3x3x128x128_2_3_1_0) Facts₀.shapeCasts_S3x3x128x128_S1152x128)
          Facts₀.bitsLt_bf16_f32 := by
    show StableHlo.after hostOps0 (fun b => m (c, b)) (Proc.devRef .tc main_call0_v28) = _
    after_results
    rfl
  rw [e, truncf_apply]
  refine (shapeCast_apply _ _ _ (ix4 (⟨k.val / 128 / 3, by omega⟩ : Fin 3) (⟨k.val / 128 % 3, by omega⟩ : Fin 3)
      (⟨k.val % 128, by omega⟩ : Fin 128) co) ?_).trans ?_
  · rw [Shape.rowMajor_val_four, Shape.rowMajor_val_two]
    show ((k.val / 128 / 3 * 3 + k.val / 128 % 3) * 128 + k.val % 128) * 128 + co.val = k.val * 128 + co.val
    omega
  · exact transpose_apply _ _ _ _ (ix4 co ⟨k.val % 128, by omega⟩ ⟨k.val / 128 / 3, by omega⟩ ⟨k.val / 128 % 3, by omega⟩) (fun b => by
      match b with
      | ⟨0, _⟩ => rfl
      | ⟨1, _⟩ => rfl
      | ⟨2, _⟩ => rfl
      | ⟨3, _⟩ => rfl)

/-- A row counter compared with a column counter, converted to a float: the identity matrix. -/
theorem eye_apply {φ : FTy} (k ch : Fin 128) :
    uitofp (F := Ideal) φ (cmpi .eq (addi (iotaInDim S128x128 32 0)
        (broadcastInDim S128x128 ![] Facts₀.bcast_S_S128x128 (constantI S_ 32 0#32))) (iotaInDim S128x128 32 1)) (ix2 k ch)
      = if k = ch then (1 : EReal) else 0 := by
  show (((IntOp.cmpi .eq (BitVec.ofNat 32 k.val + 0#32) (BitVec.ofNat 32 ch.val)).toNat : ℝ) : EReal) = _
  have hk := k.isLt
  have hc := ch.isLt
  by_cases h : k = ch
  · subst h
    rw [if_pos rfl]
    simp [IntOp.cmpi]
  · rw [if_neg h]
    have hne : ¬ (BitVec.ofNat 32 k.val = BitVec.ofNat 32 ch.val) := by
      intro e
      have e' := congrArg BitVec.toNat e
      simp only [BitVec.toNat_ofNat] at e'
      exact h (Fin.ext (by omega))
    simp [IntOp.cmpi, hne]

theorem V_eye (k ch : Fin 128) :
    (V m c main_call0_v35 : S128x128.Idx → EReal) (ix2 k ch) = if k = ch then (1 : EReal) else 0 := by
  have e : (V m c main_call0_v35 : S128x128.Idx → EReal)
      = uitofp (F := Ideal) .bf16 (cmpi .eq (addi (iotaInDim S128x128 32 0)
        (broadcastInDim S128x128 ![] Facts₀.bcast_S_S128x128 (constantI S_ 32 0#32))) (iotaInDim S128x128 32 1)) := by
    show StableHlo.after hostOps0 (fun b => m (c, b)) (Proc.devRef .tc main_call0_v35) = _
    after_results
    rfl
  rw [e]; exact eye_apply k ch

theorem V_eyef (k ch : Fin 128) :
    (V m c main_call0_v41 : S128x128.Idx → EReal) (ix2 k ch) = if k = ch then (1 : EReal) else 0 := by
  have e : (V m c main_call0_v41 : S128x128.Idx → EReal)
      = uitofp (F := Ideal) .f32 (cmpi .eq (addi (iotaInDim S128x128 32 0)
        (broadcastInDim S128x128 ![] Facts₀.bcast_S_S128x128 (constantI S_ 32 0#32))) (iotaInDim S128x128 32 1)) := by
    show StableHlo.after hostOps0 (fun b => m (c, b)) (Proc.devRef .tc main_call0_v41) = _
    after_results
    rfl
  rw [e]; exact eye_apply k ch

end Cert.KernelIdeal.KerValue

end
-- ==== Proof.LibGatherScatterRows.lean ====
/-
  Row gathers and row scatters read at an index: `stablehlo.gather` / `"stablehlo.scatter"` along axis 0 of a one- or
  two-axis operand with a column `[E, 1]` of start indices (collapsed / inserted axis 0, start index map `[0]`, index
  vector on axis 1, no batching axes). A gathered element is the operand's at the start index read signed and clamped
  into the rows (`clampRow`); an update lands on row `r` exactly when its scatter index, read signed, is `r`.
  Stated for arbitrary dimension-number records over literal shapes, the records' fields as hypotheses.
-/
import Idealize.ShloMosaic.Lib.ValueIdx

namespace Idealize.ShloMosaic.GatherScatterRows

open Idealize.ShloMosaic Idealize.ShloMosaic.ValueIdx

/-- A start index read signed and clamped into the rows `[0, N − 1]`. -/
def clampRow {w : Nat} (N : Nat) (v : BitVec w) : Nat := min v.toInt.toNat (N - 1)

/-- The clamped row is a row. -/
theorem clampRow_lt {w : Nat} {N : Nat} (hN : 0 < N) (v : BitVec w) : clampRow N v < N := by
  unfold clampRow; omega

/-- **A row gather of a two-axis operand, read at an index.** `stablehlo.gather` of an operand `[N, C]` at start
    indices `[E, 1]` with offset_dims `[1]`, collapsed_slice_dims `[0]`, start_index_map `[0]`, index_vector_dim 1 and
    no batching axes: result element `(e, k)` is the operand at row `idx[e, 0]` (read signed, clamped into
    `[0, N − 1]`) and column `k`. -/
theorem gather_rows2_apply {α : Type} {N C E w : Nat} (hN : 0 < N)
    (d : GatherDims ⟨2, ![N, C]⟩ ⟨2, ![E, 1]⟩ ⟨2, ![E, C]⟩)
    (ho : d.offsetDims = [1]) (hc : d.collapsedSliceDims = [0]) (hb : d.operandBatchingDims = [])
    (hsb : d.startIndicesBatchingDims = []) (hm : d.startIndexMap = [0]) (hv : d.indexVectorDim = 1)
    (x : (⟨2, ![N, C]⟩ : Shape).Idx → α) (idx : IVec ⟨2, ![E, 1]⟩ w) (y : (⟨2, ![E, C]⟩ : Shape).Idx) :
    Host.gather d x idx y = x (ix2 ⟨clampRow N (idx (ix2 (y 0) 0)), clampRow_lt hN _⟩ (y 1)) := by
  have hs0 : d.sliceSizes 0 = 1 := d.slice_collapsed 0 (by rw [hc]; exact List.mem_singleton.mpr rfl)
  obtain ⟨od, cd, ob, sb, sm, iv, ss, wf⟩ := d
  dsimp only at ho hc hb hsb hm hv hs0
  subst ho hc hb hsb hm hv
  unfold Host.gather
  congr 1
  funext a
  refine Fin.ext ?_
  match a with
  | ⟨0, _⟩ =>
    show GatherDims.start _ y idx 0 + GatherDims.batchCoord _ y 0 + GatherDims.offCoord _ y 0 = clampRow N _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![N, C]⟩) (si := ⟨2, ![E, 1]⟩) (t := ⟨2, ![E, C]⟩)
        ⟨[1], [0], [], [], [0], 1, ss, wf⟩ y ⟨List.idxOf (0 : Fin 2) [0],
          List.idxOf_lt_length_iff.2 (List.mem_singleton.mpr rfl)⟩ = ix2 (y 0) 0 := by
      funext b; refine Fin.ext ?_
      match b with
      | ⟨0, _⟩ => rfl
      | ⟨1, _⟩ => rfl
    show min (idx (GatherDims.siIdx (s := ⟨2, ![N, C]⟩) (si := ⟨2, ![E, 1]⟩) (t := ⟨2, ![E, C]⟩)
        ⟨[1], [0], [], [], [0], 1, ss, wf⟩ y ⟨List.idxOf (0 : Fin 2) [0], _⟩)).toInt.toNat (N - ss 0) = _
    rw [hsi, hs0]
    rfl
  | ⟨1, _⟩ =>
    show GatherDims.start _ y idx 1 + GatherDims.batchCoord _ y 1 + GatherDims.offCoord _ y 1 = (y 1).val
    rw [GatherDims.batchCoord_eq_zero _ _ _ List.not_mem_nil]
    unfold GatherDims.start
    rw [dif_neg (fun h => absurd (congrArg Fin.val (List.mem_singleton.mp h)) Nat.one_ne_zero)]
    unfold GatherDims.offCoord
    rw [dif_pos ((GatherDims.mem_sKept _ _).mpr
      ⟨fun h => absurd (congrArg Fin.val (List.mem_singleton.mp h)) Nat.one_ne_zero, List.not_mem_nil⟩)]
    simp only [Nat.zero_add]
    rfl

/-- **A row gather of a one-axis operand, read at an index.** `stablehlo.gather` of an operand `[N]` at start indices
    `[E, 1]` with offset_dims `[]`, collapsed_slice_dims `[0]`, start_index_map `[0]`, index_vector_dim 1 and no
    batching axes: result element `e` is the operand at `idx[e, 0]`, read signed and clamped into `[0, N − 1]`. -/
theorem gather_rows1_apply {α : Type} {N E w : Nat} (hN : 0 < N)
    (d : GatherDims ⟨1, ![N]⟩ ⟨2, ![E, 1]⟩ ⟨1, ![E]⟩)
    (ho : d.offsetDims = []) (hc : d.collapsedSliceDims = [0]) (hb : d.operandBatchingDims = [])
    (hsb : d.startIndicesBatchingDims = []) (hm : d.startIndexMap = [0]) (hv : d.indexVectorDim = 1)
    (x : (⟨1, ![N]⟩ : Shape).Idx → α) (idx : IVec ⟨2, ![E, 1]⟩ w) (y : (⟨1, ![E]⟩ : Shape).Idx) :
    Host.gather d x idx y = x (ix1 ⟨clampRow N (idx (ix2 (y 0) 0)), clampRow_lt hN _⟩) := by
  have hs0 : d.sliceSizes 0 = 1 := d.slice_collapsed 0 (by rw [hc]; exact List.mem_singleton.mpr rfl)
  obtain ⟨od, cd, ob, sb, sm, iv, ss, wf⟩ := d
  dsimp only at ho hc hb hsb hm hv hs0
  subst ho hc hb hsb hm hv
  unfold Host.gather
  congr 1
  funext a
  refine Fin.ext ?_
  match a with
  | ⟨0, _⟩ =>
    show GatherDims.start _ y idx 0 + GatherDims.batchCoord _ y 0 + GatherDims.offCoord _ y 0 = clampRow N _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨1, ![N]⟩) (si := ⟨2, ![E, 1]⟩) (t := ⟨1, ![E]⟩)
        ⟨[], [0], [], [], [0], 1, ss, wf⟩ y ⟨List.idxOf (0 : Fin 1) [0],
          List.idxOf_lt_length_iff.2 (List.mem_singleton.mpr rfl)⟩ = ix2 (y 0) 0 := by
      funext b; refine Fin.ext ?_
      match b with
      | ⟨0, _⟩ => rfl
      | ⟨1, _⟩ => rfl
    show min (idx (GatherDims.siIdx (s := ⟨1, ![N]⟩) (si := ⟨2, ![E, 1]⟩) (t := ⟨1, ![E]⟩)
        ⟨[], [0], [], [], [0], 1, ss, wf⟩ y ⟨List.idxOf (0 : Fin 1) [0], _⟩)).toInt.toNat (N - ss 0) = _
    rw [hsi, hs0]
    rfl

/-- An axis is kept exactly when it is not one of the removed axes. -/
theorem mem_kept {s : Shape} (axes : List (Fin s.rank)) (a : Fin s.rank) : a ∈ s.kept axes ↔ a ∉ axes := by
  simp [Shape.kept, List.mem_filter, List.mem_finRange]

/-- An axis of a two-axis shape is axis 0 or axis 1. -/
theorem axis2_cases {sz : Fin 2 → Nat} (a : Fin (Shape.rank ⟨2, sz⟩)) : a = 0 ∨ a = 1 := by
  rcases a with ⟨_ | _ | n, h⟩
  · exact Or.inl rfl
  · exact Or.inr rfl
  · exact absurd h (by show ¬ (n + 2 < 2); omega)

/-- **Where a row scatter of a two-axis operand lands.** For `stablehlo.scatter` into an operand `[N, C]` at scatter
    indices `[E, 1]` with updates `[E, C]`, update_window_dims `[1]`, inserted_window_dims `[0]`,
    scatter_dims_to_operand_dims `[0]` and index_vector_dim 1: update `(e, k)` lands at operand index `i` exactly
    when its scatter index `idx[e, 0]`, read signed, is `i`'s row (so it is a row: not negative, below `N`) and `k` is
    `i`'s column. -/
theorem scatter_rows2_resultIdx {N C E w : Nat}
    (d : ScatterDims ⟨2, ![N, C]⟩ ⟨2, ![E, 1]⟩ ⟨2, ![E, C]⟩)
    (hu : d.updateWindowDims = [1]) (hi : d.insertedWindowDims = [0])
    (hs : d.scatterDimsToOperandDims = [0]) (hv : d.indexVectorDim = 1)
    (idx : IVec ⟨2, ![E, 1]⟩ w) (j : (⟨2, ![E, C]⟩ : Shape).Idx) (i : (⟨2, ![N, C]⟩ : Shape).Idx) :
    d.resultIdx? j idx = some i ↔ ((idx (ix2 (j 0) 0)).toInt = ((i 0).val : Int) ∧ j 1 = i 1) := by
  obtain ⟨uw, iw, sd, iv, wf⟩ := d
  dsimp only at hu hi hs hv
  subst hu hi hs hv
  have hst0 : ScatterDims.start (s := ⟨2, ![N, C]⟩) (si := ⟨2, ![E, 1]⟩) (u := ⟨2, ![E, C]⟩) ⟨[1], [0], [0], 1, wf⟩ j idx 0 = (idx (ix2 (j 0) 0)).toInt := by
    unfold ScatterDims.start
    rw [dif_pos (List.mem_singleton.mpr rfl)]
    refine congrArg (fun q => (idx q).toInt) ?_
    funext b; refine Fin.ext ?_
    match b with
    | ⟨0, _⟩ => rfl
    | ⟨1, _⟩ => rfl
  have hst1 : ScatterDims.start (s := ⟨2, ![N, C]⟩) (si := ⟨2, ![E, 1]⟩) (u := ⟨2, ![E, C]⟩) ⟨[1], [0], [0], 1, wf⟩ j idx 1 = 0 := by
    unfold ScatterDims.start
    rw [dif_neg (fun h => absurd (congrArg Fin.val (List.mem_singleton.mp h)) Nat.one_ne_zero)]
  have hw0 : ScatterDims.window (s := ⟨2, ![N, C]⟩) (si := ⟨2, ![E, 1]⟩) (u := ⟨2, ![E, C]⟩) ⟨[1], [0], [0], 1, wf⟩ j 0 = 0 := by
    unfold ScatterDims.window
    rw [dif_neg (fun h => (mem_kept _ _).mp h (List.mem_singleton.mpr rfl))]
  have hw1 : ScatterDims.window (s := ⟨2, ![N, C]⟩) (si := ⟨2, ![E, 1]⟩) (u := ⟨2, ![E, C]⟩) ⟨[1], [0], [0], 1, wf⟩ j 1 = (j 1).val := by
    unfold ScatterDims.window
    rw [dif_pos ((mem_kept _ _).mpr (fun h => absurd (congrArg Fin.val (List.mem_singleton.mp h)) Nat.one_ne_zero))]
    rfl
  have hi0 : (i 0).val < N := (i 0).isLt
  have hi1 : (i 1).val < C := (i 1).isLt
  have hj1 : (j 1).val < C := (j 1).isLt
  unfold ScatterDims.resultIdx?
  constructor
  · intro h
    split at h
    · rename_i hall
      have h' := Option.some.inj h
      have e0 : (ScatterDims.start (s := ⟨2, ![N, C]⟩) (si := ⟨2, ![E, 1]⟩) (u := ⟨2, ![E, C]⟩) ⟨[1], [0], [0], 1, wf⟩ j idx 0 + (ScatterDims.window (s := ⟨2, ![N, C]⟩) (si := ⟨2, ![E, 1]⟩) (u := ⟨2, ![E, C]⟩) ⟨[1], [0], [0], 1, wf⟩ j 0 : Nat)).toNat = (i 0).val := congrArg Fin.val (congrFun h' 0)
      have e1 : (ScatterDims.start (s := ⟨2, ![N, C]⟩) (si := ⟨2, ![E, 1]⟩) (u := ⟨2, ![E, C]⟩) ⟨[1], [0], [0], 1, wf⟩ j idx 1 + (ScatterDims.window (s := ⟨2, ![N, C]⟩) (si := ⟨2, ![E, 1]⟩) (u := ⟨2, ![E, C]⟩) ⟨[1], [0], [0], 1, wf⟩ j 1 : Nat)).toNat = (i 1).val := congrArg Fin.val (congrFun h' 1)
      have c0 := (hall 0).1
      rw [hst0, hw0] at e0 c0
      rw [hst1, hw1] at e1
      refine ⟨by omega, Fin.ext (by omega)⟩
    · exact absurd h (by simp)
  · rintro ⟨h0, h1⟩
    have h1' : (j 1).val = (i 1).val := congrArg Fin.val h1
    have hall : ∀ a, 0 ≤ ScatterDims.start (s := ⟨2, ![N, C]⟩) (si := ⟨2, ![E, 1]⟩) (u := ⟨2, ![E, C]⟩) ⟨[1], [0], [0], 1, wf⟩ j idx a + (ScatterDims.window (s := ⟨2, ![N, C]⟩) (si := ⟨2, ![E, 1]⟩) (u := ⟨2, ![E, C]⟩) ⟨[1], [0], [0], 1, wf⟩ j a : Nat) ∧ ScatterDims.start (s := ⟨2, ![N, C]⟩) (si := ⟨2, ![E, 1]⟩) (u := ⟨2, ![E, C]⟩) ⟨[1], [0], [0], 1, wf⟩ j idx a + (ScatterDims.window (s := ⟨2, ![N, C]⟩) (si := ⟨2, ![E, 1]⟩) (u := ⟨2, ![E, C]⟩) ⟨[1], [0], [0], 1, wf⟩ j a : Nat) < ((⟨2, ![N, C]⟩ : Shape).size a : Nat) := by
      intro a
      rcases axis2_cases a with rfl | rfl
      · rw [hst0, hw0]
        show 0 ≤ (idx (ix2 (j 0) 0)).toInt + ((0 : Nat) : Int) ∧ (idx (ix2 (j 0) 0)).toInt + ((0 : Nat) : Int) < (N : Int)
        omega
      · rw [hst1, hw1]
        show 0 ≤ (0 : Int) + ((j 1).val : Int) ∧ (0 : Int) + ((j 1).val : Int) < (C : Int)
        omega
    rw [dif_pos hall]
    refine congrArg some (funext fun a => Fin.ext ?_)
    rcases axis2_cases a with rfl | rfl
    · dsimp only
      rw [hst0, hw0]
      omega
    · dsimp only
      rw [hst1, hw1]
      omega

/-- A one-axis shape's only axis is axis 0. -/
theorem axis1_cases {sz : Fin 1 → Nat} (a : Fin (Shape.rank ⟨1, sz⟩)) : a = 0 := by
  rcases a with ⟨_ | n, h⟩
  · rfl
  · exact absurd h (by show ¬ (n + 1 < 1); omega)

/-- **Where a row scatter of a one-axis operand lands.** For `stablehlo.scatter` into an operand `[N]` at scatter
    indices `[E, 1]` with updates `[E]`, update_window_dims `[]`, inserted_window_dims `[0]`,
    scatter_dims_to_operand_dims `[0]` and index_vector_dim 1: update `e` lands at operand index `i` exactly when its
    scatter index `idx[e, 0]`, read signed, is `i` (so it is an index: not negative, below `N`). -/
theorem scatter_rows1_resultIdx {N E w : Nat}
    (d : ScatterDims ⟨1, ![N]⟩ ⟨2, ![E, 1]⟩ ⟨1, ![E]⟩)
    (hu : d.updateWindowDims = []) (hi : d.insertedWindowDims = [0])
    (hs : d.scatterDimsToOperandDims = [0]) (hv : d.indexVectorDim = 1)
    (idx : IVec ⟨2, ![E, 1]⟩ w) (j : (⟨1, ![E]⟩ : Shape).Idx) (i : (⟨1, ![N]⟩ : Shape).Idx) :
    d.resultIdx? j idx = some i ↔ (idx (ix2 (j 0) 0)).toInt = ((i 0).val : Int) := by
  obtain ⟨uw, iw, sd, iv, wf⟩ := d
  dsimp only at hu hi hs hv
  subst hu hi hs hv
  have hst0 : ScatterDims.start (s := ⟨1, ![N]⟩) (si := ⟨2, ![E, 1]⟩) (u := ⟨1, ![E]⟩) ⟨[], [0], [0], 1, wf⟩ j idx 0 = (idx (ix2 (j 0) 0)).toInt := by
    unfold ScatterDims.start
    rw [dif_pos (List.mem_singleton.mpr rfl)]
    refine congrArg (fun q => (idx q).toInt) ?_
    funext b; refine Fin.ext ?_
    match b with
    | ⟨0, _⟩ => rfl
    | ⟨1, _⟩ => rfl
  have hw0 : ScatterDims.window (s := ⟨1, ![N]⟩) (si := ⟨2, ![E, 1]⟩) (u := ⟨1, ![E]⟩) ⟨[], [0], [0], 1, wf⟩ j 0 = 0 := by
    unfold ScatterDims.window
    rw [dif_neg (fun h => (mem_kept _ _).mp h (List.mem_singleton.mpr rfl))]
  have hi0 : (i 0).val < N := (i 0).isLt
  unfold ScatterDims.resultIdx?
  constructor
  · intro h
    split at h
    · rename_i hall
      have h' := Option.some.inj h
      have e0 : (ScatterDims.start (s := ⟨1, ![N]⟩) (si := ⟨2, ![E, 1]⟩) (u := ⟨1, ![E]⟩) ⟨[], [0], [0], 1, wf⟩ j idx 0 + (ScatterDims.window (s := ⟨1, ![N]⟩) (si := ⟨2, ![E, 1]⟩) (u := ⟨1, ![E]⟩) ⟨[], [0], [0], 1, wf⟩ j 0 : Nat)).toNat = (i 0).val := congrArg Fin.val (congrFun h' 0)
      have c0 := (hall 0).1
      rw [hst0, hw0] at e0 c0
      omega
    · exact absurd h (by simp)
  · intro h0
    have hall : ∀ a, 0 ≤ ScatterDims.start (s := ⟨1, ![N]⟩) (si := ⟨2, ![E, 1]⟩) (u := ⟨1, ![E]⟩) ⟨[], [0], [0], 1, wf⟩ j idx a + (ScatterDims.window (s := ⟨1, ![N]⟩) (si := ⟨2, ![E, 1]⟩) (u := ⟨1, ![E]⟩) ⟨[], [0], [0], 1, wf⟩ j a : Nat) ∧ ScatterDims.start (s := ⟨1, ![N]⟩) (si := ⟨2, ![E, 1]⟩) (u := ⟨1, ![E]⟩) ⟨[], [0], [0], 1, wf⟩ j idx a + (ScatterDims.window (s := ⟨1, ![N]⟩) (si := ⟨2, ![E, 1]⟩) (u := ⟨1, ![E]⟩) ⟨[], [0], [0], 1, wf⟩ j a : Nat) < ((⟨1, ![N]⟩ : Shape).size a : Nat) := by
      intro a
      obtain rfl := axis1_cases a
      rw [hst0, hw0]
      show 0 ≤ (idx (ix2 (j 0) 0)).toInt + ((0 : Nat) : Int) ∧ (idx (ix2 (j 0) 0)).toInt + ((0 : Nat) : Int) < (N : Int)
      omega
    rw [dif_pos hall]
    refine congrArg some (funext fun a => Fin.ext ?_)
    obtain rfl := axis1_cases a
    dsimp only
    rw [hst0, hw0]
    omega

end Idealize.ShloMosaic.GatherScatterRows
-- ==== Proof.LibScatterRow.lean ====
/-
  A host scatter that SETS or combines one row: `"stablehlo.scatter"` into an operand `[N, C]` with a one-element
  index vector `[1]` (index_vector_dim 0), updates `[C]`, update_window_dims `[0]`, inserted_window_dims `[0]` and
  scatter_dims_to_operand_dims `[0]` — what `x.at[r].set(v)` of a two-axis array lowers to. When the index, read
  signed, is the row `r`, every update element `c` lands at `(r, c)`, each element of row `r` is hit exactly once,
  and the result is the operand off row `r` and `f (operand) (update)` on it. The scatter is a fold over the update
  elements; the two fold lemmas say what a fold of single-index overwrites leaves at an index no step names and at
  an index exactly one step names.
-/
import Idealize.ShloMosaic.Lib.ValueIdx
import proofs.«108192_g2000002599257424_pallasbulk_288_18_alg».proof.Proof.LibGatherScatterRows

namespace Idealize.ShloMosaic.ScatterRow

open Idealize.ShloMosaic Idealize.ShloMosaic.ValueIdx Idealize.ShloMosaic.GatherScatterRows

variable {ι κ α : Type} [DecidableEq κ]

/-- An index no step names keeps its value. -/
theorem foldl_set_untouched (g : ι → κ) (f : α → α → α) (v : ι → α) :
    ∀ (l : List ι) (x : κ → α) (i : κ), (∀ n ∈ l, g n ≠ i) →
      (l.foldl (fun R n i' => if i' = g n then f (R (g n)) (v n) else R i') x) i = x i
  | [], _, _, _ => rfl
  | a :: t, x, i, h => by
    rw [List.foldl_cons, foldl_set_untouched g f v t _ i (fun n hn => h n (List.mem_cons_of_mem _ hn))]
    exact if_neg (fun e => h a List.mem_cons_self e.symm)

/-- An index exactly one step names (the steps' targets distinct) ends at `f` of its old value and that step's value. -/
theorem foldl_set_hit (g : ι → κ) (hg : Function.Injective g) (f : α → α → α) (v : ι → α) :
    ∀ (l : List ι) (x : κ → α), l.Nodup → ∀ n ∈ l,
      (l.foldl (fun R n i' => if i' = g n then f (R (g n)) (v n) else R i') x) (g n) = f (x (g n)) (v n)
  | [], _, _, _, hn => absurd hn List.not_mem_nil
  | a :: t, x, hnd, n, hn => by
    rw [List.foldl_cons]
    rcases List.mem_cons.mp hn with rfl | hn'
    · rw [foldl_set_untouched g f v t _ (g n) (fun k hk e => (List.nodup_cons.mp hnd).1 (hg e ▸ hk))]
      exact if_pos rfl
    · rw [foldl_set_hit g hg f v t _ (List.nodup_cons.mp hnd).2 n hn']
      have hne : g n ≠ g a := fun e => (List.nodup_cons.mp hnd).1 (hg e ▸ hn')
      rw [if_neg hne]

/-- Where update element `j` of a one-row scatter lands: row `r`, column `j`. -/
theorem resultIdx_row {N C w : Nat} (d : ScatterDims ⟨2, ![N, C]⟩ ⟨1, ![1]⟩ ⟨1, ![C]⟩)
    (hu : d.updateWindowDims = [0]) (hi : d.insertedWindowDims = [0])
    (hs : d.scatterDimsToOperandDims = [0]) (hv : d.indexVectorDim = 0)
    (idx : IVec ⟨1, ![1]⟩ w) (r : Fin N) (hr : (idx (ix1 0)).toInt = (r.val : Int)) (j : (⟨1, ![C]⟩ : Shape).Idx) :
    d.resultIdx? j idx = some (ix2 r (j 0)) := by
  obtain ⟨uw, iw, sd, iv, wf⟩ := d
  dsimp only at hu hi hs hv
  subst hu hi hs hv
  have hst0 : ScatterDims.start (s := ⟨2, ![N, C]⟩) (si := ⟨1, ![1]⟩) (u := ⟨1, ![C]⟩) ⟨[0], [0], [0], 0, wf⟩ j idx 0 = (r.val : Int) := by
    unfold ScatterDims.start
    rw [dif_pos (List.mem_singleton.mpr rfl), ← hr]
    refine congrArg (fun q => (idx q).toInt) ?_
    funext b
    refine Fin.ext ?_
    match b with
    | ⟨0, hb⟩ =>
      have h1 : (ScatterDims.siIdx (s := ⟨2, ![N, C]⟩) (si := ⟨1, ![1]⟩) (u := ⟨1, ![C]⟩) ⟨[0], [0], [0], 0, wf⟩ j
          ⟨List.idxOf (0 : Fin 2) [0], List.idxOf_lt_length_iff.2 (List.mem_singleton.mpr rfl)⟩ ⟨0, hb⟩).val < 1 :=
        (ScatterDims.siIdx (s := ⟨2, ![N, C]⟩) (si := ⟨1, ![1]⟩) (u := ⟨1, ![C]⟩) ⟨[0], [0], [0], 0, wf⟩ j
          ⟨List.idxOf (0 : Fin 2) [0], List.idxOf_lt_length_iff.2 (List.mem_singleton.mpr rfl)⟩ ⟨0, hb⟩).isLt
      show (ScatterDims.siIdx (s := ⟨2, ![N, C]⟩) (si := ⟨1, ![1]⟩) (u := ⟨1, ![C]⟩) ⟨[0], [0], [0], 0, wf⟩ j
          ⟨List.idxOf (0 : Fin 2) [0], List.idxOf_lt_length_iff.2 (List.mem_singleton.mpr rfl)⟩ ⟨0, hb⟩).val = 0
      omega
  have hst1 : ScatterDims.start (s := ⟨2, ![N, C]⟩) (si := ⟨1, ![1]⟩) (u := ⟨1, ![C]⟩) ⟨[0], [0], [0], 0, wf⟩ j idx 1 = 0 := by
    unfold ScatterDims.start
    rw [dif_neg (fun h => absurd (congrArg Fin.val (List.mem_singleton.mp h)) Nat.one_ne_zero)]
  have hw0 : ScatterDims.window (s := ⟨2, ![N, C]⟩) (si := ⟨1, ![1]⟩) (u := ⟨1, ![C]⟩) ⟨[0], [0], [0], 0, wf⟩ j 0 = 0 := by
    unfold ScatterDims.window
    rw [dif_neg (fun h => (mem_kept _ _).mp h (List.mem_singleton.mpr rfl))]
  have hw1 : ScatterDims.window (s := ⟨2, ![N, C]⟩) (si := ⟨1, ![1]⟩) (u := ⟨1, ![C]⟩) ⟨[0], [0], [0], 0, wf⟩ j 1 = (j 0).val := by
    unfold ScatterDims.window
    rw [dif_pos ((mem_kept _ _).mpr (fun h => absurd (congrArg Fin.val (List.mem_singleton.mp h)) Nat.one_ne_zero))]
    rfl
  have hr0 : r.val < N := r.isLt
  have hj0 : (j 0).val < C := (j 0).isLt
  unfold ScatterDims.resultIdx?
  rw [dif_pos (fun a => by
    rcases axis2_cases a with rfl | rfl
    · rw [hst0, hw0]; exact ⟨by omega, by show (r.val : Int) + ((0 : Nat) : Int) < (N : Int); omega⟩
    · rw [hst1, hw1]; exact ⟨by omega, by show (0 : Int) + ((j 0).val : Int) < (C : Int); omega⟩)]
  refine congrArg some (funext fun a => Fin.ext ?_)
  rcases axis2_cases a with rfl | rfl
  · show (ScatterDims.start (s := ⟨2, ![N, C]⟩) (si := ⟨1, ![1]⟩) (u := ⟨1, ![C]⟩) ⟨[0], [0], [0], 0, wf⟩ j idx 0
      + (ScatterDims.window (s := ⟨2, ![N, C]⟩) (si := ⟨1, ![1]⟩) (u := ⟨1, ![C]⟩) ⟨[0], [0], [0], 0, wf⟩ j 0 : Int)).toNat = r.val
    rw [hst0, hw0]; omega
  · show (ScatterDims.start (s := ⟨2, ![N, C]⟩) (si := ⟨1, ![1]⟩) (u := ⟨1, ![C]⟩) ⟨[0], [0], [0], 0, wf⟩ j idx 1
      + (ScatterDims.window (s := ⟨2, ![N, C]⟩) (si := ⟨1, ![1]⟩) (u := ⟨1, ![C]⟩) ⟨[0], [0], [0], 0, wf⟩ j 1 : Int)).toNat = (j 0).val
    rw [hst1, hw1]; omega

/-- **A one-row scatter read at an index.** Off row `r` the operand; on row `r`, `f` of the operand's element and
    the update's element of the same column. -/
theorem scatter_row_apply {α : Type} {N C w : Nat} (d : ScatterDims ⟨2, ![N, C]⟩ ⟨1, ![1]⟩ ⟨1, ![C]⟩)
    (hu : d.updateWindowDims = [0]) (hi : d.insertedWindowDims = [0])
    (hs : d.scatterDimsToOperandDims = [0]) (hv : d.indexVectorDim = 0)
    (f : α → α → α) (x : (⟨2, ![N, C]⟩ : Shape).Idx → α) (idx : IVec ⟨1, ![1]⟩ w) (upd : (⟨1, ![C]⟩ : Shape).Idx → α)
    (r : Fin N) (hr : (idx (ix1 0)).toInt = (r.val : Int)) (i : (⟨2, ![N, C]⟩ : Shape).Idx) :
    Host.scatter d f x idx upd i = if (i 0).val = r.val then f (x i) (upd (ix1 (i 1))) else x i := by
  unfold Host.scatter
  refine (congrFun (List.foldl_ext _
    (fun (R : (⟨2, ![N, C]⟩ : Shape).Idx → α) (n : Fin (⟨1, ![C]⟩ : Shape).numel) (i' : (⟨2, ![N, C]⟩ : Shape).Idx) =>
      if i' = (ix2 r (((⟨1, ![C]⟩ : Shape).rowMajor.symm n) 0) : (⟨2, ![N, C]⟩ : Shape).Idx)
      then f (R (ix2 r (((⟨1, ![C]⟩ : Shape).rowMajor.symm n) 0))) (upd ((⟨1, ![C]⟩ : Shape).rowMajor.symm n)) else R i')
    x (fun R n _ => ?_)) i).trans ?_
  · rw [resultIdx_row d hu hi hs hv idx r hr]
    funext i'
    by_cases h : i' = (ix2 r (((⟨1, ![C]⟩ : Shape).rowMajor.symm n) 0) : (⟨2, ![N, C]⟩ : Shape).Idx)
    · rw [if_pos h]; exact if_pos h
    · rw [if_neg h]; exact if_neg h
  by_cases h : (i 0).val = r.val
  · rw [if_pos h]
    have hi' : (ix2 r ((ix1 (i 1) : (⟨1, ![C]⟩ : Shape).Idx) 0) : (⟨2, ![N, C]⟩ : Shape).Idx) = i := by
      funext a
      match a with
      | ⟨0, _⟩ => exact (Fin.ext h).symm
      | ⟨1, _⟩ => rfl
    have hinj : Function.Injective (fun n : Fin (⟨1, ![C]⟩ : Shape).numel =>
        (ix2 r (((⟨1, ![C]⟩ : Shape).rowMajor.symm n) 0) : (⟨2, ![N, C]⟩ : Shape).Idx)) := by
      intro n n' e
      have e1 : (((⟨1, ![C]⟩ : Shape).rowMajor.symm n) 0).val = (((⟨1, ![C]⟩ : Shape).rowMajor.symm n') 0).val :=
        congrArg (fun q : (⟨2, ![N, C]⟩ : Shape).Idx => (q ⟨1, Nat.one_lt_two⟩).val) e
      refine (⟨1, ![C]⟩ : Shape).rowMajor.symm.injective (funext fun a => Fin.ext ?_)
      match a with
      | ⟨0, _⟩ => exact e1
    have key := foldl_set_hit _ hinj f (fun n => upd ((⟨1, ![C]⟩ : Shape).rowMajor.symm n)) (List.finRange _) x
      (List.nodup_finRange _) ((⟨1, ![C]⟩ : Shape).rowMajor (ix1 (i 1))) (List.mem_finRange _)
    simp only [Equiv.symm_apply_apply] at key
    rw [hi'] at key
    exact key
  · rw [if_neg h]
    refine foldl_set_untouched _ f _ _ x i (fun n _ e => h ?_)
    rw [← e]
    rfl

end Idealize.ShloMosaic.ScatterRow
-- ==== Proof.KerHostBn.lean ====
/-
  The table of folded normalisation vectors the region finds, read at an index.

  The host computes scale = gamma / sqrt (var + eps) and shift = beta - mean * scale for each normalisation, sets the
  four vectors as rows 0..3 of a zero [8, 128] table (four one-row scatters), and transposes the table to [128, 8].
  Row r of the table, and column r of its transpose, is the r-th of (scale1, shift1, scale2, shift2).
-/
import proofs.«108192_g2000002599257424_pallasbulk_288_18_alg».proof.Proof.Gen.KernelIdeal.Frame
import proofs.«108192_g2000002599257424_pallasbulk_288_18_alg».proof.Proof.LibScatterRow
import proofs.«108192_g2000002599257424_pallasbulk_288_18_alg».proof.Proof.Spec
import Idealize.ShloMosaic.Lib.Pipeline.Value
import Idealize.ShloMosaic.Lib.StableHlo.Run
import Idealize.ShloMosaic.Lib.Tactic

set_option maxRecDepth 16384

noncomputable section

namespace Cert.KernelIdeal.KerValue

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (c : Dev nD)

/-- The folded normalisation vectors, as the host computes them. -/
def scaleVec (g v : S128.Idx → EReal) : S128.Idx → EReal :=
  Host.divf (F := Ideal) (φ := .f32) g (Host.sqrt (F := Ideal) (φ := .f32) (addf (F := Ideal) (φ := .f32) v
    (broadcastInDim S128 ![] Facts₀.bcast_S_S128 (constant (F := Ideal) S_ .f32 0x3727C5AC#32))))
def shiftVec (be mu s : S128.Idx → EReal) : S128.Idx → EReal :=
  subf (F := Ideal) (φ := .f32) be (mulf (F := Ideal) (φ := .f32) mu s)

theorem scaleVec_apply (g v : S128.Idx → EReal) (ch : Fin 128) : scaleVec g v (ix1 ch) = Spec.scale g v ch := rfl
theorem shiftVec_apply (be mu : S128.Idx → EReal) (s : S128.Idx → EReal) (sf : Fin 128 → EReal)
    (hs : ∀ ch, s (ix1 ch) = sf ch) (ch : Fin 128) : shiftVec be mu s (ix1 ch) = Spec.shift be mu sf ch := by
  show be (ix1 ch) - mu (ix1 ch) * s (ix1 ch) = be (ix1 ch) - mu (ix1 ch) * sf ch
  rw [hs]

/-- The [8, 128] table of the four folded vectors: rows 0..3, the rest zero. -/
def bnTable : S8x128.Idx → EReal :=
  Host.scatter scatter_S8x128_S1_S128_0_0_0_0 (fun _ b => b)
    (Host.scatter scatter_S8x128_S1_S128_0_0_0_0 (fun _ b => b)
      (Host.scatter scatter_S8x128_S1_S128_0_0_0_0 (fun _ b => b)
        (Host.scatter scatter_S8x128_S1_S128_0_0_0_0 (fun _ b => b)
          (broadcastInDim S8x128 ![] Facts₀.bcast_S_S8x128 (constant (F := Ideal) S_ .f32 0x00000000#32))
          (broadcastInDim S1 ![] Facts₀.bcast_S_S1 (constantI S_ 32 0#32))
          (scaleVec (m ((c : Thread nD τ).loc main_arg3)) (m ((c : Thread nD τ).loc main_arg6))))
        (broadcastInDim S1 ![] Facts₀.bcast_S_S1 (constantI S_ 32 1#32))
        (shiftVec (m ((c : Thread nD τ).loc main_arg4)) (m ((c : Thread nD τ).loc main_arg5))
          (scaleVec (m ((c : Thread nD τ).loc main_arg3)) (m ((c : Thread nD τ).loc main_arg6)))))
      (broadcastInDim S1 ![] Facts₀.bcast_S_S1 (constantI S_ 32 2#32))
      (scaleVec (m ((c : Thread nD τ).loc main_arg7)) (m ((c : Thread nD τ).loc main_arg10))))
    (broadcastInDim S1 ![] Facts₀.bcast_S_S1 (constantI S_ 32 3#32))
    (shiftVec (m ((c : Thread nD τ).loc main_arg8)) (m ((c : Thread nD τ).loc main_arg9))
      (scaleVec (m ((c : Thread nD τ).loc main_arg7)) (m ((c : Thread nD τ).loc main_arg10))))

set_option maxHeartbeats 3200000 in
theorem V_bn : (V m c main_call0_v22 : S8x128.Idx → EReal) = bnTable m c := by
  unfold bnTable scaleVec shiftVec
  show StableHlo.after hostOps0 (fun b => m (c, b)) (Proc.devRef .tc main_call0_v22) = _
  after_results
  rfl

set_option maxHeartbeats 3200000 in
theorem V_bnc : (V m c main_call0_v29 : S128x8.Idx → EReal)
    = transpose S128x8 [1, 0] (bnTable m c) Facts₀.transposes_S8x128_S128x8_1_0 := by
  unfold bnTable scaleVec shiftVec
  show StableHlo.after hostOps0 (fun b => m (c, b)) (Proc.devRef .tc main_call0_v29) = _
  after_results
  rfl

open Idealize.ShloMosaic.ScatterRow in
/-- Rows 0..3 of the table. -/
theorem bnTable_rows (ch : Fin 128) :
    bnTable m c (ix2 (0 : Fin 8) ch) = Spec.scale (m ((c : Thread nD τ).loc main_arg3)) (m ((c : Thread nD τ).loc main_arg6)) ch
    ∧ bnTable m c (ix2 (1 : Fin 8) ch) = Spec.shift (m ((c : Thread nD τ).loc main_arg4)) (m ((c : Thread nD τ).loc main_arg5))
        (Spec.scale (m ((c : Thread nD τ).loc main_arg3)) (m ((c : Thread nD τ).loc main_arg6))) ch
    ∧ bnTable m c (ix2 (2 : Fin 8) ch) = Spec.scale (m ((c : Thread nD τ).loc main_arg7)) (m ((c : Thread nD τ).loc main_arg10)) ch
    ∧ bnTable m c (ix2 (3 : Fin 8) ch) = Spec.shift (m ((c : Thread nD τ).loc main_arg8)) (m ((c : Thread nD τ).loc main_arg9))
        (Spec.scale (m ((c : Thread nD τ).loc main_arg7)) (m ((c : Thread nD τ).loc main_arg10))) ch := by
  unfold bnTable
  refine ⟨?_, ?_, ?_, ?_⟩
  all_goals
    simp only [scatter_row_apply (N := 8) (C := 128) scatter_S8x128_S1_S128_0_0_0_0 rfl rfl rfl rfl _ _ (broadcastInDim S1 ![] Facts₀.bcast_S_S1 (constantI S_ 32 3#32)) _ (3 : Fin 8) (by decide),
      scatter_row_apply (N := 8) (C := 128) scatter_S8x128_S1_S128_0_0_0_0 rfl rfl rfl rfl _ _ (broadcastInDim S1 ![] Facts₀.bcast_S_S1 (constantI S_ 32 2#32)) _ (2 : Fin 8) (by decide),
      scatter_row_apply (N := 8) (C := 128) scatter_S8x128_S1_S128_0_0_0_0 rfl rfl rfl rfl _ _ (broadcastInDim S1 ![] Facts₀.bcast_S_S1 (constantI S_ 32 1#32)) _ (1 : Fin 8) (by decide),
      scatter_row_apply (N := 8) (C := 128) scatter_S8x128_S1_S128_0_0_0_0 rfl rfl rfl rfl _ _ (broadcastInDim S1 ![] Facts₀.bcast_S_S1 (constantI S_ 32 0#32)) _ (0 : Fin 8) (by decide)]
  · exact scaleVec_apply _ _ ch
  · exact shiftVec_apply _ _ _ _ (scaleVec_apply _ _) ch
  · exact scaleVec_apply _ _ ch
  · exact shiftVec_apply _ _ _ _ (scaleVec_apply _ _) ch

/-- The transposed table at (ch, r) is the table at (r, ch). -/
theorem V_bnc_apply (ch : Fin 128) (r : Fin 8) :
    (V m c main_call0_v29 : S128x8.Idx → EReal) (ix2 ch r) = bnTable m c (ix2 r ch) := by
  rw [V_bnc]
  exact transpose_apply _ _ _ _ (ix2 r ch) (fun b => by
    match b with
    | ⟨0, _⟩ => rfl
    | ⟨1, _⟩ => rfl)

end Cert.KernelIdeal.KerValue

end
-- ==== Proof.KerFinal.lean ====
/-
  From blocks to the result array, and the run.

  Grid point t handles images 4 t .. 4 t + 3: its input block is those four images of the flattened x, its other
  six blocks are whole arrays, and what it writes back is block t of ONE array `resK`: the specification's result
  in the flattened channels-last layout. The sixteen blocks tile the array, so the array after the region is
  `resK`; the host then reshapes and transposes it back to [image, channel, row, column], which is `Spec.G`.
-/
import proofs.«108192_g2000002599257424_pallasbulk_288_18_alg».proof.Proof.KerPiece
import proofs.«108192_g2000002599257424_pallasbulk_288_18_alg».proof.Proof.KerBlock
import proofs.«108192_g2000002599257424_pallasbulk_288_18_alg».proof.Proof.KerHost
import proofs.«108192_g2000002599257424_pallasbulk_288_18_alg».proof.Proof.KerHostBn
import Idealize.ShloMosaic.Lib.Pipeline.Value

set_option maxRecDepth 16384

noncomputable section

namespace Cert.KernelIdeal.KerValue

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The specification's result from the launch memory. -/
def specG (c : Dev nD) : S64x128x32x32.Idx → EReal :=
  Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The region's result array: the specification's result, channels last, rows and columns flattened. -/
def resK (c : Dev nD) : S64x1024x128.Idx → EReal := fun i =>
  specG m c (ix4 (i 0) (i 2) ⟨(i 1).val / 32, by have h1 : (i 1).val < 1024 := (i 1).isLt; omega⟩ ⟨(i 1).val % 32, by omega⟩)

theorem hN : cfg0.N = 16 := N_0
theorem t_lt (t : Fin cfg0.N) : t.val < 16 := lt_of_lt_of_eq t.isLt hN

theorem idx0 : ∀ t : Fin grid0.N, win0_0.index t 0 = t.val ∧ win0_0.index t 1 = 0 ∧ win0_0.index t 2 = 0 := by decide +kernel
theorem idx7 : ∀ t : Fin grid0.N, win0_7.index t 0 = t.val ∧ win0_7.index t 1 = 0 ∧ win0_7.index t 2 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel

/-- Point t's input block: images 4 t .. 4 t + 3 of the flattened x. -/
theorem iblk0_apply (c : Dev nD) (t : Fin cfg0.N) (b : Fin 4) (p : Fin 1024) (ch : Fin 128) :
    (iblk m c 0 t : Vec Ideal S4x1024x128 .f32) (ix3 b p ch)
      = (V m c main_call0_v1 : S64x1024x128.Idx → EReal)
          (ix3 ⟨4 * t.val + b.val, by have := t_lt t; omega⟩ p ch) := by
  unfold iblk
  rw [View.read_apply]
  show V m c main_call0_v1 _ = V m c main_call0_v1 _
  congr 1
  funext a
  apply Fin.ext
  match a with
  | ⟨0, _⟩ => show win0_0.index t 0 * 4 + 1 * b.val = 4 * t.val + b.val; rw [(idx0 t).1]; omega
  | ⟨1, _⟩ => show win0_0.index t 1 * 1024 + 1 * p.val = p.val; rw [(idx0 t).2.1]; omega
  | ⟨2, _⟩ => show win0_0.index t 2 * 128 + 1 * ch.val = ch.val; rw [(idx0 t).2.2]; omega

/-- The other six blocks are their whole arrays. -/
theorem iblk1_eq (c : Dev nD) (t : Fin cfg0.N) : (iblk m c 1 t : Vec Ideal S1152x128 .bf16) = V m c main_call0_v25 := by
  funext y
  unfold iblk
  rw [View.read_apply]
  show V m c main_call0_v25 _ = V m c main_call0_v25 _
  congr 1; funext a; apply Fin.ext
  match a with
  | ⟨0, _⟩ => show win0_1.index t 0 * 1152 + 1 * (y 0).val = (y 0).val; rw [(idx1 t).1]; omega
  | ⟨1, _⟩ => show win0_1.index t 1 * 128 + 1 * (y 1).val = (y 1).val; rw [(idx1 t).2]; omega
theorem iblk2_eq (c : Dev nD) (t : Fin cfg0.N) : (iblk m c 2 t : Vec Ideal S1152x128 .bf16) = V m c main_call0_v28 := by
  funext y
  unfold iblk
  rw [View.read_apply]
  show V m c main_call0_v28 _ = V m c main_call0_v28 _
  congr 1; funext a; apply Fin.ext
  match a with
  | ⟨0, _⟩ => show win0_2.index t 0 * 1152 + 1 * (y 0).val = (y 0).val; rw [(idx2 t).1]; omega
  | ⟨1, _⟩ => show win0_2.index t 1 * 128 + 1 * (y 1).val = (y 1).val; rw [(idx2 t).2]; omega
theorem iblk3_eq (c : Dev nD) (t : Fin cfg0.N) : (iblk m c 3 t : Vec Ideal S8x128 .f32) = V m c main_call0_v22 := by
  funext y
  unfold iblk
  rw [View.read_apply]
  show V m c main_call0_v22 _ = V m c main_call0_v22 _
  congr 1; funext a; apply Fin.ext
  match a with
  | ⟨0, _⟩ => show win0_3.index t 0 * 8 + 1 * (y 0).val = (y 0).val; rw [(idx3 t).1]; omega
  | ⟨1, _⟩ => show win0_3.index t 1 * 128 + 1 * (y 1).val = (y 1).val; rw [(idx3 t).2]; omega
theorem iblk4_eq (c : Dev nD) (t : Fin cfg0.N) : (iblk m c 4 t : Vec Ideal S128x8 .f32) = V m c main_call0_v29 := by
  funext y
  unfold iblk
  rw [View.read_apply]
  show V m c main_call0_v29 _ = V m c main_call0_v29 _
  congr 1; funext a; apply Fin.ext
  match a with
  | ⟨0, _⟩ => show win0_4.index t 0 * 128 + 1 * (y 0).val = (y 0).val; rw [(idx4 t).1]; omega
  | ⟨1, _⟩ => show win0_4.index t 1 * 8 + 1 * (y 1).val = (y 1).val; rw [(idx4 t).2]; omega
theorem iblk5_eq (c : Dev nD) (t : Fin cfg0.N) : (iblk m c 5 t : Vec Ideal S128x128 .bf16) = V m c main_call0_v35 := by
  funext y
  unfold iblk
  rw [View.read_apply]
  show V m c main_call0_v35 _ = V m c main_call0_v35 _
  congr 1; funext a; apply Fin.ext
  match a with
  | ⟨0, _⟩ => show win0_5.index t 0 * 128 + 1 * (y 0).val = (y 0).val; rw [(idx5 t).1]; omega
  | ⟨1, _⟩ => show win0_5.index t 1 * 128 + 1 * (y 1).val = (y 1).val; rw [(idx5 t).2]; omega
theorem iblk6_eq (c : Dev nD) (t : Fin cfg0.N) : (iblk m c 6 t : Vec Ideal S128x128 .f32) = V m c main_call0_v41 := by
  funext y
  unfold iblk
  rw [View.read_apply]
  show V m c main_call0_v41 _ = V m c main_call0_v41 _
  congr 1; funext a; apply Fin.ext
  match a with
  | ⟨0, _⟩ => show win0_6.index t 0 * 128 + 1 * (y 0).val = (y 0).val; rw [(idx6 t).1]; omega
  | ⟨1, _⟩ => show win0_6.index t 1 * 128 + 1 * (y 1).val = (y 1).val; rw [(idx6 t).2]; omega

/-- What the output block holds after point t, at image b, pixel 32 h + w, channel ch. -/
theorem point_value (c : Dev nD) (t : Fin cfg0.N) (b : Fin 4) (h w : Fin 32) (ch : Fin 128) :
    outsAt0 m c t (ix3 b (ipix h w) ch)
      = resK m c (ix3 ⟨4 * t.val + b.val, by have := t_lt t; omega⟩ (ipix h w) ch) := by
  have ht := t_lt t
  unfold outsAt0
  rw [out_eq (F := Ideal) _ _ _ _ _ _ _ _ _ _ _ _ _ _ _ _ _ _ _ _ _ _ _ _ _ _ _
    Facts₀.inb_S128x8_S128x1_0_2 Facts₀.inb_S128x8_S128x1_0_3 Facts₀.inb_S8x128_S1x128_0_0 Facts₀.inb_S8x128_S1x128_1_0]
  rw [block_value (iblk m c 0 t) (iblk m c 1 t) (iblk m c 2 t) (iblk m c 3 t) (iblk m c 4 t) (iblk m c 5 t) (iblk m c 6 t)
    (fun k c' => by rw [iblk5_eq]; exact V_eye m c k c') (fun k c' => by rw [iblk6_eq]; exact V_eyef m c k c')]
  unfold resK specG Spec.G
  have himg : imgOf (iblk m c 0 t) b = fun h w c' =>
      (m ((c : Thread nD τ).loc main_arg0) : S64x128x32x32.Idx → EReal) (ix4 ⟨4 * t.val + b.val, by omega⟩ c' h w) := by
    funext h' w' c'
    unfold imgOf
    rw [iblk0_apply, V_x2d]
    refine congrArg _ (funext fun a => Fin.ext ?_)
    have hh := h'.isLt
    have hw := w'.isLt
    match a with
    | ⟨0, _⟩ => rfl
    | ⟨1, _⟩ => rfl
    | ⟨2, _⟩ => show (32 * h'.val + w'.val) / 32 = h'.val; omega
    | ⟨3, _⟩ => show (32 * h'.val + w'.val) % 32 = w'.val; omega
  have hw1 : wtOf (iblk m c 1 t) = fun dy dx ci co =>
      (m ((c : Thread nD τ).loc main_arg1) : S128x128x3x3.Idx → EReal) (ix4 co ci dy dx) := by
    funext dy dx ci co
    unfold wtOf
    rw [iblk1_eq, V_w1k]
    refine congrArg _ (funext fun a => Fin.ext ?_)
    have h1 := dy.isLt; have h2 := dx.isLt; have h3 := ci.isLt
    match a with
    | ⟨0, _⟩ => rfl
    | ⟨1, _⟩ => show (128 * (3 * dy.val + dx.val) + ci.val) % 128 = ci.val; omega
    | ⟨2, _⟩ => show (128 * (3 * dy.val + dx.val) + ci.val) / 128 / 3 = dy.val; omega
    | ⟨3, _⟩ => show (128 * (3 * dy.val + dx.val) + ci.val) / 128 % 3 = dx.val; omega
  have hw2 : wtOf (iblk m c 2 t) = fun dy dx ci co =>
      (m ((c : Thread nD τ).loc main_arg2) : S128x128x3x3.Idx → EReal) (ix4 co ci dy dx) := by
    funext dy dx ci co
    unfold wtOf
    rw [iblk2_eq, V_w2k]
    refine congrArg _ (funext fun a => Fin.ext ?_)
    have h1 := dy.isLt; have h2 := dx.isLt; have h3 := ci.isLt
    match a with
    | ⟨0, _⟩ => rfl
    | ⟨1, _⟩ => show (128 * (3 * dy.val + dx.val) + ci.val) % 128 = ci.val; omega
    | ⟨2, _⟩ => show (128 * (3 * dy.val + dx.val) + ci.val) / 128 / 3 = dy.val; omega
    | ⟨3, _⟩ => show (128 * (3 * dy.val + dx.val) + ci.val) / 128 % 3 = dx.val; omega
  have hs1 : (fun c' : Fin 128 => (iblk m c 3 t : Vec Ideal S8x128 .f32) (ix2 (0 : Fin 8) c'))
      = Spec.scale (m ((c : Thread nD τ).loc main_arg3)) (m ((c : Thread nD τ).loc main_arg6)) := by
    funext c'; rw [iblk3_eq, V_bn]; exact (bnTable_rows m c c').1
  have hb1 : (fun c' : Fin 128 => (iblk m c 3 t : Vec Ideal S8x128 .f32) (ix2 (1 : Fin 8) c'))
      = Spec.shift (m ((c : Thread nD τ).loc main_arg4)) (m ((c : Thread nD τ).loc main_arg5))
          (Spec.scale (m ((c : Thread nD τ).loc main_arg3)) (m ((c : Thread nD τ).loc main_arg6))) := by
    funext c'; rw [iblk3_eq, V_bn]; exact (bnTable_rows m c c').2.1
  have hs2 : (fun c' : Fin 128 => (iblk m c 4 t : Vec Ideal S128x8 .f32) (ix2 c' (2 : Fin 8)))
      = Spec.scale (m ((c : Thread nD τ).loc main_arg7)) (m ((c : Thread nD τ).loc main_arg10)) := by
    funext c'; rw [iblk4_eq, V_bnc_apply]; exact (bnTable_rows m c c').2.2.1
  have hb2 : (fun c' : Fin 128 => (iblk m c 4 t : Vec Ideal S128x8 .f32) (ix2 c' (3 : Fin 8)))
      = Spec.shift (m ((c : Thread nD τ).loc main_arg8)) (m ((c : Thread nD τ).loc main_arg9))
          (Spec.scale (m ((c : Thread nD τ).loc main_arg7)) (m ((c : Thread nD τ).loc main_arg10))) := by
    funext c'; rw [iblk4_eq, V_bnc_apply]; exact (bnTable_rows m c c').2.2.2
  rw [himg, hw1, hw2, hs1, hb1, hs2, hb2]
  have hh := h.isLt
  have hw := w.isLt
  congr 1
  · exact Fin.ext (by show h.val = (32 * h.val + w.val) / 32; omega)
  · exact Fin.ext (by show w.val = (32 * h.val + w.val) % 32; omega)

/-- What point t writes back is block t of `resK`. -/
theorem flushed_eq (c : Dev nD) (t : Fin cfg0.N) (hf : (cfg0.win 7).flush t = true) :
    (dats m 0 c).flushed 7 t = ((cfg0.win 7).blk t).view.read (Elt Ideal) (resK m c) := by
  have ht := t_lt t
  show (cfg0.win 7).cut (grid0.coords t) ((dats m 0 c).after 7 t) = _
  rw [after0_7]
  funext j
  show outsAt0 m c t j = resK m c (((cfg0.win 7).blk t).view.emb j)
  obtain ⟨b, p, ch, rfl⟩ : ∃ (b : Fin 4) (p : Fin 1024) (ch : Fin 128), j = ix3 b p ch := ⟨j 0, j 1, j 2, eq_ix3 j⟩
  have hp := p.isLt
  obtain ⟨h, w, rfl⟩ : ∃ h w : Fin 32, p = ipix h w :=
    ⟨⟨p.val / 32, by omega⟩, ⟨p.val % 32, by omega⟩, Fin.ext (by show p.val = 32 * (p.val / 32) + p.val % 32; omega)⟩
  rw [point_value]
  refine congrArg (resK m c) (funext fun a => Fin.ext ?_)
  match a with
  | ⟨0, _⟩ => show 4 * t.val + b.val = win0_7.index t 0 * 4 + 1 * b.val; rw [(idx7 t).1]; omega
  | ⟨1, _⟩ =>
    show 32 * h.val + w.val = win0_7.index t 1 * 1024 + 1 * (32 * h.val + w.val)
    rw [(idx7 t).2.1]; omega
  | ⟨2, _⟩ => show ch.val = win0_7.index t 2 * 128 + 1 * ch.val; rw [(idx7 t).2.2]; omega

/-- An index of the array is in point t's block iff each coordinate is in the block's range. -/
theorem mem_blk7 (t : Fin cfg0.N) (i : S64x1024x128.Idx) :
    i ∈ ((cfg0.win 7).blk t).view.set ↔ ∀ a : Fin 3, win0_7.index t a * S4x1024x128.size a ≤ (i a).val
      ∧ (i a).val < win0_7.index t a * S4x1024x128.size a + S4x1024x128.size a := by
  show i ∈ ((View.whole main_call0_v42).slice (win0_7.rect t)).set ↔ _
  rw [View.set_slice_whole, Rect.mem_set_unit]
  exact Iff.rfl

/-- The array after the region. -/
theorem final (c : Dev nD) : (dats m 0 c).arrAt 7 cfg0.N = resK m c :=
  (dats m 0 c).arrAt_eq_of_cover 7 (resK m c) (flushed_eq m c) fun i => by
    have h0 : (i 0).val < 64 := (i 0).isLt
    have h1 : (i 1).val < 1024 := (i 1).isLt
    have h2 : (i 2).val < 128 := (i 2).isLt
    refine ⟨⟨(i 0).val / 4, by rw [hN]; omega⟩, flush0_7 _, ?_⟩
    rw [mem_blk7]
    intro a
    match a with
    | ⟨0, _⟩ =>
      show win0_7.index ⟨(i 0).val / 4, _⟩ 0 * 4 ≤ (i 0).val ∧ (i 0).val < win0_7.index ⟨(i 0).val / 4, _⟩ 0 * 4 + 4
      rw [(idx7 _).1]
      show (i 0).val / 4 * 4 ≤ (i 0).val ∧ (i 0).val < (i 0).val / 4 * 4 + 4
      omega
    | ⟨1, _⟩ =>
      show win0_7.index ⟨(i 0).val / 4, _⟩ 1 * 1024 ≤ (i 1).val ∧ (i 1).val < win0_7.index ⟨(i 0).val / 4, _⟩ 1 * 1024 + 1024
      rw [(idx7 _).2.1]; omega
    | ⟨2, _⟩ =>
      show win0_7.index ⟨(i 0).val / 4, _⟩ 2 * 128 ≤ (i 2).val ∧ (i 2).val < win0_7.index ⟨(i 0).val / 4, _⟩ 2 * 128 + 128
      rw [(idx7 _).2.2]; omega

/-- The host's reshape and transpose after the region turn `resK` into the specification's result. -/
theorem tail_eq (c : Dev nD) :
    Pipeline.afterTail₀ cfgs (dats m) 0 (V0 m) [hostOps1] c main_v0 = specG m c := by
  unfold Pipeline.afterTail₀
  show StableHlo.after hostOps1 _ (Proc.devRef .tc main_v0) = _
  after_results
  rw [(Pipeline.withArrays_arr spec0 launch0.win.arr_inj c _ _ 7).trans (final m c)]
  show transpose S64x128x32x32 [0, 3, 1, 2] (shapeCast S64x32x32x128 (resK m c) Facts₀.shapeCasts_S64x1024x128_S64x32x32x128)
    Facts₀.transposes_S64x32x32x128_S64x128x32x32_0_3_1_2 = specG m c
  funext i
  obtain ⟨n, ch, h, w, rfl⟩ : ∃ (n : Fin 64) (ch : Fin 128) (h w : Fin 32), i = ix4 n ch h w := ⟨i 0, i 1, i 2, i 3, eq_ix4 i⟩
  have hh := h.isLt
  have hw := w.isLt
  refine (transpose_apply _ _ _ _ (ix4 n h w ch) (fun b => by
    match b with
    | ⟨0, _⟩ => rfl
    | ⟨1, _⟩ => rfl
    | ⟨2, _⟩ => rfl
    | ⟨3, _⟩ => rfl)).trans ?_
  refine (shapeCast_apply _ _ _ (ix3 n (ipix h w) ch) ?_).trans ?_
  · rw [Shape.rowMajor_val_three, Shape.rowMajor_val_four]
    show (n.val * 1024 + (32 * h.val + w.val)) * 128 + ch.val = ((n.val * 32 + h.val) * 32 + w.val) * 128 + ch.val
    omega
  · unfold resK
    refine congrArg (specG m c) (funext fun a => Fin.ext ?_)
    match a with
    | ⟨0, _⟩ => rfl
    | ⟨1, _⟩ => rfl
    | ⟨2, _⟩ => show (32 * h.val + w.val) / 32 = h.val; omega
    | ⟨3, _⟩ => show (32 * h.val + w.val) % 32 = w.val; omega

/-- The run, read: the result at the specification's value of the arguments, the arguments unchanged. -/
theorem run : θ_run defs (onTc (τ := τ) (main (F := Ideal))) ⟨m, fun _ => 0, ρ⟩ (fun r => ∀ c : Dev nD,
      r.2.mem ((c : Thread nD τ).loc main_v0) = specG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)) :=
  (θ_run defs _ _).mono (fun _ h c => ⟨((h c).2 main_v0 (Pipeline.mem_restRefs_of main_v0 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩)
    (run_main m ρ)

end Cert.KernelIdeal.KerValue

end
-- ==== Proof.RefFound.lean ====
/-
  What the body's stores leave, with every part named.

  One image is processed per grid point. The body reads the image block (1024 rows of 128 channels), the four
  rows of the folded-normalisation table and the nine taps of each weight, and works through two scratch grids of
  1160 rows: a grid is first filled with zeros and then receives 32 blocks of 32 rows, block h at row
  (h + 1) * 34 + 1 — the image rows laid on a 34 x 34 grid with a ring of zeros. A convolution reads nine slabs of
  1088 consecutive rows of a grid, slab (dy, dx) from row dy * 34 + dx, multiplies each by its tap and adds the
  nine products up from zero. This module names each of these values (the first activation, the first grid, its
  slabs, the first convolution, the second activation, the second grid, its slabs, the second convolution, the
  32 blocks of output rows) as a definition over the values read, and shows that the list of pieces the run found
  for the output window is the list of the 32 output blocks so named.
-/
import proofs.«108192_g2000002599257424_pallasbulk_288_18_alg».proof.Proof.Gen.ReferenceIdeal.Frame

set_option maxRecDepth 16384

noncomputable section

namespace Cert.ReferenceIdeal.RefValue

open Idealize.ShloMosaic Idealize.ShloMosaic.TcCoe Idealize.ShloMosaic.Tactic
open Idealize.SL Idealize.SL.Sem
open Cert.ReferenceIdeal Cert.ReferenceIdeal.Gen

variable {F : FTy → Type} [FloatOps F]

/-- Row 0 of the normalisation table as the body loads it (scale 1). -/
def bnRow0 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1x128 .f32 :=
  View.readAt (Elt F) M4.view (Rect.unit (s := S4x128) ![0, 0] S1x128.size inb_S4x128_S1x128_0_0).toLoadRect (h4.unread x3)

/-- Row 1 of the normalisation table as the body loads it (shift 1). -/
def bnRow1 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1x128 .f32 :=
  View.readAt (Elt F) M4.view (Rect.unit (s := S4x128) ![1, 0] S1x128.size inb_S4x128_S1x128_1_0).toLoadRect (h4.unread x3)

/-- Row 2 of the normalisation table as the body loads it (scale 2). -/
def bnRow2 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1x128 .f32 :=
  View.readAt (Elt F) M4.view (Rect.unit (s := S4x128) ![2, 0] S1x128.size inb_S4x128_S1x128_2_0).toLoadRect (h4.unread x3)

/-- Row 3 of the normalisation table as the body loads it (shift 2). -/
def bnRow3 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1x128 .f32 :=
  View.readAt (Elt F) M4.view (Rect.unit (s := S4x128) ![3, 0] S1x128.size inb_S4x128_S1x128_3_0).toLoadRect (h4.unread x3)

/-- The image block as the body loads it. -/
def imgRead (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1x1024x128 .f32 :=
  View.readAt (Elt F) M1.view (Rect.unit (s := S1x1024x128) ![0, 0, 0] S1x1024x128.size inb_S1x1024x128_S1x1024x128_0_0_0).toLoadRect (h1.unread x0)

/-- Tap 0 (dy = 0, dx = 0) of the first weight as the body loads it. -/
def tap1_0 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1x128x128 .bf16 :=
  View.readAt (Elt F) M2.view (Rect.unit (s := S9x128x128) ![0, 0, 0] S1x128x128.size inb_S9x128x128_S1x128x128_0_0_0).toLoadRect (h2.unread x1)

/-- Tap 1 (dy = 0, dx = 1) of the first weight as the body loads it. -/
def tap1_1 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1x128x128 .bf16 :=
  View.readAt (Elt F) M2.view (Rect.unit (s := S9x128x128) ![1, 0, 0] S1x128x128.size inb_S9x128x128_S1x128x128_1_0_0).toLoadRect (h2.unread x1)

/-- Tap 2 (dy = 0, dx = 2) of the first weight as the body loads it. -/
def tap1_2 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1x128x128 .bf16 :=
  View.readAt (Elt F) M2.view (Rect.unit (s := S9x128x128) ![2, 0, 0] S1x128x128.size inb_S9x128x128_S1x128x128_2_0_0).toLoadRect (h2.unread x1)

/-- Tap 3 (dy = 1, dx = 0) of the first weight as the body loads it. -/
def tap1_3 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1x128x128 .bf16 :=
  View.readAt (Elt F) M2.view (Rect.unit (s := S9x128x128) ![3, 0, 0] S1x128x128.size inb_S9x128x128_S1x128x128_3_0_0).toLoadRect (h2.unread x1)

/-- Tap 4 (dy = 1, dx = 1) of the first weight as the body loads it. -/
def tap1_4 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1x128x128 .bf16 :=
  View.readAt (Elt F) M2.view (Rect.unit (s := S9x128x128) ![4, 0, 0] S1x128x128.size inb_S9x128x128_S1x128x128_4_0_0).toLoadRect (h2.unread x1)

/-- Tap 5 (dy = 1, dx = 2) of the first weight as the body loads it. -/
def tap1_5 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1x128x128 .bf16 :=
  View.readAt (Elt F) M2.view (Rect.unit (s := S9x128x128) ![5, 0, 0] S1x128x128.size inb_S9x128x128_S1x128x128_5_0_0).toLoadRect (h2.unread x1)

/-- Tap 6 (dy = 2, dx = 0) of the first weight as the body loads it. -/
def tap1_6 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1x128x128 .bf16 :=
  View.readAt (Elt F) M2.view (Rect.unit (s := S9x128x128) ![6, 0, 0] S1x128x128.size inb_S9x128x128_S1x128x128_6_0_0).toLoadRect (h2.unread x1)

/-- Tap 7 (dy = 2, dx = 1) of the first weight as the body loads it. -/
def tap1_7 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1x128x128 .bf16 :=
  View.readAt (Elt F) M2.view (Rect.unit (s := S9x128x128) ![7, 0, 0] S1x128x128.size inb_S9x128x128_S1x128x128_7_0_0).toLoadRect (h2.unread x1)

/-- Tap 8 (dy = 2, dx = 2) of the first weight as the body loads it. -/
def tap1_8 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1x128x128 .bf16 :=
  View.readAt (Elt F) M2.view (Rect.unit (s := S9x128x128) ![8, 0, 0] S1x128x128.size inb_S9x128x128_S1x128x128_8_0_0).toLoadRect (h2.unread x1)

/-- Tap 0 (dy = 0, dx = 0) of the second weight as the body loads it. -/
def tap2_0 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1x128x128 .bf16 :=
  View.readAt (Elt F) M3.view (Rect.unit (s := S9x128x128) ![0, 0, 0] S1x128x128.size inb_S9x128x128_S1x128x128_0_0_0).toLoadRect (h3.unread x2)

/-- Tap 1 (dy = 0, dx = 1) of the second weight as the body loads it. -/
def tap2_1 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1x128x128 .bf16 :=
  View.readAt (Elt F) M3.view (Rect.unit (s := S9x128x128) ![1, 0, 0] S1x128x128.size inb_S9x128x128_S1x128x128_1_0_0).toLoadRect (h3.unread x2)

/-- Tap 2 (dy = 0, dx = 2) of the second weight as the body loads it. -/
def tap2_2 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1x128x128 .bf16 :=
  View.readAt (Elt F) M3.view (Rect.unit (s := S9x128x128) ![2, 0, 0] S1x128x128.size inb_S9x128x128_S1x128x128_2_0_0).toLoadRect (h3.unread x2)

/-- Tap 3 (dy = 1, dx = 0) of the second weight as the body loads it. -/
def tap2_3 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1x128x128 .bf16 :=
  View.readAt (Elt F) M3.view (Rect.unit (s := S9x128x128) ![3, 0, 0] S1x128x128.size inb_S9x128x128_S1x128x128_3_0_0).toLoadRect (h3.unread x2)

/-- Tap 4 (dy = 1, dx = 1) of the second weight as the body loads it. -/
def tap2_4 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1x128x128 .bf16 :=
  View.readAt (Elt F) M3.view (Rect.unit (s := S9x128x128) ![4, 0, 0] S1x128x128.size inb_S9x128x128_S1x128x128_4_0_0).toLoadRect (h3.unread x2)

/-- Tap 5 (dy = 1, dx = 2) of the second weight as the body loads it. -/
def tap2_5 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1x128x128 .bf16 :=
  View.readAt (Elt F) M3.view (Rect.unit (s := S9x128x128) ![5, 0, 0] S1x128x128.size inb_S9x128x128_S1x128x128_5_0_0).toLoadRect (h3.unread x2)

/-- Tap 6 (dy = 2, dx = 0) of the second weight as the body loads it. -/
def tap2_6 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1x128x128 .bf16 :=
  View.readAt (Elt F) M3.view (Rect.unit (s := S9x128x128) ![6, 0, 0] S1x128x128.size inb_S9x128x128_S1x128x128_6_0_0).toLoadRect (h3.unread x2)

/-- Tap 7 (dy = 2, dx = 1) of the second weight as the body loads it. -/
def tap2_7 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1x128x128 .bf16 :=
  View.readAt (Elt F) M3.view (Rect.unit (s := S9x128x128) ![7, 0, 0] S1x128x128.size inb_S9x128x128_S1x128x128_7_0_0).toLoadRect (h3.unread x2)

/-- Tap 8 (dy = 2, dx = 2) of the second weight as the body loads it. -/
def tap2_8 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1x128x128 .bf16 :=
  View.readAt (Elt F) M3.view (Rect.unit (s := S9x128x128) ![8, 0, 0] S1x128x128.size inb_S9x128x128_S1x128x128_8_0_0).toLoadRect (h3.unread x2)

/-- The first activation: max (x * scale 1 + shift 1, 0) on the 1024 image rows. -/
def act1 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : FVec F S1024x128 .f32 := k0_pay7 (bnRow0 M1 h1 M2 h2 M3 h3 M4 h4 v6 v7 x0 x1 x2 x3) (bnRow1 M1 h1 M2 h2 M3 h3 M4 h4 v6 v7 x0 x1 x2 x3) (imgRead M1 h1 M2 h2 M3 h3 M4 h4 v6 v7 x0 x1 x2 x3)

/-- The 32 blocks of rows stored into the first grid, last store first: block h at grid row (h + 1) * 34 + 1; block h holds rows h * 32 .. h * 32 + 31 of the first activation. -/
def rows1 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : List (View.Piece (Elt F) S1160x128 .f32) :=
  [⟨Rect.unit (s := S1160x128) ![1089, 0] S32x128.size inb_S1160x128_S32x128_1089_0, k0_pay41 (act1 M1 h1 M2 h2 M3 h3 M4 h4 v6 v7 x0 x1 x2 x3)⟩,
   ⟨Rect.unit (s := S1160x128) ![1055, 0] S32x128.size inb_S1160x128_S32x128_1055_0, k0_pay40 (act1 M1 h1 M2 h2 M3 h3 M4 h4 v6 v7 x0 x1 x2 x3)⟩,
   ⟨Rect.unit (s := S1160x128) ![1021, 0] S32x128.size inb_S1160x128_S32x128_1021_0, k0_pay39 (act1 M1 h1 M2 h2 M3 h3 M4 h4 v6 v7 x0 x1 x2 x3)⟩,
   ⟨Rect.unit (s := S1160x128) ![987, 0] S32x128.size inb_S1160x128_S32x128_987_0, k0_pay38 (act1 M1 h1 M2 h2 M3 h3 M4 h4 v6 v7 x0 x1 x2 x3)⟩,
   ⟨Rect.unit (s := S1160x128) ![953, 0] S32x128.size inb_S1160x128_S32x128_953_0, k0_pay37 (act1 M1 h1 M2 h2 M3 h3 M4 h4 v6 v7 x0 x1 x2 x3)⟩,
   ⟨Rect.unit (s := S1160x128) ![919, 0] S32x128.size inb_S1160x128_S32x128_919_0, k0_pay36 (act1 M1 h1 M2 h2 M3 h3 M4 h4 v6 v7 x0 x1 x2 x3)⟩,
   ⟨Rect.unit (s := S1160x128) ![885, 0] S32x128.size inb_S1160x128_S32x128_885_0, k0_pay35 (act1 M1 h1 M2 h2 M3 h3 M4 h4 v6 v7 x0 x1 x2 x3)⟩,
   ⟨Rect.unit (s := S1160x128) ![851, 0] S32x128.size inb_S1160x128_S32x128_851_0, k0_pay34 (act1 M1 h1 M2 h2 M3 h3 M4 h4 v6 v7 x0 x1 x2 x3)⟩,
   ⟨Rect.unit (s := S1160x128) ![817, 0] S32x128.size inb_S1160x128_S32x128_817_0, k0_pay33 (act1 M1 h1 M2 h2 M3 h3 M4 h4 v6 v7 x0 x1 x2 x3)⟩,
   ⟨Rect.unit (s := S1160x128) ![783, 0] S32x128.size inb_S1160x128_S32x128_783_0, k0_pay32 (act1 M1 h1 M2 h2 M3 h3 M4 h4 v6 v7 x0 x1 x2 x3)⟩,
   ⟨Rect.unit (s := S1160x128) ![749, 0] S32x128.size inb_S1160x128_S32x128_749_0, k0_pay31 (act1 M1 h1 M2 h2 M3 h3 M4 h4 v6 v7 x0 x1 x2 x3)⟩,
   ⟨Rect.unit (s := S1160x128) ![715, 0] S32x128.size inb_S1160x128_S32x128_715_0, k0_pay30 (k0_pay29 (act1 M1 h1 M2 h2 M3 h3 M4 h4 v6 v7 x0 x1 x2 x3))⟩,
   ⟨Rect.unit (s := S1160x128) ![681, 0] S32x128.size inb_S1160x128_S32x128_681_0, k0_pay28 (act1 M1 h1 M2 h2 M3 h3 M4 h4 v6 v7 x0 x1 x2 x3)⟩,
   ⟨Rect.unit (s := S1160x128) ![647, 0] S32x128.size inb_S1160x128_S32x128_647_0, k0_pay27 (act1 M1 h1 M2 h2 M3 h3 M4 h4 v6 v7 x0 x1 x2 x3)⟩,
   ⟨Rect.unit (s := S1160x128) ![613, 0] S32x128.size inb_S1160x128_S32x128_613_0, k0_pay26 (act1 M1 h1 M2 h2 M3 h3 M4 h4 v6 v7 x0 x1 x2 x3)⟩,
   ⟨Rect.unit (s := S1160x128) ![579, 0] S32x128.size inb_S1160x128_S32x128_579_0, k0_pay25 (act1 M1 h1 M2 h2 M3 h3 M4 h4 v6 v7 x0 x1 x2 x3)⟩,
   ⟨Rect.unit (s := S1160x128) ![545, 0] S32x128.size inb_S1160x128_S32x128_545_0, k0_pay24 (act1 M1 h1 M2 h2 M3 h3 M4 h4 v6 v7 x0 x1 x2 x3)⟩,
   ⟨Rect.unit (s := S1160x128) ![511, 0] S32x128.size inb_S1160x128_S32x128_511_0, k0_pay23 (act1 M1 h1 M2 h2 M3 h3 M4 h4 v6 v7 x0 x1 x2 x3)⟩,
   ⟨Rect.unit (s := S1160x128) ![477, 0] S32x128.size inb_S1160x128_S32x128_477_0, k0_pay22 (act1 M1 h1 M2 h2 M3 h3 M4 h4 v6 v7 x0 x1 x2 x3)⟩,
   ⟨Rect.unit (s := S1160x128) ![443, 0] S32x128.size inb_S1160x128_S32x128_443_0, k0_pay21 (act1 M1 h1 M2 h2 M3 h3 M4 h4 v6 v7 x0 x1 x2 x3)⟩,
   ⟨Rect.unit (s := S1160x128) ![409, 0] S32x128.size inb_S1160x128_S32x128_409_0, k0_pay20 (act1 M1 h1 M2 h2 M3 h3 M4 h4 v6 v7 x0 x1 x2 x3)⟩,
   ⟨Rect.unit (s := S1160x128) ![375, 0] S32x128.size inb_S1160x128_S32x128_375_0, k0_pay19 (act1 M1 h1 M2 h2 M3 h3 M4 h4 v6 v7 x0 x1 x2 x3)⟩,
   ⟨Rect.unit (s := S1160x128) ![341, 0] S32x128.size inb_S1160x128_S32x128_341_0, k0_pay18 (act1 M1 h1 M2 h2 M3 h3 M4 h4 v6 v7 x0 x1 x2 x3)⟩,
   ⟨Rect.unit (s := S1160x128) ![307, 0] S32x128.size inb_S1160x128_S32x128_307_0, k0_pay17 (act1 M1 h1 M2 h2 M3 h3 M4 h4 v6 v7 x0 x1 x2 x3)⟩,
   ⟨Rect.unit (s := S1160x128) ![273, 0] S32x128.size inb_S1160x128_S32x128_273_0, k0_pay16 (act1 M1 h1 M2 h2 M3 h3 M4 h4 v6 v7 x0 x1 x2 x3)⟩,
   ⟨Rect.unit (s := S1160x128) ![239, 0] S32x128.size inb_S1160x128_S32x128_239_0, k0_pay15 (act1 M1 h1 M2 h2 M3 h3 M4 h4 v6 v7 x0 x1 x2 x3)⟩,
   ⟨Rect.unit (s := S1160x128) ![205, 0] S32x128.size inb_S1160x128_S32x128_205_0, k0_pay14 (act1 M1 h1 M2 h2 M3 h3 M4 h4 v6 v7 x0 x1 x2 x3)⟩,
   ⟨Rect.unit (s := S1160x128) ![171, 0] S32x128.size inb_S1160x128_S32x128_171_0, k0_pay13 (act1 M1 h1 M2 h2 M3 h3 M4 h4 v6 v7 x0 x1 x2 x3)⟩,
   ⟨Rect.unit (s := S1160x128) ![137, 0] S32x128.size inb_S1160x128_S32x128_137_0, k0_pay12 (k0_pay11 (bnRow0 M1 h1 M2 h2 M3 h3 M4 h4 v6 v7 x0 x1 x2 x3) (bnRow1 M1 h1 M2 h2 M3 h3 M4 h4 v6 v7 x0 x1 x2 x3) (imgRead M1 h1 M2 h2 M3 h3 M4 h4 v6 v7 x0 x1 x2 x3))⟩,
   ⟨Rect.unit (s := S1160x128) ![103, 0] S32x128.size inb_S1160x128_S32x128_103_0, k0_pay10 (bnRow0 M1 h1 M2 h2 M3 h3 M4 h4 v6 v7 x0 x1 x2 x3) (bnRow1 M1 h1 M2 h2 M3 h3 M4 h4 v6 v7 x0 x1 x2 x3) (imgRead M1 h1 M2 h2 M3 h3 M4 h4 v6 v7 x0 x1 x2 x3)⟩,
   ⟨Rect.unit (s := S1160x128) ![69, 0] S32x128.size inb_S1160x128_S32x128_69_0, k0_pay9 (bnRow0 M1 h1 M2 h2 M3 h3 M4 h4 v6 v7 x0 x1 x2 x3) (bnRow1 M1 h1 M2 h2 M3 h3 M4 h4 v6 v7 x0 x1 x2 x3) (imgRead M1 h1 M2 h2 M3 h3 M4 h4 v6 v7 x0 x1 x2 x3)⟩,
   ⟨Rect.unit (s := S1160x128) ![35, 0] S32x128.size inb_S1160x128_S32x128_35_0, k0_pay8 (bnRow0 M1 h1 M2 h2 M3 h3 M4 h4 v6 v7 x0 x1 x2 x3) (bnRow1 M1 h1 M2 h2 M3 h3 M4 h4 v6 v7 x0 x1 x2 x3) (imgRead M1 h1 M2 h2 M3 h3 M4 h4 v6 v7 x0 x1 x2 x3)⟩]

/-- The first grid's pieces, last store first: the 32 blocks over the zero fill of the whole grid. -/
def grid1 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : List (View.Piece (Elt F) S1160x128 .f32) :=
  rows1 M1 h1 M2 h2 M3 h3 M4 h4 v6 v7 x0 x1 x2 x3 ++ [⟨Rect.unit (s := S1160x128) ![0, 0] S1160x128.size inb_S1160x128_S1160x128_0_0, k0_pay6⟩]

/-- The slab of 1088 rows of the first grid from row 0. -/
def slab1_0 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1088x128 .f32 :=
  v6.readCov (grid1 M1 h1 M2 h2 M3 h3 M4 h4 v6 v7 x0 x1 x2 x3) (Rect.unit (s := S1160x128) ![0, 0] S1088x128.size inb_S1160x128_S1088x128_0_0).toLoadRect

/-- The slab of 1088 rows of the first grid from row 1. -/
def slab1_1 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1088x128 .f32 :=
  v6.readCov (grid1 M1 h1 M2 h2 M3 h3 M4 h4 v6 v7 x0 x1 x2 x3) (Rect.unit (s := S1160x128) ![1, 0] S1088x128.size inb_S1160x128_S1088x128_1_0).toLoadRect

/-- The slab of 1088 rows of the first grid from row 2. -/
def slab1_2 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1088x128 .f32 :=
  v6.readCov (grid1 M1 h1 M2 h2 M3 h3 M4 h4 v6 v7 x0 x1 x2 x3) (Rect.unit (s := S1160x128) ![2, 0] S1088x128.size inb_S1160x128_S1088x128_2_0).toLoadRect

/-- The slab of 1088 rows of the first grid from row 34. -/
def slab1_34 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1088x128 .f32 :=
  v6.readCov (grid1 M1 h1 M2 h2 M3 h3 M4 h4 v6 v7 x0 x1 x2 x3) (Rect.unit (s := S1160x128) ![34, 0] S1088x128.size inb_S1160x128_S1088x128_34_0).toLoadRect

/-- The slab of 1088 rows of the first grid from row 35. -/
def slab1_35 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1088x128 .f32 :=
  v6.readCov (grid1 M1 h1 M2 h2 M3 h3 M4 h4 v6 v7 x0 x1 x2 x3) (Rect.unit (s := S1160x128) ![35, 0] S1088x128.size inb_S1160x128_S1088x128_35_0).toLoadRect

/-- The slab of 1088 rows of the first grid from row 36. -/
def slab1_36 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1088x128 .f32 :=
  v6.readCov (grid1 M1 h1 M2 h2 M3 h3 M4 h4 v6 v7 x0 x1 x2 x3) (Rect.unit (s := S1160x128) ![36, 0] S1088x128.size inb_S1160x128_S1088x128_36_0).toLoadRect

/-- The slab of 1088 rows of the first grid from row 68. -/
def slab1_68 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1088x128 .f32 :=
  v6.readCov (grid1 M1 h1 M2 h2 M3 h3 M4 h4 v6 v7 x0 x1 x2 x3) (Rect.unit (s := S1160x128) ![68, 0] S1088x128.size inb_S1160x128_S1088x128_68_0).toLoadRect

/-- The slab of 1088 rows of the first grid from row 69. -/
def slab1_69 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1088x128 .f32 :=
  v6.readCov (grid1 M1 h1 M2 h2 M3 h3 M4 h4 v6 v7 x0 x1 x2 x3) (Rect.unit (s := S1160x128) ![69, 0] S1088x128.size inb_S1160x128_S1088x128_69_0).toLoadRect

/-- The slab of 1088 rows of the first grid from row 70. -/
def slab1_70 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1088x128 .f32 :=
  v6.readCov (grid1 M1 h1 M2 h2 M3 h3 M4 h4 v6 v7 x0 x1 x2 x3) (Rect.unit (s := S1160x128) ![70, 0] S1088x128.size inb_S1160x128_S1088x128_70_0).toLoadRect

/-- The first convolution after taps 0, 1, 2. -/
def conv1a (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : FVec F S1088x128 .f32 :=
  k0_pay42 (slab1_0 M1 h1 M2 h2 M3 h3 M4 h4 v6 v7 x0 x1 x2 x3) (tap1_0 M1 h1 M2 h2 M3 h3 M4 h4 v6 v7 x0 x1 x2 x3) (slab1_1 M1 h1 M2 h2 M3 h3 M4 h4 v6 v7 x0 x1 x2 x3) (tap1_1 M1 h1 M2 h2 M3 h3 M4 h4 v6 v7 x0 x1 x2 x3) (slab1_2 M1 h1 M2 h2 M3 h3 M4 h4 v6 v7 x0 x1 x2 x3) (tap1_2 M1 h1 M2 h2 M3 h3 M4 h4 v6 v7 x0 x1 x2 x3)

/-- The first convolution after taps 0 to 7. -/
def conv1b (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : FVec F S1088x128 .f32 :=
  k0_pay43 (conv1a M1 h1 M2 h2 M3 h3 M4 h4 v6 v7 x0 x1 x2 x3) (slab1_34 M1 h1 M2 h2 M3 h3 M4 h4 v6 v7 x0 x1 x2 x3) (tap1_3 M1 h1 M2 h2 M3 h3 M4 h4 v6 v7 x0 x1 x2 x3) (slab1_35 M1 h1 M2 h2 M3 h3 M4 h4 v6 v7 x0 x1 x2 x3) (tap1_4 M1 h1 M2 h2 M3 h3 M4 h4 v6 v7 x0 x1 x2 x3) (slab1_36 M1 h1 M2 h2 M3 h3 M4 h4 v6 v7 x0 x1 x2 x3) (tap1_5 M1 h1 M2 h2 M3 h3 M4 h4 v6 v7 x0 x1 x2 x3) (slab1_68 M1 h1 M2 h2 M3 h3 M4 h4 v6 v7 x0 x1 x2 x3) (tap1_6 M1 h1 M2 h2 M3 h3 M4 h4 v6 v7 x0 x1 x2 x3) (slab1_69 M1 h1 M2 h2 M3 h3 M4 h4 v6 v7 x0 x1 x2 x3) (tap1_7 M1 h1 M2 h2 M3 h3 M4 h4 v6 v7 x0 x1 x2 x3)

/-- The second activation: the ninth tap added, then max (. * scale 2 + shift 2, 0), on the 1088 slab rows. -/
def act2 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : FVec F S1088x128 .f32 := k0_pay44 (k0_pay3 (bnRow2 M1 h1 M2 h2 M3 h3 M4 h4 v6 v7 x0 x1 x2 x3)) (k0_pay4 (bnRow3 M1 h1 M2 h2 M3 h3 M4 h4 v6 v7 x0 x1 x2 x3)) (conv1b M1 h1 M2 h2 M3 h3 M4 h4 v6 v7 x0 x1 x2 x3) (slab1_70 M1 h1 M2 h2 M3 h3 M4 h4 v6 v7 x0 x1 x2 x3) (tap1_8 M1 h1 M2 h2 M3 h3 M4 h4 v6 v7 x0 x1 x2 x3)

/-- The 32 blocks of rows stored into the second grid, last store first: block h at grid row (h + 1) * 34 + 1; block h holds slab rows h * 34 .. h * 34 + 31 of the second activation. -/
def rows2 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : List (View.Piece (Elt F) S1160x128 .f32) :=
  [⟨Rect.unit (s := S1160x128) ![1089, 0] S32x128.size inb_S1160x128_S32x128_1089_0, k0_pay79 (act2 M1 h1 M2 h2 M3 h3 M4 h4 v6 v7 x0 x1 x2 x3)⟩,
   ⟨Rect.unit (s := S1160x128) ![1055, 0] S32x128.size inb_S1160x128_S32x128_1055_0, k0_pay78 (k0_pay77 (act2 M1 h1 M2 h2 M3 h3 M4 h4 v6 v7 x0 x1 x2 x3))⟩,
   ⟨Rect.unit (s := S1160x128) ![1021, 0] S32x128.size inb_S1160x128_S32x128_1021_0, k0_pay76 (act2 M1 h1 M2 h2 M3 h3 M4 h4 v6 v7 x0 x1 x2 x3)⟩,
   ⟨Rect.unit (s := S1160x128) ![987, 0] S32x128.size inb_S1160x128_S32x128_987_0, k0_pay75 (act2 M1 h1 M2 h2 M3 h3 M4 h4 v6 v7 x0 x1 x2 x3)⟩,
   ⟨Rect.unit (s := S1160x128) ![953, 0] S32x128.size inb_S1160x128_S32x128_953_0, k0_pay74 (act2 M1 h1 M2 h2 M3 h3 M4 h4 v6 v7 x0 x1 x2 x3)⟩,
   ⟨Rect.unit (s := S1160x128) ![919, 0] S32x128.size inb_S1160x128_S32x128_919_0, k0_pay73 (act2 M1 h1 M2 h2 M3 h3 M4 h4 v6 v7 x0 x1 x2 x3)⟩,
   ⟨Rect.unit (s := S1160x128) ![885, 0] S32x128.size inb_S1160x128_S32x128_885_0, k0_pay72 (act2 M1 h1 M2 h2 M3 h3 M4 h4 v6 v7 x0 x1 x2 x3)⟩,
   ⟨Rect.unit (s := S1160x128) ![851, 0] S32x128.size inb_S1160x128_S32x128_851_0, k0_pay71 (act2 M1 h1 M2 h2 M3 h3 M4 h4 v6 v7 x0 x1 x2 x3)⟩,
   ⟨Rect.unit (s := S1160x128) ![817, 0] S32x128.size inb_S1160x128_S32x128_817_0, k0_pay70 (act2 M1 h1 M2 h2 M3 h3 M4 h4 v6 v7 x0 x1 x2 x3)⟩,
   ⟨Rect.unit (s := S1160x128) ![783, 0] S32x128.size inb_S1160x128_S32x128_783_0, k0_pay69 (act2 M1 h1 M2 h2 M3 h3 M4 h4 v6 v7 x0 x1 x2 x3)⟩,
   ⟨Rect.unit (s := S1160x128) ![749, 0] S32x128.size inb_S1160x128_S32x128_749_0, k0_pay68 (act2 M1 h1 M2 h2 M3 h3 M4 h4 v6 v7 x0 x1 x2 x3)⟩,
   ⟨Rect.unit (s := S1160x128) ![715, 0] S32x128.size inb_S1160x128_S32x128_715_0, k0_pay67 (act2 M1 h1 M2 h2 M3 h3 M4 h4 v6 v7 x0 x1 x2 x3)⟩,
   ⟨Rect.unit (s := S1160x128) ![681, 0] S32x128.size inb_S1160x128_S32x128_681_0, k0_pay66 (act2 M1 h1 M2 h2 M3 h3 M4 h4 v6 v7 x0 x1 x2 x3)⟩,
   ⟨Rect.unit (s := S1160x128) ![647, 0] S32x128.size inb_S1160x128_S32x128_647_0, k0_pay65 (act2 M1 h1 M2 h2 M3 h3 M4 h4 v6 v7 x0 x1 x2 x3)⟩,
   ⟨Rect.unit (s := S1160x128) ![613, 0] S32x128.size inb_S1160x128_S32x128_613_0, k0_pay64 (act2 M1 h1 M2 h2 M3 h3 M4 h4 v6 v7 x0 x1 x2 x3)⟩,
   ⟨Rect.unit (s := S1160x128) ![579, 0] S32x128.size inb_S1160x128_S32x128_579_0, k0_pay63 (act2 M1 h1 M2 h2 M3 h3 M4 h4 v6 v7 x0 x1 x2 x3)⟩,
   ⟨Rect.unit (s := S1160x128) ![545, 0] S32x128.size inb_S1160x128_S32x128_545_0, k0_pay62 (act2 M1 h1 M2 h2 M3 h3 M4 h4 v6 v7 x0 x1 x2 x3)⟩,
   ⟨Rect.unit (s := S1160x128) ![511, 0] S32x128.size inb_S1160x128_S32x128_511_0, k0_pay61 (act2 M1 h1 M2 h2 M3 h3 M4 h4 v6 v7 x0 x1 x2 x3)⟩,
   ⟨Rect.unit (s := S1160x128) ![477, 0] S32x128.size inb_S1160x128_S32x128_477_0, k0_pay60 (k0_pay59 (act2 M1 h1 M2 h2 M3 h3 M4 h4 v6 v7 x0 x1 x2 x3))⟩,
   ⟨Rect.unit (s := S1160x128) ![443, 0] S32x128.size inb_S1160x128_S32x128_443_0, k0_pay58 (act2 M1 h1 M2 h2 M3 h3 M4 h4 v6 v7 x0 x1 x2 x3)⟩,
   ⟨Rect.unit (s := S1160x128) ![409, 0] S32x128.size inb_S1160x128_S32x128_409_0, k0_pay57 (act2 M1 h1 M2 h2 M3 h3 M4 h4 v6 v7 x0 x1 x2 x3)⟩,
   ⟨Rect.unit (s := S1160x128) ![375, 0] S32x128.size inb_S1160x128_S32x128_375_0, k0_pay56 (act2 M1 h1 M2 h2 M3 h3 M4 h4 v6 v7 x0 x1 x2 x3)⟩,
   ⟨Rect.unit (s := S1160x128) ![341, 0] S32x128.size inb_S1160x128_S32x128_341_0, k0_pay55 (act2 M1 h1 M2 h2 M3 h3 M4 h4 v6 v7 x0 x1 x2 x3)⟩,
   ⟨Rect.unit (s := S1160x128) ![307, 0] S32x128.size inb_S1160x128_S32x128_307_0, k0_pay54 (act2 M1 h1 M2 h2 M3 h3 M4 h4 v6 v7 x0 x1 x2 x3)⟩,
   ⟨Rect.unit (s := S1160x128) ![273, 0] S32x128.size inb_S1160x128_S32x128_273_0, k0_pay53 (act2 M1 h1 M2 h2 M3 h3 M4 h4 v6 v7 x0 x1 x2 x3)⟩,
   ⟨Rect.unit (s := S1160x128) ![239, 0] S32x128.size inb_S1160x128_S32x128_239_0, k0_pay52 (act2 M1 h1 M2 h2 M3 h3 M4 h4 v6 v7 x0 x1 x2 x3)⟩,
   ⟨Rect.unit (s := S1160x128) ![205, 0] S32x128.size inb_S1160x128_S32x128_205_0, k0_pay51 (act2 M1 h1 M2 h2 M3 h3 M4 h4 v6 v7 x0 x1 x2 x3)⟩,
   ⟨Rect.unit (s := S1160x128) ![171, 0] S32x128.size inb_S1160x128_S32x128_171_0, k0_pay50 (k0_pay3 (bnRow2 M1 h1 M2 h2 M3 h3 M4 h4 v6 v7 x0 x1 x2 x3)) (k0_pay4 (bnRow3 M1 h1 M2 h2 M3 h3 M4 h4 v6 v7 x0 x1 x2 x3)) (conv1b M1 h1 M2 h2 M3 h3 M4 h4 v6 v7 x0 x1 x2 x3) (slab1_70 M1 h1 M2 h2 M3 h3 M4 h4 v6 v7 x0 x1 x2 x3) (tap1_8 M1 h1 M2 h2 M3 h3 M4 h4 v6 v7 x0 x1 x2 x3)⟩,
   ⟨Rect.unit (s := S1160x128) ![137, 0] S32x128.size inb_S1160x128_S32x128_137_0, k0_pay49 (k0_pay3 (bnRow2 M1 h1 M2 h2 M3 h3 M4 h4 v6 v7 x0 x1 x2 x3)) (k0_pay4 (bnRow3 M1 h1 M2 h2 M3 h3 M4 h4 v6 v7 x0 x1 x2 x3)) (conv1b M1 h1 M2 h2 M3 h3 M4 h4 v6 v7 x0 x1 x2 x3) (slab1_70 M1 h1 M2 h2 M3 h3 M4 h4 v6 v7 x0 x1 x2 x3) (tap1_8 M1 h1 M2 h2 M3 h3 M4 h4 v6 v7 x0 x1 x2 x3)⟩,
   ⟨Rect.unit (s := S1160x128) ![103, 0] S32x128.size inb_S1160x128_S32x128_103_0, k0_pay48 (k0_pay3 (bnRow2 M1 h1 M2 h2 M3 h3 M4 h4 v6 v7 x0 x1 x2 x3)) (k0_pay4 (bnRow3 M1 h1 M2 h2 M3 h3 M4 h4 v6 v7 x0 x1 x2 x3)) (conv1b M1 h1 M2 h2 M3 h3 M4 h4 v6 v7 x0 x1 x2 x3) (slab1_70 M1 h1 M2 h2 M3 h3 M4 h4 v6 v7 x0 x1 x2 x3) (tap1_8 M1 h1 M2 h2 M3 h3 M4 h4 v6 v7 x0 x1 x2 x3)⟩,
   ⟨Rect.unit (s := S1160x128) ![69, 0] S32x128.size inb_S1160x128_S32x128_69_0, k0_pay47 (k0_pay3 (bnRow2 M1 h1 M2 h2 M3 h3 M4 h4 v6 v7 x0 x1 x2 x3)) (k0_pay4 (bnRow3 M1 h1 M2 h2 M3 h3 M4 h4 v6 v7 x0 x1 x2 x3)) (conv1b M1 h1 M2 h2 M3 h3 M4 h4 v6 v7 x0 x1 x2 x3) (slab1_70 M1 h1 M2 h2 M3 h3 M4 h4 v6 v7 x0 x1 x2 x3) (tap1_8 M1 h1 M2 h2 M3 h3 M4 h4 v6 v7 x0 x1 x2 x3)⟩,
   ⟨Rect.unit (s := S1160x128) ![35, 0] S32x128.size inb_S1160x128_S32x128_35_0, k0_pay46 (k0_pay3 (bnRow2 M1 h1 M2 h2 M3 h3 M4 h4 v6 v7 x0 x1 x2 x3)) (k0_pay4 (bnRow3 M1 h1 M2 h2 M3 h3 M4 h4 v6 v7 x0 x1 x2 x3)) (conv1b M1 h1 M2 h2 M3 h3 M4 h4 v6 v7 x0 x1 x2 x3) (slab1_70 M1 h1 M2 h2 M3 h3 M4 h4 v6 v7 x0 x1 x2 x3) (tap1_8 M1 h1 M2 h2 M3 h3 M4 h4 v6 v7 x0 x1 x2 x3)⟩]

/-- The second grid's pieces, last store first: the 32 blocks over the zero fill of the whole grid. -/
def grid2 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : List (View.Piece (Elt F) S1160x128 .f32) :=
  rows2 M1 h1 M2 h2 M3 h3 M4 h4 v6 v7 x0 x1 x2 x3 ++ [⟨Rect.unit (s := S1160x128) ![0, 0] S1160x128.size inb_S1160x128_S1160x128_0_0, k0_pay45⟩]

/-- The slab of 1088 rows of the second grid from row 0. -/
def slab2_0 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1088x128 .f32 :=
  v7.readCov (grid2 M1 h1 M2 h2 M3 h3 M4 h4 v6 v7 x0 x1 x2 x3) (Rect.unit (s := S1160x128) ![0, 0] S1088x128.size inb_S1160x128_S1088x128_0_0).toLoadRect

/-- The slab of 1088 rows of the second grid from row 1. -/
def slab2_1 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1088x128 .f32 :=
  v7.readCov (grid2 M1 h1 M2 h2 M3 h3 M4 h4 v6 v7 x0 x1 x2 x3) (Rect.unit (s := S1160x128) ![1, 0] S1088x128.size inb_S1160x128_S1088x128_1_0).toLoadRect

/-- The slab of 1088 rows of the second grid from row 2. -/
def slab2_2 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1088x128 .f32 :=
  v7.readCov (grid2 M1 h1 M2 h2 M3 h3 M4 h4 v6 v7 x0 x1 x2 x3) (Rect.unit (s := S1160x128) ![2, 0] S1088x128.size inb_S1160x128_S1088x128_2_0).toLoadRect

/-- The slab of 1088 rows of the second grid from row 34. -/
def slab2_34 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1088x128 .f32 :=
  v7.readCov (grid2 M1 h1 M2 h2 M3 h3 M4 h4 v6 v7 x0 x1 x2 x3) (Rect.unit (s := S1160x128) ![34, 0] S1088x128.size inb_S1160x128_S1088x128_34_0).toLoadRect

/-- The slab of 1088 rows of the second grid from row 35. -/
def slab2_35 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1088x128 .f32 :=
  v7.readCov (grid2 M1 h1 M2 h2 M3 h3 M4 h4 v6 v7 x0 x1 x2 x3) (Rect.unit (s := S1160x128) ![35, 0] S1088x128.size inb_S1160x128_S1088x128_35_0).toLoadRect

/-- The slab of 1088 rows of the second grid from row 36. -/
def slab2_36 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1088x128 .f32 :=
  v7.readCov (grid2 M1 h1 M2 h2 M3 h3 M4 h4 v6 v7 x0 x1 x2 x3) (Rect.unit (s := S1160x128) ![36, 0] S1088x128.size inb_S1160x128_S1088x128_36_0).toLoadRect

/-- The slab of 1088 rows of the second grid from row 68. -/
def slab2_68 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1088x128 .f32 :=
  v7.readCov (grid2 M1 h1 M2 h2 M3 h3 M4 h4 v6 v7 x0 x1 x2 x3) (Rect.unit (s := S1160x128) ![68, 0] S1088x128.size inb_S1160x128_S1088x128_68_0).toLoadRect

/-- The slab of 1088 rows of the second grid from row 69. -/
def slab2_69 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1088x128 .f32 :=
  v7.readCov (grid2 M1 h1 M2 h2 M3 h3 M4 h4 v6 v7 x0 x1 x2 x3) (Rect.unit (s := S1160x128) ![69, 0] S1088x128.size inb_S1160x128_S1088x128_69_0).toLoadRect

/-- The slab of 1088 rows of the second grid from row 70. -/
def slab2_70 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : Vec F S1088x128 .f32 :=
  v7.readCov (grid2 M1 h1 M2 h2 M3 h3 M4 h4 v6 v7 x0 x1 x2 x3) (Rect.unit (s := S1160x128) ![70, 0] S1088x128.size inb_S1160x128_S1088x128_70_0).toLoadRect

/-- The second convolution after taps 0 to 3. -/
def conv2a (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : FVec F S1088x128 .f32 :=
  k0_pay80 (slab2_0 M1 h1 M2 h2 M3 h3 M4 h4 v6 v7 x0 x1 x2 x3) (tap2_0 M1 h1 M2 h2 M3 h3 M4 h4 v6 v7 x0 x1 x2 x3) (slab2_1 M1 h1 M2 h2 M3 h3 M4 h4 v6 v7 x0 x1 x2 x3) (tap2_1 M1 h1 M2 h2 M3 h3 M4 h4 v6 v7 x0 x1 x2 x3) (slab2_2 M1 h1 M2 h2 M3 h3 M4 h4 v6 v7 x0 x1 x2 x3) (tap2_2 M1 h1 M2 h2 M3 h3 M4 h4 v6 v7 x0 x1 x2 x3) (slab2_34 M1 h1 M2 h2 M3 h3 M4 h4 v6 v7 x0 x1 x2 x3) (tap2_3 M1 h1 M2 h2 M3 h3 M4 h4 v6 v7 x0 x1 x2 x3)

/-- The second convolution, all nine taps. -/
def conv2b (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : FVec F S1088x128 .f32 :=
  k0_pay81 (conv2a M1 h1 M2 h2 M3 h3 M4 h4 v6 v7 x0 x1 x2 x3) (slab2_35 M1 h1 M2 h2 M3 h3 M4 h4 v6 v7 x0 x1 x2 x3) (tap2_4 M1 h1 M2 h2 M3 h3 M4 h4 v6 v7 x0 x1 x2 x3) (slab2_36 M1 h1 M2 h2 M3 h3 M4 h4 v6 v7 x0 x1 x2 x3) (tap2_5 M1 h1 M2 h2 M3 h3 M4 h4 v6 v7 x0 x1 x2 x3) (slab2_68 M1 h1 M2 h2 M3 h3 M4 h4 v6 v7 x0 x1 x2 x3) (tap2_6 M1 h1 M2 h2 M3 h3 M4 h4 v6 v7 x0 x1 x2 x3) (slab2_69 M1 h1 M2 h2 M3 h3 M4 h4 v6 v7 x0 x1 x2 x3) (tap2_7 M1 h1 M2 h2 M3 h3 M4 h4 v6 v7 x0 x1 x2 x3) (slab2_70 M1 h1 M2 h2 M3 h3 M4 h4 v6 v7 x0 x1 x2 x3) (tap2_8 M1 h1 M2 h2 M3 h3 M4 h4 v6 v7 x0 x1 x2 x3)

/-- The output window's pieces, last store first: block h is image rows h * 32 .. h * 32 + 31 plus slab rows h * 34 .. h * 34 + 31 of the second convolution. -/
def outRows (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec F S1x1024x128 .f32) (x1 x2 : Vec F S9x128x128 .bf16) (x3 : Vec F S4x128 .f32) : List (View.Piece (Elt F) S1x1024x128 .f32) :=
  [⟨Rect.unit (s := S1x1024x128) ![0, 992, 0] S1x32x128.size inb_S1x1024x128_S1x32x128_0_992_0, k0_pay2 (k0_pay5 (imgRead M1 h1 M2 h2 M3 h3 M4 h4 v6 v7 x0 x1 x2 x3)) (conv2b M1 h1 M2 h2 M3 h3 M4 h4 v6 v7 x0 x1 x2 x3)⟩,
   ⟨Rect.unit (s := S1x1024x128) ![0, 960, 0] S1x32x128.size inb_S1x1024x128_S1x32x128_0_960_0, k0_pay1 (k0_pay5 (imgRead M1 h1 M2 h2 M3 h3 M4 h4 v6 v7 x0 x1 x2 x3)) (conv2b M1 h1 M2 h2 M3 h3 M4 h4 v6 v7 x0 x1 x2 x3)⟩,
   ⟨Rect.unit (s := S1x1024x128) ![0, 928, 0] S1x32x128.size inb_S1x1024x128_S1x32x128_0_928_0, k0_pay111 (k0_pay5 (imgRead M1 h1 M2 h2 M3 h3 M4 h4 v6 v7 x0 x1 x2 x3)) (conv2b M1 h1 M2 h2 M3 h3 M4 h4 v6 v7 x0 x1 x2 x3)⟩,
   ⟨Rect.unit (s := S1x1024x128) ![0, 896, 0] S1x32x128.size inb_S1x1024x128_S1x32x128_0_896_0, k0_pay110 (k0_pay5 (imgRead M1 h1 M2 h2 M3 h3 M4 h4 v6 v7 x0 x1 x2 x3)) (conv2b M1 h1 M2 h2 M3 h3 M4 h4 v6 v7 x0 x1 x2 x3)⟩,
   ⟨Rect.unit (s := S1x1024x128) ![0, 864, 0] S1x32x128.size inb_S1x1024x128_S1x32x128_0_864_0, k0_pay109 (k0_pay5 (imgRead M1 h1 M2 h2 M3 h3 M4 h4 v6 v7 x0 x1 x2 x3)) (conv2b M1 h1 M2 h2 M3 h3 M4 h4 v6 v7 x0 x1 x2 x3)⟩,
   ⟨Rect.unit (s := S1x1024x128) ![0, 832, 0] S1x32x128.size inb_S1x1024x128_S1x32x128_0_832_0, k0_pay108 (k0_pay5 (imgRead M1 h1 M2 h2 M3 h3 M4 h4 v6 v7 x0 x1 x2 x3)) (conv2b M1 h1 M2 h2 M3 h3 M4 h4 v6 v7 x0 x1 x2 x3)⟩,
   ⟨Rect.unit (s := S1x1024x128) ![0, 800, 0] S1x32x128.size inb_S1x1024x128_S1x32x128_0_800_0, k0_pay107 (k0_pay5 (imgRead M1 h1 M2 h2 M3 h3 M4 h4 v6 v7 x0 x1 x2 x3)) (conv2b M1 h1 M2 h2 M3 h3 M4 h4 v6 v7 x0 x1 x2 x3)⟩,
   ⟨Rect.unit (s := S1x1024x128) ![0, 768, 0] S1x32x128.size inb_S1x1024x128_S1x32x128_0_768_0, k0_pay106 (k0_pay5 (imgRead M1 h1 M2 h2 M3 h3 M4 h4 v6 v7 x0 x1 x2 x3)) (conv2b M1 h1 M2 h2 M3 h3 M4 h4 v6 v7 x0 x1 x2 x3)⟩,
   ⟨Rect.unit (s := S1x1024x128) ![0, 736, 0] S1x32x128.size inb_S1x1024x128_S1x32x128_0_736_0, k0_pay105 (k0_pay5 (imgRead M1 h1 M2 h2 M3 h3 M4 h4 v6 v7 x0 x1 x2 x3)) (conv2b M1 h1 M2 h2 M3 h3 M4 h4 v6 v7 x0 x1 x2 x3)⟩,
   ⟨Rect.unit (s := S1x1024x128) ![0, 704, 0] S1x32x128.size inb_S1x1024x128_S1x32x128_0_704_0, k0_pay104 (k0_pay5 (imgRead M1 h1 M2 h2 M3 h3 M4 h4 v6 v7 x0 x1 x2 x3)) (conv2b M1 h1 M2 h2 M3 h3 M4 h4 v6 v7 x0 x1 x2 x3)⟩,
   ⟨Rect.unit (s := S1x1024x128) ![0, 672, 0] S1x32x128.size inb_S1x1024x128_S1x32x128_0_672_0, k0_pay103 (k0_pay5 (imgRead M1 h1 M2 h2 M3 h3 M4 h4 v6 v7 x0 x1 x2 x3)) (conv2b M1 h1 M2 h2 M3 h3 M4 h4 v6 v7 x0 x1 x2 x3)⟩,
   ⟨Rect.unit (s := S1x1024x128) ![0, 640, 0] S1x32x128.size inb_S1x1024x128_S1x32x128_0_640_0, k0_pay102 (k0_pay5 (imgRead M1 h1 M2 h2 M3 h3 M4 h4 v6 v7 x0 x1 x2 x3)) (conv2b M1 h1 M2 h2 M3 h3 M4 h4 v6 v7 x0 x1 x2 x3)⟩,
   ⟨Rect.unit (s := S1x1024x128) ![0, 608, 0] S1x32x128.size inb_S1x1024x128_S1x32x128_0_608_0, k0_pay101 (k0_pay5 (imgRead M1 h1 M2 h2 M3 h3 M4 h4 v6 v7 x0 x1 x2 x3)) (conv2b M1 h1 M2 h2 M3 h3 M4 h4 v6 v7 x0 x1 x2 x3)⟩,
   ⟨Rect.unit (s := S1x1024x128) ![0, 576, 0] S1x32x128.size inb_S1x1024x128_S1x32x128_0_576_0, k0_pay100 (k0_pay5 (imgRead M1 h1 M2 h2 M3 h3 M4 h4 v6 v7 x0 x1 x2 x3)) (conv2b M1 h1 M2 h2 M3 h3 M4 h4 v6 v7 x0 x1 x2 x3)⟩,
   ⟨Rect.unit (s := S1x1024x128) ![0, 544, 0] S1x32x128.size inb_S1x1024x128_S1x32x128_0_544_0, k0_pay99 (k0_pay5 (imgRead M1 h1 M2 h2 M3 h3 M4 h4 v6 v7 x0 x1 x2 x3)) (conv2b M1 h1 M2 h2 M3 h3 M4 h4 v6 v7 x0 x1 x2 x3)⟩,
   ⟨Rect.unit (s := S1x1024x128) ![0, 512, 0] S1x32x128.size inb_S1x1024x128_S1x32x128_0_512_0, k0_pay98 (k0_pay5 (imgRead M1 h1 M2 h2 M3 h3 M4 h4 v6 v7 x0 x1 x2 x3)) (conv2b M1 h1 M2 h2 M3 h3 M4 h4 v6 v7 x0 x1 x2 x3)⟩,
   ⟨Rect.unit (s := S1x1024x128) ![0, 480, 0] S1x32x128.size inb_S1x1024x128_S1x32x128_0_480_0, k0_pay97 (k0_pay5 (imgRead M1 h1 M2 h2 M3 h3 M4 h4 v6 v7 x0 x1 x2 x3)) (conv2b M1 h1 M2 h2 M3 h3 M4 h4 v6 v7 x0 x1 x2 x3)⟩,
   ⟨Rect.unit (s := S1x1024x128) ![0, 448, 0] S1x32x128.size inb_S1x1024x128_S1x32x128_0_448_0, k0_pay96 (k0_pay5 (imgRead M1 h1 M2 h2 M3 h3 M4 h4 v6 v7 x0 x1 x2 x3)) (conv2b M1 h1 M2 h2 M3 h3 M4 h4 v6 v7 x0 x1 x2 x3)⟩,
   ⟨Rect.unit (s := S1x1024x128) ![0, 416, 0] S1x32x128.size inb_S1x1024x128_S1x32x128_0_416_0, k0_pay95 (k0_pay5 (imgRead M1 h1 M2 h2 M3 h3 M4 h4 v6 v7 x0 x1 x2 x3)) (conv2b M1 h1 M2 h2 M3 h3 M4 h4 v6 v7 x0 x1 x2 x3)⟩,
   ⟨Rect.unit (s := S1x1024x128) ![0, 384, 0] S1x32x128.size inb_S1x1024x128_S1x32x128_0_384_0, k0_pay94 (k0_pay5 (imgRead M1 h1 M2 h2 M3 h3 M4 h4 v6 v7 x0 x1 x2 x3)) (conv2b M1 h1 M2 h2 M3 h3 M4 h4 v6 v7 x0 x1 x2 x3)⟩,
   ⟨Rect.unit (s := S1x1024x128) ![0, 352, 0] S1x32x128.size inb_S1x1024x128_S1x32x128_0_352_0, k0_pay93 (k0_pay5 (imgRead M1 h1 M2 h2 M3 h3 M4 h4 v6 v7 x0 x1 x2 x3)) (conv2b M1 h1 M2 h2 M3 h3 M4 h4 v6 v7 x0 x1 x2 x3)⟩,
   ⟨Rect.unit (s := S1x1024x128) ![0, 320, 0] S1x32x128.size inb_S1x1024x128_S1x32x128_0_320_0, k0_pay92 (k0_pay5 (imgRead M1 h1 M2 h2 M3 h3 M4 h4 v6 v7 x0 x1 x2 x3)) (conv2b M1 h1 M2 h2 M3 h3 M4 h4 v6 v7 x0 x1 x2 x3)⟩,
   ⟨Rect.unit (s := S1x1024x128) ![0, 288, 0] S1x32x128.size inb_S1x1024x128_S1x32x128_0_288_0, k0_pay91 (k0_pay5 (imgRead M1 h1 M2 h2 M3 h3 M4 h4 v6 v7 x0 x1 x2 x3)) (conv2b M1 h1 M2 h2 M3 h3 M4 h4 v6 v7 x0 x1 x2 x3)⟩,
   ⟨Rect.unit (s := S1x1024x128) ![0, 256, 0] S1x32x128.size inb_S1x1024x128_S1x32x128_0_256_0, k0_pay90 (k0_pay5 (imgRead M1 h1 M2 h2 M3 h3 M4 h4 v6 v7 x0 x1 x2 x3)) (conv2b M1 h1 M2 h2 M3 h3 M4 h4 v6 v7 x0 x1 x2 x3)⟩,
   ⟨Rect.unit (s := S1x1024x128) ![0, 224, 0] S1x32x128.size inb_S1x1024x128_S1x32x128_0_224_0, k0_pay89 (k0_pay5 (imgRead M1 h1 M2 h2 M3 h3 M4 h4 v6 v7 x0 x1 x2 x3)) (conv2b M1 h1 M2 h2 M3 h3 M4 h4 v6 v7 x0 x1 x2 x3)⟩,
   ⟨Rect.unit (s := S1x1024x128) ![0, 192, 0] S1x32x128.size inb_S1x1024x128_S1x32x128_0_192_0, k0_pay88 (k0_pay5 (imgRead M1 h1 M2 h2 M3 h3 M4 h4 v6 v7 x0 x1 x2 x3)) (conv2b M1 h1 M2 h2 M3 h3 M4 h4 v6 v7 x0 x1 x2 x3)⟩,
   ⟨Rect.unit (s := S1x1024x128) ![0, 160, 0] S1x32x128.size inb_S1x1024x128_S1x32x128_0_160_0, k0_pay87 (k0_pay5 (imgRead M1 h1 M2 h2 M3 h3 M4 h4 v6 v7 x0 x1 x2 x3)) (conv2b M1 h1 M2 h2 M3 h3 M4 h4 v6 v7 x0 x1 x2 x3)⟩,
   ⟨Rect.unit (s := S1x1024x128) ![0, 128, 0] S1x32x128.size inb_S1x1024x128_S1x32x128_0_128_0, k0_pay86 (k0_pay5 (imgRead M1 h1 M2 h2 M3 h3 M4 h4 v6 v7 x0 x1 x2 x3)) (conv2b M1 h1 M2 h2 M3 h3 M4 h4 v6 v7 x0 x1 x2 x3)⟩,
   ⟨Rect.unit (s := S1x1024x128) ![0, 96, 0] S1x32x128.size inb_S1x1024x128_S1x32x128_0_96_0, k0_pay85 (k0_pay5 (imgRead M1 h1 M2 h2 M3 h3 M4 h4 v6 v7 x0 x1 x2 x3)) (conv2b M1 h1 M2 h2 M3 h3 M4 h4 v6 v7 x0 x1 x2 x3)⟩,
   ⟨Rect.unit (s := S1x1024x128) ![0, 64, 0] S1x32x128.size inb_S1x1024x128_S1x32x128_0_64_0, k0_pay84 (k0_pay5 (imgRead M1 h1 M2 h2 M3 h3 M4 h4 v6 v7 x0 x1 x2 x3)) (conv2b M1 h1 M2 h2 M3 h3 M4 h4 v6 v7 x0 x1 x2 x3)⟩,
   ⟨Rect.unit (s := S1x1024x128) ![0, 32, 0] S1x32x128.size inb_S1x1024x128_S1x32x128_0_32_0, k0_pay83 (k0_pay5 (imgRead M1 h1 M2 h2 M3 h3 M4 h4 v6 v7 x0 x1 x2 x3)) (conv2b M1 h1 M2 h2 M3 h3 M4 h4 v6 v7 x0 x1 x2 x3)⟩,
   ⟨Rect.unit (s := S1x1024x128) ![0, 0, 0] S1x32x128.size inb_S1x1024x128_S1x32x128_0_0_0, k0_pay82 (k0_pay5 (imgRead M1 h1 M2 h2 M3 h3 M4 h4 v6 v7 x0 x1 x2 x3)) (conv2b M1 h1 M2 h2 M3 h3 M4 h4 v6 v7 x0 x1 x2 x3)⟩]

/-- The pieces the run found for the output window are the 32 output blocks named above. -/
theorem found_eq_outRows (c : Dev nD) (i : grid0.Coords) (arg1 : Memref sig .tc .vmem S1x1024x128 .f32) (harg1 : arg1.IsWhole) (arg2 : Memref sig .tc .vmem S9x128x128 .bf16) (harg2 : arg2.IsWhole) (arg3 : Memref sig .tc .vmem S9x128x128 .bf16) (harg3 : arg3.IsWhole) (arg4 : Memref sig .tc .vmem S4x128 .f32) (harg4 : arg4.IsWhole) (arg5 : Memref sig .tc .vmem S1x1024x128 .f32) (harg5 : arg5.IsWhole) (arg6 : Memref sig .tc .vmem S1160x128 .f32) (harg6 : arg6.IsWhole) (arg7 : Memref sig .tc .vmem S1160x128 .f32) (harg7 : arg7.IsWhole)
    (x0 : Vec F S1x1024x128 .f32) (x1 x2 : Vec F S9x128x128 .bf16) (x3 : Vec F S4x128 .f32) :
    (kernelRun0_A c i arg1 harg1 arg2 harg2 arg3 harg3 arg4 harg4 arg5 harg5 arg6 harg6 arg7 harg7 x0 x1 x2 x3).1
      = outRows arg1 harg1 arg2 harg2 arg3 harg3 arg4 harg4 arg6.view arg7.view x0 x1 x2 x3 := by
  unfold kernelRun0_A
  dsimp only
  sl_unfold_words
  rfl

end Cert.ReferenceIdeal.RefValue

end
-- ==== Proof.RefGrid.lean ====
/-
  Rows stored into a grid over a fill, read back at an index.

  A scratch grid is filled once (a store of the whole buffer) and then receives blocks of consecutive rows. What it
  holds afterwards is, at a row some block covers, that block's value, and elsewhere the fill. The blocks here are
  the 32 rows of an image laid on the flattened 34 x 34 grid with a ring of zeros: image row h starts at grid row
  (h + 1) * 34 + 1, so that grid row p is position (p / 34, p % 34) of the ringed grid, and a block agrees there with
  `Spec.pad` of the image. This module has the three general facts: a block of rows cut from an array, at an index;
  the contents of pieces over a fill, under the pieces and off them; and `Spec.pad` inside the image and on the ring.
-/
import proofs.«108192_g2000002599257424_pallasbulk_288_18_alg».proof.Proof.Spec
import Idealize.ShloMosaic.Lib.Pipeline.Value
import Idealize.ShloMosaic.Lib.ValueIdx

noncomputable section

namespace Cert.ReferenceIdeal.RefValue

open Idealize.ShloMosaic Idealize.ShloMosaic.ValueIdx

section Rows
variable {α : Type} {m n k : Nat}

/-- A block of `k` rows cut from row `off` of an array (the slice, then the identity shape cast), at row `w` of the
    block and column `c`: the array at row `off + w`. -/
theorem sliceRows_apply (off : Nat) (x : (⟨2, ![m, n]⟩ : Shape).Idx → α)
    (hs : (⟨2, ![m, n]⟩ : Shape).Slices ![off, 0] (⟨2, ![k, n]⟩ : Shape))
    (hc : (⟨2, ![k, n]⟩ : Shape).ShapeCasts (⟨2, ![k, n]⟩ : Shape)) (w : Fin k) (c : Fin n) (p : Fin m)
    (hp : p.val = off + w.val) :
    shapeCast (⟨2, ![k, n]⟩ : Shape) (extractStridedSlice (⟨2, ![k, n]⟩ : Shape) ![off, 0] x hs) hc (ix2 w c)
      = x (ix2 p c) := by
  rw [shapeCast_self]
  exact extractStridedSlice_apply _ x hs (ix2 w c) (ix2 p c) (fun a => by
    match a with
    | ⟨0, _⟩ => exact hp
    | ⟨1, _⟩ => show c.val = 0 + c.val; omega)

/-- Index (p, c) lies in the block of `k` rows from row `o` exactly when `o ≤ p < o + k`. -/
theorem mem_rowBlock {o : Nat}
    (inb : ∀ a, (![o, 0] : Fin 2 → Nat) a + (⟨2, ![k, n]⟩ : Shape).size a ≤ (⟨2, ![m, n]⟩ : Shape).size a)
    (p : Fin m) (c : Fin n) :
    ix2 p c ∈ (Rect.unit (s := (⟨2, ![m, n]⟩ : Shape)) ![o, 0] (⟨2, ![k, n]⟩ : Shape).size inb).set
      ↔ o ≤ p.val ∧ p.val < o + k := by
  rw [Rect.mem_set_unit]
  constructor
  · intro h; exact h ⟨0, Nat.zero_lt_two⟩
  · intro h a
    match a with
    | ⟨0, _⟩ => exact h
    | ⟨1, _⟩ => exact ⟨Nat.zero_le _, by show c.val < 0 + n; have := c.isLt; omega⟩

end Rows

section Pieces
variable {Val : EltTy → Type} [∀ e, Nonempty (Val e)] {S : Shape} {e : EltTy}

/-- Where a later piece covers the index, the earlier pieces do not matter. -/
theorem canon_append_of_mem : ∀ (L M : List (View.Piece Val S e)) (y : S.Idx) (_ : ∃ p ∈ L, y ∈ p.1.set),
    View.canon (L ++ M) y = View.canon L y
  | [], _, _, h => by obtain ⟨p, hp, _⟩ := h; exact absurd hp List.not_mem_nil
  | p :: L, M, y, h => by
    by_cases hm : y ∈ p.1.set
    · obtain ⟨r, w⟩ := p
      obtain ⟨x, rfl⟩ : ∃ x, r.emb x = y := r.exists_idx_of_mem hm
      exact (View.canon_cons_emb r w (L ++ M) x).trans (View.canon_cons_emb r w L x).symm
    · rw [List.cons_append, View.canon_cons_of_not_mem _ _ hm, View.canon_cons_of_not_mem _ _ hm]
      refine canon_append_of_mem L M y ?_
      obtain ⟨q, hq, hy⟩ := h
      rcases List.mem_cons.mp hq with rfl | hq'
      · exact absurd hy hm
      · exact ⟨q, hq', hy⟩

/-- Where no later piece covers the index, the earlier pieces are read. -/
theorem canon_append_of_not_mem : ∀ (L M : List (View.Piece Val S e)) (y : S.Idx) (_ : ∀ p ∈ L, y ∉ p.1.set),
    View.canon (L ++ M) y = View.canon M y
  | [], _, _, _ => rfl
  | p :: L, M, y, h => by
    rw [List.cons_append, View.canon_cons_of_not_mem _ _ (h p List.mem_cons_self)]
    exact canon_append_of_not_mem L M y fun q hq => h q (List.mem_cons_of_mem _ hq)

/-- Pieces that all agree with one function `G`, stored over a fill `z` of the whole buffer: under the pieces the
    contents are `G`. -/
theorem canon_over_fill_of_mem (G z : S.Idx → Val e) {off : Fin S.rank → Nat} (inbz : ∀ a, off a + S.size a ≤ S.size a)
    (L : List (View.Piece Val S e)) (hL : ∀ p ∈ L, ∀ x : p.1.shape.Idx, p.2 x = G (p.1.emb x)) (y : S.Idx)
    (hy : ∃ p ∈ L, y ∈ p.1.set) :
    View.canon (L ++ [(⟨Rect.unit off S.size inbz, z⟩ : View.Piece Val S e)]) y = G y :=
  (canon_append_of_mem L _ y hy).trans (View.canon_apply_of_pieces G L hL y hy)

/-- Off the pieces the contents are the fill. -/
theorem canon_over_fill_of_not_mem (z : S.Idx → Val e) {off : Fin S.rank → Nat} (hoff : off = fun _ => 0)
    (inbz : ∀ a, off a + S.size a ≤ S.size a) (L : List (View.Piece Val S e)) (y : S.Idx)
    (hy : ∀ p ∈ L, y ∉ p.1.set) :
    View.canon (L ++ [(⟨Rect.unit off S.size inbz, z⟩ : View.Piece Val S e)]) y = z y :=
  (canon_append_of_not_mem L _ y hy).trans (congrFun (View.canon_unit_zero hoff inbz z) y)

end Pieces

/-! ## The zero-ringed grid -/

/-- Inside the image: grid position (h + 1, w + 1) is image position (h, w). -/
theorem pad_interior (img : Spec.Img) (h w : Fin 32) (c : Fin 128) (hp wp : Nat) (hh : hp = h.val + 1)
    (hw : wp = w.val + 1) : Spec.pad img hp wp c = img h w c := by
  subst hh hw
  unfold Spec.pad
  rw [dif_pos ⟨⟨by omega, by have := h.isLt; omega⟩, by omega, by have := w.isLt; omega⟩]
  simp only [Nat.add_sub_cancel, Fin.eta]

/-- On the ring: zero. -/
theorem pad_ring (img : Spec.Img) (hp wp : Nat) (c : Fin 128)
    (h : ¬((1 ≤ hp ∧ hp ≤ 32) ∧ (1 ≤ wp ∧ wp ≤ 32))) : Spec.pad img hp wp c = 0 := by
  unfold Spec.pad
  rw [dif_neg h]

/-- The flattened ringed grid of an image: grid row p is position (p / 34, p % 34). -/
def ringed (img : Spec.Img) : (⟨2, ![1160, 128]⟩ : Shape).Idx → EReal :=
  fun y => Spec.pad img ((y 0).val / 34) ((y 0).val % 34) (y 1)

theorem ringed_apply (img : Spec.Img) (p : Fin 1160) (c : Fin 128) :
    ringed img (ix2 p c) = Spec.pad img (p.val / 34) (p.val % 34) c := rfl

/-- A block of 32 rows cut from row `src` of an array `Y` and stored at grid row `o = (h + 1) * 34 + 1` agrees, at
    every index of the block, with the ringed image whose row `h` those rows of `Y` are. -/
theorem block_agrees {M : Nat} (Y : (⟨2, ![M, 128]⟩ : Shape).Idx → EReal) (img : Spec.Img) (h : Fin 32) (src o : Nat)
    (ho : o = (h.val + 1) * 34 + 1)
    (himg : ∀ (w : Fin 32) (c : Fin 128) (p : Fin M), p.val = src + w.val → Y (ix2 p c) = img h w c)
    (hsrc : src + 32 ≤ M)
    (hs : (⟨2, ![M, 128]⟩ : Shape).Slices ![src, 0] (⟨2, ![32, 128]⟩ : Shape))
    (hc : (⟨2, ![32, 128]⟩ : Shape).ShapeCasts (⟨2, ![32, 128]⟩ : Shape))
    (inb : ∀ a, (![o, 0] : Fin 2 → Nat) a + (⟨2, ![32, 128]⟩ : Shape).size a ≤ (⟨2, ![1160, 128]⟩ : Shape).size a)
    (x : (⟨2, ![32, 128]⟩ : Shape).Idx) :
    shapeCast (⟨2, ![32, 128]⟩ : Shape) (extractStridedSlice (⟨2, ![32, 128]⟩ : Shape) ![src, 0] Y hs) hc x
      = ringed img
          ((Rect.unit (s := (⟨2, ![1160, 128]⟩ : Shape)) ![o, 0] (⟨2, ![32, 128]⟩ : Shape).size inb).emb x) := by
  obtain ⟨w, c, rfl⟩ : ∃ (w : Fin 32) (c : Fin 128), x = ix2 w c := ⟨x 0, x 1, eq_ix2 x⟩
  have hw := w.isLt
  have hh := h.isLt
  have he : (Rect.unit (s := (⟨2, ![1160, 128]⟩ : Shape)) ![o, 0] (⟨2, ![32, 128]⟩ : Shape).size inb).emb (ix2 w c)
      = ix2 (⟨o + w.val, by omega⟩ : Fin 1160) c := by
    funext a; apply Fin.ext
    match a with
    | ⟨0, _⟩ => show o + 1 * w.val = o + w.val; omega
    | ⟨1, _⟩ => show 0 + 1 * c.val = c.val; omega
  rw [sliceRows_apply src Y hs hc w c ⟨src + w.val, by omega⟩ rfl, himg w c _ rfl, he]
  rw [ringed_apply]
  show img h w c = Spec.pad img ((o + w.val) / 34) ((o + w.val) % 34) c
  exact (pad_interior img h w c _ _ (by omega) (by omega)).symm

end Cert.ReferenceIdeal.RefValue

end
-- ==== Proof.RefGridValue.lean ====
/-
  What the two scratch grids hold, and what a slab of a grid reads.

  The first grid receives the 32 blocks of 32 rows of the first activation over a zero fill, the second the 32 blocks of
  slab rows h * 34 .. h * 34 + 31 of the second activation. Read as images (row h, column w), each grid at row p holds
  position (p / 34, p % 34) of the image's zero-ringed 34 x 34 grid (`Spec.pad`): the image inside, zero on the ring and
  on the rows past the grid. A slab from row o reads, at its row q, the grid's row o + q.
-/
import proofs.«108192_g2000002599257424_pallasbulk_288_18_alg».proof.Proof.RefFound
import proofs.«108192_g2000002599257424_pallasbulk_288_18_alg».proof.Proof.RefGrid
import Idealize.ShloMosaic.PureOps.Ideal.Laws

set_option maxRecDepth 16384

noncomputable section

namespace Cert.ReferenceIdeal.RefValue

open Idealize.ShloMosaic Idealize.ShloMosaic.ValueIdx Idealize.ShloMosaic.TcCoe
open Idealize.SL Idealize.SL.Sem
open Cert.ReferenceIdeal Cert.ReferenceIdeal.Gen

/-- A load of `k` rows from row `o` of a rank-two buffer, after the writes `L`, reads at its row `q` what the writes
    left at row `o + q`. -/
theorem readCov_rows_apply {Val : EltTy → Type} [∀ e, Nonempty (Val e)] {sig : RefSig} {κ : Kind} {sp : Space}
    {e : EltTy} {m n k : Nat} (v : View sig κ sp (⟨2, ![m, n]⟩ : Shape) e)
    (L : List (View.Piece Val (⟨2, ![m, n]⟩ : Shape) e)) (o : Nat)
    (inb : ∀ a, (![o, 0] : Fin 2 → Nat) a + (⟨2, ![k, n]⟩ : Shape).size a ≤ (⟨2, ![m, n]⟩ : Shape).size a)
    (q : Fin k) (c : Fin n) (p : Fin m) (hp : p.val = o + q.val) :
    v.readCov L (Rect.unit (s := (⟨2, ![m, n]⟩ : Shape)) ![o, 0] (⟨2, ![k, n]⟩ : Shape).size inb).toLoadRect (ix2 q c)
      = View.canon L (ix2 p c) := by
  refine (congrFun (View.readCov_eq_canon' v L
    (Rect.unit (s := (⟨2, ![m, n]⟩ : Shape)) ![o, 0] (⟨2, ![k, n]⟩ : Shape).size inb).toLoadRect) (ix2 q c)).trans
    (congrArg (View.canon L) ?_)
  funext a; apply Fin.ext
  match a with
  | ⟨0, _⟩ => show o + 1 * q.val = p.val; omega
  | ⟨1, _⟩ => show 0 + 1 * c.val = c.val; omega

/-- `mem_rowBlock` with the block's two sizes written out as a literal vector. -/
theorem mem_rowBlock' {m n k o : Nat}
    (inb : ∀ a, (![o, 0] : Fin 2 → Nat) a + (![k, n] : Fin 2 → Nat) a ≤ (⟨2, ![m, n]⟩ : Shape).size a)
    (p : Fin m) (c : Fin n) :
    ix2 p c ∈ (Rect.unit (s := (⟨2, ![m, n]⟩ : Shape)) ![o, 0] ![k, n] inb).set ↔ o ≤ p.val ∧ p.val < o + k :=
  mem_rowBlock inb p c

/-- The zero fill of the first grid. -/
theorem fill1_apply (y : S1160x128.Idx) : k0_pay6 (F := Ideal) y = 0 := by
  unfold k0_pay6
  rw [shapeCast_self]
  exact Ideal.ofBits_zero_f32

/-- The zero fill of the second grid. -/
theorem fill2_apply (y : S1160x128.Idx) : k0_pay45 (F := Ideal) y = 0 := by
  unfold k0_pay45
  rw [shapeCast_self]
  exact Ideal.ofBits_zero_f32

/-- The first activation as an image: row h, column w is row h * 32 + w of the activation. -/
def img1 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) : Spec.Img :=
  fun h w c => act1 M1 h1 M2 h2 M3 h3 M4 h4 v6 v7 x0 x1 x2 x3 (ix2 ⟨h.val * 32 + w.val, by have := h.isLt; have := w.isLt; omega⟩ c)

theorem img1_row (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (h : Fin 32) (src : Nat) (hsrc : src = h.val * 32)
    (w : Fin 32) (c : Fin 128) (p : Fin 1024) (hp : p.val = src + w.val) :
    act1 M1 h1 M2 h2 M3 h3 M4 h4 v6 v7 x0 x1 x2 x3 (ix2 p c) = img1 M1 h1 M2 h2 M3 h3 M4 h4 v6 v7 x0 x1 x2 x3 h w c := by
  subst hsrc
  exact congrArg (fun r => act1 M1 h1 M2 h2 M3 h3 M4 h4 v6 v7 x0 x1 x2 x3 (ix2 r c)) (Fin.ext hp)

/-- Every block stored into the first grid agrees with the ringed image of the first activation. -/
theorem rows1_agree (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) :
    ∀ q ∈ rows1 M1 h1 M2 h2 M3 h3 M4 h4 v6 v7 x0 x1 x2 x3, ∀ x : q.1.shape.Idx, q.2 x = ringed (img1 M1 h1 M2 h2 M3 h3 M4 h4 v6 v7 x0 x1 x2 x3) (q.1.emb x) := by
  intro q hq
  simp only [rows1, List.mem_cons, List.not_mem_nil, or_false] at hq
  rcases hq with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact block_agrees (act1 M1 h1 M2 h2 M3 h3 M4 h4 v6 v7 x0 x1 x2 x3) (img1 M1 h1 M2 h2 M3 h3 M4 h4 v6 v7 x0 x1 x2 x3) ⟨31, by omega⟩ 992 1089 rfl
      (fun w c p hp => img1_row M1 h1 M2 h2 M3 h3 M4 h4 v6 v7 x0 x1 x2 x3 ⟨31, by omega⟩ 992 rfl w c p hp) (by omega)
      slices_S1024x128_o992_0_S32x128 shapeCasts_S32x128_S32x128 inb_S1160x128_S32x128_1089_0
  · exact block_agrees (act1 M1 h1 M2 h2 M3 h3 M4 h4 v6 v7 x0 x1 x2 x3) (img1 M1 h1 M2 h2 M3 h3 M4 h4 v6 v7 x0 x1 x2 x3) ⟨30, by omega⟩ 960 1055 rfl
      (fun w c p hp => img1_row M1 h1 M2 h2 M3 h3 M4 h4 v6 v7 x0 x1 x2 x3 ⟨30, by omega⟩ 960 rfl w c p hp) (by omega)
      slices_S1024x128_o960_0_S32x128 shapeCasts_S32x128_S32x128 inb_S1160x128_S32x128_1055_0
  · exact block_agrees (act1 M1 h1 M2 h2 M3 h3 M4 h4 v6 v7 x0 x1 x2 x3) (img1 M1 h1 M2 h2 M3 h3 M4 h4 v6 v7 x0 x1 x2 x3) ⟨29, by omega⟩ 928 1021 rfl
      (fun w c p hp => img1_row M1 h1 M2 h2 M3 h3 M4 h4 v6 v7 x0 x1 x2 x3 ⟨29, by omega⟩ 928 rfl w c p hp) (by omega)
      slices_S1024x128_o928_0_S32x128 shapeCasts_S32x128_S32x128 inb_S1160x128_S32x128_1021_0
  · exact block_agrees (act1 M1 h1 M2 h2 M3 h3 M4 h4 v6 v7 x0 x1 x2 x3) (img1 M1 h1 M2 h2 M3 h3 M4 h4 v6 v7 x0 x1 x2 x3) ⟨28, by omega⟩ 896 987 rfl
      (fun w c p hp => img1_row M1 h1 M2 h2 M3 h3 M4 h4 v6 v7 x0 x1 x2 x3 ⟨28, by omega⟩ 896 rfl w c p hp) (by omega)
      slices_S1024x128_o896_0_S32x128 shapeCasts_S32x128_S32x128 inb_S1160x128_S32x128_987_0
  · exact block_agrees (act1 M1 h1 M2 h2 M3 h3 M4 h4 v6 v7 x0 x1 x2 x3) (img1 M1 h1 M2 h2 M3 h3 M4 h4 v6 v7 x0 x1 x2 x3) ⟨27, by omega⟩ 864 953 rfl
      (fun w c p hp => img1_row M1 h1 M2 h2 M3 h3 M4 h4 v6 v7 x0 x1 x2 x3 ⟨27, by omega⟩ 864 rfl w c p hp) (by omega)
      slices_S1024x128_o864_0_S32x128 shapeCasts_S32x128_S32x128 inb_S1160x128_S32x128_953_0
  · exact block_agrees (act1 M1 h1 M2 h2 M3 h3 M4 h4 v6 v7 x0 x1 x2 x3) (img1 M1 h1 M2 h2 M3 h3 M4 h4 v6 v7 x0 x1 x2 x3) ⟨26, by omega⟩ 832 919 rfl
      (fun w c p hp => img1_row M1 h1 M2 h2 M3 h3 M4 h4 v6 v7 x0 x1 x2 x3 ⟨26, by omega⟩ 832 rfl w c p hp) (by omega)
      slices_S1024x128_o832_0_S32x128 shapeCasts_S32x128_S32x128 inb_S1160x128_S32x128_919_0
  · exact block_agrees (act1 M1 h1 M2 h2 M3 h3 M4 h4 v6 v7 x0 x1 x2 x3) (img1 M1 h1 M2 h2 M3 h3 M4 h4 v6 v7 x0 x1 x2 x3) ⟨25, by omega⟩ 800 885 rfl
      (fun w c p hp => img1_row M1 h1 M2 h2 M3 h3 M4 h4 v6 v7 x0 x1 x2 x3 ⟨25, by omega⟩ 800 rfl w c p hp) (by omega)
      slices_S1024x128_o800_0_S32x128 shapeCasts_S32x128_S32x128 inb_S1160x128_S32x128_885_0
  · exact block_agrees (act1 M1 h1 M2 h2 M3 h3 M4 h4 v6 v7 x0 x1 x2 x3) (img1 M1 h1 M2 h2 M3 h3 M4 h4 v6 v7 x0 x1 x2 x3) ⟨24, by omega⟩ 768 851 rfl
      (fun w c p hp => img1_row M1 h1 M2 h2 M3 h3 M4 h4 v6 v7 x0 x1 x2 x3 ⟨24, by omega⟩ 768 rfl w c p hp) (by omega)
      slices_S1024x128_o768_0_S32x128 shapeCasts_S32x128_S32x128 inb_S1160x128_S32x128_851_0
  · exact block_agrees (act1 M1 h1 M2 h2 M3 h3 M4 h4 v6 v7 x0 x1 x2 x3) (img1 M1 h1 M2 h2 M3 h3 M4 h4 v6 v7 x0 x1 x2 x3) ⟨23, by omega⟩ 736 817 rfl
      (fun w c p hp => img1_row M1 h1 M2 h2 M3 h3 M4 h4 v6 v7 x0 x1 x2 x3 ⟨23, by omega⟩ 736 rfl w c p hp) (by omega)
      slices_S1024x128_o736_0_S32x128 shapeCasts_S32x128_S32x128 inb_S1160x128_S32x128_817_0
  · exact block_agrees (act1 M1 h1 M2 h2 M3 h3 M4 h4 v6 v7 x0 x1 x2 x3) (img1 M1 h1 M2 h2 M3 h3 M4 h4 v6 v7 x0 x1 x2 x3) ⟨22, by omega⟩ 704 783 rfl
      (fun w c p hp => img1_row M1 h1 M2 h2 M3 h3 M4 h4 v6 v7 x0 x1 x2 x3 ⟨22, by omega⟩ 704 rfl w c p hp) (by omega)
      slices_S1024x128_o704_0_S32x128 shapeCasts_S32x128_S32x128 inb_S1160x128_S32x128_783_0
  · exact block_agrees (act1 M1 h1 M2 h2 M3 h3 M4 h4 v6 v7 x0 x1 x2 x3) (img1 M1 h1 M2 h2 M3 h3 M4 h4 v6 v7 x0 x1 x2 x3) ⟨21, by omega⟩ 672 749 rfl
      (fun w c p hp => img1_row M1 h1 M2 h2 M3 h3 M4 h4 v6 v7 x0 x1 x2 x3 ⟨21, by omega⟩ 672 rfl w c p hp) (by omega)
      slices_S1024x128_o672_0_S32x128 shapeCasts_S32x128_S32x128 inb_S1160x128_S32x128_749_0
  · exact block_agrees (act1 M1 h1 M2 h2 M3 h3 M4 h4 v6 v7 x0 x1 x2 x3) (img1 M1 h1 M2 h2 M3 h3 M4 h4 v6 v7 x0 x1 x2 x3) ⟨20, by omega⟩ 640 715 rfl
      (fun w c p hp => img1_row M1 h1 M2 h2 M3 h3 M4 h4 v6 v7 x0 x1 x2 x3 ⟨20, by omega⟩ 640 rfl w c p hp) (by omega)
      slices_S1024x128_o640_0_S32x128 shapeCasts_S32x128_S32x128 inb_S1160x128_S32x128_715_0
  · exact block_agrees (act1 M1 h1 M2 h2 M3 h3 M4 h4 v6 v7 x0 x1 x2 x3) (img1 M1 h1 M2 h2 M3 h3 M4 h4 v6 v7 x0 x1 x2 x3) ⟨19, by omega⟩ 608 681 rfl
      (fun w c p hp => img1_row M1 h1 M2 h2 M3 h3 M4 h4 v6 v7 x0 x1 x2 x3 ⟨19, by omega⟩ 608 rfl w c p hp) (by omega)
      slices_S1024x128_o608_0_S32x128 shapeCasts_S32x128_S32x128 inb_S1160x128_S32x128_681_0
  · exact block_agrees (act1 M1 h1 M2 h2 M3 h3 M4 h4 v6 v7 x0 x1 x2 x3) (img1 M1 h1 M2 h2 M3 h3 M4 h4 v6 v7 x0 x1 x2 x3) ⟨18, by omega⟩ 576 647 rfl
      (fun w c p hp => img1_row M1 h1 M2 h2 M3 h3 M4 h4 v6 v7 x0 x1 x2 x3 ⟨18, by omega⟩ 576 rfl w c p hp) (by omega)
      slices_S1024x128_o576_0_S32x128 shapeCasts_S32x128_S32x128 inb_S1160x128_S32x128_647_0
  · exact block_agrees (act1 M1 h1 M2 h2 M3 h3 M4 h4 v6 v7 x0 x1 x2 x3) (img1 M1 h1 M2 h2 M3 h3 M4 h4 v6 v7 x0 x1 x2 x3) ⟨17, by omega⟩ 544 613 rfl
      (fun w c p hp => img1_row M1 h1 M2 h2 M3 h3 M4 h4 v6 v7 x0 x1 x2 x3 ⟨17, by omega⟩ 544 rfl w c p hp) (by omega)
      slices_S1024x128_o544_0_S32x128 shapeCasts_S32x128_S32x128 inb_S1160x128_S32x128_613_0
  · exact block_agrees (act1 M1 h1 M2 h2 M3 h3 M4 h4 v6 v7 x0 x1 x2 x3) (img1 M1 h1 M2 h2 M3 h3 M4 h4 v6 v7 x0 x1 x2 x3) ⟨16, by omega⟩ 512 579 rfl
      (fun w c p hp => img1_row M1 h1 M2 h2 M3 h3 M4 h4 v6 v7 x0 x1 x2 x3 ⟨16, by omega⟩ 512 rfl w c p hp) (by omega)
      slices_S1024x128_o512_0_S32x128 shapeCasts_S32x128_S32x128 inb_S1160x128_S32x128_579_0
  · exact block_agrees (act1 M1 h1 M2 h2 M3 h3 M4 h4 v6 v7 x0 x1 x2 x3) (img1 M1 h1 M2 h2 M3 h3 M4 h4 v6 v7 x0 x1 x2 x3) ⟨15, by omega⟩ 480 545 rfl
      (fun w c p hp => img1_row M1 h1 M2 h2 M3 h3 M4 h4 v6 v7 x0 x1 x2 x3 ⟨15, by omega⟩ 480 rfl w c p hp) (by omega)
      slices_S1024x128_o480_0_S32x128 shapeCasts_S32x128_S32x128 inb_S1160x128_S32x128_545_0
  · exact block_agrees (act1 M1 h1 M2 h2 M3 h3 M4 h4 v6 v7 x0 x1 x2 x3) (img1 M1 h1 M2 h2 M3 h3 M4 h4 v6 v7 x0 x1 x2 x3) ⟨14, by omega⟩ 448 511 rfl
      (fun w c p hp => img1_row M1 h1 M2 h2 M3 h3 M4 h4 v6 v7 x0 x1 x2 x3 ⟨14, by omega⟩ 448 rfl w c p hp) (by omega)
      slices_S1024x128_o448_0_S32x128 shapeCasts_S32x128_S32x128 inb_S1160x128_S32x128_511_0
  · exact block_agrees (act1 M1 h1 M2 h2 M3 h3 M4 h4 v6 v7 x0 x1 x2 x3) (img1 M1 h1 M2 h2 M3 h3 M4 h4 v6 v7 x0 x1 x2 x3) ⟨13, by omega⟩ 416 477 rfl
      (fun w c p hp => img1_row M1 h1 M2 h2 M3 h3 M4 h4 v6 v7 x0 x1 x2 x3 ⟨13, by omega⟩ 416 rfl w c p hp) (by omega)
      slices_S1024x128_o416_0_S32x128 shapeCasts_S32x128_S32x128 inb_S1160x128_S32x128_477_0
  · exact block_agrees (act1 M1 h1 M2 h2 M3 h3 M4 h4 v6 v7 x0 x1 x2 x3) (img1 M1 h1 M2 h2 M3 h3 M4 h4 v6 v7 x0 x1 x2 x3) ⟨12, by omega⟩ 384 443 rfl
      (fun w c p hp => img1_row M1 h1 M2 h2 M3 h3 M4 h4 v6 v7 x0 x1 x2 x3 ⟨12, by omega⟩ 384 rfl w c p hp) (by omega)
      slices_S1024x128_o384_0_S32x128 shapeCasts_S32x128_S32x128 inb_S1160x128_S32x128_443_0
  · exact block_agrees (act1 M1 h1 M2 h2 M3 h3 M4 h4 v6 v7 x0 x1 x2 x3) (img1 M1 h1 M2 h2 M3 h3 M4 h4 v6 v7 x0 x1 x2 x3) ⟨11, by omega⟩ 352 409 rfl
      (fun w c p hp => img1_row M1 h1 M2 h2 M3 h3 M4 h4 v6 v7 x0 x1 x2 x3 ⟨11, by omega⟩ 352 rfl w c p hp) (by omega)
      slices_S1024x128_o352_0_S32x128 shapeCasts_S32x128_S32x128 inb_S1160x128_S32x128_409_0
  · exact block_agrees (act1 M1 h1 M2 h2 M3 h3 M4 h4 v6 v7 x0 x1 x2 x3) (img1 M1 h1 M2 h2 M3 h3 M4 h4 v6 v7 x0 x1 x2 x3) ⟨10, by omega⟩ 320 375 rfl
      (fun w c p hp => img1_row M1 h1 M2 h2 M3 h3 M4 h4 v6 v7 x0 x1 x2 x3 ⟨10, by omega⟩ 320 rfl w c p hp) (by omega)
      slices_S1024x128_o320_0_S32x128 shapeCasts_S32x128_S32x128 inb_S1160x128_S32x128_375_0
  · exact block_agrees (act1 M1 h1 M2 h2 M3 h3 M4 h4 v6 v7 x0 x1 x2 x3) (img1 M1 h1 M2 h2 M3 h3 M4 h4 v6 v7 x0 x1 x2 x3) ⟨9, by omega⟩ 288 341 rfl
      (fun w c p hp => img1_row M1 h1 M2 h2 M3 h3 M4 h4 v6 v7 x0 x1 x2 x3 ⟨9, by omega⟩ 288 rfl w c p hp) (by omega)
      slices_S1024x128_o288_0_S32x128 shapeCasts_S32x128_S32x128 inb_S1160x128_S32x128_341_0
  · exact block_agrees (act1 M1 h1 M2 h2 M3 h3 M4 h4 v6 v7 x0 x1 x2 x3) (img1 M1 h1 M2 h2 M3 h3 M4 h4 v6 v7 x0 x1 x2 x3) ⟨8, by omega⟩ 256 307 rfl
      (fun w c p hp => img1_row M1 h1 M2 h2 M3 h3 M4 h4 v6 v7 x0 x1 x2 x3 ⟨8, by omega⟩ 256 rfl w c p hp) (by omega)
      slices_S1024x128_o256_0_S32x128 shapeCasts_S32x128_S32x128 inb_S1160x128_S32x128_307_0
  · exact block_agrees (act1 M1 h1 M2 h2 M3 h3 M4 h4 v6 v7 x0 x1 x2 x3) (img1 M1 h1 M2 h2 M3 h3 M4 h4 v6 v7 x0 x1 x2 x3) ⟨7, by omega⟩ 224 273 rfl
      (fun w c p hp => img1_row M1 h1 M2 h2 M3 h3 M4 h4 v6 v7 x0 x1 x2 x3 ⟨7, by omega⟩ 224 rfl w c p hp) (by omega)
      slices_S1024x128_o224_0_S32x128 shapeCasts_S32x128_S32x128 inb_S1160x128_S32x128_273_0
  · exact block_agrees (act1 M1 h1 M2 h2 M3 h3 M4 h4 v6 v7 x0 x1 x2 x3) (img1 M1 h1 M2 h2 M3 h3 M4 h4 v6 v7 x0 x1 x2 x3) ⟨6, by omega⟩ 192 239 rfl
      (fun w c p hp => img1_row M1 h1 M2 h2 M3 h3 M4 h4 v6 v7 x0 x1 x2 x3 ⟨6, by omega⟩ 192 rfl w c p hp) (by omega)
      slices_S1024x128_o192_0_S32x128 shapeCasts_S32x128_S32x128 inb_S1160x128_S32x128_239_0
  · exact block_agrees (act1 M1 h1 M2 h2 M3 h3 M4 h4 v6 v7 x0 x1 x2 x3) (img1 M1 h1 M2 h2 M3 h3 M4 h4 v6 v7 x0 x1 x2 x3) ⟨5, by omega⟩ 160 205 rfl
      (fun w c p hp => img1_row M1 h1 M2 h2 M3 h3 M4 h4 v6 v7 x0 x1 x2 x3 ⟨5, by omega⟩ 160 rfl w c p hp) (by omega)
      slices_S1024x128_o160_0_S32x128 shapeCasts_S32x128_S32x128 inb_S1160x128_S32x128_205_0
  · exact block_agrees (act1 M1 h1 M2 h2 M3 h3 M4 h4 v6 v7 x0 x1 x2 x3) (img1 M1 h1 M2 h2 M3 h3 M4 h4 v6 v7 x0 x1 x2 x3) ⟨4, by omega⟩ 128 171 rfl
      (fun w c p hp => img1_row M1 h1 M2 h2 M3 h3 M4 h4 v6 v7 x0 x1 x2 x3 ⟨4, by omega⟩ 128 rfl w c p hp) (by omega)
      slices_S1024x128_o128_0_S32x128 shapeCasts_S32x128_S32x128 inb_S1160x128_S32x128_171_0
  · exact block_agrees (act1 M1 h1 M2 h2 M3 h3 M4 h4 v6 v7 x0 x1 x2 x3) (img1 M1 h1 M2 h2 M3 h3 M4 h4 v6 v7 x0 x1 x2 x3) ⟨3, by omega⟩ 96 137 rfl
      (fun w c p hp => img1_row M1 h1 M2 h2 M3 h3 M4 h4 v6 v7 x0 x1 x2 x3 ⟨3, by omega⟩ 96 rfl w c p hp) (by omega)
      slices_S1024x128_o96_0_S32x128 shapeCasts_S32x128_S32x128 inb_S1160x128_S32x128_137_0
  · exact block_agrees (act1 M1 h1 M2 h2 M3 h3 M4 h4 v6 v7 x0 x1 x2 x3) (img1 M1 h1 M2 h2 M3 h3 M4 h4 v6 v7 x0 x1 x2 x3) ⟨2, by omega⟩ 64 103 rfl
      (fun w c p hp => img1_row M1 h1 M2 h2 M3 h3 M4 h4 v6 v7 x0 x1 x2 x3 ⟨2, by omega⟩ 64 rfl w c p hp) (by omega)
      slices_S1024x128_o64_0_S32x128 shapeCasts_S32x128_S32x128 inb_S1160x128_S32x128_103_0
  · exact block_agrees (act1 M1 h1 M2 h2 M3 h3 M4 h4 v6 v7 x0 x1 x2 x3) (img1 M1 h1 M2 h2 M3 h3 M4 h4 v6 v7 x0 x1 x2 x3) ⟨1, by omega⟩ 32 69 rfl
      (fun w c p hp => img1_row M1 h1 M2 h2 M3 h3 M4 h4 v6 v7 x0 x1 x2 x3 ⟨1, by omega⟩ 32 rfl w c p hp) (by omega)
      slices_S1024x128_o32_0_S32x128 shapeCasts_S32x128_S32x128 inb_S1160x128_S32x128_69_0
  · exact block_agrees (act1 M1 h1 M2 h2 M3 h3 M4 h4 v6 v7 x0 x1 x2 x3) (img1 M1 h1 M2 h2 M3 h3 M4 h4 v6 v7 x0 x1 x2 x3) ⟨0, by omega⟩ 0 35 rfl
      (fun w c p hp => img1_row M1 h1 M2 h2 M3 h3 M4 h4 v6 v7 x0 x1 x2 x3 ⟨0, by omega⟩ 0 rfl w c p hp) (by omega)
      slices_S1024x128_o0_0_S32x128 shapeCasts_S32x128_S32x128 inb_S1160x128_S32x128_35_0

/-- The first grid at row p is position (p / 34, p % 34) of the ringed image of the first activation. -/
theorem grid1_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (p : Fin 1160) (c : Fin 128) :
    View.canon (grid1 M1 h1 M2 h2 M3 h3 M4 h4 v6 v7 x0 x1 x2 x3) (ix2 p c) = Spec.pad (img1 M1 h1 M2 h2 M3 h3 M4 h4 v6 v7 x0 x1 x2 x3) (p.val / 34) (p.val % 34) c := by
  have hp := p.isLt
  unfold grid1
  by_cases hI : (1 ≤ p.val / 34 ∧ p.val / 34 ≤ 32) ∧ (1 ≤ p.val % 34 ∧ p.val % 34 ≤ 32)
  · refine (canon_over_fill_of_mem (ringed (img1 M1 h1 M2 h2 M3 h3 M4 h4 v6 v7 x0 x1 x2 x3)) _ _ (rows1 M1 h1 M2 h2 M3 h3 M4 h4 v6 v7 x0 x1 x2 x3) (rows1_agree M1 h1 M2 h2 M3 h3 M4 h4 v6 v7 x0 x1 x2 x3) (ix2 p c) ?_).trans
      (ringed_apply _ p c)
    simp only [rows1, List.mem_cons, List.not_mem_nil, or_false, exists_eq_or_imp, exists_eq_left, mem_rowBlock']
    omega
  · refine (canon_over_fill_of_not_mem _ (by funext a; fin_cases a <;> rfl) _ (rows1 M1 h1 M2 h2 M3 h3 M4 h4 v6 v7 x0 x1 x2 x3) (ix2 p c) ?_).trans
      ((fill1_apply _).trans (pad_ring _ _ _ _ hI).symm)
    intro q hq
    simp only [rows1, List.mem_cons, List.not_mem_nil, or_false] at hq
    rcases hq with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;>
      (rw [mem_rowBlock]; omega)

/-- The second activation as an image: row h, column w is slab row h * 34 + w of the activation. -/
def img2 (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) : Spec.Img :=
  fun h w c => act2 M1 h1 M2 h2 M3 h3 M4 h4 v6 v7 x0 x1 x2 x3 (ix2 ⟨h.val * 34 + w.val, by have := h.isLt; have := w.isLt; omega⟩ c)

theorem img2_row (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (h : Fin 32) (src : Nat) (hsrc : src = h.val * 34)
    (w : Fin 32) (c : Fin 128) (p : Fin 1088) (hp : p.val = src + w.val) :
    act2 M1 h1 M2 h2 M3 h3 M4 h4 v6 v7 x0 x1 x2 x3 (ix2 p c) = img2 M1 h1 M2 h2 M3 h3 M4 h4 v6 v7 x0 x1 x2 x3 h w c := by
  subst hsrc
  exact congrArg (fun r => act2 M1 h1 M2 h2 M3 h3 M4 h4 v6 v7 x0 x1 x2 x3 (ix2 r c)) (Fin.ext hp)

/-- Every block stored into the second grid agrees with the ringed image of the second activation. -/
theorem rows2_agree (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) :
    ∀ q ∈ rows2 M1 h1 M2 h2 M3 h3 M4 h4 v6 v7 x0 x1 x2 x3, ∀ x : q.1.shape.Idx, q.2 x = ringed (img2 M1 h1 M2 h2 M3 h3 M4 h4 v6 v7 x0 x1 x2 x3) (q.1.emb x) := by
  intro q hq
  simp only [rows2, List.mem_cons, List.not_mem_nil, or_false] at hq
  rcases hq with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact block_agrees (act2 M1 h1 M2 h2 M3 h3 M4 h4 v6 v7 x0 x1 x2 x3) (img2 M1 h1 M2 h2 M3 h3 M4 h4 v6 v7 x0 x1 x2 x3) ⟨31, by omega⟩ 1054 1089 rfl
      (fun w c p hp => img2_row M1 h1 M2 h2 M3 h3 M4 h4 v6 v7 x0 x1 x2 x3 ⟨31, by omega⟩ 1054 rfl w c p hp) (by omega)
      slices_S1088x128_o1054_0_S32x128 shapeCasts_S32x128_S32x128 inb_S1160x128_S32x128_1089_0
  · exact block_agrees (act2 M1 h1 M2 h2 M3 h3 M4 h4 v6 v7 x0 x1 x2 x3) (img2 M1 h1 M2 h2 M3 h3 M4 h4 v6 v7 x0 x1 x2 x3) ⟨30, by omega⟩ 1020 1055 rfl
      (fun w c p hp => img2_row M1 h1 M2 h2 M3 h3 M4 h4 v6 v7 x0 x1 x2 x3 ⟨30, by omega⟩ 1020 rfl w c p hp) (by omega)
      slices_S1088x128_o1020_0_S32x128 shapeCasts_S32x128_S32x128 inb_S1160x128_S32x128_1055_0
  · exact block_agrees (act2 M1 h1 M2 h2 M3 h3 M4 h4 v6 v7 x0 x1 x2 x3) (img2 M1 h1 M2 h2 M3 h3 M4 h4 v6 v7 x0 x1 x2 x3) ⟨29, by omega⟩ 986 1021 rfl
      (fun w c p hp => img2_row M1 h1 M2 h2 M3 h3 M4 h4 v6 v7 x0 x1 x2 x3 ⟨29, by omega⟩ 986 rfl w c p hp) (by omega)
      slices_S1088x128_o986_0_S32x128 shapeCasts_S32x128_S32x128 inb_S1160x128_S32x128_1021_0
  · exact block_agrees (act2 M1 h1 M2 h2 M3 h3 M4 h4 v6 v7 x0 x1 x2 x3) (img2 M1 h1 M2 h2 M3 h3 M4 h4 v6 v7 x0 x1 x2 x3) ⟨28, by omega⟩ 952 987 rfl
      (fun w c p hp => img2_row M1 h1 M2 h2 M3 h3 M4 h4 v6 v7 x0 x1 x2 x3 ⟨28, by omega⟩ 952 rfl w c p hp) (by omega)
      slices_S1088x128_o952_0_S32x128 shapeCasts_S32x128_S32x128 inb_S1160x128_S32x128_987_0
  · exact block_agrees (act2 M1 h1 M2 h2 M3 h3 M4 h4 v6 v7 x0 x1 x2 x3) (img2 M1 h1 M2 h2 M3 h3 M4 h4 v6 v7 x0 x1 x2 x3) ⟨27, by omega⟩ 918 953 rfl
      (fun w c p hp => img2_row M1 h1 M2 h2 M3 h3 M4 h4 v6 v7 x0 x1 x2 x3 ⟨27, by omega⟩ 918 rfl w c p hp) (by omega)
      slices_S1088x128_o918_0_S32x128 shapeCasts_S32x128_S32x128 inb_S1160x128_S32x128_953_0
  · exact block_agrees (act2 M1 h1 M2 h2 M3 h3 M4 h4 v6 v7 x0 x1 x2 x3) (img2 M1 h1 M2 h2 M3 h3 M4 h4 v6 v7 x0 x1 x2 x3) ⟨26, by omega⟩ 884 919 rfl
      (fun w c p hp => img2_row M1 h1 M2 h2 M3 h3 M4 h4 v6 v7 x0 x1 x2 x3 ⟨26, by omega⟩ 884 rfl w c p hp) (by omega)
      slices_S1088x128_o884_0_S32x128 shapeCasts_S32x128_S32x128 inb_S1160x128_S32x128_919_0
  · exact block_agrees (act2 M1 h1 M2 h2 M3 h3 M4 h4 v6 v7 x0 x1 x2 x3) (img2 M1 h1 M2 h2 M3 h3 M4 h4 v6 v7 x0 x1 x2 x3) ⟨25, by omega⟩ 850 885 rfl
      (fun w c p hp => img2_row M1 h1 M2 h2 M3 h3 M4 h4 v6 v7 x0 x1 x2 x3 ⟨25, by omega⟩ 850 rfl w c p hp) (by omega)
      slices_S1088x128_o850_0_S32x128 shapeCasts_S32x128_S32x128 inb_S1160x128_S32x128_885_0
  · exact block_agrees (act2 M1 h1 M2 h2 M3 h3 M4 h4 v6 v7 x0 x1 x2 x3) (img2 M1 h1 M2 h2 M3 h3 M4 h4 v6 v7 x0 x1 x2 x3) ⟨24, by omega⟩ 816 851 rfl
      (fun w c p hp => img2_row M1 h1 M2 h2 M3 h3 M4 h4 v6 v7 x0 x1 x2 x3 ⟨24, by omega⟩ 816 rfl w c p hp) (by omega)
      slices_S1088x128_o816_0_S32x128 shapeCasts_S32x128_S32x128 inb_S1160x128_S32x128_851_0
  · exact block_agrees (act2 M1 h1 M2 h2 M3 h3 M4 h4 v6 v7 x0 x1 x2 x3) (img2 M1 h1 M2 h2 M3 h3 M4 h4 v6 v7 x0 x1 x2 x3) ⟨23, by omega⟩ 782 817 rfl
      (fun w c p hp => img2_row M1 h1 M2 h2 M3 h3 M4 h4 v6 v7 x0 x1 x2 x3 ⟨23, by omega⟩ 782 rfl w c p hp) (by omega)
      slices_S1088x128_o782_0_S32x128 shapeCasts_S32x128_S32x128 inb_S1160x128_S32x128_817_0
  · exact block_agrees (act2 M1 h1 M2 h2 M3 h3 M4 h4 v6 v7 x0 x1 x2 x3) (img2 M1 h1 M2 h2 M3 h3 M4 h4 v6 v7 x0 x1 x2 x3) ⟨22, by omega⟩ 748 783 rfl
      (fun w c p hp => img2_row M1 h1 M2 h2 M3 h3 M4 h4 v6 v7 x0 x1 x2 x3 ⟨22, by omega⟩ 748 rfl w c p hp) (by omega)
      slices_S1088x128_o748_0_S32x128 shapeCasts_S32x128_S32x128 inb_S1160x128_S32x128_783_0
  · exact block_agrees (act2 M1 h1 M2 h2 M3 h3 M4 h4 v6 v7 x0 x1 x2 x3) (img2 M1 h1 M2 h2 M3 h3 M4 h4 v6 v7 x0 x1 x2 x3) ⟨21, by omega⟩ 714 749 rfl
      (fun w c p hp => img2_row M1 h1 M2 h2 M3 h3 M4 h4 v6 v7 x0 x1 x2 x3 ⟨21, by omega⟩ 714 rfl w c p hp) (by omega)
      slices_S1088x128_o714_0_S32x128 shapeCasts_S32x128_S32x128 inb_S1160x128_S32x128_749_0
  · exact block_agrees (act2 M1 h1 M2 h2 M3 h3 M4 h4 v6 v7 x0 x1 x2 x3) (img2 M1 h1 M2 h2 M3 h3 M4 h4 v6 v7 x0 x1 x2 x3) ⟨20, by omega⟩ 680 715 rfl
      (fun w c p hp => img2_row M1 h1 M2 h2 M3 h3 M4 h4 v6 v7 x0 x1 x2 x3 ⟨20, by omega⟩ 680 rfl w c p hp) (by omega)
      slices_S1088x128_o680_0_S32x128 shapeCasts_S32x128_S32x128 inb_S1160x128_S32x128_715_0
  · exact block_agrees (act2 M1 h1 M2 h2 M3 h3 M4 h4 v6 v7 x0 x1 x2 x3) (img2 M1 h1 M2 h2 M3 h3 M4 h4 v6 v7 x0 x1 x2 x3) ⟨19, by omega⟩ 646 681 rfl
      (fun w c p hp => img2_row M1 h1 M2 h2 M3 h3 M4 h4 v6 v7 x0 x1 x2 x3 ⟨19, by omega⟩ 646 rfl w c p hp) (by omega)
      slices_S1088x128_o646_0_S32x128 shapeCasts_S32x128_S32x128 inb_S1160x128_S32x128_681_0
  · exact block_agrees (act2 M1 h1 M2 h2 M3 h3 M4 h4 v6 v7 x0 x1 x2 x3) (img2 M1 h1 M2 h2 M3 h3 M4 h4 v6 v7 x0 x1 x2 x3) ⟨18, by omega⟩ 612 647 rfl
      (fun w c p hp => img2_row M1 h1 M2 h2 M3 h3 M4 h4 v6 v7 x0 x1 x2 x3 ⟨18, by omega⟩ 612 rfl w c p hp) (by omega)
      slices_S1088x128_o612_0_S32x128 shapeCasts_S32x128_S32x128 inb_S1160x128_S32x128_647_0
  · exact block_agrees (act2 M1 h1 M2 h2 M3 h3 M4 h4 v6 v7 x0 x1 x2 x3) (img2 M1 h1 M2 h2 M3 h3 M4 h4 v6 v7 x0 x1 x2 x3) ⟨17, by omega⟩ 578 613 rfl
      (fun w c p hp => img2_row M1 h1 M2 h2 M3 h3 M4 h4 v6 v7 x0 x1 x2 x3 ⟨17, by omega⟩ 578 rfl w c p hp) (by omega)
      slices_S1088x128_o578_0_S32x128 shapeCasts_S32x128_S32x128 inb_S1160x128_S32x128_613_0
  · exact block_agrees (act2 M1 h1 M2 h2 M3 h3 M4 h4 v6 v7 x0 x1 x2 x3) (img2 M1 h1 M2 h2 M3 h3 M4 h4 v6 v7 x0 x1 x2 x3) ⟨16, by omega⟩ 544 579 rfl
      (fun w c p hp => img2_row M1 h1 M2 h2 M3 h3 M4 h4 v6 v7 x0 x1 x2 x3 ⟨16, by omega⟩ 544 rfl w c p hp) (by omega)
      slices_S1088x128_o544_0_S32x128 shapeCasts_S32x128_S32x128 inb_S1160x128_S32x128_579_0
  · exact block_agrees (act2 M1 h1 M2 h2 M3 h3 M4 h4 v6 v7 x0 x1 x2 x3) (img2 M1 h1 M2 h2 M3 h3 M4 h4 v6 v7 x0 x1 x2 x3) ⟨15, by omega⟩ 510 545 rfl
      (fun w c p hp => img2_row M1 h1 M2 h2 M3 h3 M4 h4 v6 v7 x0 x1 x2 x3 ⟨15, by omega⟩ 510 rfl w c p hp) (by omega)
      slices_S1088x128_o510_0_S32x128 shapeCasts_S32x128_S32x128 inb_S1160x128_S32x128_545_0
  · exact block_agrees (act2 M1 h1 M2 h2 M3 h3 M4 h4 v6 v7 x0 x1 x2 x3) (img2 M1 h1 M2 h2 M3 h3 M4 h4 v6 v7 x0 x1 x2 x3) ⟨14, by omega⟩ 476 511 rfl
      (fun w c p hp => img2_row M1 h1 M2 h2 M3 h3 M4 h4 v6 v7 x0 x1 x2 x3 ⟨14, by omega⟩ 476 rfl w c p hp) (by omega)
      slices_S1088x128_o476_0_S32x128 shapeCasts_S32x128_S32x128 inb_S1160x128_S32x128_511_0
  · exact block_agrees (act2 M1 h1 M2 h2 M3 h3 M4 h4 v6 v7 x0 x1 x2 x3) (img2 M1 h1 M2 h2 M3 h3 M4 h4 v6 v7 x0 x1 x2 x3) ⟨13, by omega⟩ 442 477 rfl
      (fun w c p hp => img2_row M1 h1 M2 h2 M3 h3 M4 h4 v6 v7 x0 x1 x2 x3 ⟨13, by omega⟩ 442 rfl w c p hp) (by omega)
      slices_S1088x128_o442_0_S32x128 shapeCasts_S32x128_S32x128 inb_S1160x128_S32x128_477_0
  · exact block_agrees (act2 M1 h1 M2 h2 M3 h3 M4 h4 v6 v7 x0 x1 x2 x3) (img2 M1 h1 M2 h2 M3 h3 M4 h4 v6 v7 x0 x1 x2 x3) ⟨12, by omega⟩ 408 443 rfl
      (fun w c p hp => img2_row M1 h1 M2 h2 M3 h3 M4 h4 v6 v7 x0 x1 x2 x3 ⟨12, by omega⟩ 408 rfl w c p hp) (by omega)
      slices_S1088x128_o408_0_S32x128 shapeCasts_S32x128_S32x128 inb_S1160x128_S32x128_443_0
  · exact block_agrees (act2 M1 h1 M2 h2 M3 h3 M4 h4 v6 v7 x0 x1 x2 x3) (img2 M1 h1 M2 h2 M3 h3 M4 h4 v6 v7 x0 x1 x2 x3) ⟨11, by omega⟩ 374 409 rfl
      (fun w c p hp => img2_row M1 h1 M2 h2 M3 h3 M4 h4 v6 v7 x0 x1 x2 x3 ⟨11, by omega⟩ 374 rfl w c p hp) (by omega)
      slices_S1088x128_o374_0_S32x128 shapeCasts_S32x128_S32x128 inb_S1160x128_S32x128_409_0
  · exact block_agrees (act2 M1 h1 M2 h2 M3 h3 M4 h4 v6 v7 x0 x1 x2 x3) (img2 M1 h1 M2 h2 M3 h3 M4 h4 v6 v7 x0 x1 x2 x3) ⟨10, by omega⟩ 340 375 rfl
      (fun w c p hp => img2_row M1 h1 M2 h2 M3 h3 M4 h4 v6 v7 x0 x1 x2 x3 ⟨10, by omega⟩ 340 rfl w c p hp) (by omega)
      slices_S1088x128_o340_0_S32x128 shapeCasts_S32x128_S32x128 inb_S1160x128_S32x128_375_0
  · exact block_agrees (act2 M1 h1 M2 h2 M3 h3 M4 h4 v6 v7 x0 x1 x2 x3) (img2 M1 h1 M2 h2 M3 h3 M4 h4 v6 v7 x0 x1 x2 x3) ⟨9, by omega⟩ 306 341 rfl
      (fun w c p hp => img2_row M1 h1 M2 h2 M3 h3 M4 h4 v6 v7 x0 x1 x2 x3 ⟨9, by omega⟩ 306 rfl w c p hp) (by omega)
      slices_S1088x128_o306_0_S32x128 shapeCasts_S32x128_S32x128 inb_S1160x128_S32x128_341_0
  · exact block_agrees (act2 M1 h1 M2 h2 M3 h3 M4 h4 v6 v7 x0 x1 x2 x3) (img2 M1 h1 M2 h2 M3 h3 M4 h4 v6 v7 x0 x1 x2 x3) ⟨8, by omega⟩ 272 307 rfl
      (fun w c p hp => img2_row M1 h1 M2 h2 M3 h3 M4 h4 v6 v7 x0 x1 x2 x3 ⟨8, by omega⟩ 272 rfl w c p hp) (by omega)
      slices_S1088x128_o272_0_S32x128 shapeCasts_S32x128_S32x128 inb_S1160x128_S32x128_307_0
  · exact block_agrees (act2 M1 h1 M2 h2 M3 h3 M4 h4 v6 v7 x0 x1 x2 x3) (img2 M1 h1 M2 h2 M3 h3 M4 h4 v6 v7 x0 x1 x2 x3) ⟨7, by omega⟩ 238 273 rfl
      (fun w c p hp => img2_row M1 h1 M2 h2 M3 h3 M4 h4 v6 v7 x0 x1 x2 x3 ⟨7, by omega⟩ 238 rfl w c p hp) (by omega)
      slices_S1088x128_o238_0_S32x128 shapeCasts_S32x128_S32x128 inb_S1160x128_S32x128_273_0
  · exact block_agrees (act2 M1 h1 M2 h2 M3 h3 M4 h4 v6 v7 x0 x1 x2 x3) (img2 M1 h1 M2 h2 M3 h3 M4 h4 v6 v7 x0 x1 x2 x3) ⟨6, by omega⟩ 204 239 rfl
      (fun w c p hp => img2_row M1 h1 M2 h2 M3 h3 M4 h4 v6 v7 x0 x1 x2 x3 ⟨6, by omega⟩ 204 rfl w c p hp) (by omega)
      slices_S1088x128_o204_0_S32x128 shapeCasts_S32x128_S32x128 inb_S1160x128_S32x128_239_0
  · exact block_agrees (act2 M1 h1 M2 h2 M3 h3 M4 h4 v6 v7 x0 x1 x2 x3) (img2 M1 h1 M2 h2 M3 h3 M4 h4 v6 v7 x0 x1 x2 x3) ⟨5, by omega⟩ 170 205 rfl
      (fun w c p hp => img2_row M1 h1 M2 h2 M3 h3 M4 h4 v6 v7 x0 x1 x2 x3 ⟨5, by omega⟩ 170 rfl w c p hp) (by omega)
      slices_S1088x128_o170_0_S32x128 shapeCasts_S32x128_S32x128 inb_S1160x128_S32x128_205_0
  · exact block_agrees (act2 M1 h1 M2 h2 M3 h3 M4 h4 v6 v7 x0 x1 x2 x3) (img2 M1 h1 M2 h2 M3 h3 M4 h4 v6 v7 x0 x1 x2 x3) ⟨4, by omega⟩ 136 171 rfl
      (fun w c p hp => img2_row M1 h1 M2 h2 M3 h3 M4 h4 v6 v7 x0 x1 x2 x3 ⟨4, by omega⟩ 136 rfl w c p hp) (by omega)
      slices_S1088x128_o136_0_S32x128 shapeCasts_S32x128_S32x128 inb_S1160x128_S32x128_171_0
  · exact block_agrees (act2 M1 h1 M2 h2 M3 h3 M4 h4 v6 v7 x0 x1 x2 x3) (img2 M1 h1 M2 h2 M3 h3 M4 h4 v6 v7 x0 x1 x2 x3) ⟨3, by omega⟩ 102 137 rfl
      (fun w c p hp => img2_row M1 h1 M2 h2 M3 h3 M4 h4 v6 v7 x0 x1 x2 x3 ⟨3, by omega⟩ 102 rfl w c p hp) (by omega)
      slices_S1088x128_o102_0_S32x128 shapeCasts_S32x128_S32x128 inb_S1160x128_S32x128_137_0
  · exact block_agrees (act2 M1 h1 M2 h2 M3 h3 M4 h4 v6 v7 x0 x1 x2 x3) (img2 M1 h1 M2 h2 M3 h3 M4 h4 v6 v7 x0 x1 x2 x3) ⟨2, by omega⟩ 68 103 rfl
      (fun w c p hp => img2_row M1 h1 M2 h2 M3 h3 M4 h4 v6 v7 x0 x1 x2 x3 ⟨2, by omega⟩ 68 rfl w c p hp) (by omega)
      slices_S1088x128_o68_0_S32x128 shapeCasts_S32x128_S32x128 inb_S1160x128_S32x128_103_0
  · exact block_agrees (act2 M1 h1 M2 h2 M3 h3 M4 h4 v6 v7 x0 x1 x2 x3) (img2 M1 h1 M2 h2 M3 h3 M4 h4 v6 v7 x0 x1 x2 x3) ⟨1, by omega⟩ 34 69 rfl
      (fun w c p hp => img2_row M1 h1 M2 h2 M3 h3 M4 h4 v6 v7 x0 x1 x2 x3 ⟨1, by omega⟩ 34 rfl w c p hp) (by omega)
      slices_S1088x128_o34_0_S32x128 shapeCasts_S32x128_S32x128 inb_S1160x128_S32x128_69_0
  · exact block_agrees (act2 M1 h1 M2 h2 M3 h3 M4 h4 v6 v7 x0 x1 x2 x3) (img2 M1 h1 M2 h2 M3 h3 M4 h4 v6 v7 x0 x1 x2 x3) ⟨0, by omega⟩ 0 35 rfl
      (fun w c p hp => img2_row M1 h1 M2 h2 M3 h3 M4 h4 v6 v7 x0 x1 x2 x3 ⟨0, by omega⟩ 0 rfl w c p hp) (by omega)
      slices_S1088x128_o0_0_S32x128 shapeCasts_S32x128_S32x128 inb_S1160x128_S32x128_35_0

/-- The second grid at row p is position (p / 34, p % 34) of the ringed image of the second activation. -/
theorem grid2_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (p : Fin 1160) (c : Fin 128) :
    View.canon (grid2 M1 h1 M2 h2 M3 h3 M4 h4 v6 v7 x0 x1 x2 x3) (ix2 p c) = Spec.pad (img2 M1 h1 M2 h2 M3 h3 M4 h4 v6 v7 x0 x1 x2 x3) (p.val / 34) (p.val % 34) c := by
  have hp := p.isLt
  unfold grid2
  by_cases hI : (1 ≤ p.val / 34 ∧ p.val / 34 ≤ 32) ∧ (1 ≤ p.val % 34 ∧ p.val % 34 ≤ 32)
  · refine (canon_over_fill_of_mem (ringed (img2 M1 h1 M2 h2 M3 h3 M4 h4 v6 v7 x0 x1 x2 x3)) _ _ (rows2 M1 h1 M2 h2 M3 h3 M4 h4 v6 v7 x0 x1 x2 x3) (rows2_agree M1 h1 M2 h2 M3 h3 M4 h4 v6 v7 x0 x1 x2 x3) (ix2 p c) ?_).trans
      (ringed_apply _ p c)
    simp only [rows2, List.mem_cons, List.not_mem_nil, or_false, exists_eq_or_imp, exists_eq_left, mem_rowBlock']
    omega
  · refine (canon_over_fill_of_not_mem _ (by funext a; fin_cases a <;> rfl) _ (rows2 M1 h1 M2 h2 M3 h3 M4 h4 v6 v7 x0 x1 x2 x3) (ix2 p c) ?_).trans
      ((fill2_apply _).trans (pad_ring _ _ _ _ hI).symm)
    intro q hq
    simp only [rows2, List.mem_cons, List.not_mem_nil, or_false] at hq
    rcases hq with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;>
      (rw [mem_rowBlock]; omega)

/-! ## The nine slabs of each grid -/

theorem slab1_0_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (q : Fin 1088) (c : Fin 128) :
    slab1_0 M1 h1 M2 h2 M3 h3 M4 h4 v6 v7 x0 x1 x2 x3 (ix2 q c) = Spec.pad (img1 M1 h1 M2 h2 M3 h3 M4 h4 v6 v7 x0 x1 x2 x3) ((0 + q.val) / 34) ((0 + q.val) % 34) c :=
  (readCov_rows_apply v6 (grid1 M1 h1 M2 h2 M3 h3 M4 h4 v6 v7 x0 x1 x2 x3) 0 _ q c ⟨0 + q.val, by have := q.isLt; omega⟩ rfl).trans
    (grid1_apply M1 h1 M2 h2 M3 h3 M4 h4 v6 v7 x0 x1 x2 x3 ⟨0 + q.val, by have := q.isLt; omega⟩ c)

theorem slab1_1_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (q : Fin 1088) (c : Fin 128) :
    slab1_1 M1 h1 M2 h2 M3 h3 M4 h4 v6 v7 x0 x1 x2 x3 (ix2 q c) = Spec.pad (img1 M1 h1 M2 h2 M3 h3 M4 h4 v6 v7 x0 x1 x2 x3) ((1 + q.val) / 34) ((1 + q.val) % 34) c :=
  (readCov_rows_apply v6 (grid1 M1 h1 M2 h2 M3 h3 M4 h4 v6 v7 x0 x1 x2 x3) 1 _ q c ⟨1 + q.val, by have := q.isLt; omega⟩ rfl).trans
    (grid1_apply M1 h1 M2 h2 M3 h3 M4 h4 v6 v7 x0 x1 x2 x3 ⟨1 + q.val, by have := q.isLt; omega⟩ c)

theorem slab1_2_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (q : Fin 1088) (c : Fin 128) :
    slab1_2 M1 h1 M2 h2 M3 h3 M4 h4 v6 v7 x0 x1 x2 x3 (ix2 q c) = Spec.pad (img1 M1 h1 M2 h2 M3 h3 M4 h4 v6 v7 x0 x1 x2 x3) ((2 + q.val) / 34) ((2 + q.val) % 34) c :=
  (readCov_rows_apply v6 (grid1 M1 h1 M2 h2 M3 h3 M4 h4 v6 v7 x0 x1 x2 x3) 2 _ q c ⟨2 + q.val, by have := q.isLt; omega⟩ rfl).trans
    (grid1_apply M1 h1 M2 h2 M3 h3 M4 h4 v6 v7 x0 x1 x2 x3 ⟨2 + q.val, by have := q.isLt; omega⟩ c)

theorem slab1_34_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (q : Fin 1088) (c : Fin 128) :
    slab1_34 M1 h1 M2 h2 M3 h3 M4 h4 v6 v7 x0 x1 x2 x3 (ix2 q c) = Spec.pad (img1 M1 h1 M2 h2 M3 h3 M4 h4 v6 v7 x0 x1 x2 x3) ((34 + q.val) / 34) ((34 + q.val) % 34) c :=
  (readCov_rows_apply v6 (grid1 M1 h1 M2 h2 M3 h3 M4 h4 v6 v7 x0 x1 x2 x3) 34 _ q c ⟨34 + q.val, by have := q.isLt; omega⟩ rfl).trans
    (grid1_apply M1 h1 M2 h2 M3 h3 M4 h4 v6 v7 x0 x1 x2 x3 ⟨34 + q.val, by have := q.isLt; omega⟩ c)

theorem slab1_35_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (q : Fin 1088) (c : Fin 128) :
    slab1_35 M1 h1 M2 h2 M3 h3 M4 h4 v6 v7 x0 x1 x2 x3 (ix2 q c) = Spec.pad (img1 M1 h1 M2 h2 M3 h3 M4 h4 v6 v7 x0 x1 x2 x3) ((35 + q.val) / 34) ((35 + q.val) % 34) c :=
  (readCov_rows_apply v6 (grid1 M1 h1 M2 h2 M3 h3 M4 h4 v6 v7 x0 x1 x2 x3) 35 _ q c ⟨35 + q.val, by have := q.isLt; omega⟩ rfl).trans
    (grid1_apply M1 h1 M2 h2 M3 h3 M4 h4 v6 v7 x0 x1 x2 x3 ⟨35 + q.val, by have := q.isLt; omega⟩ c)

theorem slab1_36_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (q : Fin 1088) (c : Fin 128) :
    slab1_36 M1 h1 M2 h2 M3 h3 M4 h4 v6 v7 x0 x1 x2 x3 (ix2 q c) = Spec.pad (img1 M1 h1 M2 h2 M3 h3 M4 h4 v6 v7 x0 x1 x2 x3) ((36 + q.val) / 34) ((36 + q.val) % 34) c :=
  (readCov_rows_apply v6 (grid1 M1 h1 M2 h2 M3 h3 M4 h4 v6 v7 x0 x1 x2 x3) 36 _ q c ⟨36 + q.val, by have := q.isLt; omega⟩ rfl).trans
    (grid1_apply M1 h1 M2 h2 M3 h3 M4 h4 v6 v7 x0 x1 x2 x3 ⟨36 + q.val, by have := q.isLt; omega⟩ c)

theorem slab1_68_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (q : Fin 1088) (c : Fin 128) :
    slab1_68 M1 h1 M2 h2 M3 h3 M4 h4 v6 v7 x0 x1 x2 x3 (ix2 q c) = Spec.pad (img1 M1 h1 M2 h2 M3 h3 M4 h4 v6 v7 x0 x1 x2 x3) ((68 + q.val) / 34) ((68 + q.val) % 34) c :=
  (readCov_rows_apply v6 (grid1 M1 h1 M2 h2 M3 h3 M4 h4 v6 v7 x0 x1 x2 x3) 68 _ q c ⟨68 + q.val, by have := q.isLt; omega⟩ rfl).trans
    (grid1_apply M1 h1 M2 h2 M3 h3 M4 h4 v6 v7 x0 x1 x2 x3 ⟨68 + q.val, by have := q.isLt; omega⟩ c)

theorem slab1_69_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (q : Fin 1088) (c : Fin 128) :
    slab1_69 M1 h1 M2 h2 M3 h3 M4 h4 v6 v7 x0 x1 x2 x3 (ix2 q c) = Spec.pad (img1 M1 h1 M2 h2 M3 h3 M4 h4 v6 v7 x0 x1 x2 x3) ((69 + q.val) / 34) ((69 + q.val) % 34) c :=
  (readCov_rows_apply v6 (grid1 M1 h1 M2 h2 M3 h3 M4 h4 v6 v7 x0 x1 x2 x3) 69 _ q c ⟨69 + q.val, by have := q.isLt; omega⟩ rfl).trans
    (grid1_apply M1 h1 M2 h2 M3 h3 M4 h4 v6 v7 x0 x1 x2 x3 ⟨69 + q.val, by have := q.isLt; omega⟩ c)

theorem slab1_70_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (q : Fin 1088) (c : Fin 128) :
    slab1_70 M1 h1 M2 h2 M3 h3 M4 h4 v6 v7 x0 x1 x2 x3 (ix2 q c) = Spec.pad (img1 M1 h1 M2 h2 M3 h3 M4 h4 v6 v7 x0 x1 x2 x3) ((70 + q.val) / 34) ((70 + q.val) % 34) c :=
  (readCov_rows_apply v6 (grid1 M1 h1 M2 h2 M3 h3 M4 h4 v6 v7 x0 x1 x2 x3) 70 _ q c ⟨70 + q.val, by have := q.isLt; omega⟩ rfl).trans
    (grid1_apply M1 h1 M2 h2 M3 h3 M4 h4 v6 v7 x0 x1 x2 x3 ⟨70 + q.val, by have := q.isLt; omega⟩ c)

theorem slab2_0_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (q : Fin 1088) (c : Fin 128) :
    slab2_0 M1 h1 M2 h2 M3 h3 M4 h4 v6 v7 x0 x1 x2 x3 (ix2 q c) = Spec.pad (img2 M1 h1 M2 h2 M3 h3 M4 h4 v6 v7 x0 x1 x2 x3) ((0 + q.val) / 34) ((0 + q.val) % 34) c :=
  (readCov_rows_apply v7 (grid2 M1 h1 M2 h2 M3 h3 M4 h4 v6 v7 x0 x1 x2 x3) 0 _ q c ⟨0 + q.val, by have := q.isLt; omega⟩ rfl).trans
    (grid2_apply M1 h1 M2 h2 M3 h3 M4 h4 v6 v7 x0 x1 x2 x3 ⟨0 + q.val, by have := q.isLt; omega⟩ c)

theorem slab2_1_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (q : Fin 1088) (c : Fin 128) :
    slab2_1 M1 h1 M2 h2 M3 h3 M4 h4 v6 v7 x0 x1 x2 x3 (ix2 q c) = Spec.pad (img2 M1 h1 M2 h2 M3 h3 M4 h4 v6 v7 x0 x1 x2 x3) ((1 + q.val) / 34) ((1 + q.val) % 34) c :=
  (readCov_rows_apply v7 (grid2 M1 h1 M2 h2 M3 h3 M4 h4 v6 v7 x0 x1 x2 x3) 1 _ q c ⟨1 + q.val, by have := q.isLt; omega⟩ rfl).trans
    (grid2_apply M1 h1 M2 h2 M3 h3 M4 h4 v6 v7 x0 x1 x2 x3 ⟨1 + q.val, by have := q.isLt; omega⟩ c)

theorem slab2_2_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (q : Fin 1088) (c : Fin 128) :
    slab2_2 M1 h1 M2 h2 M3 h3 M4 h4 v6 v7 x0 x1 x2 x3 (ix2 q c) = Spec.pad (img2 M1 h1 M2 h2 M3 h3 M4 h4 v6 v7 x0 x1 x2 x3) ((2 + q.val) / 34) ((2 + q.val) % 34) c :=
  (readCov_rows_apply v7 (grid2 M1 h1 M2 h2 M3 h3 M4 h4 v6 v7 x0 x1 x2 x3) 2 _ q c ⟨2 + q.val, by have := q.isLt; omega⟩ rfl).trans
    (grid2_apply M1 h1 M2 h2 M3 h3 M4 h4 v6 v7 x0 x1 x2 x3 ⟨2 + q.val, by have := q.isLt; omega⟩ c)

theorem slab2_34_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (q : Fin 1088) (c : Fin 128) :
    slab2_34 M1 h1 M2 h2 M3 h3 M4 h4 v6 v7 x0 x1 x2 x3 (ix2 q c) = Spec.pad (img2 M1 h1 M2 h2 M3 h3 M4 h4 v6 v7 x0 x1 x2 x3) ((34 + q.val) / 34) ((34 + q.val) % 34) c :=
  (readCov_rows_apply v7 (grid2 M1 h1 M2 h2 M3 h3 M4 h4 v6 v7 x0 x1 x2 x3) 34 _ q c ⟨34 + q.val, by have := q.isLt; omega⟩ rfl).trans
    (grid2_apply M1 h1 M2 h2 M3 h3 M4 h4 v6 v7 x0 x1 x2 x3 ⟨34 + q.val, by have := q.isLt; omega⟩ c)

theorem slab2_35_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (q : Fin 1088) (c : Fin 128) :
    slab2_35 M1 h1 M2 h2 M3 h3 M4 h4 v6 v7 x0 x1 x2 x3 (ix2 q c) = Spec.pad (img2 M1 h1 M2 h2 M3 h3 M4 h4 v6 v7 x0 x1 x2 x3) ((35 + q.val) / 34) ((35 + q.val) % 34) c :=
  (readCov_rows_apply v7 (grid2 M1 h1 M2 h2 M3 h3 M4 h4 v6 v7 x0 x1 x2 x3) 35 _ q c ⟨35 + q.val, by have := q.isLt; omega⟩ rfl).trans
    (grid2_apply M1 h1 M2 h2 M3 h3 M4 h4 v6 v7 x0 x1 x2 x3 ⟨35 + q.val, by have := q.isLt; omega⟩ c)

theorem slab2_36_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (q : Fin 1088) (c : Fin 128) :
    slab2_36 M1 h1 M2 h2 M3 h3 M4 h4 v6 v7 x0 x1 x2 x3 (ix2 q c) = Spec.pad (img2 M1 h1 M2 h2 M3 h3 M4 h4 v6 v7 x0 x1 x2 x3) ((36 + q.val) / 34) ((36 + q.val) % 34) c :=
  (readCov_rows_apply v7 (grid2 M1 h1 M2 h2 M3 h3 M4 h4 v6 v7 x0 x1 x2 x3) 36 _ q c ⟨36 + q.val, by have := q.isLt; omega⟩ rfl).trans
    (grid2_apply M1 h1 M2 h2 M3 h3 M4 h4 v6 v7 x0 x1 x2 x3 ⟨36 + q.val, by have := q.isLt; omega⟩ c)

theorem slab2_68_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (q : Fin 1088) (c : Fin 128) :
    slab2_68 M1 h1 M2 h2 M3 h3 M4 h4 v6 v7 x0 x1 x2 x3 (ix2 q c) = Spec.pad (img2 M1 h1 M2 h2 M3 h3 M4 h4 v6 v7 x0 x1 x2 x3) ((68 + q.val) / 34) ((68 + q.val) % 34) c :=
  (readCov_rows_apply v7 (grid2 M1 h1 M2 h2 M3 h3 M4 h4 v6 v7 x0 x1 x2 x3) 68 _ q c ⟨68 + q.val, by have := q.isLt; omega⟩ rfl).trans
    (grid2_apply M1 h1 M2 h2 M3 h3 M4 h4 v6 v7 x0 x1 x2 x3 ⟨68 + q.val, by have := q.isLt; omega⟩ c)

theorem slab2_69_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (q : Fin 1088) (c : Fin 128) :
    slab2_69 M1 h1 M2 h2 M3 h3 M4 h4 v6 v7 x0 x1 x2 x3 (ix2 q c) = Spec.pad (img2 M1 h1 M2 h2 M3 h3 M4 h4 v6 v7 x0 x1 x2 x3) ((69 + q.val) / 34) ((69 + q.val) % 34) c :=
  (readCov_rows_apply v7 (grid2 M1 h1 M2 h2 M3 h3 M4 h4 v6 v7 x0 x1 x2 x3) 69 _ q c ⟨69 + q.val, by have := q.isLt; omega⟩ rfl).trans
    (grid2_apply M1 h1 M2 h2 M3 h3 M4 h4 v6 v7 x0 x1 x2 x3 ⟨69 + q.val, by have := q.isLt; omega⟩ c)

theorem slab2_70_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (q : Fin 1088) (c : Fin 128) :
    slab2_70 M1 h1 M2 h2 M3 h3 M4 h4 v6 v7 x0 x1 x2 x3 (ix2 q c) = Spec.pad (img2 M1 h1 M2 h2 M3 h3 M4 h4 v6 v7 x0 x1 x2 x3) ((70 + q.val) / 34) ((70 + q.val) % 34) c :=
  (readCov_rows_apply v7 (grid2 M1 h1 M2 h2 M3 h3 M4 h4 v6 v7 x0 x1 x2 x3) 70 _ q c ⟨70 + q.val, by have := q.isLt; omega⟩ rfl).trans
    (grid2_apply M1 h1 M2 h2 M3 h3 M4 h4 v6 v7 x0 x1 x2 x3 ⟨70 + q.val, by have := q.isLt; omega⟩ c)

end Cert.ReferenceIdeal.RefValue

end
-- ==== Proof.RefConv.lean ====
/-
  The arithmetic of the body at an index.

  A convolution adds nine products up from zero; each product multiplies a slab of 1088 grid rows by a
  128 x 128 tap: at slab row q and output channel co it is the sum over the input channel ci of
  slab (q, ci) * tap (ci, co). An activation is max (a * scale + shift, 0) with the scale and the shift read from one
  row of the normalisation table. An output block adds 32 image rows and 32 rows of the second convolution. This module
  reads each of these at an index, over variables, and shows that nine tap sums over the nine shifted positions of the
  ringed grid are `Spec.conv`.
-/
import proofs.«108192_g2000002599257424_pallasbulk_288_18_alg».proof.Proof.Gen.ReferenceIdeal.Skeleton
import proofs.«108192_g2000002599257424_pallasbulk_288_18_alg».proof.Proof.Spec
import Idealize.ShloMosaic.PureOps.Ideal.Laws
import Idealize.ShloMosaic.Lib.Pipeline.Value
import Idealize.ShloMosaic.Lib.ValueIdx

noncomputable section

namespace Cert.ReferenceIdeal.RefValue

open Idealize.ShloMosaic Idealize.ShloMosaic.ValueIdx
open Cert.ReferenceIdeal Cert.ReferenceIdeal.Gen
open scoped BigOperators

/-- One tap at slab row `q` and output channel `co`: the sum over the input channel. -/
def tapSum (s : S1088x128.Idx → EReal) (a : S1x128x128.Idx → EReal) (q : Fin 1088) (co : Fin 128) : EReal :=
  ∑ ci : Fin 128, s (ix2 q ci) * a (ix3 (0 : Fin 1) ci co)

/-- The matrix product of a slab with a tap, into the zero accumulator, at an index. -/
theorem tap_apply (s : Vec Ideal S1088x128 .f32) (a : Vec Ideal S1x128x128 .bf16) (q : Fin 1088) (co : Fin 128) :
    matmul (F := Ideal) (φ₁ := .bf16) (φ₂ := .bf16) dot_S1088x128_S128x128_S1088x128_1_0_0_1_n_n none (truncf .bf16 s bitsLt_bf16_f32)
        (shapeCast S128x128 a shapeCasts_S1x128x128_S128x128) (constant (F := Ideal) S1088x128 .f32 0x00000000#32)
        (ix2 q co)
      = tapSum s a q co := by
  show FloatOps.matmul (F := Ideal) (φ₁ := .bf16) (φ₂ := .bf16) dot_S1088x128_S128x128_S1088x128_1_0_0_1_n_n none _ _ _ (ix2 q co) = _
  rw [Ideal.matmul_constant_zero_apply, ← Equiv.sum_comp (contrEquiv1 dot_S1088x128_S128x128_S1088x128_1_0_0_1_n_n 128 rfl rfl).symm]
  unfold tapSum
  refine Finset.sum_congr rfl fun ci _ => ?_
  have c2 := contrEquiv1_symm_val dot_S1088x128_S128x128_S1088x128_1_0_0_1_n_n 128 rfl rfl ci
  have l2 : (dot_S1088x128_S128x128_S1088x128_1_0_0_1_n_n).lhsIdx (ix2 q co) ((contrEquiv1 _ 128 rfl rfl).symm ci) = ix2 q ci := by
    funext ax; apply Fin.ext
    match ax with
    | ⟨0, _⟩ => simp [DotDims.lhsIdx, dot_S1088x128_S128x128_S1088x128_1_0_0_1_n_n]; rfl
    | ⟨1, _⟩ => simp [DotDims.lhsIdx, dot_S1088x128_S128x128_S1088x128_1_0_0_1_n_n]; exact c2
  have r2 : (dot_S1088x128_S128x128_S1088x128_1_0_0_1_n_n).rhsIdx (ix2 q co) ((contrEquiv1 _ 128 rfl rfl).symm ci) = ix2 ci co := by
    funext ax; apply Fin.ext
    match ax with
    | ⟨0, _⟩ => simp [DotDims.rhsIdx, dot_S1088x128_S128x128_S1088x128_1_0_0_1_n_n]; exact c2
    | ⟨1, _⟩ => simp [DotDims.rhsIdx, dot_S1088x128_S128x128_S1088x128_1_0_0_1_n_n]; rfl
  rw [l2, r2]
  refine congrArg (fun z : EReal => s (ix2 q ci) * z)
    ((shapeCast_dropUnit_apply ![128, 128] a shapeCasts_S1x128x128_S128x128 (ix2 ci co)).trans (congrArg a ?_))
  funext ax
  match ax with
  | ⟨0, _⟩ => rfl
  | ⟨1, _⟩ => rfl
  | ⟨2, _⟩ => rfl

/-- The zero constant of a payload. -/
theorem scalar_zero : (Scalar.ofBits .f32 0x00000000#32 : Ideal .f32) = (0 : EReal) := Ideal.ofBits_zero_f32

/-- A row of the normalisation table spread over the rows of an array, at an index. -/
theorem spreadRow_apply {M : Nat} (v : FVec Ideal S1x128 .f32)
    (hb : S1x128.Broadcasts (⟨2, ![M, 128]⟩ : Shape)) (q : Fin M) (co : Fin 128) :
    broadcastTo (⟨2, ![M, 128]⟩ : Shape) v hb (ix2 q co) = v (ix2 (0 : Fin 1) co) :=
  broadcastTo_apply v hb (ix2 q co) (ix2 (0 : Fin 1) co) (fun a => by
    match a with
    | ⟨0, _⟩ => show (0 : Nat) = if (1 : Nat) = 1 then 0 else _; rw [if_pos rfl]
    | ⟨1, _⟩ => show co.val = if (128 : Nat) = 1 then 0 else _; rw [if_neg (by decide)]; rfl)

/-- The first three taps added up from zero. -/
theorem pay42_apply (s0 : Vec Ideal S1088x128 .f32) (a0 : Vec Ideal S1x128x128 .bf16) (s1 : Vec Ideal S1088x128 .f32) (a1 : Vec Ideal S1x128x128 .bf16) (s2 : Vec Ideal S1088x128 .f32) (a2 : Vec Ideal S1x128x128 .bf16) (q : Fin 1088) (co : Fin 128) :
    k0_pay42 (F := Ideal) s0 a0 s1 a1 s2 a2 (ix2 q co) = 0 + tapSum s0 a0 q co + tapSum s1 a1 q co + tapSum s2 a2 q co := by
  unfold k0_pay42
  simp only [addf_apply, broadcast_apply, tap_apply, scalar_zero]

/-- Five more taps added to an accumulator. -/
theorem pay43_apply (acc : FVec Ideal S1088x128 .f32) (s3 : Vec Ideal S1088x128 .f32) (a3 : Vec Ideal S1x128x128 .bf16) (s4 : Vec Ideal S1088x128 .f32) (a4 : Vec Ideal S1x128x128 .bf16) (s5 : Vec Ideal S1088x128 .f32) (a5 : Vec Ideal S1x128x128 .bf16) (s6 : Vec Ideal S1088x128 .f32) (a6 : Vec Ideal S1x128x128 .bf16) (s7 : Vec Ideal S1088x128 .f32) (a7 : Vec Ideal S1x128x128 .bf16) (q : Fin 1088) (co : Fin 128) :
    k0_pay43 (F := Ideal) acc s3 a3 s4 a4 s5 a5 s6 a6 s7 a7 (ix2 q co) = acc (ix2 q co) + tapSum s3 a3 q co + tapSum s4 a4 q co + tapSum s5 a5 q co + tapSum s6 a6 q co + tapSum s7 a7 q co := by
  unfold k0_pay43
  simp only [addf_apply, tap_apply]

/-- The ninth tap added, then the second activation. -/
theorem pay44_apply (v5 v7 : FVec Ideal S1x128 .f32) (acc : FVec Ideal S1088x128 .f32) (s8 : Vec Ideal S1088x128 .f32) (a8 : Vec Ideal S1x128x128 .bf16)
    (q : Fin 1088) (co : Fin 128) :
    k0_pay44 (F := Ideal) v5 v7 acc s8 a8 (ix2 q co)
      = max ((acc (ix2 q co) + tapSum s8 a8 q co) * v5 (ix2 (0 : Fin 1) co) + v7 (ix2 (0 : Fin 1) co)) 0 := by
  unfold k0_pay44
  simp only [maximumf_apply, addf_apply, mulf_apply, broadcast_apply, tap_apply, scalar_zero, spreadRow_apply]

/-- The first four taps of the second convolution added up from zero. -/
theorem pay80_apply (s0 : Vec Ideal S1088x128 .f32) (a0 : Vec Ideal S1x128x128 .bf16) (s1 : Vec Ideal S1088x128 .f32) (a1 : Vec Ideal S1x128x128 .bf16) (s2 : Vec Ideal S1088x128 .f32) (a2 : Vec Ideal S1x128x128 .bf16) (s3 : Vec Ideal S1088x128 .f32) (a3 : Vec Ideal S1x128x128 .bf16) (q : Fin 1088) (co : Fin 128) :
    k0_pay80 (F := Ideal) s0 a0 s1 a1 s2 a2 s3 a3 (ix2 q co) = 0 + tapSum s0 a0 q co + tapSum s1 a1 q co + tapSum s2 a2 q co + tapSum s3 a3 q co := by
  unfold k0_pay80
  simp only [addf_apply, broadcast_apply, tap_apply, scalar_zero]

/-- The last five taps of the second convolution added to an accumulator. -/
theorem pay81_apply (acc : FVec Ideal S1088x128 .f32) (s4 : Vec Ideal S1088x128 .f32) (a4 : Vec Ideal S1x128x128 .bf16) (s5 : Vec Ideal S1088x128 .f32) (a5 : Vec Ideal S1x128x128 .bf16) (s6 : Vec Ideal S1088x128 .f32) (a6 : Vec Ideal S1x128x128 .bf16) (s7 : Vec Ideal S1088x128 .f32) (a7 : Vec Ideal S1x128x128 .bf16) (s8 : Vec Ideal S1088x128 .f32) (a8 : Vec Ideal S1x128x128 .bf16) (q : Fin 1088) (co : Fin 128) :
    k0_pay81 (F := Ideal) acc s4 a4 s5 a5 s6 a6 s7 a7 s8 a8 (ix2 q co) = acc (ix2 q co) + tapSum s4 a4 q co + tapSum s5 a5 q co + tapSum s6 a6 q co + tapSum s7 a7 q co + tapSum s8 a8 q co := by
  unfold k0_pay81
  simp only [addf_apply, tap_apply]

/-- The image block with its leading unit axis dropped, at an index. -/
theorem pay5_apply (x : Vec Ideal S1x1024x128 .f32) (r : Fin 1024) (c : Fin 128) :
    k0_pay5 (F := Ideal) x (ix2 r c) = x (ix3 (0 : Fin 1) r c) := by
  unfold k0_pay5
  refine (shapeCast_dropUnit_apply ![1024, 128] x shapeCasts_S1x1024x128_S1024x128 (ix2 r c)).trans (congrArg x ?_)
  funext ax
  match ax with
  | ⟨0, _⟩ => rfl
  | ⟨1, _⟩ => rfl
  | ⟨2, _⟩ => rfl

/-- The first activation at an index. -/
theorem pay7_apply (v0 v2 : Vec Ideal S1x128 .f32) (x : Vec Ideal S1x1024x128 .f32) (r : Fin 1024) (c : Fin 128) :
    k0_pay7 (F := Ideal) v0 v2 x (ix2 r c)
      = max (x (ix3 (0 : Fin 1) r c) * v0 (ix2 (0 : Fin 1) c) + v2 (ix2 (0 : Fin 1) c)) 0 := by
  unfold k0_pay7
  simp only [maximumf_apply, addf_apply, mulf_apply, broadcast_apply, scalar_zero, spreadRow_apply, pay5_apply,
    shapeCast_self]

/-- The scale and the shift of the second activation pass through an identity shape cast. -/
theorem pay3_apply (v : Vec Ideal S1x128 .f32) (y : S1x128.Idx) : k0_pay3 (F := Ideal) v y = v y := by
  unfold k0_pay3; rw [shapeCast_self]
theorem pay4_apply (v : Vec Ideal S1x128 .f32) (y : S1x128.Idx) : k0_pay4 (F := Ideal) v y = v y := by
  unfold k0_pay4; rw [shapeCast_self]

/-- An output block: 32 rows of `A` from row `oa` plus 32 rows of `B` from row `ob`, with a leading unit axis, at an
    index. -/
theorem outBlock_apply {Ma Mb : Nat} (oa ob : Nat) (A : FVec Ideal (⟨2, ![Ma, 128]⟩ : Shape) .f32)
    (B : FVec Ideal (⟨2, ![Mb, 128]⟩ : Shape) .f32)
    (hsa : (⟨2, ![Ma, 128]⟩ : Shape).Slices ![oa, 0] (⟨2, ![32, 128]⟩ : Shape))
    (hsb : (⟨2, ![Mb, 128]⟩ : Shape).Slices ![ob, 0] (⟨2, ![32, 128]⟩ : Shape))
    (hc : (⟨2, ![32, 128]⟩ : Shape).ShapeCasts (⟨3, ![1, 32, 128]⟩ : Shape))
    (w : Fin 32) (c : Fin 128) (pa : Fin Ma) (pb : Fin Mb) (ha : pa.val = oa + w.val) (hb : pb.val = ob + w.val) :
    shapeCast (⟨3, ![1, 32, 128]⟩ : Shape)
        (addf (extractStridedSlice (⟨2, ![32, 128]⟩ : Shape) ![oa, 0] A hsa)
          (extractStridedSlice (⟨2, ![32, 128]⟩ : Shape) ![ob, 0] B hsb)) hc (ix3 (0 : Fin 1) w c)
      = A (ix2 pa c) + B (ix2 pb c) := by
  refine (shapeCast_addUnit_apply ![32, 128] _ hc (ix3 (0 : Fin 1) w c)).trans ?_
  have e : (fun a : Fin 2 => (ix3 (0 : Fin 1) w c) a.succ) = ix2 w c := by
    funext ax
    match ax with
    | ⟨0, _⟩ => rfl
    | ⟨1, _⟩ => rfl
  rw [e, addf_apply]
  congr 1
  · exact extractStridedSlice_apply _ A hsa (ix2 w c) (ix2 pa c) (fun a => by
      match a with
      | ⟨0, _⟩ => exact ha
      | ⟨1, _⟩ => show c.val = 0 + c.val; omega)
  · exact extractStridedSlice_apply _ B hsb (ix2 w c) (ix2 pb c) (fun a => by
      match a with
      | ⟨0, _⟩ => exact hb
      | ⟨1, _⟩ => show c.val = 0 + c.val; omega)

/-! ## Nine taps are the convolution -/

/-- Nine sums over the input channel, one per position (dy, dx) of the 3 x 3 window on the ringed grid, added up from
    zero in the order (0,0), (0,1), …, (2,2), are the convolution's triple sum. -/
theorem nine_taps (img : Spec.Img) (wt : Spec.Wt) (h w : Fin 32) (co : Fin 128)
    (t00 t01 t02 t10 t11 t12 t20 t21 t22 : EReal)
    (h00 : t00 = ∑ ci : Fin 128, Spec.pad img (h.val + 0) (w.val + 0) ci * wt 0 0 ci co)
    (h01 : t01 = ∑ ci : Fin 128, Spec.pad img (h.val + 0) (w.val + 1) ci * wt 0 1 ci co)
    (h02 : t02 = ∑ ci : Fin 128, Spec.pad img (h.val + 0) (w.val + 2) ci * wt 0 2 ci co)
    (h10 : t10 = ∑ ci : Fin 128, Spec.pad img (h.val + 1) (w.val + 0) ci * wt 1 0 ci co)
    (h11 : t11 = ∑ ci : Fin 128, Spec.pad img (h.val + 1) (w.val + 1) ci * wt 1 1 ci co)
    (h12 : t12 = ∑ ci : Fin 128, Spec.pad img (h.val + 1) (w.val + 2) ci * wt 1 2 ci co)
    (h20 : t20 = ∑ ci : Fin 128, Spec.pad img (h.val + 2) (w.val + 0) ci * wt 2 0 ci co)
    (h21 : t21 = ∑ ci : Fin 128, Spec.pad img (h.val + 2) (w.val + 1) ci * wt 2 1 ci co)
    (h22 : t22 = ∑ ci : Fin 128, Spec.pad img (h.val + 2) (w.val + 2) ci * wt 2 2 ci co) :
    0 + t00 + t01 + t02 + t10 + t11 + t12 + t20 + t21 + t22 = Spec.conv img wt h w co := by
  subst h00 h01 h02 h10 h11 h12 h20 h21 h22
  unfold Spec.conv
  simp only [Fin.sum_univ_three, Fin.val_zero, Fin.val_one, Fin.val_two, zero_add, add_assoc]

end Cert.ReferenceIdeal.RefValue

end
-- ==== Proof.RefBlock.lean ====
/-
  The body's result for one image is the residual block of that image.

  The loads of the whole staging buffers read their contents: the image block x, the four table rows (scale 1,
  shift 1, scale 2, shift 2) and the nine taps of each weight. The first activation, read as an image, is
  bnrelu (scale 1, shift 1) of x. The first convolution at slab row h * 34 + w adds nine tap sums over the nine
  positions (h + dy, w + dx) of the first grid, which holds the ringed first activation: it is `Spec.conv` of the
  first activation at (h, w), so the second activation, read as an image through slab rows h * 34 + w, is
  bnrelu (scale 2, shift 2) of that convolution; the second convolution is `Spec.conv` of the second activation in
  the same way. Output block h is image rows h * 32 .. plus rows h * 34 .. of the second convolution: at
  (0, h * 32 + w, c) the output window holds `Spec.block` of the image at (h, w, c).
-/
import proofs.«108192_g2000002599257424_pallasbulk_288_18_alg».proof.Proof.RefGridValue
import proofs.«108192_g2000002599257424_pallasbulk_288_18_alg».proof.Proof.RefConv

set_option maxRecDepth 16384

noncomputable section

namespace Cert.ReferenceIdeal.RefValue

open Idealize.ShloMosaic Idealize.ShloMosaic.ValueIdx Idealize.ShloMosaic.TcCoe
open Idealize.SL Idealize.SL.Sem
open Cert.ReferenceIdeal Cert.ReferenceIdeal.Gen
open scoped BigOperators

/-! ## Reading one row, or one tap, of a whole buffer -/

section Loads
variable {Val : EltTy → Type} {e : EltTy}

/-- A load of row `k` of a rank-two buffer, at column `c`. -/
theorem ld_row2 {m n : Nat} (X : (⟨2, ![m, n]⟩ : Shape).Idx → Val e) (k : Fin m)
    (inb : ∀ a, (![k.val, 0] : Fin 2 → Nat) a + (⟨2, ![1, n]⟩ : Shape).size a ≤ (⟨2, ![m, n]⟩ : Shape).size a)
    (c : Fin n) :
    View.ld X (Rect.unit (s := (⟨2, ![m, n]⟩ : Shape)) ![k.val, 0] (⟨2, ![1, n]⟩ : Shape).size inb) (ix2 (0 : Fin 1) c)
      = X (ix2 k c) := by
  refine congrArg X ?_
  funext a; apply Fin.ext
  match a with
  | ⟨0, _⟩ => show k.val + 1 * 0 = k.val; omega
  | ⟨1, _⟩ => show 0 + 1 * c.val = c.val; omega

/-- A load of member `t` of a rank-three buffer, at (i, j). -/
theorem ld_row3 {m a b : Nat} (X : (⟨3, ![m, a, b]⟩ : Shape).Idx → Val e) (t : Fin m)
    (inb : ∀ x, (![t.val, 0, 0] : Fin 3 → Nat) x + (⟨3, ![1, a, b]⟩ : Shape).size x ≤ (⟨3, ![m, a, b]⟩ : Shape).size x)
    (i : Fin a) (j : Fin b) :
    View.ld X (Rect.unit (s := (⟨3, ![m, a, b]⟩ : Shape)) ![t.val, 0, 0] (⟨3, ![1, a, b]⟩ : Shape).size inb)
        (ix3 (0 : Fin 1) i j)
      = X (ix3 t i j) := by
  refine congrArg X ?_
  funext x; apply Fin.ext
  match x with
  | ⟨0, _⟩ => show t.val + 1 * 0 = t.val; omega
  | ⟨1, _⟩ => show 0 + 1 * i.val = i.val; omega
  | ⟨2, _⟩ => show 0 + 1 * j.val = j.val; omega

end Loads

/-- The image as (row, column, channel). -/
def imgOf (x0 : Vec Ideal S1x1024x128 .f32) : Spec.Img :=
  fun h w c => x0 (ix3 (0 : Fin 1) ⟨h.val * 32 + w.val, by have := h.isLt; have := w.isLt; omega⟩ c)

/-- A weight as (dy, dx, input channel, output channel): tap dy * 3 + dx. -/
def wtOf (x : Vec Ideal S9x128x128 .bf16) : Spec.Wt :=
  fun dy dx ci co => x (ix3 ⟨dy.val * 3 + dx.val, by have := dy.isLt; have := dx.isLt; omega⟩ ci co)

/-- Row `k` of the normalisation table. -/
def rowOf (x3 : Vec Ideal S4x128 .f32) (k : Fin 4) : Fin 128 → EReal := fun c => x3 (ix2 k c)

/-- The image block is read whole. -/
theorem imgRead_eq (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) : imgRead M1 h1 M2 h2 M3 h3 M4 h4 v6 v7 x0 x1 x2 x3 = x0 := by
  unfold imgRead
  rw [View.readAt_eq_ld, h1.read_unread]
  exact View.ld_unit_zero (by funext a; fin_cases a <;> rfl) _ x0

theorem bnRow0_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (c : Fin 128) : bnRow0 M1 h1 M2 h2 M3 h3 M4 h4 v6 v7 x0 x1 x2 x3 (ix2 (0 : Fin 1) c) = rowOf x3 0 c := by
  unfold bnRow0
  rw [View.readAt_eq_ld, h4.read_unread]
  exact ld_row2 x3 (0 : Fin 4) _ c

theorem bnRow1_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (c : Fin 128) : bnRow1 M1 h1 M2 h2 M3 h3 M4 h4 v6 v7 x0 x1 x2 x3 (ix2 (0 : Fin 1) c) = rowOf x3 1 c := by
  unfold bnRow1
  rw [View.readAt_eq_ld, h4.read_unread]
  exact ld_row2 x3 (1 : Fin 4) _ c

theorem bnRow2_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (c : Fin 128) : bnRow2 M1 h1 M2 h2 M3 h3 M4 h4 v6 v7 x0 x1 x2 x3 (ix2 (0 : Fin 1) c) = rowOf x3 2 c := by
  unfold bnRow2
  rw [View.readAt_eq_ld, h4.read_unread]
  exact ld_row2 x3 (2 : Fin 4) _ c

theorem bnRow3_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (c : Fin 128) : bnRow3 M1 h1 M2 h2 M3 h3 M4 h4 v6 v7 x0 x1 x2 x3 (ix2 (0 : Fin 1) c) = rowOf x3 3 c := by
  unfold bnRow3
  rw [View.readAt_eq_ld, h4.read_unread]
  exact ld_row2 x3 (3 : Fin 4) _ c

theorem tap1_0_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (ci co : Fin 128) :
    tap1_0 M1 h1 M2 h2 M3 h3 M4 h4 v6 v7 x0 x1 x2 x3 (ix3 (0 : Fin 1) ci co) = wtOf x1 0 0 ci co := by
  unfold tap1_0
  rw [View.readAt_eq_ld, h2.read_unread]
  exact ld_row3 x1 (0 : Fin 9) _ ci co

theorem tap1_1_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (ci co : Fin 128) :
    tap1_1 M1 h1 M2 h2 M3 h3 M4 h4 v6 v7 x0 x1 x2 x3 (ix3 (0 : Fin 1) ci co) = wtOf x1 0 1 ci co := by
  unfold tap1_1
  rw [View.readAt_eq_ld, h2.read_unread]
  exact ld_row3 x1 (1 : Fin 9) _ ci co

theorem tap1_2_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (ci co : Fin 128) :
    tap1_2 M1 h1 M2 h2 M3 h3 M4 h4 v6 v7 x0 x1 x2 x3 (ix3 (0 : Fin 1) ci co) = wtOf x1 0 2 ci co := by
  unfold tap1_2
  rw [View.readAt_eq_ld, h2.read_unread]
  exact ld_row3 x1 (2 : Fin 9) _ ci co

theorem tap1_3_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (ci co : Fin 128) :
    tap1_3 M1 h1 M2 h2 M3 h3 M4 h4 v6 v7 x0 x1 x2 x3 (ix3 (0 : Fin 1) ci co) = wtOf x1 1 0 ci co := by
  unfold tap1_3
  rw [View.readAt_eq_ld, h2.read_unread]
  exact ld_row3 x1 (3 : Fin 9) _ ci co

theorem tap1_4_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (ci co : Fin 128) :
    tap1_4 M1 h1 M2 h2 M3 h3 M4 h4 v6 v7 x0 x1 x2 x3 (ix3 (0 : Fin 1) ci co) = wtOf x1 1 1 ci co := by
  unfold tap1_4
  rw [View.readAt_eq_ld, h2.read_unread]
  exact ld_row3 x1 (4 : Fin 9) _ ci co

theorem tap1_5_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (ci co : Fin 128) :
    tap1_5 M1 h1 M2 h2 M3 h3 M4 h4 v6 v7 x0 x1 x2 x3 (ix3 (0 : Fin 1) ci co) = wtOf x1 1 2 ci co := by
  unfold tap1_5
  rw [View.readAt_eq_ld, h2.read_unread]
  exact ld_row3 x1 (5 : Fin 9) _ ci co

theorem tap1_6_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (ci co : Fin 128) :
    tap1_6 M1 h1 M2 h2 M3 h3 M4 h4 v6 v7 x0 x1 x2 x3 (ix3 (0 : Fin 1) ci co) = wtOf x1 2 0 ci co := by
  unfold tap1_6
  rw [View.readAt_eq_ld, h2.read_unread]
  exact ld_row3 x1 (6 : Fin 9) _ ci co

theorem tap1_7_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (ci co : Fin 128) :
    tap1_7 M1 h1 M2 h2 M3 h3 M4 h4 v6 v7 x0 x1 x2 x3 (ix3 (0 : Fin 1) ci co) = wtOf x1 2 1 ci co := by
  unfold tap1_7
  rw [View.readAt_eq_ld, h2.read_unread]
  exact ld_row3 x1 (7 : Fin 9) _ ci co

theorem tap1_8_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (ci co : Fin 128) :
    tap1_8 M1 h1 M2 h2 M3 h3 M4 h4 v6 v7 x0 x1 x2 x3 (ix3 (0 : Fin 1) ci co) = wtOf x1 2 2 ci co := by
  unfold tap1_8
  rw [View.readAt_eq_ld, h2.read_unread]
  exact ld_row3 x1 (8 : Fin 9) _ ci co

theorem tap2_0_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (ci co : Fin 128) :
    tap2_0 M1 h1 M2 h2 M3 h3 M4 h4 v6 v7 x0 x1 x2 x3 (ix3 (0 : Fin 1) ci co) = wtOf x2 0 0 ci co := by
  unfold tap2_0
  rw [View.readAt_eq_ld, h3.read_unread]
  exact ld_row3 x2 (0 : Fin 9) _ ci co

theorem tap2_1_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (ci co : Fin 128) :
    tap2_1 M1 h1 M2 h2 M3 h3 M4 h4 v6 v7 x0 x1 x2 x3 (ix3 (0 : Fin 1) ci co) = wtOf x2 0 1 ci co := by
  unfold tap2_1
  rw [View.readAt_eq_ld, h3.read_unread]
  exact ld_row3 x2 (1 : Fin 9) _ ci co

theorem tap2_2_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (ci co : Fin 128) :
    tap2_2 M1 h1 M2 h2 M3 h3 M4 h4 v6 v7 x0 x1 x2 x3 (ix3 (0 : Fin 1) ci co) = wtOf x2 0 2 ci co := by
  unfold tap2_2
  rw [View.readAt_eq_ld, h3.read_unread]
  exact ld_row3 x2 (2 : Fin 9) _ ci co

theorem tap2_3_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (ci co : Fin 128) :
    tap2_3 M1 h1 M2 h2 M3 h3 M4 h4 v6 v7 x0 x1 x2 x3 (ix3 (0 : Fin 1) ci co) = wtOf x2 1 0 ci co := by
  unfold tap2_3
  rw [View.readAt_eq_ld, h3.read_unread]
  exact ld_row3 x2 (3 : Fin 9) _ ci co

theorem tap2_4_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (ci co : Fin 128) :
    tap2_4 M1 h1 M2 h2 M3 h3 M4 h4 v6 v7 x0 x1 x2 x3 (ix3 (0 : Fin 1) ci co) = wtOf x2 1 1 ci co := by
  unfold tap2_4
  rw [View.readAt_eq_ld, h3.read_unread]
  exact ld_row3 x2 (4 : Fin 9) _ ci co

theorem tap2_5_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (ci co : Fin 128) :
    tap2_5 M1 h1 M2 h2 M3 h3 M4 h4 v6 v7 x0 x1 x2 x3 (ix3 (0 : Fin 1) ci co) = wtOf x2 1 2 ci co := by
  unfold tap2_5
  rw [View.readAt_eq_ld, h3.read_unread]
  exact ld_row3 x2 (5 : Fin 9) _ ci co

theorem tap2_6_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (ci co : Fin 128) :
    tap2_6 M1 h1 M2 h2 M3 h3 M4 h4 v6 v7 x0 x1 x2 x3 (ix3 (0 : Fin 1) ci co) = wtOf x2 2 0 ci co := by
  unfold tap2_6
  rw [View.readAt_eq_ld, h3.read_unread]
  exact ld_row3 x2 (6 : Fin 9) _ ci co

theorem tap2_7_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (ci co : Fin 128) :
    tap2_7 M1 h1 M2 h2 M3 h3 M4 h4 v6 v7 x0 x1 x2 x3 (ix3 (0 : Fin 1) ci co) = wtOf x2 2 1 ci co := by
  unfold tap2_7
  rw [View.readAt_eq_ld, h3.read_unread]
  exact ld_row3 x2 (7 : Fin 9) _ ci co

theorem tap2_8_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (ci co : Fin 128) :
    tap2_8 M1 h1 M2 h2 M3 h3 M4 h4 v6 v7 x0 x1 x2 x3 (ix3 (0 : Fin 1) ci co) = wtOf x2 2 2 ci co := by
  unfold tap2_8
  rw [View.readAt_eq_ld, h3.read_unread]
  exact ld_row3 x2 (8 : Fin 9) _ ci co

/-! ## One tap sum as the sum at one position of the window -/

/-- The tap sum of the slab from row `dy * 34 + dx` of a grid holding a ringed image, at slab row h * 34 + w: the sum
    over the input channel at position (h + dy, w + dx) of the ringed grid. -/
theorem tap_term (img : Spec.Img) (wt : Spec.Wt) (slab : S1088x128.Idx → EReal) (tap : S1x128x128.Idx → EReal)
    (o dy dx : Nat) (DY DX : Fin 3) (h w : Fin 32) (co : Fin 128) (q : Fin 1088) (hq : q.val = h.val * 34 + w.val)
    (ho : o = dy * 34 + dx) (hdy : dy < 3) (hdx : dx < 3)
    (hslab : ∀ ci, slab (ix2 q ci) = Spec.pad img ((o + q.val) / 34) ((o + q.val) % 34) ci)
    (htap : ∀ ci, tap (ix3 (0 : Fin 1) ci co) = wt DY DX ci co) (hDY : DY.val = dy) (hDX : DX.val = dx) :
    tapSum slab tap q co = ∑ ci : Fin 128, Spec.pad img (h.val + dy) (w.val + dx) ci * wt DY DX ci co := by
  have hh := h.isLt
  have hw := w.isLt
  unfold tapSum
  refine Finset.sum_congr rfl fun ci _ => ?_
  rw [hslab ci, htap ci, show (o + q.val) / 34 = h.val + dy from by omega,
    show (o + q.val) % 34 = w.val + dx from by omega]

/-! ## The two activations and the two convolutions -/

/-- The first activation, as an image, is bnrelu of the image. -/
theorem img1_eq (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) :
    img1 M1 h1 M2 h2 M3 h3 M4 h4 v6 v7 x0 x1 x2 x3 = fun h w c => Spec.bnrelu (rowOf x3 0) (rowOf x3 1) (imgOf x0 h w c) c := by
  funext h w c
  show k0_pay7 (bnRow0 M1 h1 M2 h2 M3 h3 M4 h4 v6 v7 x0 x1 x2 x3) (bnRow1 M1 h1 M2 h2 M3 h3 M4 h4 v6 v7 x0 x1 x2 x3) (imgRead M1 h1 M2 h2 M3 h3 M4 h4 v6 v7 x0 x1 x2 x3) (ix2 _ c) = _
  rw [pay7_apply, bnRow0_apply, bnRow1_apply, imgRead_eq]
  rfl

/-- The second activation at slab row h * 34 + w is bnrelu of the first convolution at (h, w). -/
theorem img2_eq (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) :
    img2 M1 h1 M2 h2 M3 h3 M4 h4 v6 v7 x0 x1 x2 x3 = fun h w co => Spec.bnrelu (rowOf x3 2) (rowOf x3 3) (Spec.conv (img1 M1 h1 M2 h2 M3 h3 M4 h4 v6 v7 x0 x1 x2 x3) (wtOf x1) h w co) co := by
  funext h w co
  show k0_pay44 (k0_pay3 (bnRow2 M1 h1 M2 h2 M3 h3 M4 h4 v6 v7 x0 x1 x2 x3)) (k0_pay4 (bnRow3 M1 h1 M2 h2 M3 h3 M4 h4 v6 v7 x0 x1 x2 x3))
    (k0_pay43 (k0_pay42 (slab1_0 M1 h1 M2 h2 M3 h3 M4 h4 v6 v7 x0 x1 x2 x3) (tap1_0 M1 h1 M2 h2 M3 h3 M4 h4 v6 v7 x0 x1 x2 x3) (slab1_1 M1 h1 M2 h2 M3 h3 M4 h4 v6 v7 x0 x1 x2 x3) (tap1_1 M1 h1 M2 h2 M3 h3 M4 h4 v6 v7 x0 x1 x2 x3) (slab1_2 M1 h1 M2 h2 M3 h3 M4 h4 v6 v7 x0 x1 x2 x3) (tap1_2 M1 h1 M2 h2 M3 h3 M4 h4 v6 v7 x0 x1 x2 x3))
      (slab1_34 M1 h1 M2 h2 M3 h3 M4 h4 v6 v7 x0 x1 x2 x3) (tap1_3 M1 h1 M2 h2 M3 h3 M4 h4 v6 v7 x0 x1 x2 x3) (slab1_35 M1 h1 M2 h2 M3 h3 M4 h4 v6 v7 x0 x1 x2 x3) (tap1_4 M1 h1 M2 h2 M3 h3 M4 h4 v6 v7 x0 x1 x2 x3) (slab1_36 M1 h1 M2 h2 M3 h3 M4 h4 v6 v7 x0 x1 x2 x3) (tap1_5 M1 h1 M2 h2 M3 h3 M4 h4 v6 v7 x0 x1 x2 x3)
      (slab1_68 M1 h1 M2 h2 M3 h3 M4 h4 v6 v7 x0 x1 x2 x3) (tap1_6 M1 h1 M2 h2 M3 h3 M4 h4 v6 v7 x0 x1 x2 x3) (slab1_69 M1 h1 M2 h2 M3 h3 M4 h4 v6 v7 x0 x1 x2 x3) (tap1_7 M1 h1 M2 h2 M3 h3 M4 h4 v6 v7 x0 x1 x2 x3))
    (slab1_70 M1 h1 M2 h2 M3 h3 M4 h4 v6 v7 x0 x1 x2 x3) (tap1_8 M1 h1 M2 h2 M3 h3 M4 h4 v6 v7 x0 x1 x2 x3) (ix2 _ co) = _
  rw [pay44_apply, pay43_apply, pay42_apply, pay3_apply, pay4_apply, bnRow2_apply, bnRow3_apply]
  rw [nine_taps (img1 M1 h1 M2 h2 M3 h3 M4 h4 v6 v7 x0 x1 x2 x3) (wtOf x1) h w co _ _ _ _ _ _ _ _ _
    (tap_term (img1 M1 h1 M2 h2 M3 h3 M4 h4 v6 v7 x0 x1 x2 x3) (wtOf x1) (slab1_0 M1 h1 M2 h2 M3 h3 M4 h4 v6 v7 x0 x1 x2 x3) (tap1_0 M1 h1 M2 h2 M3 h3 M4 h4 v6 v7 x0 x1 x2 x3) 0 0 0 0 0 h w co
      ⟨h.val * 34 + w.val, by have := h.isLt; have := w.isLt; omega⟩ rfl rfl (by omega) (by omega)
      (fun ci => slab1_0_apply M1 h1 M2 h2 M3 h3 M4 h4 v6 v7 x0 x1 x2 x3 _ ci) (fun ci => tap1_0_apply M1 h1 M2 h2 M3 h3 M4 h4 v6 v7 x0 x1 x2 x3 ci co) rfl rfl)
    (tap_term (img1 M1 h1 M2 h2 M3 h3 M4 h4 v6 v7 x0 x1 x2 x3) (wtOf x1) (slab1_1 M1 h1 M2 h2 M3 h3 M4 h4 v6 v7 x0 x1 x2 x3) (tap1_1 M1 h1 M2 h2 M3 h3 M4 h4 v6 v7 x0 x1 x2 x3) 1 0 1 0 1 h w co
      ⟨h.val * 34 + w.val, by have := h.isLt; have := w.isLt; omega⟩ rfl rfl (by omega) (by omega)
      (fun ci => slab1_1_apply M1 h1 M2 h2 M3 h3 M4 h4 v6 v7 x0 x1 x2 x3 _ ci) (fun ci => tap1_1_apply M1 h1 M2 h2 M3 h3 M4 h4 v6 v7 x0 x1 x2 x3 ci co) rfl rfl)
    (tap_term (img1 M1 h1 M2 h2 M3 h3 M4 h4 v6 v7 x0 x1 x2 x3) (wtOf x1) (slab1_2 M1 h1 M2 h2 M3 h3 M4 h4 v6 v7 x0 x1 x2 x3) (tap1_2 M1 h1 M2 h2 M3 h3 M4 h4 v6 v7 x0 x1 x2 x3) 2 0 2 0 2 h w co
      ⟨h.val * 34 + w.val, by have := h.isLt; have := w.isLt; omega⟩ rfl rfl (by omega) (by omega)
      (fun ci => slab1_2_apply M1 h1 M2 h2 M3 h3 M4 h4 v6 v7 x0 x1 x2 x3 _ ci) (fun ci => tap1_2_apply M1 h1 M2 h2 M3 h3 M4 h4 v6 v7 x0 x1 x2 x3 ci co) rfl rfl)
    (tap_term (img1 M1 h1 M2 h2 M3 h3 M4 h4 v6 v7 x0 x1 x2 x3) (wtOf x1) (slab1_34 M1 h1 M2 h2 M3 h3 M4 h4 v6 v7 x0 x1 x2 x3) (tap1_3 M1 h1 M2 h2 M3 h3 M4 h4 v6 v7 x0 x1 x2 x3) 34 1 0 1 0 h w co
      ⟨h.val * 34 + w.val, by have := h.isLt; have := w.isLt; omega⟩ rfl rfl (by omega) (by omega)
      (fun ci => slab1_34_apply M1 h1 M2 h2 M3 h3 M4 h4 v6 v7 x0 x1 x2 x3 _ ci) (fun ci => tap1_3_apply M1 h1 M2 h2 M3 h3 M4 h4 v6 v7 x0 x1 x2 x3 ci co) rfl rfl)
    (tap_term (img1 M1 h1 M2 h2 M3 h3 M4 h4 v6 v7 x0 x1 x2 x3) (wtOf x1) (slab1_35 M1 h1 M2 h2 M3 h3 M4 h4 v6 v7 x0 x1 x2 x3) (tap1_4 M1 h1 M2 h2 M3 h3 M4 h4 v6 v7 x0 x1 x2 x3) 35 1 1 1 1 h w co
      ⟨h.val * 34 + w.val, by have := h.isLt; have := w.isLt; omega⟩ rfl rfl (by omega) (by omega)
      (fun ci => slab1_35_apply M1 h1 M2 h2 M3 h3 M4 h4 v6 v7 x0 x1 x2 x3 _ ci) (fun ci => tap1_4_apply M1 h1 M2 h2 M3 h3 M4 h4 v6 v7 x0 x1 x2 x3 ci co) rfl rfl)
    (tap_term (img1 M1 h1 M2 h2 M3 h3 M4 h4 v6 v7 x0 x1 x2 x3) (wtOf x1) (slab1_36 M1 h1 M2 h2 M3 h3 M4 h4 v6 v7 x0 x1 x2 x3) (tap1_5 M1 h1 M2 h2 M3 h3 M4 h4 v6 v7 x0 x1 x2 x3) 36 1 2 1 2 h w co
      ⟨h.val * 34 + w.val, by have := h.isLt; have := w.isLt; omega⟩ rfl rfl (by omega) (by omega)
      (fun ci => slab1_36_apply M1 h1 M2 h2 M3 h3 M4 h4 v6 v7 x0 x1 x2 x3 _ ci) (fun ci => tap1_5_apply M1 h1 M2 h2 M3 h3 M4 h4 v6 v7 x0 x1 x2 x3 ci co) rfl rfl)
    (tap_term (img1 M1 h1 M2 h2 M3 h3 M4 h4 v6 v7 x0 x1 x2 x3) (wtOf x1) (slab1_68 M1 h1 M2 h2 M3 h3 M4 h4 v6 v7 x0 x1 x2 x3) (tap1_6 M1 h1 M2 h2 M3 h3 M4 h4 v6 v7 x0 x1 x2 x3) 68 2 0 2 0 h w co
      ⟨h.val * 34 + w.val, by have := h.isLt; have := w.isLt; omega⟩ rfl rfl (by omega) (by omega)
      (fun ci => slab1_68_apply M1 h1 M2 h2 M3 h3 M4 h4 v6 v7 x0 x1 x2 x3 _ ci) (fun ci => tap1_6_apply M1 h1 M2 h2 M3 h3 M4 h4 v6 v7 x0 x1 x2 x3 ci co) rfl rfl)
    (tap_term (img1 M1 h1 M2 h2 M3 h3 M4 h4 v6 v7 x0 x1 x2 x3) (wtOf x1) (slab1_69 M1 h1 M2 h2 M3 h3 M4 h4 v6 v7 x0 x1 x2 x3) (tap1_7 M1 h1 M2 h2 M3 h3 M4 h4 v6 v7 x0 x1 x2 x3) 69 2 1 2 1 h w co
      ⟨h.val * 34 + w.val, by have := h.isLt; have := w.isLt; omega⟩ rfl rfl (by omega) (by omega)
      (fun ci => slab1_69_apply M1 h1 M2 h2 M3 h3 M4 h4 v6 v7 x0 x1 x2 x3 _ ci) (fun ci => tap1_7_apply M1 h1 M2 h2 M3 h3 M4 h4 v6 v7 x0 x1 x2 x3 ci co) rfl rfl)
    (tap_term (img1 M1 h1 M2 h2 M3 h3 M4 h4 v6 v7 x0 x1 x2 x3) (wtOf x1) (slab1_70 M1 h1 M2 h2 M3 h3 M4 h4 v6 v7 x0 x1 x2 x3) (tap1_8 M1 h1 M2 h2 M3 h3 M4 h4 v6 v7 x0 x1 x2 x3) 70 2 2 2 2 h w co
      ⟨h.val * 34 + w.val, by have := h.isLt; have := w.isLt; omega⟩ rfl rfl (by omega) (by omega)
      (fun ci => slab1_70_apply M1 h1 M2 h2 M3 h3 M4 h4 v6 v7 x0 x1 x2 x3 _ ci) (fun ci => tap1_8_apply M1 h1 M2 h2 M3 h3 M4 h4 v6 v7 x0 x1 x2 x3 ci co) rfl rfl)]
  rfl

/-- The second convolution at slab row h * 34 + w is the convolution of the second activation at (h, w). -/
theorem conv2b_apply (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (h w : Fin 32) (co : Fin 128) :
    conv2b M1 h1 M2 h2 M3 h3 M4 h4 v6 v7 x0 x1 x2 x3 (ix2 ⟨h.val * 34 + w.val, by have := h.isLt; have := w.isLt; omega⟩ co)
      = Spec.conv (img2 M1 h1 M2 h2 M3 h3 M4 h4 v6 v7 x0 x1 x2 x3) (wtOf x2) h w co := by
  show k0_pay81 (k0_pay80 (slab2_0 M1 h1 M2 h2 M3 h3 M4 h4 v6 v7 x0 x1 x2 x3) (tap2_0 M1 h1 M2 h2 M3 h3 M4 h4 v6 v7 x0 x1 x2 x3) (slab2_1 M1 h1 M2 h2 M3 h3 M4 h4 v6 v7 x0 x1 x2 x3) (tap2_1 M1 h1 M2 h2 M3 h3 M4 h4 v6 v7 x0 x1 x2 x3) (slab2_2 M1 h1 M2 h2 M3 h3 M4 h4 v6 v7 x0 x1 x2 x3) (tap2_2 M1 h1 M2 h2 M3 h3 M4 h4 v6 v7 x0 x1 x2 x3)
      (slab2_34 M1 h1 M2 h2 M3 h3 M4 h4 v6 v7 x0 x1 x2 x3) (tap2_3 M1 h1 M2 h2 M3 h3 M4 h4 v6 v7 x0 x1 x2 x3))
    (slab2_35 M1 h1 M2 h2 M3 h3 M4 h4 v6 v7 x0 x1 x2 x3) (tap2_4 M1 h1 M2 h2 M3 h3 M4 h4 v6 v7 x0 x1 x2 x3) (slab2_36 M1 h1 M2 h2 M3 h3 M4 h4 v6 v7 x0 x1 x2 x3) (tap2_5 M1 h1 M2 h2 M3 h3 M4 h4 v6 v7 x0 x1 x2 x3) (slab2_68 M1 h1 M2 h2 M3 h3 M4 h4 v6 v7 x0 x1 x2 x3) (tap2_6 M1 h1 M2 h2 M3 h3 M4 h4 v6 v7 x0 x1 x2 x3)
    (slab2_69 M1 h1 M2 h2 M3 h3 M4 h4 v6 v7 x0 x1 x2 x3) (tap2_7 M1 h1 M2 h2 M3 h3 M4 h4 v6 v7 x0 x1 x2 x3) (slab2_70 M1 h1 M2 h2 M3 h3 M4 h4 v6 v7 x0 x1 x2 x3) (tap2_8 M1 h1 M2 h2 M3 h3 M4 h4 v6 v7 x0 x1 x2 x3) (ix2 _ co) = _
  rw [pay81_apply, pay80_apply]
  exact nine_taps (img2 M1 h1 M2 h2 M3 h3 M4 h4 v6 v7 x0 x1 x2 x3) (wtOf x2) h w co _ _ _ _ _ _ _ _ _
    (tap_term (img2 M1 h1 M2 h2 M3 h3 M4 h4 v6 v7 x0 x1 x2 x3) (wtOf x2) (slab2_0 M1 h1 M2 h2 M3 h3 M4 h4 v6 v7 x0 x1 x2 x3) (tap2_0 M1 h1 M2 h2 M3 h3 M4 h4 v6 v7 x0 x1 x2 x3) 0 0 0 0 0 h w co
      ⟨h.val * 34 + w.val, by have := h.isLt; have := w.isLt; omega⟩ rfl rfl (by omega) (by omega)
      (fun ci => slab2_0_apply M1 h1 M2 h2 M3 h3 M4 h4 v6 v7 x0 x1 x2 x3 _ ci) (fun ci => tap2_0_apply M1 h1 M2 h2 M3 h3 M4 h4 v6 v7 x0 x1 x2 x3 ci co) rfl rfl)
    (tap_term (img2 M1 h1 M2 h2 M3 h3 M4 h4 v6 v7 x0 x1 x2 x3) (wtOf x2) (slab2_1 M1 h1 M2 h2 M3 h3 M4 h4 v6 v7 x0 x1 x2 x3) (tap2_1 M1 h1 M2 h2 M3 h3 M4 h4 v6 v7 x0 x1 x2 x3) 1 0 1 0 1 h w co
      ⟨h.val * 34 + w.val, by have := h.isLt; have := w.isLt; omega⟩ rfl rfl (by omega) (by omega)
      (fun ci => slab2_1_apply M1 h1 M2 h2 M3 h3 M4 h4 v6 v7 x0 x1 x2 x3 _ ci) (fun ci => tap2_1_apply M1 h1 M2 h2 M3 h3 M4 h4 v6 v7 x0 x1 x2 x3 ci co) rfl rfl)
    (tap_term (img2 M1 h1 M2 h2 M3 h3 M4 h4 v6 v7 x0 x1 x2 x3) (wtOf x2) (slab2_2 M1 h1 M2 h2 M3 h3 M4 h4 v6 v7 x0 x1 x2 x3) (tap2_2 M1 h1 M2 h2 M3 h3 M4 h4 v6 v7 x0 x1 x2 x3) 2 0 2 0 2 h w co
      ⟨h.val * 34 + w.val, by have := h.isLt; have := w.isLt; omega⟩ rfl rfl (by omega) (by omega)
      (fun ci => slab2_2_apply M1 h1 M2 h2 M3 h3 M4 h4 v6 v7 x0 x1 x2 x3 _ ci) (fun ci => tap2_2_apply M1 h1 M2 h2 M3 h3 M4 h4 v6 v7 x0 x1 x2 x3 ci co) rfl rfl)
    (tap_term (img2 M1 h1 M2 h2 M3 h3 M4 h4 v6 v7 x0 x1 x2 x3) (wtOf x2) (slab2_34 M1 h1 M2 h2 M3 h3 M4 h4 v6 v7 x0 x1 x2 x3) (tap2_3 M1 h1 M2 h2 M3 h3 M4 h4 v6 v7 x0 x1 x2 x3) 34 1 0 1 0 h w co
      ⟨h.val * 34 + w.val, by have := h.isLt; have := w.isLt; omega⟩ rfl rfl (by omega) (by omega)
      (fun ci => slab2_34_apply M1 h1 M2 h2 M3 h3 M4 h4 v6 v7 x0 x1 x2 x3 _ ci) (fun ci => tap2_3_apply M1 h1 M2 h2 M3 h3 M4 h4 v6 v7 x0 x1 x2 x3 ci co) rfl rfl)
    (tap_term (img2 M1 h1 M2 h2 M3 h3 M4 h4 v6 v7 x0 x1 x2 x3) (wtOf x2) (slab2_35 M1 h1 M2 h2 M3 h3 M4 h4 v6 v7 x0 x1 x2 x3) (tap2_4 M1 h1 M2 h2 M3 h3 M4 h4 v6 v7 x0 x1 x2 x3) 35 1 1 1 1 h w co
      ⟨h.val * 34 + w.val, by have := h.isLt; have := w.isLt; omega⟩ rfl rfl (by omega) (by omega)
      (fun ci => slab2_35_apply M1 h1 M2 h2 M3 h3 M4 h4 v6 v7 x0 x1 x2 x3 _ ci) (fun ci => tap2_4_apply M1 h1 M2 h2 M3 h3 M4 h4 v6 v7 x0 x1 x2 x3 ci co) rfl rfl)
    (tap_term (img2 M1 h1 M2 h2 M3 h3 M4 h4 v6 v7 x0 x1 x2 x3) (wtOf x2) (slab2_36 M1 h1 M2 h2 M3 h3 M4 h4 v6 v7 x0 x1 x2 x3) (tap2_5 M1 h1 M2 h2 M3 h3 M4 h4 v6 v7 x0 x1 x2 x3) 36 1 2 1 2 h w co
      ⟨h.val * 34 + w.val, by have := h.isLt; have := w.isLt; omega⟩ rfl rfl (by omega) (by omega)
      (fun ci => slab2_36_apply M1 h1 M2 h2 M3 h3 M4 h4 v6 v7 x0 x1 x2 x3 _ ci) (fun ci => tap2_5_apply M1 h1 M2 h2 M3 h3 M4 h4 v6 v7 x0 x1 x2 x3 ci co) rfl rfl)
    (tap_term (img2 M1 h1 M2 h2 M3 h3 M4 h4 v6 v7 x0 x1 x2 x3) (wtOf x2) (slab2_68 M1 h1 M2 h2 M3 h3 M4 h4 v6 v7 x0 x1 x2 x3) (tap2_6 M1 h1 M2 h2 M3 h3 M4 h4 v6 v7 x0 x1 x2 x3) 68 2 0 2 0 h w co
      ⟨h.val * 34 + w.val, by have := h.isLt; have := w.isLt; omega⟩ rfl rfl (by omega) (by omega)
      (fun ci => slab2_68_apply M1 h1 M2 h2 M3 h3 M4 h4 v6 v7 x0 x1 x2 x3 _ ci) (fun ci => tap2_6_apply M1 h1 M2 h2 M3 h3 M4 h4 v6 v7 x0 x1 x2 x3 ci co) rfl rfl)
    (tap_term (img2 M1 h1 M2 h2 M3 h3 M4 h4 v6 v7 x0 x1 x2 x3) (wtOf x2) (slab2_69 M1 h1 M2 h2 M3 h3 M4 h4 v6 v7 x0 x1 x2 x3) (tap2_7 M1 h1 M2 h2 M3 h3 M4 h4 v6 v7 x0 x1 x2 x3) 69 2 1 2 1 h w co
      ⟨h.val * 34 + w.val, by have := h.isLt; have := w.isLt; omega⟩ rfl rfl (by omega) (by omega)
      (fun ci => slab2_69_apply M1 h1 M2 h2 M3 h3 M4 h4 v6 v7 x0 x1 x2 x3 _ ci) (fun ci => tap2_7_apply M1 h1 M2 h2 M3 h3 M4 h4 v6 v7 x0 x1 x2 x3 ci co) rfl rfl)
    (tap_term (img2 M1 h1 M2 h2 M3 h3 M4 h4 v6 v7 x0 x1 x2 x3) (wtOf x2) (slab2_70 M1 h1 M2 h2 M3 h3 M4 h4 v6 v7 x0 x1 x2 x3) (tap2_8 M1 h1 M2 h2 M3 h3 M4 h4 v6 v7 x0 x1 x2 x3) 70 2 2 2 2 h w co
      ⟨h.val * 34 + w.val, by have := h.isLt; have := w.isLt; omega⟩ rfl rfl (by omega) (by omega)
      (fun ci => slab2_70_apply M1 h1 M2 h2 M3 h3 M4 h4 v6 v7 x0 x1 x2 x3 _ ci) (fun ci => tap2_8_apply M1 h1 M2 h2 M3 h3 M4 h4 v6 v7 x0 x1 x2 x3 ci co) rfl rfl)

/-! ## The output window -/

/-- What the output window holds as one function of its index: image row r plus row r / 32 * 34 + r % 32 of the
    second convolution. -/
def outFn (Aimg : FVec Ideal S1024x128 .f32) (B : FVec Ideal S1088x128 .f32) : S1x1024x128.Idx → EReal :=
  fun y => Aimg (ix2 (y 1) (y 2))
    + B (ix2 ⟨(y 1).val / 32 * 34 + (y 1).val % 32, by have : (y 1).val < 1024 := (y 1).isLt; omega⟩ (y 2))

/-- Output block `k` agrees with `outFn` at every index of the block. -/
theorem outPiece_agrees (Aimg : FVec Ideal S1024x128 .f32) (B : FVec Ideal S1088x128 .f32) (k oa ob : Nat) (hk : k < 32)
    (hoa : oa = 32 * k) (hob : ob = 34 * k)
    (hsa : S1024x128.Slices ![oa, 0] S32x128) (hsb : S1088x128.Slices ![ob, 0] S32x128)
    (hc : S32x128.ShapeCasts S1x32x128)
    (inb : ∀ a, (![0, oa, 0] : Fin 3 → Nat) a + S1x32x128.size a ≤ S1x1024x128.size a)
    (x : S1x32x128.Idx) :
    shapeCast S1x32x128 (addf (extractStridedSlice S32x128 ![oa, 0] Aimg hsa) (extractStridedSlice S32x128 ![ob, 0] B hsb)) hc x
      = outFn Aimg B ((Rect.unit (s := S1x1024x128) ![0, oa, 0] S1x32x128.size inb).emb x) := by
  obtain ⟨z, w, c, rfl⟩ : ∃ (z : Fin 1) (w : Fin 32) (c : Fin 128), x = ix3 z w c := ⟨x 0, x 1, x 2, eq_ix3 x⟩
  obtain rfl : z = 0 := Subsingleton.elim _ _
  have hw := w.isLt
  have he : (Rect.unit (s := S1x1024x128) ![0, oa, 0] S1x32x128.size inb).emb (ix3 (0 : Fin 1) w c)
      = ix3 (0 : Fin 1) (⟨oa + w.val, by omega⟩ : Fin 1024) c := by
    funext a; apply Fin.ext
    match a with
    | ⟨0, _⟩ => show 0 + 1 * 0 = 0; omega
    | ⟨1, _⟩ => show oa + 1 * w.val = oa + w.val; omega
    | ⟨2, _⟩ => show 0 + 1 * c.val = c.val; omega
  rw [he, outBlock_apply oa ob Aimg B hsa hsb hc w c ⟨oa + w.val, by omega⟩ ⟨ob + w.val, by omega⟩ rfl rfl]
  show _ = Aimg (ix2 (⟨oa + w.val, _⟩ : Fin 1024) c)
    + B (ix2 ⟨(oa + w.val) / 32 * 34 + (oa + w.val) % 32, _⟩ c)
  congr 2
  apply congrArg (fun r => ix2 r c)
  apply Fin.ext
  show ob + w.val = (oa + w.val) / 32 * 34 + (oa + w.val) % 32
  omega

/-- Every output block agrees with `outFn` of the image rows and the second convolution. -/
theorem outRows_agree (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) :
    ∀ q ∈ outRows M1 h1 M2 h2 M3 h3 M4 h4 v6 v7 x0 x1 x2 x3, ∀ x : q.1.shape.Idx,
      q.2 x = outFn (k0_pay5 (imgRead M1 h1 M2 h2 M3 h3 M4 h4 v6 v7 x0 x1 x2 x3)) (conv2b M1 h1 M2 h2 M3 h3 M4 h4 v6 v7 x0 x1 x2 x3) (q.1.emb x) := by
  intro q hq
  simp only [outRows, List.mem_cons, List.not_mem_nil, or_false] at hq
  rcases hq with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact outPiece_agrees (k0_pay5 (imgRead M1 h1 M2 h2 M3 h3 M4 h4 v6 v7 x0 x1 x2 x3)) (conv2b M1 h1 M2 h2 M3 h3 M4 h4 v6 v7 x0 x1 x2 x3) 31 992 1054 (by omega) rfl rfl
      slices_S1024x128_o992_0_S32x128 slices_S1088x128_o1054_0_S32x128 shapeCasts_S32x128_S1x32x128
      inb_S1x1024x128_S1x32x128_0_992_0
  · exact outPiece_agrees (k0_pay5 (imgRead M1 h1 M2 h2 M3 h3 M4 h4 v6 v7 x0 x1 x2 x3)) (conv2b M1 h1 M2 h2 M3 h3 M4 h4 v6 v7 x0 x1 x2 x3) 30 960 1020 (by omega) rfl rfl
      slices_S1024x128_o960_0_S32x128 slices_S1088x128_o1020_0_S32x128 shapeCasts_S32x128_S1x32x128
      inb_S1x1024x128_S1x32x128_0_960_0
  · exact outPiece_agrees (k0_pay5 (imgRead M1 h1 M2 h2 M3 h3 M4 h4 v6 v7 x0 x1 x2 x3)) (conv2b M1 h1 M2 h2 M3 h3 M4 h4 v6 v7 x0 x1 x2 x3) 29 928 986 (by omega) rfl rfl
      slices_S1024x128_o928_0_S32x128 slices_S1088x128_o986_0_S32x128 shapeCasts_S32x128_S1x32x128
      inb_S1x1024x128_S1x32x128_0_928_0
  · exact outPiece_agrees (k0_pay5 (imgRead M1 h1 M2 h2 M3 h3 M4 h4 v6 v7 x0 x1 x2 x3)) (conv2b M1 h1 M2 h2 M3 h3 M4 h4 v6 v7 x0 x1 x2 x3) 28 896 952 (by omega) rfl rfl
      slices_S1024x128_o896_0_S32x128 slices_S1088x128_o952_0_S32x128 shapeCasts_S32x128_S1x32x128
      inb_S1x1024x128_S1x32x128_0_896_0
  · exact outPiece_agrees (k0_pay5 (imgRead M1 h1 M2 h2 M3 h3 M4 h4 v6 v7 x0 x1 x2 x3)) (conv2b M1 h1 M2 h2 M3 h3 M4 h4 v6 v7 x0 x1 x2 x3) 27 864 918 (by omega) rfl rfl
      slices_S1024x128_o864_0_S32x128 slices_S1088x128_o918_0_S32x128 shapeCasts_S32x128_S1x32x128
      inb_S1x1024x128_S1x32x128_0_864_0
  · exact outPiece_agrees (k0_pay5 (imgRead M1 h1 M2 h2 M3 h3 M4 h4 v6 v7 x0 x1 x2 x3)) (conv2b M1 h1 M2 h2 M3 h3 M4 h4 v6 v7 x0 x1 x2 x3) 26 832 884 (by omega) rfl rfl
      slices_S1024x128_o832_0_S32x128 slices_S1088x128_o884_0_S32x128 shapeCasts_S32x128_S1x32x128
      inb_S1x1024x128_S1x32x128_0_832_0
  · exact outPiece_agrees (k0_pay5 (imgRead M1 h1 M2 h2 M3 h3 M4 h4 v6 v7 x0 x1 x2 x3)) (conv2b M1 h1 M2 h2 M3 h3 M4 h4 v6 v7 x0 x1 x2 x3) 25 800 850 (by omega) rfl rfl
      slices_S1024x128_o800_0_S32x128 slices_S1088x128_o850_0_S32x128 shapeCasts_S32x128_S1x32x128
      inb_S1x1024x128_S1x32x128_0_800_0
  · exact outPiece_agrees (k0_pay5 (imgRead M1 h1 M2 h2 M3 h3 M4 h4 v6 v7 x0 x1 x2 x3)) (conv2b M1 h1 M2 h2 M3 h3 M4 h4 v6 v7 x0 x1 x2 x3) 24 768 816 (by omega) rfl rfl
      slices_S1024x128_o768_0_S32x128 slices_S1088x128_o816_0_S32x128 shapeCasts_S32x128_S1x32x128
      inb_S1x1024x128_S1x32x128_0_768_0
  · exact outPiece_agrees (k0_pay5 (imgRead M1 h1 M2 h2 M3 h3 M4 h4 v6 v7 x0 x1 x2 x3)) (conv2b M1 h1 M2 h2 M3 h3 M4 h4 v6 v7 x0 x1 x2 x3) 23 736 782 (by omega) rfl rfl
      slices_S1024x128_o736_0_S32x128 slices_S1088x128_o782_0_S32x128 shapeCasts_S32x128_S1x32x128
      inb_S1x1024x128_S1x32x128_0_736_0
  · exact outPiece_agrees (k0_pay5 (imgRead M1 h1 M2 h2 M3 h3 M4 h4 v6 v7 x0 x1 x2 x3)) (conv2b M1 h1 M2 h2 M3 h3 M4 h4 v6 v7 x0 x1 x2 x3) 22 704 748 (by omega) rfl rfl
      slices_S1024x128_o704_0_S32x128 slices_S1088x128_o748_0_S32x128 shapeCasts_S32x128_S1x32x128
      inb_S1x1024x128_S1x32x128_0_704_0
  · exact outPiece_agrees (k0_pay5 (imgRead M1 h1 M2 h2 M3 h3 M4 h4 v6 v7 x0 x1 x2 x3)) (conv2b M1 h1 M2 h2 M3 h3 M4 h4 v6 v7 x0 x1 x2 x3) 21 672 714 (by omega) rfl rfl
      slices_S1024x128_o672_0_S32x128 slices_S1088x128_o714_0_S32x128 shapeCasts_S32x128_S1x32x128
      inb_S1x1024x128_S1x32x128_0_672_0
  · exact outPiece_agrees (k0_pay5 (imgRead M1 h1 M2 h2 M3 h3 M4 h4 v6 v7 x0 x1 x2 x3)) (conv2b M1 h1 M2 h2 M3 h3 M4 h4 v6 v7 x0 x1 x2 x3) 20 640 680 (by omega) rfl rfl
      slices_S1024x128_o640_0_S32x128 slices_S1088x128_o680_0_S32x128 shapeCasts_S32x128_S1x32x128
      inb_S1x1024x128_S1x32x128_0_640_0
  · exact outPiece_agrees (k0_pay5 (imgRead M1 h1 M2 h2 M3 h3 M4 h4 v6 v7 x0 x1 x2 x3)) (conv2b M1 h1 M2 h2 M3 h3 M4 h4 v6 v7 x0 x1 x2 x3) 19 608 646 (by omega) rfl rfl
      slices_S1024x128_o608_0_S32x128 slices_S1088x128_o646_0_S32x128 shapeCasts_S32x128_S1x32x128
      inb_S1x1024x128_S1x32x128_0_608_0
  · exact outPiece_agrees (k0_pay5 (imgRead M1 h1 M2 h2 M3 h3 M4 h4 v6 v7 x0 x1 x2 x3)) (conv2b M1 h1 M2 h2 M3 h3 M4 h4 v6 v7 x0 x1 x2 x3) 18 576 612 (by omega) rfl rfl
      slices_S1024x128_o576_0_S32x128 slices_S1088x128_o612_0_S32x128 shapeCasts_S32x128_S1x32x128
      inb_S1x1024x128_S1x32x128_0_576_0
  · exact outPiece_agrees (k0_pay5 (imgRead M1 h1 M2 h2 M3 h3 M4 h4 v6 v7 x0 x1 x2 x3)) (conv2b M1 h1 M2 h2 M3 h3 M4 h4 v6 v7 x0 x1 x2 x3) 17 544 578 (by omega) rfl rfl
      slices_S1024x128_o544_0_S32x128 slices_S1088x128_o578_0_S32x128 shapeCasts_S32x128_S1x32x128
      inb_S1x1024x128_S1x32x128_0_544_0
  · exact outPiece_agrees (k0_pay5 (imgRead M1 h1 M2 h2 M3 h3 M4 h4 v6 v7 x0 x1 x2 x3)) (conv2b M1 h1 M2 h2 M3 h3 M4 h4 v6 v7 x0 x1 x2 x3) 16 512 544 (by omega) rfl rfl
      slices_S1024x128_o512_0_S32x128 slices_S1088x128_o544_0_S32x128 shapeCasts_S32x128_S1x32x128
      inb_S1x1024x128_S1x32x128_0_512_0
  · exact outPiece_agrees (k0_pay5 (imgRead M1 h1 M2 h2 M3 h3 M4 h4 v6 v7 x0 x1 x2 x3)) (conv2b M1 h1 M2 h2 M3 h3 M4 h4 v6 v7 x0 x1 x2 x3) 15 480 510 (by omega) rfl rfl
      slices_S1024x128_o480_0_S32x128 slices_S1088x128_o510_0_S32x128 shapeCasts_S32x128_S1x32x128
      inb_S1x1024x128_S1x32x128_0_480_0
  · exact outPiece_agrees (k0_pay5 (imgRead M1 h1 M2 h2 M3 h3 M4 h4 v6 v7 x0 x1 x2 x3)) (conv2b M1 h1 M2 h2 M3 h3 M4 h4 v6 v7 x0 x1 x2 x3) 14 448 476 (by omega) rfl rfl
      slices_S1024x128_o448_0_S32x128 slices_S1088x128_o476_0_S32x128 shapeCasts_S32x128_S1x32x128
      inb_S1x1024x128_S1x32x128_0_448_0
  · exact outPiece_agrees (k0_pay5 (imgRead M1 h1 M2 h2 M3 h3 M4 h4 v6 v7 x0 x1 x2 x3)) (conv2b M1 h1 M2 h2 M3 h3 M4 h4 v6 v7 x0 x1 x2 x3) 13 416 442 (by omega) rfl rfl
      slices_S1024x128_o416_0_S32x128 slices_S1088x128_o442_0_S32x128 shapeCasts_S32x128_S1x32x128
      inb_S1x1024x128_S1x32x128_0_416_0
  · exact outPiece_agrees (k0_pay5 (imgRead M1 h1 M2 h2 M3 h3 M4 h4 v6 v7 x0 x1 x2 x3)) (conv2b M1 h1 M2 h2 M3 h3 M4 h4 v6 v7 x0 x1 x2 x3) 12 384 408 (by omega) rfl rfl
      slices_S1024x128_o384_0_S32x128 slices_S1088x128_o408_0_S32x128 shapeCasts_S32x128_S1x32x128
      inb_S1x1024x128_S1x32x128_0_384_0
  · exact outPiece_agrees (k0_pay5 (imgRead M1 h1 M2 h2 M3 h3 M4 h4 v6 v7 x0 x1 x2 x3)) (conv2b M1 h1 M2 h2 M3 h3 M4 h4 v6 v7 x0 x1 x2 x3) 11 352 374 (by omega) rfl rfl
      slices_S1024x128_o352_0_S32x128 slices_S1088x128_o374_0_S32x128 shapeCasts_S32x128_S1x32x128
      inb_S1x1024x128_S1x32x128_0_352_0
  · exact outPiece_agrees (k0_pay5 (imgRead M1 h1 M2 h2 M3 h3 M4 h4 v6 v7 x0 x1 x2 x3)) (conv2b M1 h1 M2 h2 M3 h3 M4 h4 v6 v7 x0 x1 x2 x3) 10 320 340 (by omega) rfl rfl
      slices_S1024x128_o320_0_S32x128 slices_S1088x128_o340_0_S32x128 shapeCasts_S32x128_S1x32x128
      inb_S1x1024x128_S1x32x128_0_320_0
  · exact outPiece_agrees (k0_pay5 (imgRead M1 h1 M2 h2 M3 h3 M4 h4 v6 v7 x0 x1 x2 x3)) (conv2b M1 h1 M2 h2 M3 h3 M4 h4 v6 v7 x0 x1 x2 x3) 9 288 306 (by omega) rfl rfl
      slices_S1024x128_o288_0_S32x128 slices_S1088x128_o306_0_S32x128 shapeCasts_S32x128_S1x32x128
      inb_S1x1024x128_S1x32x128_0_288_0
  · exact outPiece_agrees (k0_pay5 (imgRead M1 h1 M2 h2 M3 h3 M4 h4 v6 v7 x0 x1 x2 x3)) (conv2b M1 h1 M2 h2 M3 h3 M4 h4 v6 v7 x0 x1 x2 x3) 8 256 272 (by omega) rfl rfl
      slices_S1024x128_o256_0_S32x128 slices_S1088x128_o272_0_S32x128 shapeCasts_S32x128_S1x32x128
      inb_S1x1024x128_S1x32x128_0_256_0
  · exact outPiece_agrees (k0_pay5 (imgRead M1 h1 M2 h2 M3 h3 M4 h4 v6 v7 x0 x1 x2 x3)) (conv2b M1 h1 M2 h2 M3 h3 M4 h4 v6 v7 x0 x1 x2 x3) 7 224 238 (by omega) rfl rfl
      slices_S1024x128_o224_0_S32x128 slices_S1088x128_o238_0_S32x128 shapeCasts_S32x128_S1x32x128
      inb_S1x1024x128_S1x32x128_0_224_0
  · exact outPiece_agrees (k0_pay5 (imgRead M1 h1 M2 h2 M3 h3 M4 h4 v6 v7 x0 x1 x2 x3)) (conv2b M1 h1 M2 h2 M3 h3 M4 h4 v6 v7 x0 x1 x2 x3) 6 192 204 (by omega) rfl rfl
      slices_S1024x128_o192_0_S32x128 slices_S1088x128_o204_0_S32x128 shapeCasts_S32x128_S1x32x128
      inb_S1x1024x128_S1x32x128_0_192_0
  · exact outPiece_agrees (k0_pay5 (imgRead M1 h1 M2 h2 M3 h3 M4 h4 v6 v7 x0 x1 x2 x3)) (conv2b M1 h1 M2 h2 M3 h3 M4 h4 v6 v7 x0 x1 x2 x3) 5 160 170 (by omega) rfl rfl
      slices_S1024x128_o160_0_S32x128 slices_S1088x128_o170_0_S32x128 shapeCasts_S32x128_S1x32x128
      inb_S1x1024x128_S1x32x128_0_160_0
  · exact outPiece_agrees (k0_pay5 (imgRead M1 h1 M2 h2 M3 h3 M4 h4 v6 v7 x0 x1 x2 x3)) (conv2b M1 h1 M2 h2 M3 h3 M4 h4 v6 v7 x0 x1 x2 x3) 4 128 136 (by omega) rfl rfl
      slices_S1024x128_o128_0_S32x128 slices_S1088x128_o136_0_S32x128 shapeCasts_S32x128_S1x32x128
      inb_S1x1024x128_S1x32x128_0_128_0
  · exact outPiece_agrees (k0_pay5 (imgRead M1 h1 M2 h2 M3 h3 M4 h4 v6 v7 x0 x1 x2 x3)) (conv2b M1 h1 M2 h2 M3 h3 M4 h4 v6 v7 x0 x1 x2 x3) 3 96 102 (by omega) rfl rfl
      slices_S1024x128_o96_0_S32x128 slices_S1088x128_o102_0_S32x128 shapeCasts_S32x128_S1x32x128
      inb_S1x1024x128_S1x32x128_0_96_0
  · exact outPiece_agrees (k0_pay5 (imgRead M1 h1 M2 h2 M3 h3 M4 h4 v6 v7 x0 x1 x2 x3)) (conv2b M1 h1 M2 h2 M3 h3 M4 h4 v6 v7 x0 x1 x2 x3) 2 64 68 (by omega) rfl rfl
      slices_S1024x128_o64_0_S32x128 slices_S1088x128_o68_0_S32x128 shapeCasts_S32x128_S1x32x128
      inb_S1x1024x128_S1x32x128_0_64_0
  · exact outPiece_agrees (k0_pay5 (imgRead M1 h1 M2 h2 M3 h3 M4 h4 v6 v7 x0 x1 x2 x3)) (conv2b M1 h1 M2 h2 M3 h3 M4 h4 v6 v7 x0 x1 x2 x3) 1 32 34 (by omega) rfl rfl
      slices_S1024x128_o32_0_S32x128 slices_S1088x128_o34_0_S32x128 shapeCasts_S32x128_S1x32x128
      inb_S1x1024x128_S1x32x128_0_32_0
  · exact outPiece_agrees (k0_pay5 (imgRead M1 h1 M2 h2 M3 h3 M4 h4 v6 v7 x0 x1 x2 x3)) (conv2b M1 h1 M2 h2 M3 h3 M4 h4 v6 v7 x0 x1 x2 x3) 0 0 0 (by omega) rfl rfl
      slices_S1024x128_o0_0_S32x128 slices_S1088x128_o0_0_S32x128 shapeCasts_S32x128_S1x32x128
      inb_S1x1024x128_S1x32x128_0_0_0

/-- The residual block of the image in the body's own reading of its inputs. -/
def blockOf (x0 : Vec Ideal S1x1024x128 .f32) (x1 x2 : Vec Ideal S9x128x128 .bf16) (x3 : Vec Ideal S4x128 .f32) : Spec.Img :=
  Spec.block (imgOf x0) (wtOf x1) (wtOf x2) (rowOf x3 0) (rowOf x3 1) (rowOf x3 2) (rowOf x3 3)

/-- `outFn` at (0, h * 32 + w, c) is the residual block at (h, w, c). -/
theorem outFn_eq_block (M1 : Memref sig .tc .vmem S1x1024x128 .f32) (h1 : M1.IsWhole) (M2 : Memref sig .tc .vmem S9x128x128 .bf16) (h2 : M2.IsWhole) (M3 : Memref sig .tc .vmem S9x128x128 .bf16) (h3 : M3.IsWhole) (M4 : Memref sig .tc .vmem S4x128 .f32) (h4 : M4.IsWhole) (v6 v7 : View sig .tc .vmem S1160x128 .f32) (x0 : Vec Ideal S1x1024x128 .f32) (x1 x2 : Vec Ideal S9x128x128 .bf16) (x3 : Vec Ideal S4x128 .f32) (h w : Fin 32) (c : Fin 128) :
    outFn (k0_pay5 (imgRead M1 h1 M2 h2 M3 h3 M4 h4 v6 v7 x0 x1 x2 x3)) (conv2b M1 h1 M2 h2 M3 h3 M4 h4 v6 v7 x0 x1 x2 x3)
        (ix3 (0 : Fin 1) ⟨h.val * 32 + w.val, by have := h.isLt; have := w.isLt; omega⟩ c)
      = blockOf x0 x1 x2 x3 h w c := by
  have hh := h.isLt
  have hw := w.isLt
  show k0_pay5 (imgRead M1 h1 M2 h2 M3 h3 M4 h4 v6 v7 x0 x1 x2 x3) (ix2 (⟨h.val * 32 + w.val, _⟩ : Fin 1024) c)
    + conv2b M1 h1 M2 h2 M3 h3 M4 h4 v6 v7 x0 x1 x2 x3 (ix2 ⟨(h.val * 32 + w.val) / 32 * 34 + (h.val * 32 + w.val) % 32, _⟩ c) = _
  have e : (⟨(h.val * 32 + w.val) / 32 * 34 + (h.val * 32 + w.val) % 32, by omega⟩ : Fin 1088)
      = ⟨h.val * 34 + w.val, by omega⟩ :=
    Fin.ext (by show (h.val * 32 + w.val) / 32 * 34 + (h.val * 32 + w.val) % 32 = h.val * 34 + w.val; omega)
  rw [e, conv2b_apply, pay5_apply, imgRead_eq, img2_eq, img1_eq]
  rfl

/-- What the body leaves in the output window, at (0, h * 32 + w, c): the residual block of the image at (h, w, c). -/
theorem out_apply (c : Dev nD) (i : grid0.Coords) (arg1 : Memref sig .tc .vmem S1x1024x128 .f32) (harg1 : arg1.IsWhole) (arg2 : Memref sig .tc .vmem S9x128x128 .bf16) (harg2 : arg2.IsWhole) (arg3 : Memref sig .tc .vmem S9x128x128 .bf16) (harg3 : arg3.IsWhole) (arg4 : Memref sig .tc .vmem S4x128 .f32) (harg4 : arg4.IsWhole) (arg5 : Memref sig .tc .vmem S1x1024x128 .f32) (harg5 : arg5.IsWhole) (arg6 : Memref sig .tc .vmem S1160x128 .f32) (harg6 : arg6.IsWhole) (arg7 : Memref sig .tc .vmem S1160x128 .f32) (harg7 : arg7.IsWhole)
    (x0 : Vec Ideal S1x1024x128 .f32) (x1 x2 : Vec Ideal S9x128x128 .bf16) (x3 : Vec Ideal S4x128 .f32)
    (h w : Fin 32) (ch : Fin 128) :
    out0_A_4 c i arg1 harg1 arg2 harg2 arg3 harg3 arg4 harg4 arg5 harg5 arg6 harg6 arg7 harg7 x0 x1 x2 x3 (ix3 (0 : Fin 1) ⟨h.val * 32 + w.val, by have := h.isLt; have := w.isLt; omega⟩ ch)
      = blockOf x0 x1 x2 x3 h w ch := by
  unfold out0_A_4
  rw [View.read_writes_eq_canon _ _ _ (cover0_A_4 c i arg1 harg1 arg2 harg2 arg3 harg3 arg4 harg4 arg5 harg5 arg6 harg6 arg7 harg7 x0 x1 x2 x3)]
  have hcov := cover0_A_4 c i arg1 harg1 arg2 harg2 arg3 harg3 arg4 harg4 arg5 harg5 arg6 harg6 arg7 harg7 x0 x1 x2 x3
  rw [found_eq_outRows] at hcov ⊢
  exact (View.canon_apply_of_pieces _ _
      (outRows_agree arg1 harg1 arg2 harg2 arg3 harg3 arg4 harg4 arg6.view arg7.view x0 x1 x2 x3) _ (hcov _)).trans
    (outFn_eq_block arg1 harg1 arg2 harg2 arg3 harg3 arg4 harg4 arg6.view arg7.view x0 x1 x2 x3 h w ch)

end Cert.ReferenceIdeal.RefValue

end
-- ==== Proof.RefWindows.lean ====
/-
  The windows' blocks at a grid point.

  The grid has 64 points, one per image. At point t the image window's block is member t of the [64, 1024, 128]
  array of flattened channels-last images, and the output window's block is member t of the result array; the two
  weights and the normalisation table are whole-array windows, the same at every point.
-/
import proofs.«108192_g2000002599257424_pallasbulk_288_18_alg».proof.Proof.Gen.ReferenceIdeal.Frame
import Idealize.ShloMosaic.Lib.Pipeline.Value
import Idealize.ShloMosaic.Lib.ValueIdx

set_option maxRecDepth 16384

noncomputable section

namespace Cert.ReferenceIdeal.RefValue

open Idealize.ShloMosaic Idealize.ShloMosaic.ValueIdx Idealize.ShloMosaic.TcCoe
open Idealize.SL Idealize.SL.Sem
open Cert.ReferenceIdeal Cert.ReferenceIdeal.Gen

variable (m : (ℓ : Loc nD τ sig) → Buf (Elt Ideal) ℓ)

/-- The printed index maps over the grid: windows 0 and 4 take member t on the image axis and nothing else moves. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = 0 ∧ win0_1.index t (1 : Fin 3) = 0 ∧ win0_1.index t (2 : Fin 3) = 0)
    ∧ (win0_2.index t (0 : Fin 3) = 0 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 3) = t.val ∧ win0_4.index t (1 : Fin 3) = 0 ∧ win0_4.index t (2 : Fin 3) = 0) :=
  (by decide +kernel : ∀ t : Fin grid0.N, _)

/-- A grid point is an image number. -/
theorem point_lt (t : Fin cfg0.N) : t.val < 64 :=
  Nat.lt_of_lt_of_eq t.isLt (show cfg0.N = 64 from N_0)

/-- The image window's block at point t is member t of the flattened images. -/
theorem iblk0_apply (c : Dev nD) (t : Fin cfg0.N) (r : Fin 1024) (ch : Fin 128) :
    (iblk m c 0 t : Vec Ideal S1x1024x128 .f32) (ix3 (0 : Fin 1) r ch)
      = (V m c main_call0_v2 : S64x1024x128.Idx → EReal) (ix3 ⟨t.val, point_lt t⟩ r ch) := by
  obtain ⟨⟨e0, e1, e2⟩, -⟩ := idx_facts t
  unfold iblk
  rw [View.read_apply]
  show V m c main_call0_v2 _ = V m c main_call0_v2 _
  congr 1
  funext a; apply Fin.ext
  match a with
  | ⟨0, _⟩ => show win0_0.index t (0 : Fin 3) * 1 + 1 * 0 = t.val; rw [e0]; omega
  | ⟨1, _⟩ => show win0_0.index t (1 : Fin 3) * 1024 + 1 * r.val = r.val; rw [e1]; omega
  | ⟨2, _⟩ => show win0_0.index t (2 : Fin 3) * 128 + 1 * ch.val = ch.val; rw [e2]; omega

/-- The first weight's window is the whole array of taps. -/
theorem iblk1_apply (c : Dev nD) (t : Fin cfg0.N) (j : S9x128x128.Idx) :
    (iblk m c 1 t : Vec Ideal S9x128x128 .bf16) j = (V m c main_call0_v27 : S9x128x128.Idx → EReal) j := by
  obtain ⟨-, ⟨e0, e1, e2⟩, -⟩ := idx_facts t
  unfold iblk
  rw [View.read_apply]
  show V m c main_call0_v27 _ = V m c main_call0_v27 _
  congr 1
  funext a; apply Fin.ext
  match a with
  | ⟨0, _⟩ => show win0_1.index t (0 : Fin 3) * 9 + 1 * (j 0).val = (j 0).val; rw [e0]; omega
  | ⟨1, _⟩ => show win0_1.index t (1 : Fin 3) * 128 + 1 * (j 1).val = (j 1).val; rw [e1]; omega
  | ⟨2, _⟩ => show win0_1.index t (2 : Fin 3) * 128 + 1 * (j 2).val = (j 2).val; rw [e2]; omega

/-- The second weight's window is the whole array of taps. -/
theorem iblk2_apply (c : Dev nD) (t : Fin cfg0.N) (j : S9x128x128.Idx) :
    (iblk m c 2 t : Vec Ideal S9x128x128 .bf16) j = (V m c main_call0_v31 : S9x128x128.Idx → EReal) j := by
  obtain ⟨-, -, ⟨e0, e1, e2⟩, -⟩ := idx_facts t
  unfold iblk
  rw [View.read_apply]
  show V m c main_call0_v31 _ = V m c main_call0_v31 _
  congr 1
  funext a; apply Fin.ext
  match a with
  | ⟨0, _⟩ => show win0_2.index t (0 : Fin 3) * 9 + 1 * (j 0).val = (j 0).val; rw [e0]; omega
  | ⟨1, _⟩ => show win0_2.index t (1 : Fin 3) * 128 + 1 * (j 1).val = (j 1).val; rw [e1]; omega
  | ⟨2, _⟩ => show win0_2.index t (2 : Fin 3) * 128 + 1 * (j 2).val = (j 2).val; rw [e2]; omega

/-- The table's window is the whole table. -/
theorem iblk3_apply (c : Dev nD) (t : Fin cfg0.N) (j : S4x128.Idx) :
    (iblk m c 3 t : Vec Ideal S4x128 .f32) j = (V m c main_call0_v23 : S4x128.Idx → EReal) j := by
  obtain ⟨-, -, -, ⟨e0, e1⟩, -⟩ := idx_facts t
  unfold iblk
  rw [View.read_apply]
  show V m c main_call0_v23 _ = V m c main_call0_v23 _
  congr 1
  funext a; apply Fin.ext
  match a with
  | ⟨0, _⟩ => show win0_3.index t (0 : Fin 2) * 4 + 1 * (j 0).val = (j 0).val; rw [e0]; omega
  | ⟨1, _⟩ => show win0_3.index t (1 : Fin 2) * 128 + 1 * (j 1).val = (j 1).val; rw [e1]; omega

end Cert.ReferenceIdeal.RefValue

end
-- ==== Proof.RefHost.lean ====
/-
  The images and the weights as the region finds them, at an index.

  Before the region the host moves the channels of x last and flattens rows and columns, so that entry
  (n, r, c) of the [64, 1024, 128] array is x (n, c, r / 32, r % 32); it moves each weight's taps first and flattens
  them, so that entry (t, ci, co) of the [9, 128, 128] array is w (co, ci, t / 3, t % 3). The pads of zero width and
  the change of format in between leave every entry as it is.
-/
import proofs.«108192_g2000002599257424_pallasbulk_288_18_alg».proof.Proof.Gen.ReferenceIdeal.Frame
import Idealize.ShloMosaic.Lib.Pipeline.Value
import Idealize.ShloMosaic.Lib.KernelVsHost
import Idealize.ShloMosaic.Lib.StableHlo.Run
import Idealize.ShloMosaic.Lib.Tactic
import Idealize.ShloMosaic.Lib.ValueIdx

set_option maxRecDepth 16384

noncomputable section

namespace Cert.ReferenceIdeal.RefValue

open Idealize.ShloMosaic Idealize.ShloMosaic.ValueIdx Idealize.ShloMosaic.TcCoe
open Idealize.SL Idealize.SL.Sem
open Cert.ReferenceIdeal Cert.ReferenceIdeal.Gen

variable (m : (ℓ : Loc nD τ sig) → Buf (Elt Ideal) ℓ) (c : Dev nD)

/-- The flattened channels-last images: entry (n, r, ch) is x (n, ch, r / 32, r % 32). -/
theorem V_images (n : Fin 64) (r : Fin 1024) (ch : Fin 128) :
    (V m c main_call0_v2 : S64x1024x128.Idx → EReal) (ix3 n r ch)
      = (m ((c : Thread nD τ).loc main_arg0) : S64x128x32x32.Idx → EReal)
          (ix4 n ch ⟨r.val / 32, by have := r.isLt; omega⟩ ⟨r.val % 32, by omega⟩) := by
  have hr := r.isLt
  have e : (V m c main_call0_v2 : S64x1024x128.Idx → EReal)
      = shapeCast S64x1024x128
          (pad S64x32x32x128 ![0, 0, 0, 0] ![0, 0, 0, 0] ![0, 0, 0, 0]
            (transpose S64x32x32x128 [0, 2, 3, 1]
              (m ((c : Thread nD τ).loc main_arg0) : S64x128x32x32.Idx → EReal)
              transposes_S64x128x32x32_S64x32x32x128_0_2_3_1)
            (sitofp (F := Ideal) .f32 (constantI S_ 32 0#32))
            pads_S64x32x32x128_S64x32x32x128_000_000_000_000 h_S_)
          shapeCasts_S64x32x32x128_S64x1024x128 := by
    show StableHlo.after hostOps0 (fun b => m (c, b)) (Proc.devRef .tc main_call0_v2) = _
    after_results
    rfl
  rw [e]
  refine (shapeCast_apply _ _ _
    (ix4 n (⟨r.val / 32, by omega⟩ : Fin 32) (⟨r.val % 32, by omega⟩ : Fin 32) ch) ?_).trans ?_
  · rw [Shape.rowMajor_val_four, Shape.rowMajor_val_three]
    show ((n.val * 32 + r.val / 32) * 32 + r.val % 32) * 128 + ch.val = (n.val * 1024 + r.val) * 128 + ch.val
    omega
  refine (pad_apply_of_inside _ _ _ _ _ _ _ _
    (ix4 n (⟨r.val / 32, by omega⟩ : Fin 32) (⟨r.val % 32, by omega⟩ : Fin 32) ch) (fun a => by
    match a with
    | ⟨0, _⟩ => show n.val = 0 + n.val * (0 + 1); omega
    | ⟨1, _⟩ => show r.val / 32 = 0 + r.val / 32 * (0 + 1); omega
    | ⟨2, _⟩ => show r.val % 32 = 0 + r.val % 32 * (0 + 1); omega
    | ⟨3, _⟩ => show ch.val = 0 + ch.val * (0 + 1); omega)).trans ?_
  exact transpose_apply _ _ _ _ (ix4 n ch ⟨r.val / 32, by omega⟩ ⟨r.val % 32, by omega⟩) (fun b => by
    match b with
    | ⟨0, _⟩ => rfl
    | ⟨1, _⟩ => rfl
    | ⟨2, _⟩ => rfl
    | ⟨3, _⟩ => rfl)

/-- The first weight as the region finds it: tap t = dy * 3 + dx, input channel ci, output channel co is the
    weight at (co, ci, dy, dx). -/
theorem V_taps1 (t : Fin 9) (ci co : Fin 128) :
    (V m c main_call0_v27 : S9x128x128.Idx → EReal) (ix3 t ci co)
      = (m ((c : Thread nD τ).loc main_arg1) : S128x128x3x3.Idx → EReal)
          (ix4 co ci ⟨t.val / 3, by have := t.isLt; omega⟩ ⟨t.val % 3, by omega⟩) := by
  have ht := t.isLt
  have e : (V m c main_call0_v27 : S9x128x128.Idx → EReal)
      = truncf (F := Ideal) .bf16
          (pad S9x128x128 ![0, 0, 0] ![0, 0, 0] ![0, 0, 0]
            (shapeCast S9x128x128
              (transpose S3x3x128x128 [2, 3, 1, 0]
                (m ((c : Thread nD τ).loc main_arg1) : S128x128x3x3.Idx → EReal)
                transposes_S128x128x3x3_S3x3x128x128_2_3_1_0) shapeCasts_S3x3x128x128_S9x128x128)
            (sitofp (F := Ideal) .f32 (constantI S_ 32 0#32)) pads_S9x128x128_S9x128x128_000_000_000 h_S_)
          bitsLt_bf16_f32 := by
    show StableHlo.after hostOps0 (fun b => m (c, b)) (Proc.devRef .tc main_call0_v27) = _
    after_results
    rfl
  rw [e]
  show pad (s := S9x128x128) S9x128x128 ![0, 0, 0] ![0, 0, 0] ![0, 0, 0] _ _ pads_S9x128x128_S9x128x128_000_000_000 h_S_ (ix3 t ci co) = _
  refine (pad_apply_of_inside _ _ _ _ _ _ _ (ix3 t ci co) (ix3 t ci co) (fun a => by
    match a with
    | ⟨0, _⟩ => show t.val = 0 + t.val * (0 + 1); omega
    | ⟨1, _⟩ => show ci.val = 0 + ci.val * (0 + 1); omega
    | ⟨2, _⟩ => show co.val = 0 + co.val * (0 + 1); omega)).trans ?_
  refine (shapeCast_apply _ _ _ (ix4 (⟨t.val / 3, by omega⟩ : Fin 3) (⟨t.val % 3, by omega⟩ : Fin 3) ci co) ?_).trans ?_
  · rw [Shape.rowMajor_val_four, Shape.rowMajor_val_three]
    show ((t.val / 3 * 3 + t.val % 3) * 128 + ci.val) * 128 + co.val = (t.val * 128 + ci.val) * 128 + co.val
    omega
  · exact transpose_apply _ _ _ _ (ix4 co ci ⟨t.val / 3, by omega⟩ ⟨t.val % 3, by omega⟩) (fun b => by
      match b with
      | ⟨0, _⟩ => rfl
      | ⟨1, _⟩ => rfl
      | ⟨2, _⟩ => rfl
      | ⟨3, _⟩ => rfl)

/-- The second weight as the region finds it: tap t = dy * 3 + dx, input channel ci, output channel co is the
    weight at (co, ci, dy, dx). -/
theorem V_taps2 (t : Fin 9) (ci co : Fin 128) :
    (V m c main_call0_v31 : S9x128x128.Idx → EReal) (ix3 t ci co)
      = (m ((c : Thread nD τ).loc main_arg2) : S128x128x3x3.Idx → EReal)
          (ix4 co ci ⟨t.val / 3, by have := t.isLt; omega⟩ ⟨t.val % 3, by omega⟩) := by
  have ht := t.isLt
  have e : (V m c main_call0_v31 : S9x128x128.Idx → EReal)
      = truncf (F := Ideal) .bf16
          (pad S9x128x128 ![0, 0, 0] ![0, 0, 0] ![0, 0, 0]
            (shapeCast S9x128x128
              (transpose S3x3x128x128 [2, 3, 1, 0]
                (m ((c : Thread nD τ).loc main_arg2) : S128x128x3x3.Idx → EReal)
                transposes_S128x128x3x3_S3x3x128x128_2_3_1_0) shapeCasts_S3x3x128x128_S9x128x128)
            (sitofp (F := Ideal) .f32 (constantI S_ 32 0#32)) pads_S9x128x128_S9x128x128_000_000_000 h_S_)
          bitsLt_bf16_f32 := by
    show StableHlo.after hostOps0 (fun b => m (c, b)) (Proc.devRef .tc main_call0_v31) = _
    after_results
    rfl
  rw [e]
  show pad (s := S9x128x128) S9x128x128 ![0, 0, 0] ![0, 0, 0] ![0, 0, 0] _ _ pads_S9x128x128_S9x128x128_000_000_000 h_S_ (ix3 t ci co) = _
  refine (pad_apply_of_inside _ _ _ _ _ _ _ (ix3 t ci co) (ix3 t ci co) (fun a => by
    match a with
    | ⟨0, _⟩ => show t.val = 0 + t.val * (0 + 1); omega
    | ⟨1, _⟩ => show ci.val = 0 + ci.val * (0 + 1); omega
    | ⟨2, _⟩ => show co.val = 0 + co.val * (0 + 1); omega)).trans ?_
  refine (shapeCast_apply _ _ _ (ix4 (⟨t.val / 3, by omega⟩ : Fin 3) (⟨t.val % 3, by omega⟩ : Fin 3) ci co) ?_).trans ?_
  · rw [Shape.rowMajor_val_four, Shape.rowMajor_val_three]
    show ((t.val / 3 * 3 + t.val % 3) * 128 + ci.val) * 128 + co.val = (t.val * 128 + ci.val) * 128 + co.val
    omega
  · exact transpose_apply _ _ _ _ (ix4 co ci ⟨t.val / 3, by omega⟩ ⟨t.val % 3, by omega⟩) (fun b => by
      match b with
      | ⟨0, _⟩ => rfl
      | ⟨1, _⟩ => rfl
      | ⟨2, _⟩ => rfl
      | ⟨3, _⟩ => rfl)

end Cert.ReferenceIdeal.RefValue

end
-- ==== Proof.RefHostTable.lean ====
/-
  The table of folded normalisations as the region finds it.

  The host folds each batch normalisation into a scale gamma / sqrt (variance + eps) and a shift
  beta - mean * scale, and sets the four vectors as rows 0 to 3 of a zero [4, 128] table, one row at a time. A row
  set later leaves the earlier rows alone, so row 0 is scale 1, row 1 shift 1, row 2 scale 2, row 3 shift 2.
-/
import proofs.«108192_g2000002599257424_pallasbulk_288_18_alg».proof.Proof.Gen.ReferenceIdeal.Frame
import proofs.«108192_g2000002599257424_pallasbulk_288_18_alg».proof.Proof.LibScatterRow
import proofs.«108192_g2000002599257424_pallasbulk_288_18_alg».proof.Proof.Spec
import Idealize.ShloMosaic.Lib.StableHlo.Run
import Idealize.ShloMosaic.Lib.Tactic
import Idealize.ShloMosaic.Lib.ValueIdx

set_option maxRecDepth 16384

noncomputable section

namespace Cert.ReferenceIdeal.RefValue

open Idealize.ShloMosaic Idealize.ShloMosaic.ValueIdx Idealize.ShloMosaic.TcCoe Idealize.ShloMosaic.ScatterRow
open Idealize.SL Idealize.SL.Sem
open Cert.ReferenceIdeal Cert.ReferenceIdeal.Gen

/-- scale = gamma / sqrt (variance + eps), on whole vectors as the host computes it. -/
def foldScale (g v : FVec Ideal S128 .f32) : FVec Ideal S128 .f32 :=
  Host.divf g (Host.sqrt (addf v (broadcastInDim S128 ![] bcast_S_S128 (constant (F := Ideal) S_ .f32 0x3727C5AC#32))))

/-- shift = beta - mean * scale, on whole vectors. -/
def foldShift (be mu s : FVec Ideal S128 .f32) : FVec Ideal S128 .f32 := subf be (mulf mu s)

theorem foldScale_apply (g v : FVec Ideal S128 .f32) (ch : Fin 128) : foldScale g v (ix1 ch) = Spec.scale g v ch := rfl

theorem foldShift_apply (be mu s : FVec Ideal S128 .f32) (sf : Fin 128 → EReal) (hs : ∀ ch, s (ix1 ch) = sf ch)
    (ch : Fin 128) : foldShift be mu s (ix1 ch) = Spec.shift be mu sf ch := by
  show be (ix1 ch) - mu (ix1 ch) * s (ix1 ch) = be (ix1 ch) - mu (ix1 ch) * sf ch
  rw [hs ch]

/-- Setting row `r` of the table: on row `r` the new vector. -/
theorem setRow_hit (x : FVec Ideal S4x128 .f32) (idx : IVec S1 32) (upd : FVec Ideal S128 .f32) (r : Fin 4)
    (hr : (idx (ix1 0)).toInt = (r.val : Int)) (ch : Fin 128) :
    Host.scatter scatter_S4x128_S1_S128_0_0_0_0 (fun _ b => b) x idx upd (ix2 r ch) = upd (ix1 ch) := by
  rw [scatter_row_apply scatter_S4x128_S1_S128_0_0_0_0 rfl rfl rfl rfl _ x idx upd r hr]
  exact if_pos rfl

/-- Off row `r` the table as it was. -/
theorem setRow_miss (x : FVec Ideal S4x128 .f32) (idx : IVec S1 32) (upd : FVec Ideal S128 .f32) (r : Fin 4)
    (hr : (idx (ix1 0)).toInt = (r.val : Int)) (k : Fin 4) (hk : k.val ≠ r.val) (ch : Fin 128) :
    Host.scatter scatter_S4x128_S1_S128_0_0_0_0 (fun _ b => b) x idx upd (ix2 k ch) = x (ix2 k ch) := by
  rw [scatter_row_apply scatter_S4x128_S1_S128_0_0_0_0 rfl rfl rfl rfl _ x idx upd r hr]
  exact if_neg hk

variable (m : (ℓ : Loc nD τ sig) → Buf (Elt Ideal) ℓ) (c : Dev nD)

/-- The zero table. -/
def tab0 : FVec Ideal S4x128 .f32 :=
  broadcastInDim S4x128 ![] bcast_S_S4x128 (constant (F := Ideal) S_ .f32 0x00000000#32)

/-- The four folded vectors. -/
def scale1 : FVec Ideal S128 .f32 := foldScale (m ((c : Thread nD τ).loc main_arg3)) (m ((c : Thread nD τ).loc main_arg6))
def shift1 : FVec Ideal S128 .f32 :=
  foldShift (m ((c : Thread nD τ).loc main_arg4)) (m ((c : Thread nD τ).loc main_arg5)) (scale1 m c)
def scale2 : FVec Ideal S128 .f32 := foldScale (m ((c : Thread nD τ).loc main_arg7)) (m ((c : Thread nD τ).loc main_arg10))
def shift2 : FVec Ideal S128 .f32 :=
  foldShift (m ((c : Thread nD τ).loc main_arg8)) (m ((c : Thread nD τ).loc main_arg9)) (scale2 m c)

/-- The table after rows 0, 1, 2. -/
def tab1 : FVec Ideal S4x128 .f32 := Host.scatter scatter_S4x128_S1_S128_0_0_0_0 (fun _ b => b) tab0 (broadcastInDim S1 ![] bcast_S_S1 (constantI S_ 32 0#32)) (scale1 m c)
def tab2 : FVec Ideal S4x128 .f32 := Host.scatter scatter_S4x128_S1_S128_0_0_0_0 (fun _ b => b) (tab1 m c) (broadcastInDim S1 ![] bcast_S_S1 (constantI S_ 32 1#32)) (shift1 m c)
def tab3 : FVec Ideal S4x128 .f32 := Host.scatter scatter_S4x128_S1_S128_0_0_0_0 (fun _ b => b) (tab2 m c) (broadcastInDim S1 ![] bcast_S_S1 (constantI S_ 32 2#32)) (scale2 m c)
/-- The whole table. -/
def tab4 : FVec Ideal S4x128 .f32 := Host.scatter scatter_S4x128_S1_S128_0_0_0_0 (fun _ b => b) (tab3 m c) (broadcastInDim S1 ![] bcast_S_S1 (constantI S_ 32 3#32)) (shift2 m c)

set_option maxHeartbeats 3200000 in
/-- The table the region finds is the zero table with the four rows set. -/
theorem V_table : (V m c main_call0_v23 : S4x128.Idx → EReal) = tab4 m c := by
  unfold tab4 tab3 tab2 tab1 tab0 shift2 scale2 shift1 scale1 foldShift foldScale
  show StableHlo.after hostOps0 (fun b => m (c, b)) (Proc.devRef .tc main_call0_v23) = _
  after_results
  rfl

/-- The four rows of the table. -/
theorem table_row0 (ch : Fin 128) :
    (V m c main_call0_v23 : S4x128.Idx → EReal) (ix2 (0 : Fin 4) ch)
      = Spec.scale (m ((c : Thread nD τ).loc main_arg3)) (m ((c : Thread nD τ).loc main_arg6)) ch := by
  rw [V_table]
  exact ((setRow_miss _ _ _ (3 : Fin 4) rfl (0 : Fin 4) (by decide) ch).trans
    ((setRow_miss _ _ _ (2 : Fin 4) rfl (0 : Fin 4) (by decide) ch).trans
      ((setRow_miss _ _ _ (1 : Fin 4) rfl (0 : Fin 4) (by decide) ch).trans
        (setRow_hit _ _ _ (0 : Fin 4) rfl ch)))).trans (foldScale_apply _ _ ch)

theorem table_row1 (ch : Fin 128) :
    (V m c main_call0_v23 : S4x128.Idx → EReal) (ix2 (1 : Fin 4) ch)
      = Spec.shift (m ((c : Thread nD τ).loc main_arg4)) (m ((c : Thread nD τ).loc main_arg5))
          (Spec.scale (m ((c : Thread nD τ).loc main_arg3)) (m ((c : Thread nD τ).loc main_arg6))) ch := by
  rw [V_table]
  exact ((setRow_miss _ _ _ (3 : Fin 4) rfl (1 : Fin 4) (by decide) ch).trans
    ((setRow_miss _ _ _ (2 : Fin 4) rfl (1 : Fin 4) (by decide) ch).trans
      (setRow_hit _ _ _ (1 : Fin 4) rfl ch))).trans
    (foldShift_apply _ _ _ _ (fun ch' => foldScale_apply _ _ ch') ch)

theorem table_row2 (ch : Fin 128) :
    (V m c main_call0_v23 : S4x128.Idx → EReal) (ix2 (2 : Fin 4) ch)
      = Spec.scale (m ((c : Thread nD τ).loc main_arg7)) (m ((c : Thread nD τ).loc main_arg10)) ch := by
  rw [V_table]
  exact ((setRow_miss _ _ _ (3 : Fin 4) rfl (2 : Fin 4) (by decide) ch).trans
    (setRow_hit _ _ _ (2 : Fin 4) rfl ch)).trans (foldScale_apply _ _ ch)

theorem table_row3 (ch : Fin 128) :
    (V m c main_call0_v23 : S4x128.Idx → EReal) (ix2 (3 : Fin 4) ch)
      = Spec.shift (m ((c : Thread nD τ).loc main_arg8)) (m ((c : Thread nD τ).loc main_arg9))
          (Spec.scale (m ((c : Thread nD τ).loc main_arg7)) (m ((c : Thread nD τ).loc main_arg10))) ch := by
  rw [V_table]
  exact (setRow_hit _ _ _ (3 : Fin 4) rfl ch).trans
    (foldShift_apply _ _ _ _ (fun ch' => foldScale_apply _ _ ch') ch)

end Cert.ReferenceIdeal.RefValue

end
-- ==== Proof.RefFinal.lean ====
/-
  From the blocks to the result array, and the run.

  At grid point t the image block is image t of x read channels-last, the taps are the weights read tap-first and the
  table rows are the folded scales and shifts, so the residual block the body leaves in the output window is the
  specification's block of image t. Point t writes it back as member t of the [64, 1024, 128] result array; the 64
  points cover the array, so it ends holding, at (n, h * 32 + w, c), the specification at (n, c, h, w). After the
  region the host reshapes to [64, 32, 32, 128] and moves the channels back to the second axis: the result.
-/
import proofs.«108192_g2000002599257424_pallasbulk_288_18_alg».proof.Proof.RefBlock
import proofs.«108192_g2000002599257424_pallasbulk_288_18_alg».proof.Proof.RefWindows
import proofs.«108192_g2000002599257424_pallasbulk_288_18_alg».proof.Proof.RefHost
import proofs.«108192_g2000002599257424_pallasbulk_288_18_alg».proof.Proof.RefHostTable

set_option maxRecDepth 16384

noncomputable section

namespace Cert.ReferenceIdeal.RefValue

open Idealize.ShloMosaic Idealize.ShloMosaic.ValueIdx Idealize.ShloMosaic.TcCoe
open Idealize.SL Idealize.SL.Sem
open Idealize.ShloMosaic.Pipeline (Dat)
open Cert.ReferenceIdeal Cert.ReferenceIdeal.Gen

variable (m : (ℓ : Loc nD τ sig) → Buf (Elt Ideal) ℓ) (ρ : Dev nD → PrngReg)

/-- The result [image, channel, row, column] the specification gives from the eleven arguments. -/
def result (c : Dev nD) : S64x128x32x32.Idx → EReal :=
  Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The array the region writes, [image, flattened position, channel]: position h * 32 + w of image n, channel ch, is
    the result at (n, ch, h, w). -/
def outArr (c : Dev nD) : S64x1024x128.Idx → EReal := fun i =>
  result m c (ix4 (⟨(i 0).val, (i 0).isLt⟩ : Fin 64) (⟨(i 2).val, (i 2).isLt⟩ : Fin 128)
    (⟨(i 1).val / 32, by have : (i 1).val < 1024 := (i 1).isLt; omega⟩ : Fin 32)
    (⟨(i 1).val % 32, by omega⟩ : Fin 32))

theorem outArr_apply (c : Dev nD) (n : Fin 64) (h w : Fin 32) (ch : Fin 128) (hb : h.val * 32 + w.val < 1024) :
    outArr m c (ix3 n ⟨h.val * 32 + w.val, hb⟩ ch) = result m c (ix4 n ch h w) := by
  have hh := h.isLt
  have hw := w.isLt
  unfold outArr
  refine congrArg (result m c) ?_
  funext a; apply Fin.ext
  match a with
  | ⟨0, _⟩ => rfl
  | ⟨1, _⟩ => rfl
  | ⟨2, _⟩ => show (h.val * 32 + w.val) / 32 = h.val; omega
  | ⟨3, _⟩ => show (h.val * 32 + w.val) % 32 = w.val; omega

/-! ## The blocks at a point, in terms of the arguments -/

theorem imgOf_iblk (c : Dev nD) (t : Fin cfg0.N) :
    imgOf (iblk m c 0 t) = fun h w ch =>
      (m ((c : Thread nD τ).loc main_arg0) : S64x128x32x32.Idx → EReal) (ix4 ⟨t.val, point_lt t⟩ ch h w) := by
  funext h w ch
  have hh := h.isLt
  have hw := w.isLt
  show (iblk m c 0 t : Vec Ideal S1x1024x128 .f32) (ix3 (0 : Fin 1) ⟨h.val * 32 + w.val, _⟩ ch) = _
  rw [iblk0_apply, V_images]
  refine congrArg (m ((c : Thread nD τ).loc main_arg0) : S64x128x32x32.Idx → EReal) ?_
  funext a; apply Fin.ext
  match a with
  | ⟨0, _⟩ => rfl
  | ⟨1, _⟩ => rfl
  | ⟨2, _⟩ => show (h.val * 32 + w.val) / 32 = h.val; omega
  | ⟨3, _⟩ => show (h.val * 32 + w.val) % 32 = w.val; omega

theorem wtOf_iblk1 (c : Dev nD) (t : Fin cfg0.N) :
    wtOf (iblk m c 1 t) = fun dy dx ci co =>
      (m ((c : Thread nD τ).loc main_arg1) : S128x128x3x3.Idx → EReal) (ix4 co ci dy dx) := by
  funext dy dx ci co
  have hdy := dy.isLt
  have hdx := dx.isLt
  show (iblk m c 1 t : Vec Ideal S9x128x128 .bf16) (ix3 ⟨dy.val * 3 + dx.val, _⟩ ci co) = _
  rw [iblk1_apply, V_taps1]
  refine congrArg (m ((c : Thread nD τ).loc main_arg1) : S128x128x3x3.Idx → EReal) ?_
  funext a; apply Fin.ext
  match a with
  | ⟨0, _⟩ => rfl
  | ⟨1, _⟩ => rfl
  | ⟨2, _⟩ => show (dy.val * 3 + dx.val) / 3 = dy.val; omega
  | ⟨3, _⟩ => show (dy.val * 3 + dx.val) % 3 = dx.val; omega

theorem wtOf_iblk2 (c : Dev nD) (t : Fin cfg0.N) :
    wtOf (iblk m c 2 t) = fun dy dx ci co =>
      (m ((c : Thread nD τ).loc main_arg2) : S128x128x3x3.Idx → EReal) (ix4 co ci dy dx) := by
  funext dy dx ci co
  have hdy := dy.isLt
  have hdx := dx.isLt
  show (iblk m c 2 t : Vec Ideal S9x128x128 .bf16) (ix3 ⟨dy.val * 3 + dx.val, _⟩ ci co) = _
  rw [iblk2_apply, V_taps2]
  refine congrArg (m ((c : Thread nD τ).loc main_arg2) : S128x128x3x3.Idx → EReal) ?_
  funext a; apply Fin.ext
  match a with
  | ⟨0, _⟩ => rfl
  | ⟨1, _⟩ => rfl
  | ⟨2, _⟩ => show (dy.val * 3 + dx.val) / 3 = dy.val; omega
  | ⟨3, _⟩ => show (dy.val * 3 + dx.val) % 3 = dx.val; omega

theorem rowOf_iblk0 (c : Dev nD) (t : Fin cfg0.N) :
    rowOf (iblk m c 3 t) 0 = Spec.scale (m ((c : Thread nD τ).loc main_arg3)) (m ((c : Thread nD τ).loc main_arg6)) := by
  funext ch
  show (iblk m c 3 t : Vec Ideal S4x128 .f32) (ix2 (0 : Fin 4) ch) = _
  rw [iblk3_apply, table_row0]

theorem rowOf_iblk1 (c : Dev nD) (t : Fin cfg0.N) :
    rowOf (iblk m c 3 t) 1 = Spec.shift (m ((c : Thread nD τ).loc main_arg4)) (m ((c : Thread nD τ).loc main_arg5)) (Spec.scale (m ((c : Thread nD τ).loc main_arg3)) (m ((c : Thread nD τ).loc main_arg6))) := by
  funext ch
  show (iblk m c 3 t : Vec Ideal S4x128 .f32) (ix2 (1 : Fin 4) ch) = _
  rw [iblk3_apply, table_row1]

theorem rowOf_iblk2 (c : Dev nD) (t : Fin cfg0.N) :
    rowOf (iblk m c 3 t) 2 = Spec.scale (m ((c : Thread nD τ).loc main_arg7)) (m ((c : Thread nD τ).loc main_arg10)) := by
  funext ch
  show (iblk m c 3 t : Vec Ideal S4x128 .f32) (ix2 (2 : Fin 4) ch) = _
  rw [iblk3_apply, table_row2]

theorem rowOf_iblk3 (c : Dev nD) (t : Fin cfg0.N) :
    rowOf (iblk m c 3 t) 3 = Spec.shift (m ((c : Thread nD τ).loc main_arg8)) (m ((c : Thread nD τ).loc main_arg9)) (Spec.scale (m ((c : Thread nD τ).loc main_arg7)) (m ((c : Thread nD τ).loc main_arg10))) := by
  funext ch
  show (iblk m c 3 t : Vec Ideal S4x128 .f32) (ix2 (3 : Fin 4) ch) = _
  rw [iblk3_apply, table_row3]

/-- The residual block of the blocks at point t is the specification's block of image t. -/
theorem blockOf_iblk (c : Dev nD) (t : Fin cfg0.N) (h w : Fin 32) (ch : Fin 128) :
    blockOf (iblk m c 0 t) (iblk m c 1 t) (iblk m c 2 t) (iblk m c 3 t) h w ch
      = result m c (ix4 ⟨t.val, point_lt t⟩ ch h w) := by
  unfold blockOf
  rw [imgOf_iblk, wtOf_iblk1, wtOf_iblk2, rowOf_iblk0, rowOf_iblk1, rowOf_iblk2, rowOf_iblk3]
  rfl

/-! ## What each point writes back, and the result array -/

/-- Point t writes back block t of `outArr`. -/
theorem flushed_eq (c : Dev nD) (t : Fin cfg0.N) :
    (dats m 0 c).flushed 4 t = ((cfg0.win 4).blk t).view.read (Elt Ideal) (outArr m c) := by
  obtain ⟨-, -, -, -, ⟨e0, e1, e2⟩⟩ := idx_facts t
  show (cfg0.win 4).cut (grid0.coords t) ((dats m 0 c).after 4 t) = _
  rw [after0_4]
  unfold outsAt0
  funext j
  obtain ⟨z, r, ch, rfl⟩ : ∃ (z : Fin 1) (r : Fin 1024) (ch : Fin 128), j = ix3 z r ch := ⟨j 0, j 1, j 2, eq_ix3 j⟩
  obtain rfl : z = 0 := Subsingleton.elim _ _
  obtain ⟨h, w, hb, rfl⟩ : ∃ (h w : Fin 32) (hb : h.val * 32 + w.val < 1024), r = ⟨h.val * 32 + w.val, hb⟩ :=
    ⟨⟨r.val / 32, by have := r.isLt; omega⟩, ⟨r.val % 32, by omega⟩, by show r.val / 32 * 32 + r.val % 32 < 1024; have := r.isLt; omega,
      Fin.ext (by show r.val = r.val / 32 * 32 + r.val % 32; omega)⟩
  refine (out_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t) (iblk m c 3 t) h w ch).trans ?_
  rw [View.read_apply]
  have hemb : ((cfg0.win 4).blk t).view.emb (ix3 (0 : Fin 1) (⟨h.val * 32 + w.val, hb⟩ : Fin 1024) ch)
      = ix3 (⟨t.val, point_lt t⟩ : Fin 64) (⟨h.val * 32 + w.val, hb⟩ : Fin 1024) ch := by
    funext a; apply Fin.ext
    match a with
    | ⟨0, _⟩ => show win0_4.index t (0 : Fin 3) * 1 + 1 * 0 = t.val; rw [e0]; omega
    | ⟨1, _⟩ => show win0_4.index t (1 : Fin 3) * 1024 + 1 * (h.val * 32 + w.val) = h.val * 32 + w.val; rw [e1]; omega
    | ⟨2, _⟩ => show win0_4.index t (2 : Fin 3) * 128 + 1 * ch.val = ch.val; rw [e2]; omega
  rw [hemb, outArr_apply]
  exact blockOf_iblk m c t h w ch

/-- Every index of the result array is in the block of the point of its image. -/
theorem cover (c : Dev nD) (i : S64x1024x128.Idx) :
    ∃ t : Fin cfg0.N, (cfg0.win 4).flush t = true ∧ i ∈ ((cfg0.win 4).blk t).view.set := by
  have hi0 : (i 0).val < 64 := (i 0).isLt
  have hi1 : (i 1).val < 1024 := (i 1).isLt
  have hi2 : (i 2).val < 128 := (i 2).isLt
  obtain ⟨t, ht⟩ : ∃ t : Fin cfg0.N, t.val = (i 0).val :=
    ⟨⟨(i 0).val, Nat.lt_of_lt_of_eq hi0 (show (64 : Nat) = cfg0.N from N_0.symm)⟩, rfl⟩
  obtain ⟨-, -, -, -, ⟨e0, e1, e2⟩⟩ := idx_facts t
  refine ⟨t, flush0_4 t, ?_⟩
  show i ∈ ((View.whole main_call0_v32).slice (win0_4.rect t)).set
  rw [View.set_slice_whole, Rect.mem_set_unit]
  intro a
  match a with
  | ⟨0, _⟩ =>
    show win0_4.index t (0 : Fin 3) * 1 ≤ (i 0).val ∧ (i 0).val < win0_4.index t (0 : Fin 3) * 1 + 1
    rw [e0]; omega
  | ⟨1, _⟩ =>
    show win0_4.index t (1 : Fin 3) * 1024 ≤ (i 1).val ∧ (i 1).val < win0_4.index t (1 : Fin 3) * 1024 + 1024
    rw [e1]; omega
  | ⟨2, _⟩ =>
    show win0_4.index t (2 : Fin 3) * 128 ≤ (i 2).val ∧ (i 2).val < win0_4.index t (2 : Fin 3) * 128 + 128
    rw [e2]; omega

/-- The result array after the region. -/
theorem final (c : Dev nD) : (dats m 0 c).arrAt 4 cfg0.N = outArr m c :=
  (dats m 0 c).arrAt_eq_of_cover 4 (outArr m c) (fun t _ => flushed_eq m c t) (cover c)

/-! ## After the region -/

/-- The host's reshape and transpose after the region leave the specification's result. -/
theorem tail_eq (c : Dev nD) :
    Pipeline.afterTail₀ cfgs (dats m) 0 (V0 m) [hostOps1] c main_v0 = result m c := by
  have hw : (Pipeline.withArrays spec0 c (V0 m c) (fun w => (dats m 0 c).arrAt w cfg0.N)
      (Proc.devRef .tc main_call0_v32) : S64x1024x128.Idx → EReal) = outArr m c :=
    (Pipeline.withArrays_arr spec0 launch0.win.arr_inj c _ _ 4).trans (final m c)
  have e : (Pipeline.afterTail₀ cfgs (dats m) 0 (V0 m) [hostOps1] c main_v0 : S64x128x32x32.Idx → EReal)
      = transpose S64x128x32x32 [0, 3, 1, 2]
          (shapeCast S64x32x32x128
            (Pipeline.withArrays spec0 c (V0 m c) (fun w => (dats m 0 c).arrAt w cfg0.N)
              (Proc.devRef .tc main_call0_v32) : S64x1024x128.Idx → EReal)
            shapeCasts_S64x1024x128_S64x32x32x128)
          transposes_S64x32x32x128_S64x128x32x32_0_3_1_2 := by
    unfold Pipeline.afterTail₀
    show StableHlo.after hostOps1 _ (Proc.devRef .tc main_v0) = _
    after_results
    rfl
  rw [e, hw]
  funext i
  obtain ⟨n, ch, h, w, rfl⟩ : ∃ (n : Fin 64) (ch : Fin 128) (h w : Fin 32), i = ix4 n ch h w :=
    ⟨i 0, i 1, i 2, i 3, eq_ix4 i⟩
  have hh := h.isLt
  have hw' := w.isLt
  refine (transpose_apply _ _ _ _ (ix4 n h w ch) (fun b => by
    match b with
    | ⟨0, _⟩ => rfl
    | ⟨1, _⟩ => rfl
    | ⟨2, _⟩ => rfl
    | ⟨3, _⟩ => rfl)).trans ?_
  refine (shapeCast_apply _ _ _ (ix3 n (⟨h.val * 32 + w.val, by omega⟩ : Fin 1024) ch) ?_).trans ?_
  · rw [Shape.rowMajor_val_three, Shape.rowMajor_val_four]
    show (n.val * 1024 + (h.val * 32 + w.val)) * 128 + ch.val = ((n.val * 32 + h.val) * 32 + w.val) * 128 + ch.val
    omega
  · exact outArr_apply m c n h w ch _

/-! ## The run -/

/-- Every weakly fair execution of the reference terminates with the result array at the specification of the
    arguments and the arguments unchanged. -/
theorem run : θ_run (defs (F := Ideal)) (onTc (τ := τ) (main (F := Ideal))) ⟨m, fun _ => 0, ρ⟩ (fun r => ∀ c : Dev nD,
      r.2.mem ((c.tc : Thread nD τ).loc main_v0)
        = Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩)
    (run_main m ρ)

end Cert.ReferenceIdeal.RefValue

end
-- ==== Proof.lean ====
/-
  The certificate of a residual block: x + conv2 (relu (bn2 (conv1 (relu (bn1 x))))) with 3 x 3 SAME convolutions
  over 128 channels, 64 images of 32 x 32, the batch normalisations folded into a scale and a shift per channel.

  Both programs are Pallas kernels around host layout code. The kernel handles four images per grid point: it pads
  the activation with a ring of zeros by concatenation, writes the nine shifted taps side by side into a
  [4096, 1152] scratch (im2col), does each convolution as ONE product with the [1152, 128] weight matrix in
  channel-major form, and turns channel-major results back to pixel-major by a product with an identity matrix.
  The reference handles one image per grid point: it scatters the activation's rows into a zero-filled flattened
  34 x 34 grid, and does each convolution as nine shifted [1088, 128] x [128, 128] products added up.

  At the extended reals both are the function `Spec.G` of the eleven arguments (Proof/Spec.lean): a format change
  is the identity, a product into a zero accumulator is a finite sum, a product with the identity matrix is the
  transpose (every other term is a product with zero), and the kernel's one sum over 1152 columns is the
  reference's nine sums over 128 channels (a finite sum in a commutative monoid re-indexed; the factors
  commuted). No finiteness of the inputs is used. The three frames are the generated ones; the idealization
  rewrote nothing, so `preserves` is trivial.
-/
import proofs.«108192_g2000002599257424_pallasbulk_288_18_alg».proof.Defs
import proofs.«108192_g2000002599257424_pallasbulk_288_18_alg».proof.Proof.Gen.Kernel
import proofs.«108192_g2000002599257424_pallasbulk_288_18_alg».proof.Proof.Gen.Kernel.Frame
import proofs.«108192_g2000002599257424_pallasbulk_288_18_alg».proof.Proof.Gen.KernelIdeal
import proofs.«108192_g2000002599257424_pallasbulk_288_18_alg».proof.Proof.Gen.KernelIdeal.Frame
import proofs.«108192_g2000002599257424_pallasbulk_288_18_alg».proof.Proof.Gen.ReferenceIdeal
import proofs.«108192_g2000002599257424_pallasbulk_288_18_alg».proof.Proof.Gen.ReferenceIdeal.Frame
import proofs.«108192_g2000002599257424_pallasbulk_288_18_alg».proof.Proof.Gen.Pre_finite_inputs
import proofs.«108192_g2000002599257424_pallasbulk_288_18_alg».proof.Proof.KerFinal
import proofs.«108192_g2000002599257424_pallasbulk_288_18_alg».proof.Proof.RefFinal
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => Cert.ReferenceIdeal.Gen.frame m ρ

/-- Both idealized programs end at `Spec.G` of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KerValue.specG m c, Cert.KernelIdeal.KerValue.run m ρ, ?_⟩
  refine (θ_run Cert.ReferenceIdeal.defs _ _).mono (fun _ h c => ⟨(h c).1.trans ?_, (h c).2⟩)
    (Cert.ReferenceIdeal.RefValue.run m' ρ')
  unfold Cert.KernelIdeal.KerValue.specG
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
